-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S4x1x4096 : Shape := ⟨3, ![4, 1, 4096]⟩
abbrev S1x256x64 : Shape := ⟨3, ![1, 256, 64]⟩
abbrev S1x4096x64 : Shape := ⟨3, ![1, 4096, 64]⟩
abbrev S1x1x4096 : Shape := ⟨3, ![1, 1, 4096]⟩
abbrev S1x4096 : Shape := ⟨2, ![1, 4096]⟩
abbrev S256x64 : Shape := ⟨2, ![256, 64]⟩
abbrev S4096x64 : Shape := ⟨2, ![4096, 64]⟩
abbrev S256x4096 : Shape := ⟨2, ![256, 4096]⟩
abbrev S4096 : Shape := ⟨1, ![4096]⟩
abbrev S4x4096x4096 : Shape := ⟨3, ![4, 4096, 4096]⟩
abbrev S1x128x64 : Shape := ⟨3, ![1, 128, 64]⟩
abbrev S1x128x4096 : Shape := ⟨3, ![1, 128, 4096]⟩
abbrev S128x64 : Shape := ⟨2, ![128, 64]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 26
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x1x4096, .f32⟩
  | .hbm, ⟨4, _⟩ => ⟨S4x1x4096, .f32⟩
  | .hbm, ⟨5, _⟩ => ⟨S4x4096x64, .f32⟩
  | .hbm, ⟨6, _⟩ => ⟨S4x4096x4096, .f32⟩
  | .hbm, ⟨7, _⟩ => ⟨S4x4096x4096, .f32⟩
  | .local _ .vmem, ⟨0, _⟩ => ⟨S1x256x64, .f32⟩
  | .local _ .vmem, ⟨1, _⟩ => ⟨S1x256x64, .f32⟩
  | .local _ .vmem, ⟨2, _⟩ => ⟨S1x4096x64, .f32⟩
  | .local _ .vmem, ⟨3, _⟩ => ⟨S1x4096x64, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S1x4096, .f32⟩
  | .local _ .vmem, ⟨10, _⟩ => ⟨S1x128x64, .f32⟩
  | .local _ .vmem, ⟨11, _⟩ => ⟨S1x128x64, .f32⟩
  | .local _ .vmem, ⟨12, _⟩ => ⟨S1x4096x64, .f32⟩
  | .local _ .vmem, ⟨13, _⟩ => ⟨S1x4096x64, .f32⟩
  | .local _ .vmem, ⟨14, _⟩ => ⟨S1x4096x64, .f32⟩
  | .local _ .vmem, ⟨15, _⟩ => ⟨S1x4096x64, .f32⟩
  | .local _ .vmem, ⟨16, _⟩ => ⟨S1x1x4096, .f32⟩
  | .local _ .vmem, ⟨17, _⟩ => ⟨S1x1x4096, .f32⟩
  | .local _ .vmem, ⟨18, _⟩ => ⟨S1x1x4096, .f32⟩
  | .local _ .vmem, ⟨19, _⟩ => ⟨S1x1x4096, .f32⟩
  | .local _ .vmem, ⟨20, _⟩ => ⟨S1x128x64, .f32⟩
  | .local _ .vmem, ⟨21, _⟩ => ⟨S1x128x64, .f32⟩
  | .local _ .vmem, ⟨22, _⟩ => ⟨S1x128x4096, .f32⟩
  | .local _ .vmem, ⟨23, _⟩ => ⟨S1x128x4096, .f32⟩
  | .local _ .vmem, ⟨24, _⟩ => ⟨S1x128x4096, .f32⟩
  | .local _ .vmem, ⟨25, _⟩ => ⟨S1x128x4096, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_19 : BitVec 32 := 0#32
  let v33 : BitVec 1 := Scalar.cmpi .ne v32 c0_i32_19
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S256x4096_S4096 : S256x4096.Reduces [0] S4096
  shapeCasts_S4096_S1x4096 : S4096.ShapeCasts S1x4096
  broadcasts_S1x4096_S256x4096 : S1x4096.Broadcasts S256x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  reduces_S128x4096_S128 : S128x4096.Reduces [1] S128
  shapeCasts_S128_S128x1 : S128.ShapeCasts S128x1
  broadcasts_S128x1_S128x4096 : S128x1.Broadcasts S128x4096
  broadcasts_S1x4096_S128x4096 : S1x4096.Broadcasts S128x4096
  natLt_1_32 : 1 < 32
  bitsLt_bf16_f32 : FTy.bits .bf16 < FTy.bits .f32
  shapeCasts_S128x64_S1x128x64 : S128x64.ShapeCasts S1x128x64
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  dot_S256x64_S4096x64_S256x4096_1_1_0_0_n_n_wf : DotDims.WF S256x64 S4096x64 S256x4096 [1] [1] [0] [0] [] []
  dot_S128x64_S4096x64_S128x4096_1_1_0_0_n_n_wf : DotDims.WF S128x64 S4096x64 S128x4096 [1] [1] [0] [0] [] []
  dot_S128x4096_S4096x64_S128x64_1_0_0_1_n_n_wf : DotDims.WF S128x4096 S4096x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x4096x64.size a
  hwx0_0 : ∀ i : grid0.Coords, EltTy.bits .f32 = 32 ∨ (Rect.block (s := S4x4096x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S4x1x4096.size a
  hwx0_2 : ∀ i : grid0.Coords, EltTy.bits .f32 = 32 ∨ (Rect.block (s := S4x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S4x4096x64.size a
  hwx1_0 : ∀ i : grid1.Coords, EltTy.bits .f32 = 32 ∨ (Rect.block (s := S4x4096x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .f32 = 32 ∨ (Rect.block (s := S4x4096x64) S1x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .f32 = 32 ∨ (Rect.block (s := S4x4096x64) S1x4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x4096.size a ≤ S4x1x4096.size a
  hwx1_3 : ∀ i : grid1.Coords, EltTy.bits .f32 = 32 ∨ (Rect.block (s := S4x1x4096) S1x1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x4096.size a ≤ S4x1x4096.size a
  hwx1_4 : ∀ i : grid1.Coords, EltTy.bits .f32 = 32 ∨ (Rect.block (s := S4x1x4096) S1x1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x64.size a ≤ S4x4096x64.size a
  hwx1_5 : ∀ i : grid1.Coords, EltTy.bits .f32 = 32 ∨ (Rect.block (s := S4x4096x64) S1x128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x4096.size a ≤ S4x4096x4096.size a
  hwx1_6 : ∀ i : grid1.Coords, EltTy.bits .f32 = 32 ∨ (Rect.block (s := S4x4096x4096) S1x128x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x4096.size a ≤ S4x4096x4096.size a
  hwx1_7 : ∀ i : grid1.Coords, EltTy.bits .f32 = 32 ∨ (Rect.block (s := S4x4096x4096) S1x128x4096.size (cc1_transform_7 i) (hinb1_7 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S1x1x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S1x1x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_0) S1x128x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_1) S1x128x4096.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_2) S1x128x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S_, .f32⟩
  | .hbm, ⟨5, _⟩ => ⟨S4x4096x4096, .f32⟩
  | .hbm, ⟨6, _⟩ => ⟨S4x4096x4096, .f32⟩
  | .hbm, ⟨7, _⟩ => ⟨S_, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S4x1x4096, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096, .f32⟩
  | .hbm, ⟨47, _⟩ => ⟨S4x1x4096, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S_, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096, .f32⟩
  | .hbm, ⟨56, _⟩ => ⟨S_, .f32⟩
  | .hbm, ⟨57, _⟩ => ⟨S4x4096, .f32⟩
  | .hbm, ⟨58, _⟩ => ⟨S4x4096, .f32⟩
  | .hbm, ⟨59, _⟩ => ⟨S4x4096x1, .f32⟩
  | .hbm, ⟨60, _⟩ => ⟨S4x4096x4096, .f32⟩
  | .hbm, ⟨61, _⟩ => ⟨S4x4096x4096, .f32⟩
  | .hbm, ⟨62, _⟩ => ⟨S4x4096x4096, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x4096, .f32⟩
  | .hbm, ⟨72, _⟩ => ⟨S4x4096x4096, .i1⟩
  | .hbm, ⟨73, _⟩ => ⟨S4x4096x4096, .f32⟩
  | .hbm, ⟨74, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  reducesTo_S4x4096x4096_S4x4096_d1 : S4x4096x4096.ReducesTo [1] S4x4096
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KDefs.lean ====
/-
  The blocks of the two launches' windows: window `w`'s block at grid point `t` is the part of the window's array, as the
  launch finds it, that the window's index map selects at `t`.
-/
import proofs.«159045_j72310069395864_2_alg».proof.Proof.Gen.Kernel.Launch
import proofs.«159045_j72310069395864_2_alg».proof.Proof.Gen.Kernel.Skeleton
import proofs.«159045_j72310069395864_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.H

open Cert.Kernel Cert.Kernel.Gen
open Idealize.ShloMosaic Idealize.ShloMosaic.TcCoe Idealize.SL.Sem

variable {F : FTy → Type} [FloatOps F]

/-- The buffers' contents when a launch is entered: the parameter everything about one launch is stated at. -/
abbrev Entry (F : FTy → Type) : Type := (c : Dev nD) → (b : Ref sig .tc) → Buf (Elt F) ((c : Thread nD τ).loc b)

variable (V : Entry F)

/-- First launch (column statistics): window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Second launch (the three results): window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running column maximum and running column sum after point `n` of the first launch (the two values the launch
    carries from point to point): at the first tile of a batch (`n ≡ 0 mod 16`) they start from −∞ and 0; otherwise
    from what the point before left. -/
def carry0 (c : Dev nD) : (n : ℕ) → n < cfg0.N → Vec F S1x4096 .f32 × Vec F S1x4096 .f32
  | 0, hn => (k0_pay8 (iblk0 V c 0 ⟨0, hn⟩) (iblk0 V c 1 ⟨0, hn⟩) (k0_pay3 (F := F)),
              k0_pay7 (iblk0 V c 0 ⟨0, hn⟩) (iblk0 V c 1 ⟨0, hn⟩) (k0_pay3 (F := F)) (k0_pay3 (F := F)) (k0_pay4 (F := F)))
  | n + 1, hn =>
    if (n + 1) % 16 = 0 then
      (k0_pay8 (iblk0 V c 0 ⟨n + 1, hn⟩) (iblk0 V c 1 ⟨n + 1, hn⟩) (k0_pay3 (F := F)),
       k0_pay7 (iblk0 V c 0 ⟨n + 1, hn⟩) (iblk0 V c 1 ⟨n + 1, hn⟩) (k0_pay3 (F := F)) (k0_pay3 (F := F)) (k0_pay4 (F := F)))
    else
      (k0_pay8 (iblk0 V c 0 ⟨n + 1, hn⟩) (iblk0 V c 1 ⟨n + 1, hn⟩) (carry0 c n (Nat.lt_of_succ_lt hn)).1,
       k0_pay7 (iblk0 V c 0 ⟨n + 1, hn⟩) (iblk0 V c 1 ⟨n + 1, hn⟩) (carry0 c n (Nat.lt_of_succ_lt hn)).1 (carry0 c n (Nat.lt_of_succ_lt hn)).1 (carry0 c n (Nat.lt_of_succ_lt hn)).2)

end Cert.Kernel.H

end
-- ==== Proof.KR0Runs.lean ====
/-
  The first launch (column statistics), shared facts: the two conditions of its body in closed form over the 64 grid
  points (t = 16·b + qi: "qi = 0" re-initialises the running maximum and sum, "qi = 15" stores the two results), where
  its result windows are idle, the memrefs the body is called with, and the launch's invariant with the two carried
  buffers singled out.
-/
import proofs.«159045_j72310069395864_2_alg».proof.Proof.KDefs

set_option maxRecDepth 16384

noncomputable section

namespace Cert.Kernel.H.R0

open Cert.Kernel Cert.Kernel.Gen Cert.Kernel.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first query tile of its batch" (qi = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last query tile of its batch" (qi = 15). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile of a batch the two result windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile of a batch they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- Each window's current staging memref at point `t`, and its wholeness. -/
abbrev ms0_0 (t : Fin cfg0.N) : Memref sig .tc .vmem S1x256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)
/-- The two buffers carried from point to point: the running column maximum and the running column sum. -/
abbrev scM0_0 : Memref sig .tc .vmem S1x4096 .f32 := Memref.whole cc0_scratch0
abbrev scM0_1 : Memref sig .tc .vmem S1x4096 .f32 := Memref.whole cc0_scratch1

/-- The offsets of every access of the body are zero. -/
theorem hz2 : (![0, 0] : Fin S1x4096.rank → ℕ) = fun _ => 0 := by
  funext a; match a with | ⟨0, _⟩ => rfl | ⟨1, _⟩ => rfl
theorem hz3 : (![0, 0, 0] : Fin S1x1x4096.rank → ℕ) = fun _ => 0 := by
  funext a; match a with | ⟨0, _⟩ => rfl | ⟨1, _⟩ => rfl | ⟨2, _⟩ => rfl

/-! ## The launch's invariant -/

/-- The scoped buffers of the core that the first launch does not use (the second launch's staging buffers), each at
    some contents. -/
def restP (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The launch's invariant with the two carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restP (F := F) c) ∗ (∃ r, prngReg c r)) := by
  unfold Pipeline.ΦA restP; rw [scopedRest0_eq]; simp only [scM0_0, scM0_1, owns_whole]; try rfl

end Cert.Kernel.H.R0

end
-- ==== Proof.KR0RunA.lean ====
/-
  The body of the first launch at the first tile of a batch: it first re-initialises the running maximum to −∞ and the
  running sum to 0, then proceeds as at any tile. The stores it makes into the two carried buffers, as pieces, and the
  proof that the body runs to them, whatever the two buffers held before; the two result buffers are handed back untouched.
-/
import proofs.«159045_j72310069395864_2_alg».proof.Proof.KR0Runs

set_option maxRecDepth 16384

noncomputable section

namespace Cert.Kernel.H.R0

open Cert.Kernel Cert.Kernel.Gen Cert.Kernel.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (the first tile of a batch): the pieces the body's stores leave in the running maximum (`LS0`) and the
    running sum (`LS1`), with the body's triple on whole memrefs: inputs at `x0`, `x1`, the idle result buffers at
    `xi2`, `xi3` and handed back as they were, the carried buffers at anything (they are re-initialised before they are read). -/
noncomputable def kernelRun0_A (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 : Vec F S1x256x64 .f32) (x1 : Vec F S1x4096x64 .f32) :
    Σ' (LS0 : List (View.Piece (Elt F) S1x4096 .f32)), { LS1 : List (View.Piece (Elt F) S1x4096 .f32) //
      ∀ (xi2 : Vec F S1x1x4096 .f32) (xi3 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__colstat_kernel i arg2 harg2 arg3 harg3 arg4 harg4 arg5 harg5 arg6 harg6 arg7 harg7) K } := by
  refine ⟨?_, ?_, fun xi2 xi3 E K => ?run⟩
  case run =>
    simp only [cc0__colstat_kernel_eq_skeleton]; unfold cc0__colstat_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.H.R0

end
-- ==== Proof.KR0RunB.lean ====
/-
  The body of the first launch at a middle tile of a batch (neither the first nor the last): from the two input blocks
  and the running maximum and sum the point before left, the stores the body makes into the two carried buffers, as
  pieces, and the proof that the body runs to them; the two result buffers are handed back untouched.
-/
import proofs.«159045_j72310069395864_2_alg».proof.Proof.KR0RunA

set_option maxRecDepth 16384

noncomputable section

namespace Cert.Kernel.H.R0

open Cert.Kernel Cert.Kernel.Gen Cert.Kernel.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (not the first tile, not the last): the pieces the body's stores leave in the running maximum (`LS0`) and
    the running sum (`LS1`), with the body's triple on whole memrefs: inputs at `x0`, `x1`, the idle result buffers at
    `xi2`, `xi3` and handed back as they were, the carried buffers at what the point before left (`xs0`, `xs1`). -/
noncomputable def kernelRun0_B (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : ¬cond0_1 i)
    (x0 : Vec F S1x256x64 .f32) (x1 : Vec F S1x4096x64 .f32) (xs0 : Vec F S1x4096 .f32) (xs1 : Vec F S1x4096 .f32) :
    Σ' (LS0 : List (View.Piece (Elt F) S1x4096 .f32)), { LS1 : List (View.Piece (Elt F) S1x4096 .f32) //
      ∀ (xi2 : Vec F S1x1x4096 .f32) (xi3 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__colstat_kernel i arg2 harg2 arg3 harg3 arg4 harg4 arg5 harg5 arg6 harg6 arg7 harg7) K } := by
  refine ⟨?_, ?_, fun xi2 xi3 E K => ?run⟩
  case run =>
    simp only [cc0__colstat_kernel_eq_skeleton]; unfold cc0__colstat_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.H.R0

end
-- ==== Proof.KR0RunC.lean ====
/-
  The body of the first launch at the last tile of a batch: it proceeds as at a middle tile and then stores the two
  results from the carried buffers — the running maximum itself and the logarithm of the running sum. The stores it
  makes into the two result buffers and the two carried buffers, as pieces, and the proof that the body runs to them.
-/
import proofs.«159045_j72310069395864_2_alg».proof.Proof.KR0RunB

set_option maxRecDepth 16384

noncomputable section

namespace Cert.Kernel.H.R0

open Cert.Kernel Cert.Kernel.Gen Cert.Kernel.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (the last tile of a batch): the pieces the body's stores leave in the two result buffers (`L2`, `L3`), in the
    running maximum (`LS0`) and in the running sum (`LS1`), with the body's triple on whole memrefs: inputs at `x0`,
    `x1`, the result buffers at anything, the carried buffers at what the point before left (`xs0`, `xs1`). -/
noncomputable def kernelRun0_C (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) :
    Σ' (L2 : List (View.Piece (Elt F) S1x1x4096 .f32)) (L3 : List (View.Piece (Elt F) S1x1x4096 .f32)) (LS0 : List (View.Piece (Elt F) S1x4096 .f32)), { LS1 : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__colstat_kernel i arg2 harg2 arg3 harg3 arg4 harg4 arg5 harg5 arg6 harg6 arg7 harg7) K } := by
  refine ⟨?_, ?_, ?_, ?_, fun E K => ?run⟩
  case run =>
    simp only [cc0__colstat_kernel_eq_skeleton]; unfold cc0__colstat_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.H.R0

end
-- ==== Proof.KR0.lean ====
/-
  The first launch (column statistics): its proof data and the body obligation.

  The launch walks the 64 grid points t = 16·b + qi (4 batches of 16 query tiles). Two buffers are carried from point
  to point: the running column maximum m and the running column sum l of exp(score − m). At the first tile of a batch
  they are re-initialised to −∞ and 0; at every tile they are updated from the tile's scores; at the last tile the two
  results, m and log l, are stored to the result windows, which are idle (untouched, not written back) at every other
  tile. `carry0` is this recursion; the proof data states the carried buffers at `carry0` after every point and the
  result windows at its images at the last tile of each batch.
-/
import proofs.«159045_j72310069395864_2_alg».proof.Proof.KR0RunC
import Idealize.ShloMosaic.Lib.Pipeline.Value

set_option maxRecDepth 16384

noncomputable section

namespace Cert.Kernel.H.R0

open Cert.Kernel Cert.Kernel.Gen Cert.Kernel.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading back what the stores left -/

/-- After a list of stores whose LAST one covers the whole buffer (offsets zero, the buffer's own sizes), the buffer
    reads as that store's value, whatever it held before and whatever the earlier stores were. -/
theorem read_last {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-- A load of a whole buffer (offsets zero, its own sizes) held at the raw contents that read `X` reads `X`. -/
theorem readAt_whole {S : Shape} {e : EltTy} {m : Memref sig .tc .vmem S e} (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

theorem hz3a : (![0, 0, 0] : Fin S1x256x64.rank → ℕ) = fun _ => 0 := hz3
theorem hz3b : (![0, 0, 0] : Fin S1x4096x64.rank → ℕ) = fun _ => 0 := hz3

/-- First tile of a batch: the running maximum ends at the tile's column maxima joined with −∞, -/
theorem sread0_A_0 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 : Vec F S1x256x64 .f32) (x1 : Vec F S1x4096x64 .f32) (v : View sig .tc .vmem S1x4096 .f32) (f : v.ty.Contents (Elt F)) :
    v.read (Elt F) (v.writes (Elt F) f (kernelRun0_A c i arg2 harg2 arg3 harg3 arg4 harg4 arg5 harg5 arg6 harg6 arg7 harg7 hc0 hc1 x0 x1).1) = k0_pay8 x0 x1 (k0_pay3 (F := F)) := by
  unfold kernelRun0_A; dsimp only; sl_unfold_words
  refine (read_last v f hz2 _ _ _).trans ?_
  rw [readAt_whole harg2 hz3a, readAt_whole harg3 hz3b, View.readCov_unit_zero _ hz2]

/-- and the running sum at the tile's column sums started from 0. -/
theorem sread0_A_1 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 : Vec F S1x256x64 .f32) (x1 : Vec F S1x4096x64 .f32) (v : View sig .tc .vmem S1x4096 .f32) (f : v.ty.Contents (Elt F)) :
    v.read (Elt F) (v.writes (Elt F) f (kernelRun0_A c i arg2 harg2 arg3 harg3 arg4 harg4 arg5 harg5 arg6 harg6 arg7 harg7 hc0 hc1 x0 x1).2.1) = k0_pay7 x0 x1 (k0_pay3 (F := F)) (k0_pay3 (F := F)) (k0_pay4 (F := F)) := by
  unfold kernelRun0_A; dsimp only; sl_unfold_words
  refine (read_last v f hz2 _ _ _).trans ?_
  rw [readAt_whole harg2 hz3a, readAt_whole harg3 hz3b, View.readCov_unit_zero _ hz2, View.readCov_unit_zero _ hz2]

/-- A later tile: the running maximum is updated from what the point before left, -/
theorem sread0_B_0 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : ¬cond0_1 i)
    (x0 : Vec F S1x256x64 .f32) (x1 : Vec F S1x4096x64 .f32) (xs0 : Vec F S1x4096 .f32) (xs1 : Vec F S1x4096 .f32) (v : View sig .tc .vmem S1x4096 .f32) (f : v.ty.Contents (Elt F)) :
    v.read (Elt F) (v.writes (Elt F) f (kernelRun0_B c i arg2 harg2 arg3 harg3 arg4 harg4 arg5 harg5 arg6 harg6 arg7 harg7 hc0 hc1 x0 x1 xs0 xs1).1) = k0_pay8 x0 x1 xs0 := by
  unfold kernelRun0_B; dsimp only; sl_unfold_words
  refine (read_last v f hz2 _ _ _).trans ?_
  rw [readAt_whole harg2 hz3a, readAt_whole harg3 hz3b, readAt_whole harg6 hz2]

/-- and so is the running sum. -/
theorem sread0_B_1 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : ¬cond0_1 i)
    (x0 : Vec F S1x256x64 .f32) (x1 : Vec F S1x4096x64 .f32) (xs0 : Vec F S1x4096 .f32) (xs1 : Vec F S1x4096 .f32) (v : View sig .tc .vmem S1x4096 .f32) (f : v.ty.Contents (Elt F)) :
    v.read (Elt F) (v.writes (Elt F) f (kernelRun0_B c i arg2 harg2 arg3 harg3 arg4 harg4 arg5 harg5 arg6 harg6 arg7 harg7 hc0 hc1 x0 x1 xs0 xs1).2.1) = k0_pay7 x0 x1 xs0 xs0 xs1 := by
  unfold kernelRun0_B; dsimp only; sl_unfold_words
  refine (read_last v f hz2 _ _ _).trans ?_
  rw [readAt_whole harg2 hz3a, readAt_whole harg3 hz3b, readAt_whole harg6 hz2, readAt_whole harg7 hz2]

/-- The last tile of a batch updates the two carried buffers in the same way, -/
theorem sread0_C_0 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) (v : View sig .tc .vmem S1x4096 .f32) (f : v.ty.Contents (Elt F)) :
    v.read (Elt F) (v.writes (Elt F) f (kernelRun0_C c i arg2 harg2 arg3 harg3 arg4 harg4 arg5 harg5 arg6 harg6 arg7 harg7 hc0 hc1 x0 x1 xs0 xs1).2.2.1) = k0_pay8 x0 x1 xs0 := by
  unfold kernelRun0_C; dsimp only; sl_unfold_words
  refine (read_last v f hz2 _ _ _).trans ?_
  rw [readAt_whole harg2 hz3a, readAt_whole harg3 hz3b, readAt_whole harg6 hz2]

theorem sread0_C_1 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) (v : View sig .tc .vmem S1x4096 .f32) (f : v.ty.Contents (Elt F)) :
    v.read (Elt F) (v.writes (Elt F) f (kernelRun0_C c i arg2 harg2 arg3 harg3 arg4 harg4 arg5 harg5 arg6 harg6 arg7 harg7 hc0 hc1 x0 x1 xs0 xs1).2.2.2.1) = k0_pay7 x0 x1 xs0 xs0 xs1 := by
  unfold kernelRun0_C; dsimp only; sl_unfold_words
  refine (read_last v f hz2 _ _ _).trans ?_
  rw [readAt_whole harg2 hz3a, readAt_whole harg3 hz3b, readAt_whole harg6 hz2, readAt_whole harg7 hz2]

/-- and stores the first result: the updated running maximum, -/
theorem sread0_C_2 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) (v : View sig .tc .vmem S1x1x4096 .f32) (f : v.ty.Contents (Elt F)) :
    v.read (Elt F) (v.writes (Elt F) f (kernelRun0_C c i arg2 harg2 arg3 harg3 arg4 harg4 arg5 harg5 arg6 harg6 arg7 harg7 hc0 hc1 x0 x1 xs0 xs1).1) = k0_pay1 (k0_pay8 x0 x1 xs0) := by
  unfold kernelRun0_C; dsimp only; sl_unfold_words
  refine (read_last v f hz3 _ _ _).trans ?_
  rw [View.readCov_unit_zero _ hz2, readAt_whole harg2 hz3a, readAt_whole harg3 hz3b, readAt_whole harg6 hz2]

/-- and the second: the logarithm of the updated running sum. -/
theorem sread0_C_3 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) (v : View sig .tc .vmem S1x1x4096 .f32) (f : v.ty.Contents (Elt F)) :
    v.read (Elt F) (v.writes (Elt F) f (kernelRun0_C c i arg2 harg2 arg3 harg3 arg4 harg4 arg5 harg5 arg6 harg6 arg7 harg7 hc0 hc1 x0 x1 xs0 xs1).2.1) = k0_pay2 (k0_pay7 x0 x1 xs0 xs0 xs1) := by
  unfold kernelRun0_C; dsimp only; sl_unfold_words
  refine (read_last v f hz3 _ _ _).trans ?_
  rw [View.readCov_unit_zero _ hz2, readAt_whole harg2 hz3a, readAt_whole harg3 hz3b, readAt_whole harg6 hz2, readAt_whole harg7 hz2]

variable (V : Entry F)

/-! ## The carried values, case by case -/

/-- At the first tile of a batch the recursion restarts from −∞ and 0. -/
theorem carry0_A (c : Dev nD) (t : Fin cfg0.N) (h0 : t.val % 16 = 0) :
    carry0 V c t.val t.isLt = (k0_pay8 (iblk0 V c 0 t) (iblk0 V c 1 t) (k0_pay3 (F := F)), k0_pay7 (iblk0 V c 0 t) (iblk0 V c 1 t) (k0_pay3 (F := F)) (k0_pay3 (F := F)) (k0_pay4 (F := F))) := by
  obtain ⟨n, hn⟩ := t
  cases n with
  | zero => exact rfl
  | succ n => exact (if_pos h0).trans rfl

/-- At any other tile it continues from the point before. -/
theorem carry0_BC (c : Dev nD) (t : Fin cfg0.N) (h0 : ¬t.val % 16 = 0) :
    carry0 V c t.val t.isLt = (k0_pay8 (iblk0 V c 0 t) (iblk0 V c 1 t) (carry0 V c (t.val - 1) (Nat.lt_of_le_of_lt (Nat.sub_le _ _) t.isLt)).1, k0_pay7 (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).1 (carry0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The invariant between points -/

/-- Before point `n`: before the first point the launch's own invariant (every scoped buffer at anything); afterwards
    the two carried buffers at the running maximum and sum after point `n − 1`, the other scoped buffers at anything,
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((carry0 V c n hn).1) ∗ owns (c : Thread nD τ) scM0_1 fullShare ((carry0 V c n hn).2) ∗ restP (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((carry0 V c n hn).1) ∗ owns (c : Thread nD τ) scM0_1 fullShare ((carry0 V c n hn).2) ∗ restP (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((carry0 V c (n - 1) (by omega)).1) ∗ owns (c : Thread nD τ) scM0_1 fullShare ((carry0 V c (n - 1) (by omega)).2) ∗ restP (F := F) c) ∗ (∃ r, prngReg c r)) := by
  cases n with
  | zero => exact absurd rfl hz
  | succ n => rfl

/-! ## The proof data -/

/-- The first launch's proof data on core `c`: the arrays as the launch finds them; after the body at point `t` each
    input's buffer at its block, the first result's buffer at the running maximum and the second's at the logarithm
    of the running sum (consulted only at the last tile of a batch, where they are stored); the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (carry0 V c t.val t.isLt).1
    | ⟨3, _⟩ => k0_pay2 (carry0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q0 (c : Dev nD) (w : Fin cfg0.W) : (dat0 V c).q w = fullShare := by dsimp only [dat0]
theorem owed0 (c : Dev nD) (t : Fin (cfg0.N + 1)) : (dat0 V c).owed t = 0 := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2' (c : Dev nD) (t : Fin cfg0.N) : (dat0 V c).after 2 t = k0_pay1 (carry0 V c t.val t.isLt).1 := by dsimp only [dat0]
theorem after0_3' (c : Dev nD) (t : Fin cfg0.N) : (dat0 V c).after 3 t = k0_pay2 (carry0 V c t.val t.isLt).2 := by dsimp only [dat0]
/-- At the last tile of a batch the first result window holds the running column maximum, -/
theorem after0_2 (c : Dev nD) (t : Fin cfg0.N) (h : t.val % 16 = 15) : (dat0 V c).after 2 t = k0_pay1 (carry0 V c t.val t.isLt).1 := after0_2' V c t
/-- and the second the logarithm of the running column sum. -/
theorem after0_3 (c : Dev nD) (t : Fin cfg0.N) (h : t.val % 16 = 15) : (dat0 V c).after 3 t = k0_pay2 (carry0 V c t.val t.isLt).2 := after0_3' V c t

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms of the two conditions say which of
    the three cases the point is in, and that case's run applies: the invariant hands it the two carried buffers at what
    the point before left (at anything before the first point, which is a first tile and re-initialises them) and takes
    them back at this point's running maximum and sum; the result buffers are stored at the last tile of a batch and
    handed back untouched elsewhere; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h))),
      Dat.leavesExact_idle (dat0 V c) 3 t (idleAt0_3 t (fun h => h1 ((hcond0_1 t).mp h))) (noFlush0_3 t (fun h => h1 ((hcond0_1 t).mp h)))]
    rw [carry0_A V c t h0]
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact sread0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) _ _
          isplitl [HS1]
          · unfold owns; iexists _; isplitr
            swap; · iexact HS1
            ipureintro; exact sread0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) _ _
          iexact HR
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact sread0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) _ _
          isplitl [HS1]
          · unfold owns; iexists _; isplitr
            swap; · iexact HS1
            ipureintro; exact sread0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) _ _
          iexact HR
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2']
      rw [show (dat0 V c).leavesExact 3 t = owns (c : Thread nD τ) (ms0_3 t) fullShare ((dat0 V c).after 3 t) from by
        unfold Dat.leavesExact; rw [liveAt0_3 t ((hcond0_1 t).mpr h1)], after0_3']
      rw [carry0_BC V c t h0]
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact sread0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
          isplitl [HS1]
          · unfold owns; iexists _; isplitr
            swap; · iexact HS1
            ipureintro; exact sread0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
          iexact HR
        iexact Hg
      isplitl [Ho]; · iexact Ho
      isplitl [H0]; · iexact H0
      isplitl [H1]; · iexact H1
      isplitl [H2]
      · unfold owns; iexists _; isplitr
        swap; · iexact H2
        ipureintro; exact sread0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
      unfold owns; iexists _; isplitr
      swap; · iexact H3
      ipureintro; exact sread0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
    · rw [Dat.leavesExact_idle (dat0 V c) 2 t (idleAt0_2 t (fun h => h1 ((hcond0_1 t).mp h))) (noFlush0_2 t (fun h => h1 ((hcond0_1 t).mp h))),
        Dat.leavesExact_idle (dat0 V c) 3 t (idleAt0_3 t (fun h => h1 ((hcond0_1 t).mp h))) (noFlush0_3 t (fun h => h1 ((hcond0_1 t).mp h)))]
      rw [carry0_BC V c t h0]
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact sread0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
          isplitl [HS1]
          · unfold owns; iexists _; isplitr
            swap; · iexact HS1
            ipureintro; exact sread0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: what the carried buffers hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.H.R0

end
-- ==== Proof.KR1.lean ====
/-
  The second launch (the three results) at the buffers' contents `V` when it is entered: what its kernel finds in each
  input window's staging buffer at a grid point (the window's block, fetched there or not), what it leaves in each output
  window's (a closed function of the input blocks: the attention tile times the values, the mask tile, the log-softmax
  tile), the kernel's triple, the launch's proof data and its body obligation.
-/
import proofs.«159045_j72310069395864_2_alg».proof.Proof.KDefs
import Idealize.ShloMosaic.Lib.Pipeline.Value

set_option maxRecDepth 16384
set_option pp.maxSteps 5000
set_option pp.deepTerms false

noncomputable section

namespace Cert.Kernel.H.R1

open Cert.Kernel Cert.Kernel.Gen Cert.Kernel.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## What the body finds in each input window's buffer -/

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is through the whole staging buffer -/

abbrev rQ : Rect S1x128x64 := Rect.unit (s := S1x128x64) ![0, 0, 0] S1x128x64.size inb_S1x128x64_S1x128x64_0_0_0
abbrev rKV : Rect S1x4096x64 := Rect.unit (s := S1x4096x64) ![0, 0, 0] S1x4096x64.size inb_S1x4096x64_S1x4096x64_0_0_0
abbrev rCol : Rect S1x1x4096 := Rect.unit (s := S1x1x4096) ![0, 0, 0] S1x1x4096.size inb_S1x1x4096_S1x1x4096_0_0_0
abbrev rTile : Rect S1x128x4096 := Rect.unit (s := S1x128x4096) ![0, 0, 0] S1x128x4096.size inb_S1x128x4096_S1x128x4096_0_0_0

/-- The three offsets are zero. -/
theorem hz3 : (![0, 0, 0] : Fin 3 → Nat) = fun _ => 0 := funext fun a => by fin_cases a <;> rfl

/-! ## What the body leaves in each output window's buffer -/

/-- Window 5's staging buffer after the body, from the input windows' buffers: its one store as a piece. -/
def out1_5 (x0 : Vec F S1x128x64 .f32) (x1 x2 : Vec F S1x4096x64 .f32) (x3 x4 : Vec F S1x1x4096 .f32) : Vec F S1x128x64 .f32 :=
  View.canon [⟨rQ, k1_pay1 (k1_pay4 (View.ld x2 rKV)) (k1_pay7 (View.ld x0 rQ) (View.ld x1 rKV) (View.ld x3 rCol) (View.ld x4 rCol))⟩]

/-- Window 6's. -/
def out1_6 (x0 : Vec F S1x128x64 .f32) (x1 : Vec F S1x4096x64 .f32) (x3 x4 : Vec F S1x1x4096 .f32) : Vec F S1x128x4096 .f32 :=
  View.canon [⟨rTile, k1_pay2 (k1_pay7 (View.ld x0 rQ) (View.ld x1 rKV) (View.ld x3 rCol) (View.ld x4 rCol))⟩]

/-- Window 7's. -/
def out1_7 (x0 : Vec F S1x128x64 .f32) (x1 : Vec F S1x4096x64 .f32) : Vec F S1x128x4096 .f32 :=
  View.canon [⟨rTile, k1_pay3 (k1_pay6 (View.ld x0 rQ) (View.ld x1 rKV))⟩]

/-- Each store is through the whole buffer, so it covers it. -/
theorem cover1_5 (p0 : Vec F S1x128x64 .f32) (y : S1x128x64.Idx) :
    ∃ pc ∈ ([⟨rQ, p0⟩] : List (View.Piece (Elt F) S1x128x64 .f32)), y ∈ pc.1.set :=
  ⟨_, List.mem_singleton_self _, View.mem_set_unit_zero hz3 inb_S1x128x64_S1x128x64_0_0_0 y⟩
theorem cover1_t (p0 : Vec F S1x128x4096 .f32) (y : S1x128x4096.Idx) :
    ∃ pc ∈ ([⟨rTile, p0⟩] : List (View.Piece (Elt F) S1x128x4096 .f32)), y ∈ pc.1.set :=
  ⟨_, List.mem_singleton_self _, View.mem_set_unit_zero hz3 inb_S1x128x4096_S1x128x4096_0_0_0 y⟩

/-- A load through the whole buffer reads its contents, and one store through the whole buffer leaves its payload: the
    three outputs as functions of the inputs' contents. -/
theorem out1_5_eq (x0 : Vec F S1x128x64 .f32) (x1 x2 : Vec F S1x4096x64 .f32) (x3 x4 : Vec F S1x1x4096 .f32) :
    out1_5 x0 x1 x2 x3 x4 = k1_pay1 (k1_pay4 x2) (k1_pay7 x0 x1 x3 x4) := by
  unfold out1_5
  rw [View.canon_unit_zero (S := S1x128x64) hz3 inb_S1x128x64_S1x128x64_0_0_0,
    View.ld_unit_zero (S := S1x128x64) hz3 inb_S1x128x64_S1x128x64_0_0_0 x0,
    View.ld_unit_zero (S := S1x4096x64) hz3 inb_S1x4096x64_S1x4096x64_0_0_0 x1,
    View.ld_unit_zero (S := S1x4096x64) hz3 inb_S1x4096x64_S1x4096x64_0_0_0 x2,
    View.ld_unit_zero (S := S1x1x4096) hz3 inb_S1x1x4096_S1x1x4096_0_0_0 x3,
    View.ld_unit_zero (S := S1x1x4096) hz3 inb_S1x1x4096_S1x1x4096_0_0_0 x4]
theorem out1_6_eq (x0 : Vec F S1x128x64 .f32) (x1 : Vec F S1x4096x64 .f32) (x3 x4 : Vec F S1x1x4096 .f32) :
    out1_6 x0 x1 x3 x4 = k1_pay2 (k1_pay7 x0 x1 x3 x4) := by
  unfold out1_6
  rw [View.canon_unit_zero (S := S1x128x4096) hz3 inb_S1x128x4096_S1x128x4096_0_0_0,
    View.ld_unit_zero (S := S1x128x64) hz3 inb_S1x128x64_S1x128x64_0_0_0 x0,
    View.ld_unit_zero (S := S1x4096x64) hz3 inb_S1x4096x64_S1x4096x64_0_0_0 x1,
    View.ld_unit_zero (S := S1x1x4096) hz3 inb_S1x1x4096_S1x1x4096_0_0_0 x3,
    View.ld_unit_zero (S := S1x1x4096) hz3 inb_S1x1x4096_S1x1x4096_0_0_0 x4]
theorem out1_7_eq (x0 : Vec F S1x128x64 .f32) (x1 : Vec F S1x4096x64 .f32) :
    out1_7 x0 x1 = k1_pay3 (k1_pay6 x0 x1) := by
  unfold out1_7
  rw [View.canon_unit_zero (S := S1x128x4096) hz3 inb_S1x128x4096_S1x128x4096_0_0_0,
    View.ld_unit_zero (S := S1x128x64) hz3 inb_S1x128x64_S1x128x64_0_0_0 x0,
    View.ld_unit_zero (S := S1x4096x64) hz3 inb_S1x4096x64_S1x4096x64_0_0_0 x1]

/-! ## The body's triple -/

set_option maxHeartbeats 4000000 in
/-- The kernel body on whole staging memrefs, the inputs' at read contents `x0 … x4` and the outputs' at anything, runs to
    the continuation holding the inputs' as they were and the three outputs' at their functions of the inputs: the printed
    functions are their skeletons, run through the one part call; every load and store is through the whole buffer. -/
theorem sound_kernel1 (c : Dev nD) (E : Set ℕ) (i : grid1.Coords) (arg2 : Memref sig .tc .vmem S1x128x64 .f32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x128x64 .f32) (harg7 : arg7.IsWhole) (arg8 : Memref sig .tc .vmem S1x128x4096 .f32) (harg8 : arg8.IsWhole) (arg9 : Memref sig .tc .vmem S1x128x4096 .f32) (harg9 : arg9.IsWhole)
    (x0 : Vec F S1x128x64 .f32) (x1 x2 : Vec F S1x4096x64 .f32) (x3 x4 : Vec F S1x1x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay1 (k1_pay4 x2) (k1_pay7 x0 x1 x3 x4)) ∗ owns (c : Thread nD τ) arg8 fullShare (k1_pay2 (k1_pay7 x0 x1 x3 x4)) ∗ owns (c : Thread nD τ) arg9 fullShare (k1_pay3 (k1_pay6 x0 x1))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  rw [← out1_5_eq x0 x1 x2 x3 x4, ← out1_6_eq x0 x1 x3 x4, ← out1_7_eq x0 x1]
  unfold out1_5 out1_6 out1_7
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover1_5 _)
  isplitl [H6]
  · iexists _; isplitr
    swap; · iexact H6
    ipureintro
    try dsimp only
    exact View.read_writes_eq_canon _ _ _ (cover1_t _)
  iexists _; isplitr
  swap; · iexact H7
  ipureintro
  try dsimp only
  exact View.read_writes_eq_canon _ _ _ (cover1_t _)

/-! ## The launch's proof data -/

/-- The proof data of the second launch on core `c`: the arrays as the launch finds them (`V`); after the body at point
    `t` each input's buffer at its block and each output's at its function of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (k1_pay4 (iblk1 V c 2 t)) (k1_pay7 (iblk1 V c 0 t) (iblk1 V c 1 t) (iblk1 V c 3 t) (iblk1 V c 4 t))
    | ⟨6, _⟩ => k1_pay2 (k1_pay7 (iblk1 V c 0 t) (iblk1 V c 1 t) (iblk1 V c 3 t) (iblk1 V c 4 t))
    | ⟨7, _⟩ => k1_pay3 (k1_pay6 (iblk1 V c 0 t) (iblk1 V c 1 t))
  Φ _ := Pipeline.ΦA spec1 c
  q _ := fullShare
  owed _ := 0

/-- The proof data's fields, projected. -/
theorem A_eq1 (c : Dev nD) (w : Fin cfg1.W) : (dat1 V c).A w = V c (Pipeline.arrRef spec1 w) := by
  dsimp only [dat1]
theorem Phi1 (c : Dev nD) (t : Fin (cfg1.N + 1)) : (dat1 V c).Φ t = Pipeline.ΦA spec1 c := by
  dsimp only [dat1]
theorem q1 (c : Dev nD) (w : Fin cfg1.W) : (dat1 V c).q w = fullShare := by
  dsimp only [dat1]
theorem owed1 (c : Dev nD) (t : Fin (cfg1.N + 1)) : (dat1 V c).owed t = 0 := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay1 (k1_pay4 (iblk1 V c 2 t)) (k1_pay7 (iblk1 V c 0 t) (iblk1 V c 1 t) (iblk1 V c 3 t) (iblk1 V c 4 t)) := by dsimp only [dat1]
theorem after1_6 (c : Dev nD) (t : Fin cfg1.N) : (dat1 V c).after 6 t = k1_pay2 (k1_pay7 (iblk1 V c 0 t) (iblk1 V c 1 t) (iblk1 V c 3 t) (iblk1 V c 4 t)) := by dsimp only [dat1]
theorem after1_7 (c : Dev nD) (t : Fin cfg1.N) : (dat1 V c).after 7 t = k1_pay3 (k1_pay6 (iblk1 V c 0 t) (iblk1 V c 1 t)) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the inputs' memrefs hold their blocks, so the kernel's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.H.R1

end
-- ==== Proof.KRun.lean ====
/-
  The run of @main over its two launches, from ANY proof data of the two that meet the interface stated as this
  module's section variables: the buffers' contents at the boundaries between the launches (a fold from the launch
  memory: a launch leaves its windows' arrays at what its write-backs fold to and every other buffer as it found it),
  the input arrays of the second launch read back through the fold, each launch as a segment over the thread state
  "every unscoped buffer at the boundary's contents, the generator register at some state, nothing owed", and the
  launch theorem over the two segments: every weakly fair execution terminates, and the final memory holds every
  unscoped buffer at the last boundary's contents.
-/
import proofs.«159045_j72310069395864_2_alg».proof.Proof.KDefs

set_option maxRecDepth 16384

noncomputable section

namespace Cert.Kernel.H.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The interface: the two launches' proof data, at any entry contents

  Per launch, proof data at every entry contents `V` whose arrays are `V`'s, held whole, owing nothing, with the body
  obligation; the first launch's invariant reached from the class's at the first point and giving it back at the
  last (it carries the two running statistics in between); the second launch's invariant the class's throughout; and
  no bound on the pairs the core's waits have recorded when a launch is entered. -/

variable (d0 : Entry F → (c : Dev nD) → Pipeline.Dat τ (Elt F) Unit ℕ (UR sig nD τ) ℕ cfg0 c)
         (d1 : Entry F → (c : Dev nD) → Pipeline.Dat τ (Elt F) Unit ℕ (UR sig nD τ) ℕ cfg1 c)
         (hA0 : ∀ V c w, (d0 V c).A w = V c (Pipeline.arrRef spec0 w)) (hA1 : ∀ V c w, (d1 V c).A w = V c (Pipeline.arrRef spec1 w))
         (hq0 : ∀ V c w, (d0 V c).q w = fullShare) (hq1 : ∀ V c w, (d1 V c).q w = fullShare)
         (ho0 : ∀ V c t, (d0 V c).owed t = 0) (ho1 : ∀ V c t, (d1 V c).owed t = 0)
         (hb0 : ∀ V c, Pipeline.BodyObligation (d0 V c) (defs₀ (F := F)) Variants.none () Set.univ)
         (hb1 : ∀ V c, Pipeline.BodyObligation (d1 V c) (defs₀ (F := F)) Variants.none () Set.univ)
         (hin0 : ∀ V c, Pipeline.ΦA spec0 c ⊢ (d0 V c).Φ 0) (hout0 : ∀ V c, (d0 V c).Φ (Fin.last cfg0.N) ⊢ Pipeline.ΦA spec0 c)
         (hΦ1 : ∀ V c t, (d1 V c).Φ t = Pipeline.ΦA spec1 c)
         (hr0 : ∀ V c, (d0 V c).recorded 0 = Set.univ) (hr1 : ∀ V c, (d1 V c).recorded 0 = Set.univ)

variable (m : (ℓ : Loc nD τ sig) → Buf (Elt F) ℓ)

/-! ## The buffer contents at each boundary: a fold through @main -/

/-- Core `c`'s buffers at launch (the first launch's entry: @main has no host operation). -/
abbrev W0 : Dev nD → Valuation τ sig (Elt F) := fun c b => m ((c : Dev nD), b)
/-- The same read at the TensorCore's references (what the first launch's proof data take). -/
abbrev V1 : Entry F := fun c b => W0 m c (Proc.devRef .tc b)
/-- At the first launch's exit: its arrays at what the pipeline leaves (the inputs as entered, each output's
    write-backs folded), every other buffer as entered. -/
def W2 (c : Dev nD) : Valuation τ sig (Elt F) :=
  Pipeline.withArrays spec0 c (W0 m c) fun w => (d0 (V1 m) c).arrAt w cfg0.N
theorem W2_arr (c : Dev nD) (w : Fin cfg0.W) :
    W2 d0 m c (Proc.devRef .tc (Pipeline.arrRef spec0 w)) = (d0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 d0 m c (Proc.devRef .tc b) = m ((c : Thread nD τ).loc b) := by
  unfold W2; exact Pipeline.withArrays_of_ne spec0 c _ _ b hb
/-- The same read at the TensorCore's references (the second launch's entry contents). -/
abbrev V2 : Entry F := fun c b => W2 d0 m c (Proc.devRef .tc b)
theorem hF0 (c : Dev nD) (w : Fin cfg0.W) : (d0 (V1 m) c).arrAt w cfg0.N = V2 d0 m c (Pipeline.arrRef spec0 w) :=
  (W2_arr d0 m c w).symm
theorem hrest0 (c : Dev nD) : ∀ b, b ∉ Finset.univ.image (Pipeline.arrRef spec0) → V2 d0 m c b = V1 m c b :=
  fun b hb => W2_of_ne d0 m c b fun w e => hb (Finset.mem_image.mpr ⟨w, Finset.mem_univ _, e⟩)

/-- At the second launch's exit: its arrays at what the pipeline leaves, every other buffer as entered. -/
def W4 (c : Dev nD) : Valuation τ sig (Elt F) :=
  Pipeline.withArrays spec1 c (W2 d0 m c) fun w => (d1 (V2 d0 m) c).arrAt w cfg1.N
theorem W4_arr (c : Dev nD) (w : Fin cfg1.W) :
    W4 d0 d1 m c (Proc.devRef .tc (Pipeline.arrRef spec1 w)) = (d1 (V2 d0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 d0 d1 m c (Proc.devRef .tc b) = W2 d0 m c (Proc.devRef .tc b) := by
  unfold W4; exact Pipeline.withArrays_of_ne spec1 c _ _ b hb
/-- The same read at the TensorCore's references (the second launch's exit contents). -/
abbrev V4 : Entry F := fun c b => W4 d0 d1 m c (Proc.devRef .tc b)
theorem hF1 (c : Dev nD) (w : Fin cfg1.W) : (d1 (V2 d0 m) c).arrAt w cfg1.N = V4 d0 d1 m c (Pipeline.arrRef spec1 w) :=
  (W4_arr d0 d1 m c w).symm
theorem hrest1 (c : Dev nD) : ∀ b, b ∉ Finset.univ.image (Pipeline.arrRef spec1) → V4 d0 d1 m c b = V2 d0 m c b :=
  fun b hb => W4_of_ne d0 d1 m c b fun w e => hb (Finset.mem_image.mpr ⟨w, Finset.mem_univ _, e⟩)

/-! ### What the second launch finds in its five input arrays: the three arguments as launched (the first launch
    reads two of them through input windows and bypasses the third), the two column statistics as the first left them -/

include hA0 in
theorem V2_arg0 (c : Dev nD) : V2 d0 m c main_arg0 = m ((c : Thread nD τ).loc main_arg0) :=
  (W2_arr d0 m c 0).trans (((d0 (V1 m) c).arrAt_in 0 rfl _).trans (hA0 (V1 m) c 0))
include hA0 in
theorem V2_arg1 (c : Dev nD) : V2 d0 m c main_arg1 = m ((c : Thread nD τ).loc main_arg1) :=
  (W2_arr d0 m c 1).trans (((d0 (V1 m) c).arrAt_in 1 rfl _).trans (hA0 (V1 m) c 1))
theorem V2_arg2 (c : Dev nD) : V2 d0 m c main_arg2 = m ((c : Thread nD τ).loc main_arg2) :=
  W2_of_ne d0 m c main_arg2 (by decide)
theorem V2_v0_0 (c : Dev nD) : V2 d0 m c main_v0_0 = (d0 (V1 m) c).arrAt 2 cfg0.N := W2_arr d0 m c 2
theorem V2_v0_1 (c : Dev nD) : V2 d0 m c main_v0_1 = (d0 (V1 m) c).arrAt 3 cfg0.N := W2_arr d0 m c 3

/-! ### The arguments end as launched: the second launch reads each through an input window -/

include hA0 hA1 in
theorem W4_main_arg0 (c : Dev nD) : W4 d0 d1 m c (Proc.devRef .tc main_arg0) = m ((c : Thread nD τ).loc main_arg0) :=
  calc W4 d0 d1 m c (Proc.devRef .tc main_arg0)
    _ = V2 d0 m c main_arg0 := (W4_arr d0 d1 m c 0).trans (((d1 (V2 d0 m) c).arrAt_in 0 rfl _).trans (hA1 (V2 d0 m) c 0))
    _ = m ((c : Thread nD τ).loc main_arg0) := V2_arg0 d0 hA0 m c
include hA0 hA1 in
theorem W4_main_arg1 (c : Dev nD) : W4 d0 d1 m c (Proc.devRef .tc main_arg1) = m ((c : Thread nD τ).loc main_arg1) :=
  calc W4 d0 d1 m c (Proc.devRef .tc main_arg1)
    _ = V2 d0 m c main_arg1 := (W4_arr d0 d1 m c 1).trans (((d1 (V2 d0 m) c).arrAt_in 1 rfl _).trans (hA1 (V2 d0 m) c 1))
    _ = m ((c : Thread nD τ).loc main_arg1) := V2_arg1 d0 hA0 m c
include hA1 in
theorem W4_main_arg2 (c : Dev nD) : W4 d0 d1 m c (Proc.devRef .tc main_arg2) = m ((c : Thread nD τ).loc main_arg2) :=
  calc W4 d0 d1 m c (Proc.devRef .tc main_arg2)
    _ = V2 d0 m c main_arg2 := (W4_arr d0 d1 m c 2).trans (((d1 (V2 d0 m) c).arrAt_in 2 rfl _).trans (hA1 (V2 d0 m) c 2))
    _ = m ((c : Thread nD τ).loc main_arg2) := V2_arg2 d0 m c

/-! ## The proof data family and the thread state -/

/-- The prefetched tables' admissible contents: no pipeline has a table. -/
abbrev adm : (p : Fin 2) → (pcfgs (F := F) p).Adm := fun p => (cfgs p).toPCfg_adm
/-- Every pipeline's proof data, each at its launch's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => d0 (V1 m) c
  | ⟨1, _⟩ => fun c => d1 (V2 d0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 d0 d1 m c) ∗ ∃ r, prngReg c r)

/-! ## The launches as segments -/

set_option backward.isDefEq.respectTransparency.types false in
/-- The FIRST LAUNCH over the thread state: entered from every unscoped buffer at the launch memory, left at `W2`. Its
    arrays split out of the unscoped buffers and put back at the exit contents; the generator register and the scoped
    rest into the class invariant, from which the launch's own invariant starts (`hin0`) and to which it returns
    (`hout0`); nothing owed; no semaphore of the kernel's own. -/
def reg0 : Pipeline.RegionSeg (pcfgs (F := F)) adm (pdats d0 d1 m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun c t => ho0 (V1 m) c t
  pre c := iprop(StableHlo.held (c : Thread nD τ) (Pipeline.ucRefs τ sig) (W0 m c) ∗ R c)
  post c := iprop(StableHlo.held (c : Thread nD τ) (Pipeline.ucRefs τ sig) (W2 d0 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hO : (pdats d0 d1 m 0 c).owed 0 = 0 := ho0 (V1 m) c 0
    have hR : (pdats d0 d1 m 0 c).recorded 0 = Set.univ := hr0 (V1 m) c
    have hsplit := Pipeline.arrays_of_unscopedBufs (p := 0) (pcfgs (F := F)) adm (pdats d0 d1 m) launch0.win launch0.arr_whole c
      ((pdats d0 d1 m 0 c).share_full fun w => hq0 (V1 m) c w) (V1 m c) fun w => hA0 (V1 m) c w
    rw [Pipeline.unscopedBufs_held] at hsplit
    unfold Pipeline.Dat.owesAt Pipeline.owesWithin Pipeline.Dat.bound
    rw [hO, hR]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats d0 d1 m) ((pdats d0 d1 m 0 c).share_full fun w => hq0 (V1 m) c w)
      (V1 m c) (V2 d0 m c) ((pdats d0 d1 m 0 c).arrAt · cfg0.N) (hF0 d0 m c) (hrest0 d0 m c)
    rw [Pipeline.unscopedBufs_held] at hjoin
    have hO : (pdats d0 d1 m 0 c).owed (Fin.last (Pipeline.pin (pcfgs (F := F)) adm 0).N) = 0 := ho0 (V1 m) c _
    unfold Pipeline.Dat.owesAt Pipeline.owesWithin
    rw [hO]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
/-- The SECOND LAUNCH over the thread state: entered from every unscoped buffer at `W2`, left at `W4` (what the launch
    reads at the end). Its invariant is the class's at every point (`hΦ1`). -/
def reg1 : Pipeline.RegionSeg (pcfgs (F := F)) adm (pdats d0 d1 m) () defs₀ 𝒱₀ L lv 1 where
  win := launch1.win.to₀
  block_pos := launch1.block_pos
  stage_whole := launch1.stage_whole
  K := PEmpty
  osem k := k.elim
  ho := Pipeline.OwnSemFacts.none _
  hbody c := (hb1 (V2 d0 m) c).loose
  hwaits := Pipeline.hwaits_of_owed_zero _ _ _ _ L lv 1 fun c t => ho1 (V2 d0 m) c t
  pre c := iprop(StableHlo.held (c : Thread nD τ) (Pipeline.ucRefs τ sig) (W2 d0 m c) ∗ R c)
  post c := iprop(Tₙ d0 d1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 d0 m c)
  hentry c := by
    rw [Pipeline.ownSems0_none]
    have hO : (pdats d0 d1 m 1 c).owed 0 = 0 := ho1 (V2 d0 m) c 0
    have hR : (pdats d0 d1 m 1 c).recorded 0 = Set.univ := hr1 (V2 d0 m) c
    have hsplit := Pipeline.arrays_of_unscopedBufs (p := 1) (pcfgs (F := F)) adm (pdats d0 d1 m) launch1.win launch1.arr_whole c
      ((pdats d0 d1 m 1 c).share_full fun w => hq1 (V2 d0 m) c w) (V2 d0 m c) fun w => hA1 (V2 d0 m) c w
    rw [Pipeline.unscopedBufs_held] at hsplit
    unfold Pipeline.Dat.owesAt Pipeline.owesWithin Pipeline.Dat.bound
    rw [hO, hR]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [show (pdats d0 d1 m 1 c).Φ 0 = Pipeline.ΦA spec1 c from hΦ1 (V2 d0 m) c 0]; unfold Pipeline.ΦA
    iintro ⟨Hp, -, Hr⟩
    isplitl [Hr]; · iexact Hr
    iexact Hp
  hout c := by
    rw [Pipeline.ownSems0_none, show (pdats d0 d1 m 1 c).Φ (Fin.last _) = Pipeline.ΦA spec1 c from hΦ1 (V2 d0 m) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats d0 d1 m) ((pdats d0 d1 m 1 c).share_full fun w => hq1 (V2 d0 m) c w)
      (V2 d0 m c) (V4 d0 d1 m c) ((pdats d0 d1 m 1 c).arrAt · cfg1.N) (hF1 d0 d1 m c) (hrest1 d0 d1 m c)
    rw [Pipeline.unscopedBufs_held] at hjoin
    have hO : (pdats d0 d1 m 1 c).owed (Fin.last (Pipeline.pin (pcfgs (F := F)) adm 1).N) = 0 := ho1 (V2 d0 m) c _
    unfold Pipeline.Dat.owesAt Pipeline.owesWithin
    rw [hO]
    iintro ⟨Ha, HO, HY, Hrest⟩
    imodintro
    isplitl [Ha Hrest HY]
    · isplitl [Ha Hrest]
      · iapply hjoin; isplitl [Ha] <;> iassumption
      iexact HY
    icases HO with ⟨%W, -, HO⟩; iexists W; iexact HO

/-! ## @main as segments, and the launch -/

/-- @main's two segments in order: a region per pallas_call, nothing between them. -/
abbrev segs : List (Pipeline.Seg (pcfgs (F := F)) adm (pdats d0 d1 m) () defs₀ 𝒱₀ L lv) :=
  [ .region (reg0 d0 d1 hA0 hq0 ho0 hb0 hin0 hout0 hr0 m),
    .region (reg1 d0 d1 hA1 hq1 ho1 hb1 hΦ1 hr1 m) ]
/-- @main IS the run of the segments. -/
theorem main_run (c : Dev nD) : main (F := F) c = Pipeline.Seg.run (segs d0 d1 hA0 hA1 hq0 hq1 ho0 ho1 hb0 hb1 hin0 hout0 hΦ1 hr0 hr1 m) :=
  (main_chain c).trans (by chain_rfl)

include hA0 hA1 hq0 hq1 ho0 ho1 hb0 hb1 hin0 hout0 hΦ1 hr0 hr1 in
set_option backward.isDefEq.respectTransparency.types false in
/-- THE RUN: at the compiled mesh, from any memory with zero counters, every weakly fair execution of @main on the
    TensorCores terminates, nothing faulting, and every final state satisfies any `Q` that follows from its holding
    every unscoped buffer at the last boundary's contents `W4`: the launch theorem over the two segments, the last
    thread state read against the final state. -/
theorem run_post {Q : PUnit × MemSt nD τ sig (Elt F) → Prop} (ρ : Dev nD → PrngReg)
    (hQ : ∀ s : MemSt nD τ sig (Elt F), (∀ c : Dev nD, ∀ b ∈ Pipeline.ucRefs τ sig, s.mem (((c : Thread nD τ)).1, b) = W4 d0 d1 m c b) → Q (⟨⟩, s)) :
    θ_run defs (onTc (τ := τ) (main (F := F))) ⟨m, fun _ => 0, ρ⟩ Q :=
  Pipeline.θ_run_regions_kit (pcfgs (F := F)) adm (pdats d0 d1 m) () cellOf_inj emb₁ defs₀ 𝒱₀ L lv m ρ main
    (segs d0 d1 hA0 hA1 hq0 hq1 ho0 ho1 hb0 hb1 hin0 hout0 hΦ1 hr0 hr1 m)
    (fun c Q => by rw [main_run d0 d1 hA0 hA1 hq0 hq1 ho0 ho1 hb0 hb1 hin0 hout0 hΦ1 hr0 hr1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ d0 d1 m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 d0 d1 m c b)
    (hfin := fun c s' => by
      iintro ⟨⟨Hh, -⟩, HSI⟩
      unfold StableHlo.held
      imodintro
      iapply (pointsTo_read_all (Pipeline.ucRefs τ sig) (fun b => (((c : Thread nD τ)).1, b)) (W4 d0 d1 m c) s')
      isplitl [Hh] <;> iassumption)
    (hQ := hQ)

include hA0 hA1 hq0 hq1 ho0 ho1 hb0 hb1 hin0 hout0 hΦ1 hr0 hr1 in
/-- The run with the post "every unscoped buffer at the last boundary's contents". -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 d0 d1 m c b) :=
  run_post d0 d1 hA0 hA1 hq0 hq1 ho0 ho1 hb0 hb1 hin0 hout0 hΦ1 hr0 hr1 m ρ fun s h => h

include hA0 hA1 hq0 hq1 ho0 ho1 hb0 hb1 hin0 hout0 hΦ1 hr0 hr1 in
/-- The run with the post "the three argument arrays end as launched". -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post d0 d1 hA0 hA1 hq0 hq1 ho0 ho1 hb0 hb1 hin0 hout0 hΦ1 hr0 hr1 m ρ fun s h c =>
    ⟨(h c _ (mem_uc main_arg0 (by decide))).trans (W4_main_arg0 d0 d1 hA0 hA1 m c),
     (h c _ (mem_uc main_arg1 (by decide))).trans (W4_main_arg1 d0 d1 hA0 hA1 m c),
     (h c _ (mem_uc main_arg2 (by decide))).trans (W4_main_arg2 d0 d1 hA1 m c)⟩

/-- info: 'Cert.Kernel.H.Run.run_post' depends on axioms: [propext, Classical.choice, Quot.sound] -/
#guard_msgs in #print axioms run_post

end Cert.Kernel.H.Run

end
-- ==== Proof.KFrame.lean ====
/-
  The run of the program over its two launches, at the two launches' own proof data, and its frame: every weakly fair
  execution terminates without a fault, every unscoped buffer ends at the contents the second launch leaves, and the three
  argument arrays end as launched (each launch only reads them).
-/
import proofs.«159045_j72310069395864_2_alg».proof.Proof.KR0
import proofs.«159045_j72310069395864_2_alg».proof.Proof.KR1
import proofs.«159045_j72310069395864_2_alg».proof.Proof.KRun

set_option maxRecDepth 16384

noncomputable section

namespace Cert.Kernel.H.Frame

open Cert.Kernel Cert.Kernel.Gen Cert.Kernel.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first launch's proof data, at any entry contents. -/
abbrev d0 : Entry F → (c : Dev nD) → Dat τ (Elt F) Unit ℕ (UR sig nD τ) ℕ cfg0 c := fun V c => R0.dat0 V c
/-- The second launch's proof data, at any entry contents. -/
abbrev d1 : Entry F → (c : Dev nD) → Dat τ (Elt F) Unit ℕ (UR sig nD τ) ℕ cfg1 c := fun V c => R1.dat1 V c

theorem hA0 (V : Entry F) (c : Dev nD) (w : Fin cfg0.W) : (d0 V c).A w = V c (Pipeline.arrRef spec0 w) := R0.A_eq0 V c w
theorem hA1 (V : Entry F) (c : Dev nD) (w : Fin cfg1.W) : (d1 V c).A w = V c (Pipeline.arrRef spec1 w) := R1.A_eq1 V c w

variable (m : (ℓ : Loc nD τ sig) → Buf (Elt F) ℓ) (ρ : Dev nD → PrngReg)

/-- THE RUN at the two launches' proof data: every weakly fair execution of the program terminates, nothing faulting, and
    the final memory holds every unscoped buffer at the contents the second launch leaves. -/
theorem run : θ_run defs (onTc (τ := τ) (main (F := F))) ⟨m, fun _ => 0, ρ⟩ (fun r => ∀ c : Dev nD,
      ∀ b ∈ Pipeline.ucRefs τ sig, r.2.mem (((c : Thread nD τ)).1, b) = Run.W4 (d0 (F := F)) d1 m c b) :=
  Run.run_all d0 d1 hA0 hA1 (fun V c w => R0.q0 V c w) (fun V c w => R1.q1 V c w)
    (fun V c t => R0.owed0 V c t) (fun V c t => R1.owed1 V c t)
    (fun V c => R0.body_obligation0 V c) (fun V c => R1.body_obligation1 V c)
    (fun V c => R0.hin0 V c) (fun V c => R0.hout0 V c) (fun V c t => R1.Phi1 V c t)
    (fun _ _ => rfl) (fun _ _ => rfl) m ρ

/-- THE FRAME: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (Run.mem_uc main_arg0 (by decide))).trans (Run.W4_main_arg0 d0 d1 hA0 hA1 m c),
       (h c _ (Run.mem_uc main_arg1 (by decide))).trans (Run.W4_main_arg1 d0 d1 hA0 hA1 m c),
       (h c _ (Run.mem_uc main_arg2 (by decide))).trans (Run.W4_main_arg2 d0 d1 hA1 m c)⟩)
    (run m ρ)

end Cert.Kernel.H.Frame

end
-- ==== Proof.KIDefs.lean ====
/-
  The blocks of the two launches' windows: window `w`'s block at grid point `t` is the part of the window's array, as the
  launch finds it, that the window's index map selects at `t`.
-/
import proofs.«159045_j72310069395864_2_alg».proof.Proof.Gen.KernelIdeal.Launch
import proofs.«159045_j72310069395864_2_alg».proof.Proof.Gen.KernelIdeal.Skeleton
import proofs.«159045_j72310069395864_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.H

open Cert.KernelIdeal Cert.KernelIdeal.Gen
open Idealize.ShloMosaic Idealize.ShloMosaic.TcCoe Idealize.SL.Sem

variable {F : FTy → Type} [FloatOps F]

/-- The buffers' contents when a launch is entered: the parameter everything about one launch is stated at. -/
abbrev Entry (F : FTy → Type) : Type := (c : Dev nD) → (b : Ref sig .tc) → Buf (Elt F) ((c : Thread nD τ).loc b)

variable (V : Entry F)

/-- First launch (column statistics): window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Second launch (the three results): window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running column maximum and running column sum after point `n` of the first launch (the two values the launch
    carries from point to point): at the first tile of a batch (`n ≡ 0 mod 16`) they start from −∞ and 0; otherwise
    from what the point before left. -/
def carry0 (c : Dev nD) : (n : ℕ) → n < cfg0.N → Vec F S1x4096 .f32 × Vec F S1x4096 .f32
  | 0, hn => (k0_pay8 (iblk0 V c 0 ⟨0, hn⟩) (iblk0 V c 1 ⟨0, hn⟩) (k0_pay3 (F := F)),
              k0_pay7 (iblk0 V c 0 ⟨0, hn⟩) (iblk0 V c 1 ⟨0, hn⟩) (k0_pay3 (F := F)) (k0_pay3 (F := F)) (k0_pay4 (F := F)))
  | n + 1, hn =>
    if (n + 1) % 16 = 0 then
      (k0_pay8 (iblk0 V c 0 ⟨n + 1, hn⟩) (iblk0 V c 1 ⟨n + 1, hn⟩) (k0_pay3 (F := F)),
       k0_pay7 (iblk0 V c 0 ⟨n + 1, hn⟩) (iblk0 V c 1 ⟨n + 1, hn⟩) (k0_pay3 (F := F)) (k0_pay3 (F := F)) (k0_pay4 (F := F)))
    else
      (k0_pay8 (iblk0 V c 0 ⟨n + 1, hn⟩) (iblk0 V c 1 ⟨n + 1, hn⟩) (carry0 c n (Nat.lt_of_succ_lt hn)).1,
       k0_pay7 (iblk0 V c 0 ⟨n + 1, hn⟩) (iblk0 V c 1 ⟨n + 1, hn⟩) (carry0 c n (Nat.lt_of_succ_lt hn)).1 (carry0 c n (Nat.lt_of_succ_lt hn)).1 (carry0 c n (Nat.lt_of_succ_lt hn)).2)

end Cert.KernelIdeal.H

end
-- ==== Proof.KIR0Runs.lean ====
/-
  The first launch (column statistics), shared facts: the two conditions of its body in closed form over the 64 grid
  points (t = 16·b + qi: "qi = 0" re-initialises the running maximum and sum, "qi = 15" stores the two results), where
  its result windows are idle, the memrefs the body is called with, and the launch's invariant with the two carried
  buffers singled out.
-/
import proofs.«159045_j72310069395864_2_alg».proof.Proof.KIDefs

set_option maxRecDepth 16384

noncomputable section

namespace Cert.KernelIdeal.H.R0

open Cert.KernelIdeal Cert.KernelIdeal.Gen Cert.KernelIdeal.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first query tile of its batch" (qi = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last query tile of its batch" (qi = 15). -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last tile of a batch the two result windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile of a batch they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

/-- Each window's current staging memref at point `t`, and its wholeness. -/
abbrev ms0_0 (t : Fin cfg0.N) : Memref sig .tc .vmem S1x256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)
/-- The two buffers carried from point to point: the running column maximum and the running column sum. -/
abbrev scM0_0 : Memref sig .tc .vmem S1x4096 .f32 := Memref.whole cc0_scratch0
abbrev scM0_1 : Memref sig .tc .vmem S1x4096 .f32 := Memref.whole cc0_scratch1

/-- The offsets of every access of the body are zero. -/
theorem hz2 : (![0, 0] : Fin S1x4096.rank → ℕ) = fun _ => 0 := by
  funext a; match a with | ⟨0, _⟩ => rfl | ⟨1, _⟩ => rfl
theorem hz3 : (![0, 0, 0] : Fin S1x1x4096.rank → ℕ) = fun _ => 0 := by
  funext a; match a with | ⟨0, _⟩ => rfl | ⟨1, _⟩ => rfl | ⟨2, _⟩ => rfl

/-! ## The launch's invariant -/

/-- The scoped buffers of the core that the first launch does not use (the second launch's staging buffers), each at
    some contents. -/
def restP (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The launch's invariant with the two carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restP (F := F) c) ∗ (∃ r, prngReg c r)) := by
  unfold Pipeline.ΦA restP; rw [scopedRest0_eq]; simp only [scM0_0, scM0_1, owns_whole]; try rfl

end Cert.KernelIdeal.H.R0

end
-- ==== Proof.KIR0RunA.lean ====
/-
  The body of the first launch at the first tile of a batch: it first re-initialises the running maximum to −∞ and the
  running sum to 0, then proceeds as at any tile. The stores it makes into the two carried buffers, as pieces, and the
  proof that the body runs to them, whatever the two buffers held before; the two result buffers are handed back untouched.
-/
import proofs.«159045_j72310069395864_2_alg».proof.Proof.KIR0Runs

set_option maxRecDepth 16384

noncomputable section

namespace Cert.KernelIdeal.H.R0

open Cert.KernelIdeal Cert.KernelIdeal.Gen Cert.KernelIdeal.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (the first tile of a batch): the pieces the body's stores leave in the running maximum (`LS0`) and the
    running sum (`LS1`), with the body's triple on whole memrefs: inputs at `x0`, `x1`, the idle result buffers at
    `xi2`, `xi3` and handed back as they were, the carried buffers at anything (they are re-initialised before they are read). -/
noncomputable def kernelRun0_A (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 : Vec F S1x256x64 .f32) (x1 : Vec F S1x4096x64 .f32) :
    Σ' (LS0 : List (View.Piece (Elt F) S1x4096 .f32)), { LS1 : List (View.Piece (Elt F) S1x4096 .f32) //
      ∀ (xi2 : Vec F S1x1x4096 .f32) (xi3 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__colstat_kernel i arg2 harg2 arg3 harg3 arg4 harg4 arg5 harg5 arg6 harg6 arg7 harg7) K } := by
  refine ⟨?_, ?_, fun xi2 xi3 E K => ?run⟩
  case run =>
    simp only [cc0__colstat_kernel_eq_skeleton]; unfold cc0__colstat_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.H.R0

end
-- ==== Proof.KIR0RunB.lean ====
/-
  The body of the first launch at a middle tile of a batch (neither the first nor the last): from the two input blocks
  and the running maximum and sum the point before left, the stores the body makes into the two carried buffers, as
  pieces, and the proof that the body runs to them; the two result buffers are handed back untouched.
-/
import proofs.«159045_j72310069395864_2_alg».proof.Proof.KIR0RunA

set_option maxRecDepth 16384

noncomputable section

namespace Cert.KernelIdeal.H.R0

open Cert.KernelIdeal Cert.KernelIdeal.Gen Cert.KernelIdeal.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (not the first tile, not the last): the pieces the body's stores leave in the running maximum (`LS0`) and
    the running sum (`LS1`), with the body's triple on whole memrefs: inputs at `x0`, `x1`, the idle result buffers at
    `xi2`, `xi3` and handed back as they were, the carried buffers at what the point before left (`xs0`, `xs1`). -/
noncomputable def kernelRun0_B (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : ¬cond0_1 i)
    (x0 : Vec F S1x256x64 .f32) (x1 : Vec F S1x4096x64 .f32) (xs0 : Vec F S1x4096 .f32) (xs1 : Vec F S1x4096 .f32) :
    Σ' (LS0 : List (View.Piece (Elt F) S1x4096 .f32)), { LS1 : List (View.Piece (Elt F) S1x4096 .f32) //
      ∀ (xi2 : Vec F S1x1x4096 .f32) (xi3 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__colstat_kernel i arg2 harg2 arg3 harg3 arg4 harg4 arg5 harg5 arg6 harg6 arg7 harg7) K } := by
  refine ⟨?_, ?_, fun xi2 xi3 E K => ?run⟩
  case run =>
    simp only [cc0__colstat_kernel_eq_skeleton]; unfold cc0__colstat_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.H.R0

end
-- ==== Proof.KIR0RunC.lean ====
/-
  The body of the first launch at the last tile of a batch: it proceeds as at a middle tile and then stores the two
  results from the carried buffers — the running maximum itself and the logarithm of the running sum. The stores it
  makes into the two result buffers and the two carried buffers, as pieces, and the proof that the body runs to them.
-/
import proofs.«159045_j72310069395864_2_alg».proof.Proof.KIR0RunB

set_option maxRecDepth 16384

noncomputable section

namespace Cert.KernelIdeal.H.R0

open Cert.KernelIdeal Cert.KernelIdeal.Gen Cert.KernelIdeal.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (the last tile of a batch): the pieces the body's stores leave in the two result buffers (`L2`, `L3`), in the
    running maximum (`LS0`) and in the running sum (`LS1`), with the body's triple on whole memrefs: inputs at `x0`,
    `x1`, the result buffers at anything, the carried buffers at what the point before left (`xs0`, `xs1`). -/
noncomputable def kernelRun0_C (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) :
    Σ' (L2 : List (View.Piece (Elt F) S1x1x4096 .f32)) (L3 : List (View.Piece (Elt F) S1x1x4096 .f32)) (LS0 : List (View.Piece (Elt F) S1x4096 .f32)), { LS1 : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__colstat_kernel i arg2 harg2 arg3 harg3 arg4 harg4 arg5 harg5 arg6 harg6 arg7 harg7) K } := by
  refine ⟨?_, ?_, ?_, ?_, fun E K => ?run⟩
  case run =>
    simp only [cc0__colstat_kernel_eq_skeleton]; unfold cc0__colstat_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.H.R0

end
-- ==== Proof.KIR0.lean ====
/-
  The first launch (column statistics): its proof data and the body obligation.

  The launch walks the 64 grid points t = 16·b + qi (4 batches of 16 query tiles). Two buffers are carried from point
  to point: the running column maximum m and the running column sum l of exp(score − m). At the first tile of a batch
  they are re-initialised to −∞ and 0; at every tile they are updated from the tile's scores; at the last tile the two
  results, m and log l, are stored to the result windows, which are idle (untouched, not written back) at every other
  tile. `carry0` is this recursion; the proof data states the carried buffers at `carry0` after every point and the
  result windows at its images at the last tile of each batch.
-/
import proofs.«159045_j72310069395864_2_alg».proof.Proof.KIR0RunC
import Idealize.ShloMosaic.Lib.Pipeline.Value

set_option maxRecDepth 16384

noncomputable section

namespace Cert.KernelIdeal.H.R0

open Cert.KernelIdeal Cert.KernelIdeal.Gen Cert.KernelIdeal.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading back what the stores left -/

/-- After a list of stores whose LAST one covers the whole buffer (offsets zero, the buffer's own sizes), the buffer
    reads as that store's value, whatever it held before and whatever the earlier stores were. -/
theorem read_last {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero h inb y⟩)).trans
    (View.canon_cons_unit_zero h inb w L)

/-- A load of a whole buffer (offsets zero, its own sizes) held at the raw contents that read `X` reads `X`. -/
theorem readAt_whole {S : Shape} {e : EltTy} {m : Memref sig .tc .vmem S e} (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h inb]

theorem hz3a : (![0, 0, 0] : Fin S1x256x64.rank → ℕ) = fun _ => 0 := hz3
theorem hz3b : (![0, 0, 0] : Fin S1x4096x64.rank → ℕ) = fun _ => 0 := hz3

/-- First tile of a batch: the running maximum ends at the tile's column maxima joined with −∞, -/
theorem sread0_A_0 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 : Vec F S1x256x64 .f32) (x1 : Vec F S1x4096x64 .f32) (v : View sig .tc .vmem S1x4096 .f32) (f : v.ty.Contents (Elt F)) :
    v.read (Elt F) (v.writes (Elt F) f (kernelRun0_A c i arg2 harg2 arg3 harg3 arg4 harg4 arg5 harg5 arg6 harg6 arg7 harg7 hc0 hc1 x0 x1).1) = k0_pay8 x0 x1 (k0_pay3 (F := F)) := by
  unfold kernelRun0_A; dsimp only; sl_unfold_words
  refine (read_last v f hz2 _ _ _).trans ?_
  rw [readAt_whole harg2 hz3a, readAt_whole harg3 hz3b, View.readCov_unit_zero _ hz2]

/-- and the running sum at the tile's column sums started from 0. -/
theorem sread0_A_1 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 : Vec F S1x256x64 .f32) (x1 : Vec F S1x4096x64 .f32) (v : View sig .tc .vmem S1x4096 .f32) (f : v.ty.Contents (Elt F)) :
    v.read (Elt F) (v.writes (Elt F) f (kernelRun0_A c i arg2 harg2 arg3 harg3 arg4 harg4 arg5 harg5 arg6 harg6 arg7 harg7 hc0 hc1 x0 x1).2.1) = k0_pay7 x0 x1 (k0_pay3 (F := F)) (k0_pay3 (F := F)) (k0_pay4 (F := F)) := by
  unfold kernelRun0_A; dsimp only; sl_unfold_words
  refine (read_last v f hz2 _ _ _).trans ?_
  rw [readAt_whole harg2 hz3a, readAt_whole harg3 hz3b, View.readCov_unit_zero _ hz2, View.readCov_unit_zero _ hz2]

/-- A later tile: the running maximum is updated from what the point before left, -/
theorem sread0_B_0 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : ¬cond0_1 i)
    (x0 : Vec F S1x256x64 .f32) (x1 : Vec F S1x4096x64 .f32) (xs0 : Vec F S1x4096 .f32) (xs1 : Vec F S1x4096 .f32) (v : View sig .tc .vmem S1x4096 .f32) (f : v.ty.Contents (Elt F)) :
    v.read (Elt F) (v.writes (Elt F) f (kernelRun0_B c i arg2 harg2 arg3 harg3 arg4 harg4 arg5 harg5 arg6 harg6 arg7 harg7 hc0 hc1 x0 x1 xs0 xs1).1) = k0_pay8 x0 x1 xs0 := by
  unfold kernelRun0_B; dsimp only; sl_unfold_words
  refine (read_last v f hz2 _ _ _).trans ?_
  rw [readAt_whole harg2 hz3a, readAt_whole harg3 hz3b, readAt_whole harg6 hz2]

/-- and so is the running sum. -/
theorem sread0_B_1 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : ¬cond0_1 i)
    (x0 : Vec F S1x256x64 .f32) (x1 : Vec F S1x4096x64 .f32) (xs0 : Vec F S1x4096 .f32) (xs1 : Vec F S1x4096 .f32) (v : View sig .tc .vmem S1x4096 .f32) (f : v.ty.Contents (Elt F)) :
    v.read (Elt F) (v.writes (Elt F) f (kernelRun0_B c i arg2 harg2 arg3 harg3 arg4 harg4 arg5 harg5 arg6 harg6 arg7 harg7 hc0 hc1 x0 x1 xs0 xs1).2.1) = k0_pay7 x0 x1 xs0 xs0 xs1 := by
  unfold kernelRun0_B; dsimp only; sl_unfold_words
  refine (read_last v f hz2 _ _ _).trans ?_
  rw [readAt_whole harg2 hz3a, readAt_whole harg3 hz3b, readAt_whole harg6 hz2, readAt_whole harg7 hz2]

/-- The last tile of a batch updates the two carried buffers in the same way, -/
theorem sread0_C_0 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) (v : View sig .tc .vmem S1x4096 .f32) (f : v.ty.Contents (Elt F)) :
    v.read (Elt F) (v.writes (Elt F) f (kernelRun0_C c i arg2 harg2 arg3 harg3 arg4 harg4 arg5 harg5 arg6 harg6 arg7 harg7 hc0 hc1 x0 x1 xs0 xs1).2.2.1) = k0_pay8 x0 x1 xs0 := by
  unfold kernelRun0_C; dsimp only; sl_unfold_words
  refine (read_last v f hz2 _ _ _).trans ?_
  rw [readAt_whole harg2 hz3a, readAt_whole harg3 hz3b, readAt_whole harg6 hz2]

theorem sread0_C_1 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) (v : View sig .tc .vmem S1x4096 .f32) (f : v.ty.Contents (Elt F)) :
    v.read (Elt F) (v.writes (Elt F) f (kernelRun0_C c i arg2 harg2 arg3 harg3 arg4 harg4 arg5 harg5 arg6 harg6 arg7 harg7 hc0 hc1 x0 x1 xs0 xs1).2.2.2.1) = k0_pay7 x0 x1 xs0 xs0 xs1 := by
  unfold kernelRun0_C; dsimp only; sl_unfold_words
  refine (read_last v f hz2 _ _ _).trans ?_
  rw [readAt_whole harg2 hz3a, readAt_whole harg3 hz3b, readAt_whole harg6 hz2, readAt_whole harg7 hz2]

/-- and stores the first result: the updated running maximum, -/
theorem sread0_C_2 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) (v : View sig .tc .vmem S1x1x4096 .f32) (f : v.ty.Contents (Elt F)) :
    v.read (Elt F) (v.writes (Elt F) f (kernelRun0_C c i arg2 harg2 arg3 harg3 arg4 harg4 arg5 harg5 arg6 harg6 arg7 harg7 hc0 hc1 x0 x1 xs0 xs1).1) = k0_pay1 (k0_pay8 x0 x1 xs0) := by
  unfold kernelRun0_C; dsimp only; sl_unfold_words
  refine (read_last v f hz3 _ _ _).trans ?_
  rw [View.readCov_unit_zero _ hz2, readAt_whole harg2 hz3a, readAt_whole harg3 hz3b, readAt_whole harg6 hz2]

/-- and the second: the logarithm of the updated running sum. -/
theorem sread0_C_3 (c : Dev nD) (i : grid0.Coords) (arg2 : Memref sig .tc .vmem S1x256x64 .f32) (harg2 : arg2.IsWhole) (arg3 : Memref sig .tc .vmem S1x4096x64 .f32) (harg3 : arg3.IsWhole) (arg4 : Memref sig .tc .vmem S1x1x4096 .f32) (harg4 : arg4.IsWhole) (arg5 : Memref sig .tc .vmem S1x1x4096 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S1x256x64 .f32) (x1 : Vec F S1x4096x64 .f32) (xs0 : Vec F S1x4096 .f32) (xs1 : Vec F S1x4096 .f32) (v : View sig .tc .vmem S1x1x4096 .f32) (f : v.ty.Contents (Elt F)) :
    v.read (Elt F) (v.writes (Elt F) f (kernelRun0_C c i arg2 harg2 arg3 harg3 arg4 harg4 arg5 harg5 arg6 harg6 arg7 harg7 hc0 hc1 x0 x1 xs0 xs1).2.1) = k0_pay2 (k0_pay7 x0 x1 xs0 xs0 xs1) := by
  unfold kernelRun0_C; dsimp only; sl_unfold_words
  refine (read_last v f hz3 _ _ _).trans ?_
  rw [View.readCov_unit_zero _ hz2, readAt_whole harg2 hz3a, readAt_whole harg3 hz3b, readAt_whole harg6 hz2, readAt_whole harg7 hz2]

variable (V : Entry F)

/-! ## The carried values, case by case -/

/-- At the first tile of a batch the recursion restarts from −∞ and 0. -/
theorem carry0_A (c : Dev nD) (t : Fin cfg0.N) (h0 : t.val % 16 = 0) :
    carry0 V c t.val t.isLt = (k0_pay8 (iblk0 V c 0 t) (iblk0 V c 1 t) (k0_pay3 (F := F)), k0_pay7 (iblk0 V c 0 t) (iblk0 V c 1 t) (k0_pay3 (F := F)) (k0_pay3 (F := F)) (k0_pay4 (F := F))) := by
  obtain ⟨n, hn⟩ := t
  cases n with
  | zero => exact rfl
  | succ n => exact (if_pos h0).trans rfl

/-- At any other tile it continues from the point before. -/
theorem carry0_BC (c : Dev nD) (t : Fin cfg0.N) (h0 : ¬t.val % 16 = 0) :
    carry0 V c t.val t.isLt = (k0_pay8 (iblk0 V c 0 t) (iblk0 V c 1 t) (carry0 V c (t.val - 1) (Nat.lt_of_le_of_lt (Nat.sub_le _ _) t.isLt)).1, k0_pay7 (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).1 (carry0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans rfl

/-! ## The invariant between points -/

/-- Before point `n`: before the first point the launch's own invariant (every scoped buffer at anything); afterwards
    the two carried buffers at the running maximum and sum after point `n − 1`, the other scoped buffers at anything,
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((carry0 V c n hn).1) ∗ owns (c : Thread nD τ) scM0_1 fullShare ((carry0 V c n hn).2) ∗ restP (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((carry0 V c n hn).1) ∗ owns (c : Thread nD τ) scM0_1 fullShare ((carry0 V c n hn).2) ∗ restP (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((carry0 V c (n - 1) (by omega)).1) ∗ owns (c : Thread nD τ) scM0_1 fullShare ((carry0 V c (n - 1) (by omega)).2) ∗ restP (F := F) c) ∗ (∃ r, prngReg c r)) := by
  cases n with
  | zero => exact absurd rfl hz
  | succ n => rfl

/-! ## The proof data -/

/-- The first launch's proof data on core `c`: the arrays as the launch finds them; after the body at point `t` each
    input's buffer at its block, the first result's buffer at the running maximum and the second's at the logarithm
    of the running sum (consulted only at the last tile of a batch, where they are stored); the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (carry0 V c t.val t.isLt).1
    | ⟨3, _⟩ => k0_pay2 (carry0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q0 (c : Dev nD) (w : Fin cfg0.W) : (dat0 V c).q w = fullShare := by dsimp only [dat0]
theorem owed0 (c : Dev nD) (t : Fin (cfg0.N + 1)) : (dat0 V c).owed t = 0 := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2' (c : Dev nD) (t : Fin cfg0.N) : (dat0 V c).after 2 t = k0_pay1 (carry0 V c t.val t.isLt).1 := by dsimp only [dat0]
theorem after0_3' (c : Dev nD) (t : Fin cfg0.N) : (dat0 V c).after 3 t = k0_pay2 (carry0 V c t.val t.isLt).2 := by dsimp only [dat0]
/-- At the last tile of a batch the first result window holds the running column maximum, -/
theorem after0_2 (c : Dev nD) (t : Fin cfg0.N) (h : t.val % 16 = 15) : (dat0 V c).after 2 t = k0_pay1 (carry0 V c t.val t.isLt).1 := after0_2' V c t
/-- and the second the logarithm of the running column sum. -/
theorem after0_3 (c : Dev nD) (t : Fin cfg0.N) (h : t.val % 16 = 15) : (dat0 V c).after 3 t = k0_pay2 (carry0 V c t.val t.isLt).2 := after0_3' V c t

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms of the two conditions say which of
    the three cases the point is in, and that case's run applies: the invariant hands it the two carried buffers at what
    the point before left (at anything before the first point, which is a first tile and re-initialises them) and takes
    them back at this point's running maximum and sum; the result buffers are stored at the last tile of a batch and
    handed back untouched elsewhere; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h))),
      Dat.leavesExact_idle (dat0 V c) 3 t (idleAt0_3 t (fun h => h1 ((hcond0_1 t).mp h))) (noFlush0_3 t (fun h => h1 ((hcond0_1 t).mp h)))]
    rw [carry0_A V c t h0]
    by_cases hz : t.val = 0
    · rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact sread0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) _ _
          isplitl [HS1]
          · unfold owns; iexists _; isplitr
            swap; · iexact HS1
            ipureintro; exact sread0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) _ _
          iexact HR
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact sread0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) _ _
          isplitl [HS1]
          · unfold owns; iexists _; isplitr
            swap; · iexact HS1
            ipureintro; exact sread0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) _ _
          iexact HR
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2']
      rw [show (dat0 V c).leavesExact 3 t = owns (c : Thread nD τ) (ms0_3 t) fullShare ((dat0 V c).after 3 t) from by
        unfold Dat.leavesExact; rw [liveAt0_3 t ((hcond0_1 t).mpr h1)], after0_3']
      rw [carry0_BC V c t h0]
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact sread0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
          isplitl [HS1]
          · unfold owns; iexists _; isplitr
            swap; · iexact HS1
            ipureintro; exact sread0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
          iexact HR
        iexact Hg
      isplitl [Ho]; · iexact Ho
      isplitl [H0]; · iexact H0
      isplitl [H1]; · iexact H1
      isplitl [H2]
      · unfold owns; iexists _; isplitr
        swap; · iexact H2
        ipureintro; exact sread0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
      unfold owns; iexists _; isplitr
      swap; · iexact H3
      ipureintro; exact sread0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
    · rw [Dat.leavesExact_idle (dat0 V c) 2 t (idleAt0_2 t (fun h => h1 ((hcond0_1 t).mp h))) (noFlush0_2 t (fun h => h1 ((hcond0_1 t).mp h))),
        Dat.leavesExact_idle (dat0 V c) 3 t (idleAt0_3 t (fun h => h1 ((hcond0_1 t).mp h))) (noFlush0_3 t (fun h => h1 ((hcond0_1 t).mp h)))]
      rw [carry0_BC V c t h0]
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact sread0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
          isplitl [HS1]
          · unfold owns; iexists _; isplitr
            swap; · iexact HS1
            ipureintro; exact sread0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (carry0 V c (t.val - 1) (Nat.lt_of_le_of_lt (Nat.sub_le _ _) t.isLt)).1 (carry0 V c (t.val - 1) (Nat.lt_of_le_of_lt (Nat.sub_le _ _) t.isLt)).2 _ _
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: what the carried buffers hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.H.R0

end
-- ==== Proof.KIR1.lean ====
/-
  The second launch (the three results) at the buffers' contents `V` when it is entered: what its kernel finds in each
  input window's staging buffer at a grid point (the window's block, fetched there or not), what it leaves in each output
  window's (a closed function of the input blocks: the attention tile times the values, the mask tile, the log-softmax
  tile), the kernel's triple, the launch's proof data and its body obligation.
-/
import proofs.«159045_j72310069395864_2_alg».proof.Proof.KIDefs
import Idealize.ShloMosaic.Lib.Pipeline.Value

set_option maxRecDepth 16384
set_option pp.maxSteps 5000
set_option pp.deepTerms false

noncomputable section

namespace Cert.KernelIdeal.H.R1

open Cert.KernelIdeal Cert.KernelIdeal.Gen Cert.KernelIdeal.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## What the body finds in each input window's buffer -/

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is through the whole staging buffer -/

abbrev rQ : Rect S1x128x64 := Rect.unit (s := S1x128x64) ![0, 0, 0] S1x128x64.size inb_S1x128x64_S1x128x64_0_0_0
abbrev rKV : Rect S1x4096x64 := Rect.unit (s := S1x4096x64) ![0, 0, 0] S1x4096x64.size inb_S1x4096x64_S1x4096x64_0_0_0
abbrev rCol : Rect S1x1x4096 := Rect.unit (s := S1x1x4096) ![0, 0, 0] S1x1x4096.size inb_S1x1x4096_S1x1x4096_0_0_0
abbrev rTile : Rect S1x128x4096 := Rect.unit (s := S1x128x4096) ![0, 0, 0] S1x128x4096.size inb_S1x128x4096_S1x128x4096_0_0_0

/-- The three offsets are zero. -/
theorem hz3 : (![0, 0, 0] : Fin 3 → Nat) = fun _ => 0 := funext fun a => by fin_cases a <;> rfl

/-! ## What the body leaves in each output window's buffer -/

/-- Window 5's staging buffer after the body, from the input windows' buffers: its one store as a piece. -/
def out1_5 (x0 : Vec F S1x128x64 .f32) (x1 x2 : Vec F S1x4096x64 .f32) (x3 x4 : Vec F S1x1x4096 .f32) : Vec F S1x128x64 .f32 :=
  View.canon [⟨rQ, k1_pay1 (k1_pay4 (View.ld x2 rKV)) (k1_pay7 (View.ld x0 rQ) (View.ld x1 rKV) (View.ld x3 rCol) (View.ld x4 rCol))⟩]

/-- Window 6's. -/
def out1_6 (x0 : Vec F S1x128x64 .f32) (x1 : Vec F S1x4096x64 .f32) (x3 x4 : Vec F S1x1x4096 .f32) : Vec F S1x128x4096 .f32 :=
  View.canon [⟨rTile, k1_pay2 (k1_pay7 (View.ld x0 rQ) (View.ld x1 rKV) (View.ld x3 rCol) (View.ld x4 rCol))⟩]

/-- Window 7's. -/
def out1_7 (x0 : Vec F S1x128x64 .f32) (x1 : Vec F S1x4096x64 .f32) : Vec F S1x128x4096 .f32 :=
  View.canon [⟨rTile, k1_pay3 (k1_pay6 (View.ld x0 rQ) (View.ld x1 rKV))⟩]

/-- Each store is through the whole buffer, so it covers it. -/
theorem cover1_5 (p0 : Vec F S1x128x64 .f32) (y : S1x128x64.Idx) :
    ∃ pc ∈ ([⟨rQ, p0⟩] : List (View.Piece (Elt F) S1x128x64 .f32)), y ∈ pc.1.set :=
  ⟨_, List.mem_singleton_self _, View.mem_set_unit_zero hz3 inb_S1x128x64_S1x128x64_0_0_0 y⟩
theorem cover1_t (p0 : Vec F S1x128x4096 .f32) (y : S1x128x4096.Idx) :
    ∃ pc ∈ ([⟨rTile, p0⟩] : List (View.Piece (Elt F) S1x128x4096 .f32)), y ∈ pc.1.set :=
  ⟨_, List.mem_singleton_self _, View.mem_set_unit_zero hz3 inb_S1x128x4096_S1x128x4096_0_0_0 y⟩

/-- A load through the whole buffer reads its contents, and one store through the whole buffer leaves its payload: the
    three outputs as functions of the inputs' contents. -/
theorem out1_5_eq (x0 : Vec F S1x128x64 .f32) (x1 x2 : Vec F S1x4096x64 .f32) (x3 x4 : Vec F S1x1x4096 .f32) :
    out1_5 x0 x1 x2 x3 x4 = k1_pay1 (k1_pay4 x2) (k1_pay7 x0 x1 x3 x4) := by
  unfold out1_5
  rw [View.canon_unit_zero (S := S1x128x64) hz3 inb_S1x128x64_S1x128x64_0_0_0,
    View.ld_unit_zero (S := S1x128x64) hz3 inb_S1x128x64_S1x128x64_0_0_0 x0,
    View.ld_unit_zero (S := S1x4096x64) hz3 inb_S1x4096x64_S1x4096x64_0_0_0 x1,
    View.ld_unit_zero (S := S1x4096x64) hz3 inb_S1x4096x64_S1x4096x64_0_0_0 x2,
    View.ld_unit_zero (S := S1x1x4096) hz3 inb_S1x1x4096_S1x1x4096_0_0_0 x3,
    View.ld_unit_zero (S := S1x1x4096) hz3 inb_S1x1x4096_S1x1x4096_0_0_0 x4]
theorem out1_6_eq (x0 : Vec F S1x128x64 .f32) (x1 : Vec F S1x4096x64 .f32) (x3 x4 : Vec F S1x1x4096 .f32) :
    out1_6 x0 x1 x3 x4 = k1_pay2 (k1_pay7 x0 x1 x3 x4) := by
  unfold out1_6
  rw [View.canon_unit_zero (S := S1x128x4096) hz3 inb_S1x128x4096_S1x128x4096_0_0_0,
    View.ld_unit_zero (S := S1x128x64) hz3 inb_S1x128x64_S1x128x64_0_0_0 x0,
    View.ld_unit_zero (S := S1x4096x64) hz3 inb_S1x4096x64_S1x4096x64_0_0_0 x1,
    View.ld_unit_zero (S := S1x1x4096) hz3 inb_S1x1x4096_S1x1x4096_0_0_0 x3,
    View.ld_unit_zero (S := S1x1x4096) hz3 inb_S1x1x4096_S1x1x4096_0_0_0 x4]
theorem out1_7_eq (x0 : Vec F S1x128x64 .f32) (x1 : Vec F S1x4096x64 .f32) :
    out1_7 x0 x1 = k1_pay3 (k1_pay6 x0 x1) := by
  unfold out1_7
  rw [View.canon_unit_zero (S := S1x128x4096) hz3 inb_S1x128x4096_S1x128x4096_0_0_0,
    View.ld_unit_zero (S := S1x128x64) hz3 inb_S1x128x64_S1x128x64_0_0_0 x0,
    View.ld_unit_zero (S := S1x4096x64) hz3 inb_S1x4096x64_S1x4096x64_0_0_0 x1]

/-! ## The body's triple -/

set_option maxHeartbeats 4000000 in
/-- The kernel body on whole staging memrefs, the inputs' at read contents `x0 … x4` and the outputs' at anything, runs to
    the continuation holding the inputs' as they were and the three outputs' at their functions of the inputs: the printed
    functions are their skeletons, run through the one part call; every load and store is through the whole buffer. -/
theorem sound_kernel1 (c : Dev nD) (E : Set ℕ) (i : grid1.Coords) (arg2 : Memref sig .tc .vmem S1x128x64 .f32) (harg2 : arg2.IsWhole) (arg3 : Memref sig .tc .vmem S1x4096x64 .f32) (harg3 : arg3.IsWhole) (arg4 : Memref sig .tc .vmem S1x4096x64 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S1x128x64 .f32) (harg7 : arg7.IsWhole) (arg8 : Memref sig .tc .vmem S1x128x4096 .f32) (harg8 : arg8.IsWhole) (arg9 : Memref sig .tc .vmem S1x128x4096 .f32) (harg9 : arg9.IsWhole)
    (x0 : Vec F S1x128x64 .f32) (x1 x2 : Vec F S1x4096x64 .f32) (x3 x4 : Vec F S1x1x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay1 (k1_pay4 x2) (k1_pay7 x0 x1 x3 x4)) ∗ owns (c : Thread nD τ) arg8 fullShare (k1_pay2 (k1_pay7 x0 x1 x3 x4)) ∗ owns (c : Thread nD τ) arg9 fullShare (k1_pay3 (k1_pay6 x0 x1))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  rw [← out1_5_eq x0 x1 x2 x3 x4, ← out1_6_eq x0 x1 x3 x4, ← out1_7_eq x0 x1]
  unfold out1_5 out1_6 out1_7
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover1_5 _)
  isplitl [H6]
  · iexists _; isplitr
    swap; · iexact H6
    ipureintro
    try dsimp only
    exact View.read_writes_eq_canon _ _ _ (cover1_t _)
  iexists _; isplitr
  swap; · iexact H7
  ipureintro
  try dsimp only
  exact View.read_writes_eq_canon _ _ _ (cover1_t _)

/-! ## The launch's proof data -/

/-- The proof data of the second launch on core `c`: the arrays as the launch finds them (`V`); after the body at point
    `t` each input's buffer at its block and each output's at its function of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (k1_pay4 (iblk1 V c 2 t)) (k1_pay7 (iblk1 V c 0 t) (iblk1 V c 1 t) (iblk1 V c 3 t) (iblk1 V c 4 t))
    | ⟨6, _⟩ => k1_pay2 (k1_pay7 (iblk1 V c 0 t) (iblk1 V c 1 t) (iblk1 V c 3 t) (iblk1 V c 4 t))
    | ⟨7, _⟩ => k1_pay3 (k1_pay6 (iblk1 V c 0 t) (iblk1 V c 1 t))
  Φ _ := Pipeline.ΦA spec1 c
  q _ := fullShare
  owed _ := 0

/-- The proof data's fields, projected. -/
theorem A_eq1 (c : Dev nD) (w : Fin cfg1.W) : (dat1 V c).A w = V c (Pipeline.arrRef spec1 w) := by
  dsimp only [dat1]
theorem Phi1 (c : Dev nD) (t : Fin (cfg1.N + 1)) : (dat1 V c).Φ t = Pipeline.ΦA spec1 c := by
  dsimp only [dat1]
theorem q1 (c : Dev nD) (w : Fin cfg1.W) : (dat1 V c).q w = fullShare := by
  dsimp only [dat1]
theorem owed1 (c : Dev nD) (t : Fin (cfg1.N + 1)) : (dat1 V c).owed t = 0 := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay1 (k1_pay4 (iblk1 V c 2 t)) (k1_pay7 (iblk1 V c 0 t) (iblk1 V c 1 t) (iblk1 V c 3 t) (iblk1 V c 4 t)) := by dsimp only [dat1]
theorem after1_6 (c : Dev nD) (t : Fin cfg1.N) : (dat1 V c).after 6 t = k1_pay2 (k1_pay7 (iblk1 V c 0 t) (iblk1 V c 1 t) (iblk1 V c 3 t) (iblk1 V c 4 t)) := by dsimp only [dat1]
theorem after1_7 (c : Dev nD) (t : Fin cfg1.N) : (dat1 V c).after 7 t = k1_pay3 (k1_pay6 (iblk1 V c 0 t) (iblk1 V c 1 t)) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the inputs' memrefs hold their blocks, so the kernel's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.H.R1

end
-- ==== Proof.KIRun.lean ====
/-
  The run of @main over its two launches, from ANY proof data of the two that meet the interface stated as this
  module's section variables: the buffers' contents at the boundaries between the launches (a fold from the launch
  memory: a launch leaves its windows' arrays at what its write-backs fold to and every other buffer as it found it),
  the input arrays of the second launch read back through the fold, each launch as a segment over the thread state
  "every unscoped buffer at the boundary's contents, the generator register at some state, nothing owed", and the
  launch theorem over the two segments: every weakly fair execution terminates, and the final memory holds every
  unscoped buffer at the last boundary's contents.
-/
import proofs.«159045_j72310069395864_2_alg».proof.Proof.KIDefs

set_option maxRecDepth 16384

noncomputable section

namespace Cert.KernelIdeal.H.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The interface: the two launches' proof data, at any entry contents

  Per launch, proof data at every entry contents `V` whose arrays are `V`'s, held whole, owing nothing, with the body
  obligation; the first launch's invariant reached from the class's at the first point and giving it back at the
  last (it carries the two running statistics in between); the second launch's invariant the class's throughout; and
  no bound on the pairs the core's waits have recorded when a launch is entered. -/

variable (d0 : Entry F → (c : Dev nD) → Pipeline.Dat τ (Elt F) Unit ℕ (UR sig nD τ) ℕ cfg0 c)
         (d1 : Entry F → (c : Dev nD) → Pipeline.Dat τ (Elt F) Unit ℕ (UR sig nD τ) ℕ cfg1 c)
         (hA0 : ∀ V c w, (d0 V c).A w = V c (Pipeline.arrRef spec0 w)) (hA1 : ∀ V c w, (d1 V c).A w = V c (Pipeline.arrRef spec1 w))
         (hq0 : ∀ V c w, (d0 V c).q w = fullShare) (hq1 : ∀ V c w, (d1 V c).q w = fullShare)
         (ho0 : ∀ V c t, (d0 V c).owed t = 0) (ho1 : ∀ V c t, (d1 V c).owed t = 0)
         (hb0 : ∀ V c, Pipeline.BodyObligation (d0 V c) (defs₀ (F := F)) Variants.none () Set.univ)
         (hb1 : ∀ V c, Pipeline.BodyObligation (d1 V c) (defs₀ (F := F)) Variants.none () Set.univ)
         (hin0 : ∀ V c, Pipeline.ΦA spec0 c ⊢ (d0 V c).Φ 0) (hout0 : ∀ V c, (d0 V c).Φ (Fin.last cfg0.N) ⊢ Pipeline.ΦA spec0 c)
         (hΦ1 : ∀ V c t, (d1 V c).Φ t = Pipeline.ΦA spec1 c)
         (hr0 : ∀ V c, (d0 V c).recorded 0 = Set.univ) (hr1 : ∀ V c, (d1 V c).recorded 0 = Set.univ)

variable (m : (ℓ : Loc nD τ sig) → Buf (Elt F) ℓ)

/-! ## The buffer contents at each boundary: a fold through @main -/

/-- Core `c`'s buffers at launch (the first launch's entry: @main has no host operation). -/
abbrev W0 : Dev nD → Valuation τ sig (Elt F) := fun c b => m ((c : Dev nD), b)
/-- The same read at the TensorCore's references (what the first launch's proof data take). -/
abbrev V1 : Entry F := fun c b => W0 m c (Proc.devRef .tc b)
/-- At the first launch's exit: its arrays at what the pipeline leaves (the inputs as entered, each output's
    write-backs folded), every other buffer as entered. -/
def W2 (c : Dev nD) : Valuation τ sig (Elt F) :=
  Pipeline.withArrays spec0 c (W0 m c) fun w => (d0 (V1 m) c).arrAt w cfg0.N
theorem W2_arr (c : Dev nD) (w : Fin cfg0.W) :
    W2 d0 m c (Proc.devRef .tc (Pipeline.arrRef spec0 w)) = (d0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 d0 m c (Proc.devRef .tc b) = m ((c : Thread nD τ).loc b) := by
  unfold W2; exact Pipeline.withArrays_of_ne spec0 c _ _ b hb
/-- The same read at the TensorCore's references (the second launch's entry contents). -/
abbrev V2 : Entry F := fun c b => W2 d0 m c (Proc.devRef .tc b)
theorem hF0 (c : Dev nD) (w : Fin cfg0.W) : (d0 (V1 m) c).arrAt w cfg0.N = V2 d0 m c (Pipeline.arrRef spec0 w) :=
  (W2_arr d0 m c w).symm
theorem hrest0 (c : Dev nD) : ∀ b, b ∉ Finset.univ.image (Pipeline.arrRef spec0) → V2 d0 m c b = V1 m c b :=
  fun b hb => W2_of_ne d0 m c b fun w e => hb (Finset.mem_image.mpr ⟨w, Finset.mem_univ _, e⟩)

/-- At the second launch's exit: its arrays at what the pipeline leaves, every other buffer as entered. -/
def W4 (c : Dev nD) : Valuation τ sig (Elt F) :=
  Pipeline.withArrays spec1 c (W2 d0 m c) fun w => (d1 (V2 d0 m) c).arrAt w cfg1.N
theorem W4_arr (c : Dev nD) (w : Fin cfg1.W) :
    W4 d0 d1 m c (Proc.devRef .tc (Pipeline.arrRef spec1 w)) = (d1 (V2 d0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 d0 d1 m c (Proc.devRef .tc b) = W2 d0 m c (Proc.devRef .tc b) := by
  unfold W4; exact Pipeline.withArrays_of_ne spec1 c _ _ b hb
/-- The same read at the TensorCore's references (the second launch's exit contents). -/
abbrev V4 : Entry F := fun c b => W4 d0 d1 m c (Proc.devRef .tc b)
theorem hF1 (c : Dev nD) (w : Fin cfg1.W) : (d1 (V2 d0 m) c).arrAt w cfg1.N = V4 d0 d1 m c (Pipeline.arrRef spec1 w) :=
  (W4_arr d0 d1 m c w).symm
theorem hrest1 (c : Dev nD) : ∀ b, b ∉ Finset.univ.image (Pipeline.arrRef spec1) → V4 d0 d1 m c b = V2 d0 m c b :=
  fun b hb => W4_of_ne d0 d1 m c b fun w e => hb (Finset.mem_image.mpr ⟨w, Finset.mem_univ _, e⟩)

/-! ### What the second launch finds in its five input arrays: the three arguments as launched (the first launch
    reads two of them through input windows and bypasses the third), the two column statistics as the first left them -/

include hA0 in
theorem V2_arg0 (c : Dev nD) : V2 d0 m c main_arg0 = m ((c : Thread nD τ).loc main_arg0) :=
  (W2_arr d0 m c 0).trans (((d0 (V1 m) c).arrAt_in 0 rfl _).trans (hA0 (V1 m) c 0))
include hA0 in
theorem V2_arg1 (c : Dev nD) : V2 d0 m c main_arg1 = m ((c : Thread nD τ).loc main_arg1) :=
  (W2_arr d0 m c 1).trans (((d0 (V1 m) c).arrAt_in 1 rfl _).trans (hA0 (V1 m) c 1))
theorem V2_arg2 (c : Dev nD) : V2 d0 m c main_arg2 = m ((c : Thread nD τ).loc main_arg2) :=
  W2_of_ne d0 m c main_arg2 (by decide)
theorem V2_v0_0 (c : Dev nD) : V2 d0 m c main_v0_0 = (d0 (V1 m) c).arrAt 2 cfg0.N := W2_arr d0 m c 2
theorem V2_v0_1 (c : Dev nD) : V2 d0 m c main_v0_1 = (d0 (V1 m) c).arrAt 3 cfg0.N := W2_arr d0 m c 3

/-! ### The arguments end as launched: the second launch reads each through an input window -/

include hA0 hA1 in
theorem W4_main_arg0 (c : Dev nD) : W4 d0 d1 m c (Proc.devRef .tc main_arg0) = m ((c : Thread nD τ).loc main_arg0) :=
  calc W4 d0 d1 m c (Proc.devRef .tc main_arg0)
    _ = V2 d0 m c main_arg0 := (W4_arr d0 d1 m c 0).trans (((d1 (V2 d0 m) c).arrAt_in 0 rfl _).trans (hA1 (V2 d0 m) c 0))
    _ = m ((c : Thread nD τ).loc main_arg0) := V2_arg0 d0 hA0 m c
include hA0 hA1 in
theorem W4_main_arg1 (c : Dev nD) : W4 d0 d1 m c (Proc.devRef .tc main_arg1) = m ((c : Thread nD τ).loc main_arg1) :=
  calc W4 d0 d1 m c (Proc.devRef .tc main_arg1)
    _ = V2 d0 m c main_arg1 := (W4_arr d0 d1 m c 1).trans (((d1 (V2 d0 m) c).arrAt_in 1 rfl _).trans (hA1 (V2 d0 m) c 1))
    _ = m ((c : Thread nD τ).loc main_arg1) := V2_arg1 d0 hA0 m c
include hA1 in
theorem W4_main_arg2 (c : Dev nD) : W4 d0 d1 m c (Proc.devRef .tc main_arg2) = m ((c : Thread nD τ).loc main_arg2) :=
  calc W4 d0 d1 m c (Proc.devRef .tc main_arg2)
    _ = V2 d0 m c main_arg2 := (W4_arr d0 d1 m c 2).trans (((d1 (V2 d0 m) c).arrAt_in 2 rfl _).trans (hA1 (V2 d0 m) c 2))
    _ = m ((c : Thread nD τ).loc main_arg2) := V2_arg2 d0 m c

/-! ## The proof data family and the thread state -/

/-- The prefetched tables' admissible contents: no pipeline has a table. -/
abbrev adm : (p : Fin 2) → (pcfgs (F := F) p).Adm := fun p => (cfgs p).toPCfg_adm
/-- Every pipeline's proof data, each at its launch's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => d0 (V1 m) c
  | ⟨1, _⟩ => fun c => d1 (V2 d0 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 d0 d1 m c) ∗ ∃ r, prngReg c r)

/-! ## The launches as segments -/

set_option backward.isDefEq.respectTransparency.types false in
/-- The FIRST LAUNCH over the thread state: entered from every unscoped buffer at the launch memory, left at `W2`. Its
    arrays split out of the unscoped buffers and put back at the exit contents; the generator register and the scoped
    rest into the class invariant, from which the launch's own invariant starts (`hin0`) and to which it returns
    (`hout0`); nothing owed; no semaphore of the kernel's own. -/
def reg0 : Pipeline.RegionSeg (pcfgs (F := F)) adm (pdats d0 d1 m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun c t => ho0 (V1 m) c t
  pre c := iprop(StableHlo.held (c : Thread nD τ) (Pipeline.ucRefs τ sig) (W0 m c) ∗ R c)
  post c := iprop(StableHlo.held (c : Thread nD τ) (Pipeline.ucRefs τ sig) (W2 d0 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hO : (pdats d0 d1 m 0 c).owed 0 = 0 := ho0 (V1 m) c 0
    have hR : (pdats d0 d1 m 0 c).recorded 0 = Set.univ := hr0 (V1 m) c
    have hsplit := Pipeline.arrays_of_unscopedBufs (p := 0) (pcfgs (F := F)) adm (pdats d0 d1 m) launch0.win launch0.arr_whole c
      ((pdats d0 d1 m 0 c).share_full fun w => hq0 (V1 m) c w) (V1 m c) fun w => hA0 (V1 m) c w
    rw [Pipeline.unscopedBufs_held] at hsplit
    unfold Pipeline.Dat.owesAt Pipeline.owesWithin Pipeline.Dat.bound
    rw [hO, hR]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats d0 d1 m) ((pdats d0 d1 m 0 c).share_full fun w => hq0 (V1 m) c w)
      (V1 m c) (V2 d0 m c) ((pdats d0 d1 m 0 c).arrAt · cfg0.N) (hF0 d0 m c) (hrest0 d0 m c)
    rw [Pipeline.unscopedBufs_held] at hjoin
    have hO : (pdats d0 d1 m 0 c).owed (Fin.last (Pipeline.pin (pcfgs (F := F)) adm 0).N) = 0 := ho0 (V1 m) c _
    unfold Pipeline.Dat.owesAt Pipeline.owesWithin
    rw [hO]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
/-- The SECOND LAUNCH over the thread state: entered from every unscoped buffer at `W2`, left at `W4` (what the launch
    reads at the end). Its invariant is the class's at every point (`hΦ1`). -/
def reg1 : Pipeline.RegionSeg (pcfgs (F := F)) adm (pdats d0 d1 m) () defs₀ 𝒱₀ L lv 1 where
  win := launch1.win.to₀
  block_pos := launch1.block_pos
  stage_whole := launch1.stage_whole
  K := PEmpty
  osem k := k.elim
  ho := Pipeline.OwnSemFacts.none _
  hbody c := (hb1 (V2 d0 m) c).loose
  hwaits := Pipeline.hwaits_of_owed_zero _ _ _ _ L lv 1 fun c t => ho1 (V2 d0 m) c t
  pre c := iprop(StableHlo.held (c : Thread nD τ) (Pipeline.ucRefs τ sig) (W2 d0 m c) ∗ R c)
  post c := iprop(Tₙ d0 d1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 d0 m c)
  hentry c := by
    rw [Pipeline.ownSems0_none]
    have hO : (pdats d0 d1 m 1 c).owed 0 = 0 := ho1 (V2 d0 m) c 0
    have hR : (pdats d0 d1 m 1 c).recorded 0 = Set.univ := hr1 (V2 d0 m) c
    have hsplit := Pipeline.arrays_of_unscopedBufs (p := 1) (pcfgs (F := F)) adm (pdats d0 d1 m) launch1.win launch1.arr_whole c
      ((pdats d0 d1 m 1 c).share_full fun w => hq1 (V2 d0 m) c w) (V2 d0 m c) fun w => hA1 (V2 d0 m) c w
    rw [Pipeline.unscopedBufs_held] at hsplit
    unfold Pipeline.Dat.owesAt Pipeline.owesWithin Pipeline.Dat.bound
    rw [hO, hR]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [show (pdats d0 d1 m 1 c).Φ 0 = Pipeline.ΦA spec1 c from hΦ1 (V2 d0 m) c 0]; unfold Pipeline.ΦA
    iintro ⟨Hp, -, Hr⟩
    isplitl [Hr]; · iexact Hr
    iexact Hp
  hout c := by
    rw [Pipeline.ownSems0_none, show (pdats d0 d1 m 1 c).Φ (Fin.last _) = Pipeline.ΦA spec1 c from hΦ1 (V2 d0 m) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats d0 d1 m) ((pdats d0 d1 m 1 c).share_full fun w => hq1 (V2 d0 m) c w)
      (V2 d0 m c) (V4 d0 d1 m c) ((pdats d0 d1 m 1 c).arrAt · cfg1.N) (hF1 d0 d1 m c) (hrest1 d0 d1 m c)
    rw [Pipeline.unscopedBufs_held] at hjoin
    have hO : (pdats d0 d1 m 1 c).owed (Fin.last (Pipeline.pin (pcfgs (F := F)) adm 1).N) = 0 := ho1 (V2 d0 m) c _
    unfold Pipeline.Dat.owesAt Pipeline.owesWithin
    rw [hO]
    iintro ⟨Ha, HO, HY, Hrest⟩
    imodintro
    isplitl [Ha Hrest HY]
    · isplitl [Ha Hrest]
      · iapply hjoin; isplitl [Ha] <;> iassumption
      iexact HY
    icases HO with ⟨%W, -, HO⟩; iexists W; iexact HO

/-! ## @main as segments, and the launch -/

/-- @main's two segments in order: a region per pallas_call, nothing between them. -/
abbrev segs : List (Pipeline.Seg (pcfgs (F := F)) adm (pdats d0 d1 m) () defs₀ 𝒱₀ L lv) :=
  [ .region (reg0 d0 d1 hA0 hq0 ho0 hb0 hin0 hout0 hr0 m),
    .region (reg1 d0 d1 hA1 hq1 ho1 hb1 hΦ1 hr1 m) ]
/-- @main IS the run of the segments. -/
theorem main_run (c : Dev nD) : main (F := F) c = Pipeline.Seg.run (segs d0 d1 hA0 hA1 hq0 hq1 ho0 ho1 hb0 hb1 hin0 hout0 hΦ1 hr0 hr1 m) :=
  (main_chain c).trans (by chain_rfl)

include hA0 hA1 hq0 hq1 ho0 ho1 hb0 hb1 hin0 hout0 hΦ1 hr0 hr1 in
set_option backward.isDefEq.respectTransparency.types false in
/-- THE RUN: at the compiled mesh, from any memory with zero counters, every weakly fair execution of @main on the
    TensorCores terminates, nothing faulting, and every final state satisfies any `Q` that follows from its holding
    every unscoped buffer at the last boundary's contents `W4`: the launch theorem over the two segments, the last
    thread state read against the final state. -/
theorem run_post {Q : PUnit × MemSt nD τ sig (Elt F) → Prop} (ρ : Dev nD → PrngReg)
    (hQ : ∀ s : MemSt nD τ sig (Elt F), (∀ c : Dev nD, ∀ b ∈ Pipeline.ucRefs τ sig, s.mem (((c : Thread nD τ)).1, b) = W4 d0 d1 m c b) → Q (⟨⟩, s)) :
    θ_run defs (onTc (τ := τ) (main (F := F))) ⟨m, fun _ => 0, ρ⟩ Q :=
  Pipeline.θ_run_regions_kit (pcfgs (F := F)) adm (pdats d0 d1 m) () cellOf_inj emb₁ defs₀ 𝒱₀ L lv m ρ main
    (segs d0 d1 hA0 hA1 hq0 hq1 ho0 ho1 hb0 hb1 hin0 hout0 hΦ1 hr0 hr1 m)
    (fun c Q => by rw [main_run d0 d1 hA0 hA1 hq0 hq1 ho0 ho1 hb0 hb1 hin0 hout0 hΦ1 hr0 hr1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ d0 d1 m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 d0 d1 m c b)
    (hfin := fun c s' => by
      iintro ⟨⟨Hh, -⟩, HSI⟩
      unfold StableHlo.held
      imodintro
      iapply (pointsTo_read_all (Pipeline.ucRefs τ sig) (fun b => (((c : Thread nD τ)).1, b)) (W4 d0 d1 m c) s')
      isplitl [Hh] <;> iassumption)
    (hQ := hQ)

include hA0 hA1 hq0 hq1 ho0 ho1 hb0 hb1 hin0 hout0 hΦ1 hr0 hr1 in
/-- The run with the post "every unscoped buffer at the last boundary's contents". -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 d0 d1 m c b) :=
  run_post d0 d1 hA0 hA1 hq0 hq1 ho0 ho1 hb0 hb1 hin0 hout0 hΦ1 hr0 hr1 m ρ fun s h => h

include hA0 hA1 hq0 hq1 ho0 ho1 hb0 hb1 hin0 hout0 hΦ1 hr0 hr1 in
/-- The run with the post "the three argument arrays end as launched". -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post d0 d1 hA0 hA1 hq0 hq1 ho0 ho1 hb0 hb1 hin0 hout0 hΦ1 hr0 hr1 m ρ fun s h c =>
    ⟨(h c _ (mem_uc main_arg0 (by decide))).trans (W4_main_arg0 d0 d1 hA0 hA1 m c),
     (h c _ (mem_uc main_arg1 (by decide))).trans (W4_main_arg1 d0 d1 hA0 hA1 m c),
     (h c _ (mem_uc main_arg2 (by decide))).trans (W4_main_arg2 d0 d1 hA1 m c)⟩

/-- info: 'Cert.KernelIdeal.H.Run.run_post' depends on axioms: [propext, Classical.choice, Quot.sound] -/
#guard_msgs in #print axioms run_post

end Cert.KernelIdeal.H.Run

end
-- ==== Proof.KIFrame.lean ====
/-
  The run of the program over its two launches, at the two launches' own proof data, and its frame: every weakly fair
  execution terminates without a fault, every unscoped buffer ends at the contents the second launch leaves, and the three
  argument arrays end as launched (each launch only reads them).
-/
import proofs.«159045_j72310069395864_2_alg».proof.Proof.KIR0
import proofs.«159045_j72310069395864_2_alg».proof.Proof.KIR1
import proofs.«159045_j72310069395864_2_alg».proof.Proof.KIRun

set_option maxRecDepth 16384

noncomputable section

namespace Cert.KernelIdeal.H.Frame

open Cert.KernelIdeal Cert.KernelIdeal.Gen Cert.KernelIdeal.H
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first launch's proof data, at any entry contents. -/
abbrev d0 : Entry F → (c : Dev nD) → Dat τ (Elt F) Unit ℕ (UR sig nD τ) ℕ cfg0 c := fun V c => R0.dat0 V c
/-- The second launch's proof data, at any entry contents. -/
abbrev d1 : Entry F → (c : Dev nD) → Dat τ (Elt F) Unit ℕ (UR sig nD τ) ℕ cfg1 c := fun V c => R1.dat1 V c

theorem hA0 (V : Entry F) (c : Dev nD) (w : Fin cfg0.W) : (d0 V c).A w = V c (Pipeline.arrRef spec0 w) := R0.A_eq0 V c w
theorem hA1 (V : Entry F) (c : Dev nD) (w : Fin cfg1.W) : (d1 V c).A w = V c (Pipeline.arrRef spec1 w) := R1.A_eq1 V c w

variable (m : (ℓ : Loc nD τ sig) → Buf (Elt F) ℓ) (ρ : Dev nD → PrngReg)

/-- THE RUN at the two launches' proof data: every weakly fair execution of the program terminates, nothing faulting, and
    the final memory holds every unscoped buffer at the contents the second launch leaves. -/
theorem run : θ_run defs (onTc (τ := τ) (main (F := F))) ⟨m, fun _ => 0, ρ⟩ (fun r => ∀ c : Dev nD,
      ∀ b ∈ Pipeline.ucRefs τ sig, r.2.mem (((c : Thread nD τ)).1, b) = Run.W4 (d0 (F := F)) d1 m c b) :=
  Run.run_all d0 d1 hA0 hA1 (fun V c w => R0.q0 V c w) (fun V c w => R1.q1 V c w)
    (fun V c t => R0.owed0 V c t) (fun V c t => R1.owed1 V c t)
    (fun V c => R0.body_obligation0 V c) (fun V c => R1.body_obligation1 V c)
    (fun V c => R0.hin0 V c) (fun V c => R0.hout0 V c) (fun V c t => R1.Phi1 V c t)
    (fun _ _ => rfl) (fun _ _ => rfl) m ρ

/-- THE FRAME: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (Run.mem_uc main_arg0 (by decide))).trans (Run.W4_main_arg0 d0 d1 hA0 hA1 m c),
       (h c _ (Run.mem_uc main_arg1 (by decide))).trans (Run.W4_main_arg1 d0 d1 hA0 hA1 m c),
       (h c _ (Run.mem_uc main_arg2 (by decide))).trans (Run.W4_main_arg2 d0 d1 hA1 m c)⟩)
    (run m ρ)

end Cert.KernelIdeal.H.Frame

end
-- ==== Proof.Spec.lean ====
/-
  The common specification of both programs' three results, over the extended reals.

  From queries `q`, keys `k` and values `v` (each indexed by batch, position, feature) the scaled scores are
  `s b i j = (∑ d, q b i d · k b j d) · (1/8)`.  The results are
  * the row-wise log-softmax of `s`:  `s b i j − max_j s b i j − log ∑_j exp (s b i j − max_j s b i j)`;
  * the hard mask of the row maxima of `2·s b i j − cmax b j − lcs b j`, where `cmax b j = max_i s b i j` is the
    column maximum and `lcs b j = log ∑_i exp (s b i j − cmax b j)` the logarithm of the column's shifted sum of exponentials;
  * the product of that mask with `v`.
  Maxima are suprema over the whole index range in the lattice of extended reals (bottom is −∞).
-/
import Idealize.ShloMosaic.PureOps.Ideal
import Idealize.ShloMosaic.Lib.ValueIdx

noncomputable section

namespace Cert.Spec

open Idealize.ShloMosaic Idealize.ShloMosaic.ValueIdx

/-- An array of rank three read at three coordinates. -/
def cur3 {n0 n1 n2 : Nat} (x : (⟨3, ![n0, n1, n2]⟩ : Shape).Idx → EReal) : Fin n0 → Fin n1 → Fin n2 → EReal :=
  fun a b c => x (ix3 a b c)

/-- A function of three coordinates as an array of rank three. -/
def unc3 {n0 n1 n2 : Nat} (f : Fin n0 → Fin n1 → Fin n2 → EReal) : (⟨3, ![n0, n1, n2]⟩ : Shape).Idx → EReal :=
  fun j => f (j 0) (j 1) (j 2)

theorem unc3_ix3 {n0 n1 n2 : Nat} (f : Fin n0 → Fin n1 → Fin n2 → EReal) (a : Fin n0) (b : Fin n1) (c : Fin n2) :
    unc3 f (ix3 a b c) = f a b c := rfl

theorem cur3_unc3 {n0 n1 n2 : Nat} (f : Fin n0 → Fin n1 → Fin n2 → EReal) : cur3 (unc3 f) = f := rfl

theorem unc3_cur3 {n0 n1 n2 : Nat} (x : (⟨3, ![n0, n1, n2]⟩ : Shape).Idx → EReal) : unc3 (cur3 x) = x := by
  funext j; exact congrArg x (eq_ix3 j).symm

/-- The scale 1/8, as the binary word both programs' arithmetic meets it. -/
abbrev eighth : EReal := Ideal.ofBits .f32 0x3E000000#32
/-- The factor 2 of the score. -/
abbrev two : EReal := Ideal.ofBits .f32 0x40000000#32

/-- The scaled scores. -/
def sco (q k : Fin 4 → Fin 4096 → Fin 64 → EReal) (b : Fin 4) (i j : Fin 4096) : EReal :=
  (∑ d : Fin 64, q b i d * k b j d) * eighth

section
variable (s : Fin 4 → Fin 4096 → Fin 4096 → EReal)

/-- Row maximum. -/
def rmax (b : Fin 4) (i : Fin 4096) : EReal := Finset.univ.sup fun j : Fin 4096 => s b i j
/-- Row sum of shifted exponentials. -/
def rsum (b : Fin 4) (i : Fin 4096) : EReal := ∑ j : Fin 4096, Ideal.exp (s b i j - rmax s b i)
/-- Row-wise log-softmax. -/
def logattn (b : Fin 4) (i j : Fin 4096) : EReal := s b i j - rmax s b i - Ideal.log (rsum s b i)
/-- Column maximum. -/
def cmax (b : Fin 4) (j : Fin 4096) : EReal := Finset.univ.sup fun i : Fin 4096 => s b i j
/-- Column sum of shifted exponentials. -/
def csum (b : Fin 4) (j : Fin 4096) : EReal := ∑ i : Fin 4096, Ideal.exp (s b i j - cmax s b j)
/-- Logarithm of the column sum. -/
def lcs (b : Fin 4) (j : Fin 4096) : EReal := Ideal.log (csum s b j)

/-- The score from given column statistics. -/
def scoreG (cm lc : Fin 4 → Fin 4096 → EReal) (b : Fin 4) (i j : Fin 4096) : EReal :=
  two * s b i j - cm b j - lc b j
/-- The hard mask of a row's maximal scores, from given column statistics. -/
def maskG (cm lc : Fin 4 → Fin 4096 → EReal) (b : Fin 4) (i j : Fin 4096) : EReal :=
  if scoreG s cm lc b i j = Finset.univ.sup (fun j' : Fin 4096 => scoreG s cm lc b i j') then 1 else 0
/-- The mask applied to the values, from given column statistics. -/
def outG (cm lc : Fin 4 → Fin 4096 → EReal) (v : Fin 4 → Fin 4096 → Fin 64 → EReal) (b : Fin 4) (i : Fin 4096) (d : Fin 64) : EReal :=
  ∑ j : Fin 4096, maskG s cm lc b i j * v b j d

/-- The hard mask, with the column statistics of `s` itself. -/
def mask : Fin 4 → Fin 4096 → Fin 4096 → EReal := maskG s (cmax s) (lcs s)
/-- The mask applied to the values. -/
def outp (v : Fin 4 → Fin 4096 → Fin 64 → EReal) : Fin 4 → Fin 4096 → Fin 64 → EReal := outG s (cmax s) (lcs s) v
end

/-! ## The three results and the two intermediate arrays, as arrays -/

abbrev Sqkv : Shape := ⟨3, ![4, 4096, 64]⟩
abbrev Sbig : Shape := ⟨3, ![4, 4096, 4096]⟩
abbrev Scol : Shape := ⟨3, ![4, 1, 4096]⟩

/-- The scores of two arrays. -/
def S (q k : Sqkv.Idx → EReal) : Fin 4 → Fin 4096 → Fin 4096 → EReal := sco (cur3 q) (cur3 k)

/-- Column maxima as the array of shape [4, 1, 4096]. -/
def Gcmax (q k : Sqkv.Idx → EReal) : Scol.Idx → EReal := unc3 fun b _ j => cmax (S q k) b j
/-- Logarithms of the column sums as the array of shape [4, 1, 4096]. -/
def Glcs (q k : Sqkv.Idx → EReal) : Scol.Idx → EReal := unc3 fun b _ j => lcs (S q k) b j

/-- The column statistics read back from an array of shape [4, 1, 4096]. -/
def colOf (x : Scol.Idx → EReal) : Fin 4 → Fin 4096 → EReal := fun b j => x (ix3 b 0 j)

/-- The second stage's three results from the arguments and ANY column-statistics arrays. -/
def G1out (q k v : Sqkv.Idx → EReal) (cm lc : Scol.Idx → EReal) : Sqkv.Idx → EReal :=
  unc3 (outG (S q k) (colOf cm) (colOf lc) (cur3 v))
def G1mask (q k : Sqkv.Idx → EReal) (cm lc : Scol.Idx → EReal) : Sbig.Idx → EReal :=
  unc3 (maskG (S q k) (colOf cm) (colOf lc))
def G1logattn (q k : Sqkv.Idx → EReal) : Sbig.Idx → EReal := unc3 (logattn (S q k))

/-- The three results. -/
def Gout (q k v : Sqkv.Idx → EReal) : Sqkv.Idx → EReal := unc3 (outp (S q k) (cur3 v))
def Gmask (q k : Sqkv.Idx → EReal) : Sbig.Idx → EReal := unc3 (mask (S q k))
def Glogattn (q k : Sqkv.Idx → EReal) : Sbig.Idx → EReal := unc3 (logattn (S q k))

theorem colOf_Gcmax (q k : Sqkv.Idx → EReal) : colOf (Gcmax q k) = cmax (S q k) := rfl
theorem colOf_Glcs (q k : Sqkv.Idx → EReal) : colOf (Glcs q k) = lcs (S q k) := rfl

theorem G1out_stats (q k v : Sqkv.Idx → EReal) : G1out q k v (Gcmax q k) (Glcs q k) = Gout q k v := rfl
theorem G1mask_stats (q k : Sqkv.Idx → EReal) : G1mask q k (Gcmax q k) (Glcs q k) = Gmask q k := rfl

/-- Every entry of an array is a real number. -/
def Finite {sh : Shape} (x : sh.Idx → EReal) : Prop := ∀ i, ∃ r : ℝ, x i = (r : EReal)

end Cert.Spec

end
-- ==== Proof.KIVal0Pay.lean ====
/-
  The arithmetic of one step of the column statistics, read entry by entry.

  At one tile the step forms the tile's scaled scores  S r j = (∑ d, x r d · y j d) · (1/8)  (r a row of the tile, j a
  column), takes the new running column maximum  M j = max (m j) (max_r S r j)  and the new running column sum
  L j = exp (m j − M j) · l j + ∑_r exp (S r j − M j).  The stored results are the running maximum and the logarithm
  of the running sum, each laid out with one more unit axis.  Every statement below reads one of these vectors at an
  index given by its coordinates.
-/
import proofs.«159045_j72310069395864_2_alg».proof.Proof.Gen.KernelIdeal.Skeleton
import proofs.«159045_j72310069395864_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.H.Val0

open Cert.KernelIdeal Cert.KernelIdeal.Gen
open Idealize.ShloMosaic Idealize.ShloMosaic.ValueIdx

/-- The contraction of the tile's scores: rows of the query tile against rows of the keys, over the feature axis. -/
abbrev D5 : DotDims S256x64 S4096x64 S256x4096 := dot_S256x64_S4096x64_S256x4096_1_1_0_0_n_n

theorem lhs5_0 (i : S256x4096.Idx) (q : D5.contr.Idx) : (D5.lhsIdx i q 0).val = (i 0).val := by
  unfold DotDims.lhsIdx
  rw [dif_neg (show ¬(0 : Fin S256x64.rank) ∈ D5.lhsBatch by decide), dif_pos (show (0 : Fin S256x64.rank) ∈ D5.lhsNonContracting by decide)]
  rfl
theorem lhs5_1 (i : S256x4096.Idx) (q : D5.contr.Idx) : (D5.lhsIdx i q 1).val = (q ⟨0, by decide⟩).val :=
  D5.lhsIdx_val_of_single rfl i q
theorem rhs5_0 (i : S256x4096.Idx) (q : D5.contr.Idx) : (D5.rhsIdx i q 0).val = (i 1).val := by
  unfold DotDims.rhsIdx
  rw [dif_neg (show ¬(0 : Fin S4096x64.rank) ∈ D5.rhsBatch by decide), dif_pos (show (0 : Fin S4096x64.rank) ∈ D5.rhsNonContracting by decide)]
  rfl
theorem rhs5_1 (i : S256x4096.Idx) (q : D5.contr.Idx) : (D5.rhsIdx i q 1).val = (q ⟨0, by decide⟩).val :=
  D5.rhsIdx_val_of_single rfl i q

/-- The tile's scaled scores at row r and column j. -/
theorem pay5_apply (x0 : Vec Ideal S1x256x64 .f32) (x1 : Vec Ideal S1x4096x64 .f32) (r : Fin 256) (j : Fin 4096) :
    k0_pay5 (F := Ideal) x0 x1 (ix2 r j)
      = (∑ d : Fin 64, x0 (ix3 (0 : Fin 1) r d) * x1 (ix3 (0 : Fin 1) j d)) * Cert.Spec.eighth := by
  unfold k0_pay5
  show FloatOps.matmul D5 (some .fp32) (shapeCast S256x64 x0 shapeCasts_S1x256x64_S256x64) (shapeCast S4096x64 x1 shapeCasts_S1x4096x64_S4096x64)
      (constant S256x4096 .f32 0x00000000#32) (ix2 r j) * Ideal.ofBits .f32 0x3E000000#32 = _
  refine congrArg (· * Cert.Spec.eighth) ?_
  refine (Ideal.matmul_constant_zero_apply D5 (some .fp32) _ _ (ix2 r j)).trans ?_
  rw [← Equiv.sum_comp (contrEquiv1 D5 64 rfl rfl).symm]
  refine Finset.sum_congr rfl fun k _ => ?_
  have hk := contrEquiv1_symm_val D5 64 rfl rfl k
  have el : D5.lhsIdx (ix2 r j) ((contrEquiv1 D5 64 rfl rfl).symm k) = ix2 r k := funext fun a => Fin.ext (by
    match a with
    | ⟨0, _⟩ => exact lhs5_0 _ _
    | ⟨1, _⟩ => exact (lhs5_1 _ _).trans hk)
  have er : D5.rhsIdx (ix2 r j) ((contrEquiv1 D5 64 rfl rfl).symm k) = ix2 j k := funext fun a => Fin.ext (by
    match a with
    | ⟨0, _⟩ => exact rhs5_0 _ _
    | ⟨1, _⟩ => exact (rhs5_1 _ _).trans hk)
  rw [el, er, shapeCast_1ab_ab_apply, shapeCast_1ab_ab_apply]

/-- The maximum over the tile's rows, as a fold of max from −∞, at a column. -/
theorem tilemax_apply (src : FVec Ideal S256x4096 .f32) (hφ : FKind.Formats .f32)
    (hacc : (0xFF800000#32 : BitVec 32) = FKind.maximumf.neutral .f32 hφ) (j : Fin 4096) :
    multiReduction .maximumf [0] S4096 src 0xFF800000#32 reduces_S256x4096_S4096 hφ hacc (ix1 j)
      = (Finset.univ : Finset (Fin 256)).fold max (Ideal.ofBits .f32 0xFF800000#32) fun r => src (ix2 r j) := by
  refine (Ideal.multiReduction_maximumf_single src 0xFF800000#32 reduces_S256x4096_S4096 hφ hacc (ix1 j)).trans ?_
  show (Finset.univ : Finset (Fin 256)).fold max (Ideal.ofBits .f32 0xFF800000#32) (fun r => src (reduces_S256x4096_S4096.lift (ix1 j) r)) = _
  have e : (fun r : Fin 256 => src (reduces_S256x4096_S4096.lift (ix1 j) r)) = fun r => src (ix2 r j) :=
    funext fun r => congrArg src (funext fun a => by
      match a with
      | ⟨0, _⟩ => rfl
      | ⟨1, _⟩ => rfl)
  exact congrArg (fun f : Fin 256 → EReal => (Finset.univ : Finset (Fin 256)).fold max (Ideal.ofBits .f32 0xFF800000#32) f) e

/-- The sum over the tile's rows at a column. -/
theorem tilesum_apply (src : FVec Ideal S256x4096 .f32) (hφ : FKind.Formats .f32)
    (hacc : (0x00000000#32 : BitVec 32) = FKind.add.neutral .f32 hφ) (j : Fin 4096) :
    multiReduction .add [0] S4096 src 0x00000000#32 reduces_S256x4096_S4096 hφ hacc (ix1 j)
      = ∑ r : Fin 256, src (ix2 r j) := by
  refine (Ideal.multiReduction_add_single src 0x00000000#32 reduces_S256x4096_S4096 hφ hacc (ix1 j)).trans ?_
  show ∑ r : Fin 256, src (reduces_S256x4096_S4096.lift (ix1 j) r) = _
  refine Finset.sum_congr rfl fun r _ => congrArg src (funext fun a => ?_)
  match a with
  | ⟨0, _⟩ => rfl
  | ⟨1, _⟩ => rfl
/-- The new running maximum at a column. -/
theorem pay6_apply (x0 : Vec Ideal S1x256x64 .f32) (x1 : Vec Ideal S1x4096x64 .f32) (m : Vec Ideal S1x4096 .f32) (j : Fin 4096) :
    k0_pay6 (F := Ideal) x0 x1 m (ix2 (0 : Fin 1) j)
      = max (m (ix2 (0 : Fin 1) j))
          ((Finset.univ : Finset (Fin 256)).fold max (Ideal.ofBits .f32 0xFF800000#32) fun r => k0_pay5 (F := Ideal) x0 x1 (ix2 r j)) := by
  unfold k0_pay6
  dsimp only
  refine (maximumf_apply _ _ _).trans ?_
  refine congrArg (max (m (ix2 (0 : Fin 1) j))) ?_
  refine (shapeCast_a_1a_apply _ shapeCasts_S4096_S1x4096 (0 : Fin 1) j).trans ?_
  exact tilemax_apply (k0_pay5 (F := Ideal) x0 x1) _ _ j

theorem pay8_apply (x0 : Vec Ideal S1x256x64 .f32) (x1 : Vec Ideal S1x4096x64 .f32) (m : Vec Ideal S1x4096 .f32) :
    k0_pay8 (F := Ideal) x0 x1 m = k0_pay6 (F := Ideal) x0 x1 m := by
  unfold k0_pay8
  exact shapeCast_self _ _
/-- The new running sum at a column. -/
theorem pay7_apply (x0 : Vec Ideal S1x256x64 .f32) (x1 : Vec Ideal S1x4096x64 .f32) (m m' l : Vec Ideal S1x4096 .f32) (j : Fin 4096) :
    k0_pay7 (F := Ideal) x0 x1 m m' l (ix2 (0 : Fin 1) j)
      = Ideal.exp (m' (ix2 (0 : Fin 1) j) - k0_pay6 (F := Ideal) x0 x1 m (ix2 (0 : Fin 1) j)) * l (ix2 (0 : Fin 1) j)
        + ∑ r : Fin 256, Ideal.exp (k0_pay5 (F := Ideal) x0 x1 (ix2 r j) - k0_pay6 (F := Ideal) x0 x1 m (ix2 (0 : Fin 1) j)) := by
  unfold k0_pay7
  dsimp only
  refine (congrFun (shapeCast_self _ _) _).trans ?_
  refine (addf_apply _ _ _).trans ?_
  refine congrArg₂ (· + ·) rfl ?_
  refine (shapeCast_a_1a_apply _ shapeCasts_S4096_S1x4096 (0 : Fin 1) j).trans ?_
  refine (tilesum_apply _ _ _ j).trans ?_
  refine Finset.sum_congr rfl fun r _ => ?_
  refine (congrArg Ideal.exp (subf_apply _ _ _)).trans ?_
  rw [broadcastTo_1b_ab_apply]

/-- The stored running maximum: one more unit axis. -/
theorem pay1_apply (m : Vec Ideal S1x4096 .f32) (j : Fin 4096) :
    k0_pay1 (F := Ideal) m (ix3 (0 : Fin 1) (0 : Fin 1) j) = m (ix2 (0 : Fin 1) j) := by
  unfold k0_pay1
  exact shapeCast_ab_1ab_apply m shapeCasts_S1x4096_S1x1x4096 (0 : Fin 1) (0 : Fin 1) j

/-- The stored logarithm of the running sum: one more unit axis. -/
theorem pay2_apply (l : Vec Ideal S1x4096 .f32) (j : Fin 4096) :
    k0_pay2 (F := Ideal) l (ix3 (0 : Fin 1) (0 : Fin 1) j) = Ideal.log (l (ix2 (0 : Fin 1) j)) := by
  unfold k0_pay2
  exact shapeCast_ab_1ab_apply _ shapeCasts_S1x4096_S1x1x4096 (0 : Fin 1) (0 : Fin 1) j

/-- The first tile's starting values: −∞ for the maximum, 0 for the sum. -/
theorem pay3_apply (i : S1x4096.Idx) : k0_pay3 (F := Ideal) i = Ideal.ofBits .f32 0xFF800000#32 := by
  unfold k0_pay3
  rw [shapeCast_self]
  rfl

theorem pay4_apply (i : S1x4096.Idx) : k0_pay4 (F := Ideal) i = Ideal.ofBits .f32 0x00000000#32 := by
  unfold k0_pay4
  rw [shapeCast_self]
  rfl

end Cert.KernelIdeal.H.Val0

end
-- ==== Proof.RefSpec.lean ====
/-
  The reference's arithmetic, spelt as its operations compute it over the extended reals: every maximum is taken
  against the initial value −∞ once more, every sum starts from 0, every quotient is the extended reals' division.
  From scores `s`: the row-wise softmax `smR s`, the column-wise softmax `smC s`, their product divided by the
  sharpening temperature `T`, the row-wise softmax of that, and the mask of the places where it attains its row maximum;
  beside it the row-wise log-softmax.
-/
import proofs.«159045_j72310069395864_2_alg».proof.Proof.Spec

noncomputable section

namespace Cert.RefSpec

open Idealize.ShloMosaic

abbrev Sc := Fin 4 → Fin 4096 → Fin 4096 → EReal

/-- A row's maximum, taken once more against −∞. -/
def rowMax (x : Sc) (b : Fin 4) (i : Fin 4096) : EReal := max ⊥ (Finset.univ.sup fun j : Fin 4096 => x b i j)
/-- A column's maximum, taken once more against −∞. -/
def colMax (x : Sc) (b : Fin 4) (j : Fin 4096) : EReal := max ⊥ (Finset.univ.sup fun i : Fin 4096 => x b i j)

/-- Softmax along a row. -/
def smR (x : Sc) : Sc := fun b i j =>
  Ideal.div (Ideal.exp (x b i j - rowMax x b i)) (0 + ∑ j' : Fin 4096, Ideal.exp (x b i j' - rowMax x b i))
/-- Softmax along a column. -/
def smC (x : Sc) : Sc := fun b i j =>
  Ideal.div (Ideal.exp (x b i j - colMax x b j)) (0 + ∑ i' : Fin 4096, Ideal.exp (x b i' j - colMax x b j))
/-- The product of the two softmaxes, divided by the temperature. -/
def sharp (T : EReal) (s : Sc) : Sc := fun b i j => Ideal.div (smR s b i j * smC s b i j) T
/-- The sharpened row-wise softmax. -/
def aR (T : EReal) (s : Sc) : Sc := smR (sharp T s)
/-- Where the sharpened softmax attains its row maximum (here the maximum is a plain supremum). -/
def maskR (T : EReal) (s : Sc) : Sc := fun b i j =>
  if aR T s b i j = Finset.univ.sup (fun j' : Fin 4096 => aR T s b i j') then 1 else 0
/-- Row-wise log-softmax. -/
def logattnR (s : Sc) : Sc := fun b i j =>
  (s b i j - rowMax s b i) - Ideal.log (0 + ∑ j' : Fin 4096, Ideal.exp (s b i j' - rowMax s b i))
/-- The mask applied to the values. -/
def outR (T : EReal) (s : Sc) (v : Fin 4 → Fin 4096 → Fin 64 → EReal) : Fin 4 → Fin 4096 → Fin 64 → EReal :=
  fun b i d => ∑ j : Fin 4096, maskR T s b i j * v b j d

/-- The scores as the reference scales them: the quotient by 8. -/
def scoR (q k : Fin 4 → Fin 4096 → Fin 64 → EReal) : Sc := fun b i j =>
  Ideal.div (∑ d : Fin 64, q b i d * k b j d) (Ideal.ofBits .f32 0x41000000#32)

/-- The sharpening temperature's word. -/
abbrev Tw : EReal := Ideal.ofBits .f32 0x3CCCCCCD#32

end Cert.RefSpec

end
-- ==== Proof.MathBasics.lean ====
/-
  Small facts used throughout: the real numbers that the programs' binary words denote, division by eight as
  multiplication by one eighth, the iterated maximum from −∞ as a supremum, and the reality of the scaled scores.
-/
import proofs.«159045_j72310069395864_2_alg».proof.Proof.Spec
import proofs.«159045_j72310069395864_2_alg».proof.Proof.RefSpec

noncomputable section

namespace Cert.MathH

open Idealize.ShloMosaic

/-- The word of −∞. -/
theorem ofBits_neg_inf : Ideal.ofBits .f32 0xFF800000#32 = (⊥ : EReal) := by
  simp [Ideal.ofBits, Ideal.ieee]

/-- The word of +∞. -/
theorem ofBits_pos_inf : Ideal.ofBits .f32 0x7F800000#32 = (⊤ : EReal) := by
  simp [Ideal.ofBits, Ideal.ieee]

/-- The word of zero. -/
theorem ofBits_zero : Ideal.ofBits .f32 0x00000000#32 = (0 : EReal) := by
  simp [Ideal.ofBits, Ideal.ieee]

/-- The word of one eighth. -/
theorem ofBits_eighth : Ideal.ofBits .f32 0x3E000000#32 = ((1/8 : ℝ) : EReal) := by
  simp [Ideal.ofBits, Ideal.ieee, -EReal.coe_mul]; norm_num

/-- The word of eight. -/
theorem ofBits_eight : Ideal.ofBits .f32 0x41000000#32 = ((8 : ℝ) : EReal) := by
  simp [Ideal.ofBits, Ideal.ieee, -EReal.coe_mul]; norm_num

/-- The word of two. -/
theorem ofBits_two : Ideal.ofBits .f32 0x40000000#32 = ((2 : ℝ) : EReal) := by
  simp [Ideal.ofBits, Ideal.ieee, -EReal.coe_mul]; norm_num

/-- The temperature's word denotes a positive real number. -/
theorem ofBits_temp : ∃ t : ℝ, 0 < t ∧ Ideal.ofBits .f32 0x3CCCCCCD#32 = (t : EReal) := by
  simp [Ideal.ofBits, Ideal.ieee, -EReal.coe_mul]

/-- Dividing by eight is multiplying by one eighth. -/
theorem div_eight (x : EReal) : Ideal.div x (Ideal.ofBits .f32 0x41000000#32) = x * Spec.eighth := by
  rw [ofBits_eight, Ideal.div_coe (by norm_num : (8 : ℝ) ≠ 0)]
  show x * ((1 / 8 : ℝ) : EReal) = x * Ideal.ofBits .f32 0x3E000000#32
  rw [ofBits_eighth]

/-- The reference's scaling of the scores is the specification's. -/
theorem scoR_eq (q k : Fin 4 → Fin 4096 → Fin 64 → EReal) : RefSpec.scoR q k = Spec.sco q k := by
  funext b i j
  exact div_eight _

/-- The maximum folded from −∞ over a whole index range is the supremum. -/
theorem fold_max_eq_sup {n : ℕ} (f : Fin n → EReal) :
    (Finset.univ : Finset (Fin n)).fold max ⊥ f = Finset.univ.sup f := by
  rw [Finset.sup_def, Finset.fold, Multiset.sup]

/-- A finite sum of real numbers is a real number. -/
theorem sum_real {ι : Type*} (t : Finset ι) (f : ι → EReal) (hf : ∀ i, ∃ r : ℝ, f i = r) :
    ∃ r : ℝ, ∑ i ∈ t, f i = r := by
  classical
  induction t using Finset.induction_on with
  | empty => exact ⟨0, by simp⟩
  | insert a t ha ih =>
    obtain ⟨r, hr⟩ := ih
    obtain ⟨x, hx⟩ := hf a
    exact ⟨x + r, by rw [Finset.sum_insert ha, hr, hx, EReal.coe_add]⟩

/-- The scaled scores of real queries and keys are real numbers. -/
theorem sco_real (q k : Fin 4 → Fin 4096 → Fin 64 → EReal) (hq : ∀ b i d, ∃ r : ℝ, q b i d = r)
    (hk : ∀ b i d, ∃ r : ℝ, k b i d = r) : ∀ b i j, ∃ r : ℝ, Spec.sco q k b i j = r := by
  intro b i j
  obtain ⟨r, hr⟩ := sum_real Finset.univ (fun d : Fin 64 => q b i d * k b j d) (fun d => by
    obtain ⟨x, hx⟩ := hq b i d
    obtain ⟨y, hy⟩ := hk b j d
    exact ⟨x * y, by rw [hx, hy, EReal.coe_mul]⟩)
  refine ⟨r * (1 / 8), ?_⟩
  show (∑ d : Fin 64, q b i d * k b j d) * Ideal.ofBits .f32 0x3E000000#32 = _
  rw [hr, ofBits_eighth, EReal.coe_mul]

end Cert.MathH

end
-- ==== Proof.KIVal0Step.lean ====
/-
  One step of the running column statistics, in the specification's terms.

  When a tile's query rows are rows `row r` of batch `b` of the queries and its keys are batch `b` of the keys, the
  tile's scaled score at (r, j) is the specification's score  s (row r) j  of that batch.  The new running maximum of
  column j is then  max (old maximum) (sup_r s (row r) j)  and the new running sum is
  exp (old maximum − new maximum) · (old sum) + ∑_r exp (s (row r) j − new maximum);  at the first tile of a batch the old
  maximum is −∞ and the old sum is 0.  The pair carried from point to point unfolds by one such step.
-/
import proofs.«159045_j72310069395864_2_alg».proof.Proof.KIVal0Pay
import proofs.«159045_j72310069395864_2_alg».proof.Proof.KIDefs
import proofs.«159045_j72310069395864_2_alg».proof.Proof.MathBasics

noncomputable section

namespace Cert.KernelIdeal.H.Val0

open Cert.KernelIdeal Cert.KernelIdeal.Gen Cert.KernelIdeal.H
open Idealize.ShloMosaic Idealize.ShloMosaic.ValueIdx

/-- The tile's score at (r, j) is the specification's score of query row `row r` against key row `j`. -/
theorem tile_score (q k : S4x4096x64.Idx → EReal) (x0 : Vec Ideal S1x256x64 .f32) (x1 : Vec Ideal S1x4096x64 .f32)
    (b : Fin 4) (row : Fin 256 → Fin 4096)
    (h0 : ∀ (r : Fin 256) (d : Fin 64), x0 (ix3 (0 : Fin 1) r d) = q (ix3 b (row r) d))
    (h1 : ∀ (j : Fin 4096) (d : Fin 64), x1 (ix3 (0 : Fin 1) j d) = k (ix3 b j d)) (r : Fin 256) (j : Fin 4096) :
    k0_pay5 (F := Ideal) x0 x1 (ix2 r j) = Cert.Spec.S q k b (row r) j := by
  refine (pay5_apply x0 x1 r j).trans ?_
  show _ = (∑ d : Fin 64, q (ix3 b (row r) d) * k (ix3 b j d)) * Cert.Spec.eighth
  refine congrArg (· * Cert.Spec.eighth) (Finset.sum_congr rfl fun d _ => ?_)
  rw [h0 r d, h1 j d]

/-- A later tile's step at column j. -/
theorem point_next (q k : S4x4096x64.Idx → EReal) (x0 : Vec Ideal S1x256x64 .f32) (x1 : Vec Ideal S1x4096x64 .f32)
    (m l : Vec Ideal S1x4096 .f32) (b : Fin 4) (row : Fin 256 → Fin 4096)
    (h0 : ∀ (r : Fin 256) (d : Fin 64), x0 (ix3 (0 : Fin 1) r d) = q (ix3 b (row r) d))
    (h1 : ∀ (j : Fin 4096) (d : Fin 64), x1 (ix3 (0 : Fin 1) j d) = k (ix3 b j d)) (j : Fin 4096) :
    k0_pay8 (F := Ideal) x0 x1 m (ix2 (0 : Fin 1) j)
        = max (m (ix2 (0 : Fin 1) j)) (Finset.univ.sup fun r : Fin 256 => Cert.Spec.S q k b (row r) j)
    ∧ k0_pay7 (F := Ideal) x0 x1 m m l (ix2 (0 : Fin 1) j)
        = Ideal.exp (m (ix2 (0 : Fin 1) j) - max (m (ix2 (0 : Fin 1) j)) (Finset.univ.sup fun r : Fin 256 => Cert.Spec.S q k b (row r) j))
            * l (ix2 (0 : Fin 1) j)
          + ∑ r : Fin 256, Ideal.exp (Cert.Spec.S q k b (row r) j
              - max (m (ix2 (0 : Fin 1) j)) (Finset.univ.sup fun r : Fin 256 => Cert.Spec.S q k b (row r) j)) := by
  have hs : (fun r : Fin 256 => k0_pay5 (F := Ideal) x0 x1 (ix2 r j)) = fun r => Cert.Spec.S q k b (row r) j :=
    funext fun r => tile_score q k x0 x1 b row h0 h1 r j
  have h6 : k0_pay6 (F := Ideal) x0 x1 m (ix2 (0 : Fin 1) j)
      = max (m (ix2 (0 : Fin 1) j)) (Finset.univ.sup fun r : Fin 256 => Cert.Spec.S q k b (row r) j) := by
    refine (pay6_apply x0 x1 m j).trans ?_
    rw [hs, Cert.MathH.ofBits_neg_inf, Cert.MathH.fold_max_eq_sup]
  refine ⟨?_, ?_⟩
  · rw [pay8_apply]; exact h6
  · refine (pay7_apply x0 x1 m m l j).trans ?_
    rw [h6]
    refine congrArg (_ + ·) (Finset.sum_congr rfl fun r _ => ?_)
    rw [congrFun hs r]

/-- The first tile's step at column j: from −∞ and 0. -/
theorem point_first (q k : S4x4096x64.Idx → EReal) (x0 : Vec Ideal S1x256x64 .f32) (x1 : Vec Ideal S1x4096x64 .f32)
    (b : Fin 4) (row : Fin 256 → Fin 4096)
    (h0 : ∀ (r : Fin 256) (d : Fin 64), x0 (ix3 (0 : Fin 1) r d) = q (ix3 b (row r) d))
    (h1 : ∀ (j : Fin 4096) (d : Fin 64), x1 (ix3 (0 : Fin 1) j d) = k (ix3 b j d)) (j : Fin 4096) :
    k0_pay8 (F := Ideal) x0 x1 (k0_pay3 (F := Ideal)) (ix2 (0 : Fin 1) j)
        = max ⊥ (Finset.univ.sup fun r : Fin 256 => Cert.Spec.S q k b (row r) j)
    ∧ k0_pay7 (F := Ideal) x0 x1 (k0_pay3 (F := Ideal)) (k0_pay3 (F := Ideal)) (k0_pay4 (F := Ideal)) (ix2 (0 : Fin 1) j)
        = Ideal.exp (⊥ - max ⊥ (Finset.univ.sup fun r : Fin 256 => Cert.Spec.S q k b (row r) j)) * 0
          + ∑ r : Fin 256, Ideal.exp (Cert.Spec.S q k b (row r) j
              - max ⊥ (Finset.univ.sup fun r : Fin 256 => Cert.Spec.S q k b (row r) j)) := by
  have h := point_next q k x0 x1 (k0_pay3 (F := Ideal)) (k0_pay4 (F := Ideal)) b row h0 h1 j
  rw [pay3_apply, pay4_apply, Cert.MathH.ofBits_neg_inf, Cert.MathH.ofBits_zero] at h
  exact h

/-- The carried pair at the first tile of a batch. -/
theorem carry0_first (V : Entry Ideal) (c : Dev nD) (t : ℕ) (ht : t < cfg0.N) (h : t % 16 = 0) :
    carry0 V c t ht
      = (k0_pay8 (iblk0 V c 0 ⟨t, ht⟩) (iblk0 V c 1 ⟨t, ht⟩) (k0_pay3 (F := Ideal)),
         k0_pay7 (iblk0 V c 0 ⟨t, ht⟩) (iblk0 V c 1 ⟨t, ht⟩) (k0_pay3 (F := Ideal)) (k0_pay3 (F := Ideal)) (k0_pay4 (F := Ideal))) := by
  cases t with
  | zero => rfl
  | succ n => rw [carry0]; exact if_pos h

/-- The carried pair at a later tile: one step from the pair before. -/
theorem carry0_next (V : Entry Ideal) (c : Dev nD) (n : ℕ) (hn : n + 1 < cfg0.N) (h : (n + 1) % 16 ≠ 0) :
    carry0 V c (n + 1) hn
      = (k0_pay8 (iblk0 V c 0 ⟨n + 1, hn⟩) (iblk0 V c 1 ⟨n + 1, hn⟩) (carry0 V c n (Nat.lt_of_succ_lt hn)).1,
         k0_pay7 (iblk0 V c 0 ⟨n + 1, hn⟩) (iblk0 V c 1 ⟨n + 1, hn⟩) (carry0 V c n (Nat.lt_of_succ_lt hn)).1
           (carry0 V c n (Nat.lt_of_succ_lt hn)).1 (carry0 V c n (Nat.lt_of_succ_lt hn)).2) := by
  rw [carry0]; exact if_neg h

end Cert.KernelIdeal.H.Val0

end
-- ==== Proof.KIVal0Blk.lean ====
/-
  The first launch's two input windows, read at an element: at grid point `t` (batch `t / 16`, query tile `t % 16`)
  the query window's block is rows `256 · (t % 16) …` of batch `t / 16` of the first argument, and the key window's
  block is the whole of batch `t / 16` of the second.
-/
import proofs.«159045_j72310069395864_2_alg».proof.Proof.KIDefs
import Idealize.ShloMosaic.Lib.Pipeline.Value
import Idealize.ShloMosaic.Lib.ValueIdx
import Idealize.ShloMosaic.PureOps.Ideal

set_option pp.maxSteps 5000
set_option pp.deepTerms false

noncomputable section

namespace Cert.KernelIdeal.H.Val0

open Cert.KernelIdeal Cert.KernelIdeal.Gen Cert.KernelIdeal.H Idealize.ShloMosaic Idealize.ShloMosaic.ValueIdx
open Idealize.ShloMosaic.TcCoe Idealize.SL.Sem

namespace BlkAux

/-- The two input windows' block indices at point `t`, decided over the 64 points: the query window is at
    (batch, tile, 0), the key window at (batch, 0, 0). -/
theorem idx_in : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0 :=
  (by decide +kernel : ∀ t : Fin grid0.N, _)

end BlkAux

/-- The query window's block at point `t`, at row `r` and feature `d`: the first argument at batch `t / 16`,
    row `256 · (t % 16) + r`. -/
theorem iblk0_q (V : Entry Ideal) (c : Dev nD) (t : Fin cfg0.N) (r : Fin 256) (d : Fin 64) (b : Fin 4) (i : Fin 4096)
    (hb : b.val = t.val / 16) (hi : i.val = 256 * (t.val % 16) + r.val) :
    (iblk0 V c 0 t : Vec Ideal S1x256x64 .f32) (ix3 (0 : Fin 1) r d) = (V c main_arg0 : S4x4096x64.Idx → EReal) (ix3 b i d) := by
  obtain ⟨e0, e1, e2, -, -, -⟩ := BlkAux.idx_in t
  unfold iblk0
  rw [View.read_apply]
  show (V c main_arg0 : S4x4096x64.Idx → EReal) _ = (V c main_arg0 : S4x4096x64.Idx → EReal) _
  refine congrArg (V c main_arg0 : S4x4096x64.Idx → EReal) ?_
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 256 + 1 * r.val = i.val; rw [e1, hi]; omega
  | ⟨2, _⟩ => show win0_0.index t (2 : Fin 3) * 64 + 1 * d.val = d.val; rw [e2]; omega

/-- The key window's block at point `t`, at row `j` and feature `d`: the second argument at batch `t / 16`, row `j`. -/
theorem iblk0_k (V : Entry Ideal) (c : Dev nD) (t : Fin cfg0.N) (j : Fin 4096) (d : Fin 64) (b : Fin 4) (hb : b.val = t.val / 16) :
    (iblk0 V c 1 t : Vec Ideal S1x4096x64 .f32) (ix3 (0 : Fin 1) j d) = (V c main_arg1 : S4x4096x64.Idx → EReal) (ix3 b j d) := by
  obtain ⟨-, -, -, e0, e1, e2⟩ := BlkAux.idx_in t
  unfold iblk0
  rw [View.read_apply]
  show (V c main_arg1 : S4x4096x64.Idx → EReal) _ = (V c main_arg1 : S4x4096x64.Idx → EReal) _
  refine congrArg (V c main_arg1 : S4x4096x64.Idx → EReal) ?_
  funext a
  apply Fin.ext
  match a with
  | ⟨0, _⟩ => show win0_1.index t (0 : Fin 3) * 1 + 1 * (0 : Fin 1).val = b.val; rw [e0, hb]; simp
  | ⟨1, _⟩ => show win0_1.index t (1 : Fin 3) * 4096 + 1 * j.val = j.val; rw [e1]; omega
  | ⟨2, _⟩ => show win0_1.index t (2 : Fin 3) * 64 + 1 * d.val = d.val; rw [e2]; omega

end Cert.KernelIdeal.H.Val0

end
-- ==== Proof.KIVal0Arr.lean ====
/-
  The first launch's two output arrays (the column maxima and the logarithms of the column sums, one row of 4096 per
  batch) after the launch: each batch's row is written back once, at the batch's last query tile, and those four blocks
  tile the array; so if what the body leaves at each such point is a whole-array function `G` at the point's batch, the
  array ends holding `G`.
-/
import proofs.«159045_j72310069395864_2_alg».proof.Proof.KIDefs
import Idealize.ShloMosaic.Lib.Pipeline.Value
import Idealize.ShloMosaic.Lib.ValueIdx
import Idealize.ShloMosaic.PureOps.Ideal

set_option pp.maxSteps 5000
set_option pp.deepTerms false

noncomputable section

namespace Cert.KernelIdeal.H.Val0

open Cert.KernelIdeal Cert.KernelIdeal.Gen Cert.KernelIdeal.H Idealize.ShloMosaic Idealize.ShloMosaic.ValueIdx
open Idealize.ShloMosaic.TcCoe Idealize.SL.Sem

namespace BlkAux

/-- The two output windows' block indices at point `t`, decided over the 64 points: both at (batch, 0, 0). -/
theorem idx_out : ∀ t : Fin cfg0.N,
    win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- An index of the array is in point `t`'s block of window 2 iff each coordinate is in the block's range on its axis. -/
theorem mem_blk2 (t : Fin cfg0.N) (i : S4x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v0_0).slice (win0_2.rect t)).set ↔ _
  rw [View.set_slice_whole, Rect.mem_set_unit]
  exact Iff.rfl

/-- Every index of the array is in the block of a point that writes window 2 back: batch `b` is covered by the last
    tile's point `16 · b + 15`. -/
theorem cover2 (i : S4x1x4096.Idx) : ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 4096 := (i 2).isLt
  obtain ⟨t, ht⟩ : ∃ t : Fin cfg0.N, t.val = 16 * (i 0).val + 15 :=
    ⟨⟨16 * (i 0).val + 15, by rw [show cfg0.N = 64 from N_0]; omega⟩, rfl⟩
  obtain ⟨e0, e1, e2, -, -, -⟩ := idx_out t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 1 ≤ (i 1).val ∧ (i 1).val < win0_2.index t (1 : Fin 3) * 1 + 1; rw [e1]; omega
  | ⟨2, _⟩ => show win0_2.index t (2 : Fin 3) * 4096 ≤ (i 2).val ∧ (i 2).val < win0_2.index t (2 : Fin 3) * 4096 + 4096; rw [e2]; omega

/-- What a point that writes window 2 back writes is its block of `G`, when what the body left there is `G` at the
    point's batch. -/
theorem flushed2 (c : Dev nD) (dat : Pipeline.Dat τ (Elt Ideal) Unit ℕ (UR sig nD τ) ℕ cfg0 c) (G : S4x1x4096.Idx → EReal)
    (h : ∀ t : Fin cfg0.N, t.val % 16 = 15 → ∀ b : Fin 4, b.val = t.val / 16 → ∀ j : Fin 4096,
        (dat.after 2 t : S1x1x4096.Idx → EReal) (ix3 (0 : Fin 1) (0 : Fin 1) j) = G (ix3 b (0 : Fin 1) j))
    (t : Fin cfg0.N) (hf : (cfg0.win 2).flush t = true) :
    dat.flushed 2 t = ((cfg0.win 2).blk t).view.read (Elt Ideal) G := by
  have ht : t.val % 16 = 15 := (flush0_2 t).mp hf
  have htl : t.val < 64 := lt_of_lt_of_eq t.isLt (N_0 : cfg0.N = 64)
  obtain ⟨e0, e1, e2, -, -, -⟩ := idx_out t
  show ((cfg0.win 2).cut (grid0.coords t) (dat.after 2 t) : S1x1x4096.Idx → EReal) = (((cfg0.win 2).blk t).view.read (Elt Ideal) G : S1x1x4096.Idx → EReal)
  funext y
  obtain ⟨a0, a1, j, rfl⟩ : ∃ (a0 : Fin 1) (a1 : Fin 1) (j : Fin 4096), y = ix3 a0 a1 j := ⟨y 0, y 1, y 2, eq_ix3 y⟩
  obtain rfl : a0 = 0 := Subsingleton.elim _ _
  obtain rfl : a1 = 0 := Subsingleton.elim _ _
  refine (h t ht ⟨t.val / 16, by omega⟩ rfl j).trans ?_
  rw [View.read_apply]
  show G _ = G _
  refine congrArg G ?_
  funext a
  apply Fin.ext
  match a with
  | ⟨0, _⟩ => show t.val / 16 = win0_2.index t (0 : Fin 3) * 1 + 1 * (0 : Fin 1).val; rw [e0]; simp
  | ⟨1, _⟩ => show (0 : Fin 1).val = win0_2.index t (1 : Fin 3) * 1 + 1 * (0 : Fin 1).val; rw [e1]; simp
  | ⟨2, _⟩ => show j.val = win0_2.index t (2 : Fin 3) * 4096 + 1 * j.val; rw [e2]; omega

/-- An index of the array is in point `t`'s block of window 3 iff each coordinate is in the block's range on its axis. -/
theorem mem_blk3 (t : Fin cfg0.N) (i : S4x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every index of the array is in the block of a point that writes window 3 back: batch `b` is covered by the last
    tile's point `16 · b + 15`. -/
theorem cover3 (i : S4x1x4096.Idx) : ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 4096 := (i 2).isLt
  obtain ⟨t, ht⟩ : ∃ t : Fin cfg0.N, t.val = 16 * (i 0).val + 15 :=
    ⟨⟨16 * (i 0).val + 15, by rw [show cfg0.N = 64 from N_0]; omega⟩, rfl⟩
  obtain ⟨-, -, -, e0, e1, e2⟩ := idx_out t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1 ≤ (i 1).val ∧ (i 1).val < win0_3.index t (1 : Fin 3) * 1 + 1; rw [e1]; omega
  | ⟨2, _⟩ => show win0_3.index t (2 : Fin 3) * 4096 ≤ (i 2).val ∧ (i 2).val < win0_3.index t (2 : Fin 3) * 4096 + 4096; rw [e2]; omega

/-- What a point that writes window 3 back writes is its block of `G`, when what the body left there is `G` at the
    point's batch. -/
theorem flushed3 (c : Dev nD) (dat : Pipeline.Dat τ (Elt Ideal) Unit ℕ (UR sig nD τ) ℕ cfg0 c) (G : S4x1x4096.Idx → EReal)
    (h : ∀ t : Fin cfg0.N, t.val % 16 = 15 → ∀ b : Fin 4, b.val = t.val / 16 → ∀ j : Fin 4096,
        (dat.after 3 t : S1x1x4096.Idx → EReal) (ix3 (0 : Fin 1) (0 : Fin 1) j) = G (ix3 b (0 : Fin 1) j))
    (t : Fin cfg0.N) (hf : (cfg0.win 3).flush t = true) :
    dat.flushed 3 t = ((cfg0.win 3).blk t).view.read (Elt Ideal) G := by
  have ht : t.val % 16 = 15 := (flush0_3 t).mp hf
  have htl : t.val < 64 := lt_of_lt_of_eq t.isLt (N_0 : cfg0.N = 64)
  obtain ⟨-, -, -, e0, e1, e2⟩ := idx_out t
  show ((cfg0.win 3).cut (grid0.coords t) (dat.after 3 t) : S1x1x4096.Idx → EReal) = (((cfg0.win 3).blk t).view.read (Elt Ideal) G : S1x1x4096.Idx → EReal)
  funext y
  obtain ⟨a0, a1, j, rfl⟩ : ∃ (a0 : Fin 1) (a1 : Fin 1) (j : Fin 4096), y = ix3 a0 a1 j := ⟨y 0, y 1, y 2, eq_ix3 y⟩
  obtain rfl : a0 = 0 := Subsingleton.elim _ _
  obtain rfl : a1 = 0 := Subsingleton.elim _ _
  refine (h t ht ⟨t.val / 16, by omega⟩ rfl j).trans ?_
  rw [View.read_apply]
  show G _ = G _
  refine congrArg G ?_
  funext a
  apply Fin.ext
  match a with
  | ⟨0, _⟩ => show t.val / 16 = win0_3.index t (0 : Fin 3) * 1 + 1 * (0 : Fin 1).val; rw [e0]; simp
  | ⟨1, _⟩ => show (0 : Fin 1).val = win0_3.index t (1 : Fin 3) * 1 + 1 * (0 : Fin 1).val; rw [e1]; simp
  | ⟨2, _⟩ => show j.val = win0_3.index t (2 : Fin 3) * 4096 + 1 * j.val; rw [e2]; omega

end BlkAux

/-- The two output arrays after the launch, from what the body leaves at the points that write back (the last tile of
    each batch): each ends holding the whole-array function whose batch rows those are. -/
theorem arr_of_after (c : Dev nD) (dat : Pipeline.Dat τ (Elt Ideal) Unit ℕ (UR sig nD τ) ℕ cfg0 c) (G2 G3 : S4x1x4096.Idx → EReal)
    (h2 : ∀ t : Fin cfg0.N, t.val % 16 = 15 → ∀ b : Fin 4, b.val = t.val / 16 → ∀ j : Fin 4096,
        (dat.after 2 t : S1x1x4096.Idx → EReal) (ix3 (0 : Fin 1) (0 : Fin 1) j) = G2 (ix3 b (0 : Fin 1) j))
    (h3 : ∀ t : Fin cfg0.N, t.val % 16 = 15 → ∀ b : Fin 4, b.val = t.val / 16 → ∀ j : Fin 4096,
        (dat.after 3 t : S1x1x4096.Idx → EReal) (ix3 (0 : Fin 1) (0 : Fin 1) j) = G3 (ix3 b (0 : Fin 1) j)) :
    (dat.arrAt 2 cfg0.N : S4x1x4096.Idx → EReal) = G2 ∧ (dat.arrAt 3 cfg0.N : S4x1x4096.Idx → EReal) = G3 :=
  ⟨dat.arrAt_eq_of_cover 2 G2 (BlkAux.flushed2 c dat G2 h2) BlkAux.cover2,
   dat.arrAt_eq_of_cover 3 G3 (BlkAux.flushed3 c dat G3 h3) BlkAux.cover3⟩

end Cert.KernelIdeal.H.Val0

end
-- ==== Proof.MathMask.lean ====
/-
  The reference's formulas are the specification's when the scores are real numbers.

  For the log-softmax only `max ⊥ x = x` and `0 + x = x` are needed.  For the mask: along a row `i` the product of the
  row softmax and the column softmax at column `j` is `K · exp (score j)` with `K = exp (−rowmax) / rowsum > 0` the same
  for every `j` and `score j = 2·s i j − colmax j − log colsum j`; dividing by a positive temperature and taking a
  softmax along the row are strictly increasing, so the sharpened softmax attains its row maximum exactly where the
  score does.
-/
import proofs.«159045_j72310069395864_2_alg».proof.Proof.MathBasics

noncomputable section

namespace Cert.MathH

open Idealize.ShloMosaic

section generic

variable {ι κ : Type*} [Fintype ι] [Fintype κ]

/-- A finite sum of coerced real numbers is the coerced sum. -/
theorem coe_sum {α : Type*} (t : Finset α) (f : α → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The supremum of finitely many (at least one) real numbers is a real number. -/
theorem sup_real [Nonempty ι] (f : ι → EReal) (hf : ∀ j, ∃ r : ℝ, f j = r) : ∃ m : ℝ, Finset.univ.sup f = m := by
  obtain ⟨j0, -, h⟩ := Finset.exists_mem_eq_sup Finset.univ Finset.univ_nonempty f
  obtain ⟨r, hr⟩ := hf j0
  exact ⟨r, h.trans hr⟩

/-- A value is the supremum of a family exactly when it dominates the family. -/
theorem eq_sup_iff {α : Type*} [SemilatticeSup α] [OrderBot α] (f : ι → α) (j : ι) :
    f j = Finset.univ.sup f ↔ ∀ j', f j' ≤ f j := by
  constructor
  · intro h j'; rw [h]; exact Finset.le_sup (Finset.mem_univ j')
  · intro h; exact le_antisymm (Finset.le_sup (Finset.mem_univ j)) (Finset.sup_le fun j' _ => h j')

/-- The softmax of a family as the reference computes it: the maximum taken once more against −∞, the sum started from 0. -/
def softR (f : ι → EReal) (j : ι) : EReal :=
  Ideal.div (Ideal.exp (f j - max ⊥ (Finset.univ.sup f)))
    (0 + ∑ j', Ideal.exp (f j' - max ⊥ (Finset.univ.sup f)))

/-- The softmax of real numbers is the real softmax, shifted by a real number (the maximum). -/
theorem softR_coe [Nonempty ι] (f : ι → ℝ) :
    ∃ m : ℝ, Finset.univ.sup (fun j => (f j : EReal)) = m ∧ 0 < ∑ j', Real.exp (f j' - m) ∧
      ∀ j, softR (fun j => (f j : EReal)) j = ((Real.exp (f j - m) / ∑ j', Real.exp (f j' - m) : ℝ) : EReal) := by
  obtain ⟨m, hm⟩ := sup_real (fun j => (f j : EReal)) (fun j => ⟨f j, rfl⟩)
  have hpos : 0 < ∑ j', Real.exp (f j' - m) := Finset.sum_pos (fun j _ => Real.exp_pos _) Finset.univ_nonempty
  refine ⟨m, hm, hpos, fun j => ?_⟩
  unfold softR
  rw [hm, max_bot_left]
  simp only [← EReal.coe_sub, Ideal.exp_coe, coe_sum, zero_add]
  rw [Ideal.div_coe hpos.ne', ← EReal.coe_mul, mul_one_div]

/-- The sharpened softmax along row `i`, from a whole matrix of scores: the row softmax of the product of the row softmax
    and the column softmax, divided by the temperature. -/
def aRow (T : EReal) (s : κ → ι → EReal) (i : κ) : ι → EReal := fun j =>
  softR (fun j' => Ideal.div (softR (s i) j' * softR (fun i' => s i' j') i) T) j

/-- The score along row `i`: twice the entry, less the column's maximum, less the logarithm of the column's shifted sum of
    exponentials. -/
def scoreA (s : κ → ι → EReal) (i : κ) : ι → EReal := fun j =>
  Spec.two * s i j - Finset.univ.sup (fun i' => s i' j)
    - Ideal.log (∑ i', Ideal.exp (s i' j - Finset.univ.sup (fun i'' => s i'' j)))

/-- For real scores and a positive temperature, the sharpened softmax attains its row maximum exactly where the score
    attains its row maximum. -/
theorem aRow_max_iff [Nonempty ι] [Nonempty κ] (σ : κ → ι → ℝ) (T : EReal) (hT : ∃ t : ℝ, 0 < t ∧ T = t)
    (i : κ) (j : ι) :
    aRow T (fun i j => (σ i j : EReal)) i j = Finset.univ.sup (aRow T (fun i j => (σ i j : EReal)) i) ↔
      scoreA (fun i j => (σ i j : EReal)) i j = Finset.univ.sup (scoreA (fun i j => (σ i j : EReal)) i) := by
  obtain ⟨t, ht, rfl⟩ := hT
  -- the row softmax and, for every column, the column softmax, as real numbers
  obtain ⟨rm, -, hrs, h1⟩ := softR_coe (fun j' => σ i j')
  have hcol := fun j' : ι => softR_coe (fun i' => σ i' j')
  choose cm hcm hcs h2 using hcol
  -- their product over the temperature
  obtain ⟨x, hx⟩ : ∃ x : ι → ℝ, x = fun j' =>
      (Real.exp (σ i j' - rm) / ∑ j'', Real.exp (σ i j'' - rm)) *
        (Real.exp (σ i j' - cm j') / ∑ i', Real.exp (σ i' j' - cm j')) / t := ⟨_, rfl⟩
  have hX : ∀ j', Ideal.div (softR (fun j'' => (σ i j'' : EReal)) j' * softR (fun i' => (σ i' j' : EReal)) i) (t : EReal)
      = (x j' : EReal) := by
    intro j'
    rw [h1 j', h2 j' i, Ideal.div_coe ht.ne', ← EReal.coe_mul, ← EReal.coe_mul, mul_one_div, hx]
  obtain ⟨mx, -, hZ, h3⟩ := softR_coe x
  have hA : ∀ j', aRow (t : EReal) (fun i j => (σ i j : EReal)) i j'
      = ((Real.exp (x j' - mx) / ∑ j'', Real.exp (x j'' - mx) : ℝ) : EReal) := by
    intro j'
    unfold aRow
    simp only [hX]
    exact h3 j'
  have hS : ∀ j', scoreA (fun i j => (σ i j : EReal)) i j'
      = ((2 * σ i j' - cm j' - Real.log (∑ i', Real.exp (σ i' j' - cm j')) : ℝ) : EReal) := by
    intro j'
    unfold scoreA
    rw [hcm j']
    simp only [← EReal.coe_sub, Ideal.exp_coe, coe_sum]
    rw [Ideal.log_coe, if_neg (not_le.2 (hcs j'))]
    show Ideal.ofBits .f32 0x40000000#32 * _ - _ - _ = _
    rw [ofBits_two, ← EReal.coe_mul, ← EReal.coe_sub, ← EReal.coe_sub]
  rw [eq_sup_iff, eq_sup_iff]
  simp only [hA, hS, EReal.coe_le_coe_iff]
  refine forall_congr' fun j' => ?_
  rw [div_le_div_iff_of_pos_right hZ, Real.exp_le_exp, sub_le_sub_iff_right]
  -- the product is a positive constant times the exponential of the score
  have key : ∀ c, x c = (Real.exp (-rm) / (∑ j'', Real.exp (σ i j'' - rm)) / t) *
      Real.exp (2 * σ i c - cm c - Real.log (∑ i', Real.exp (σ i' c - cm c))) := by
    intro c
    have e1 : Real.exp (2 * σ i c - cm c - Real.log (∑ i', Real.exp (σ i' c - cm c)))
        = Real.exp (2 * σ i c - cm c) / ∑ i', Real.exp (σ i' c - cm c) := by
      rw [Real.exp_sub, Real.exp_log (hcs c)]
    have e2 : Real.exp (σ i c - rm) * Real.exp (σ i c - cm c) = Real.exp (-rm) * Real.exp (2 * σ i c - cm c) := by
      rw [← Real.exp_add, ← Real.exp_add]; congr 1; ring
    rw [hx, e1]
    show Real.exp (σ i c - rm) / _ * (Real.exp (σ i c - cm c) / _) / t = _
    rw [div_mul_div_comm, e2]
    ring
  rw [key j', key j, mul_le_mul_iff_right₀ (div_pos (div_pos (Real.exp_pos _) hrs) ht), Real.exp_le_exp]

end generic

/-! ## The reference's formulas and the specification's -/

/-- The reference's log-softmax is the specification's: the maximum against −∞ and the sum from 0 change nothing. -/
theorem logattnR_eq (s : RefSpec.Sc) : RefSpec.logattnR s = Spec.logattn s := by
  funext b i j
  simp only [RefSpec.logattnR, RefSpec.rowMax, Spec.logattn, Spec.rmax, Spec.rsum, max_bot_left, zero_add]

/-- For real scores and a positive temperature the reference's mask is the specification's. -/
theorem maskR_eq (s : RefSpec.Sc) (hs : ∀ b i j, ∃ r : ℝ, s b i j = r) (T : EReal) (hT : ∃ t : ℝ, 0 < t ∧ T = t) :
    RefSpec.maskR T s = Spec.mask s := by
  choose σ hσ using hs
  obtain rfl : s = fun b i j => (σ b i j : EReal) := by funext b i j; exact hσ b i j
  funext b i j
  show (if aRow T (fun i j => (σ b i j : EReal)) i j = Finset.univ.sup (aRow T (fun i j => (σ b i j : EReal)) i)
      then (1 : EReal) else 0)
    = (if scoreA (fun i j => (σ b i j : EReal)) i j = Finset.univ.sup (scoreA (fun i j => (σ b i j : EReal)) i)
      then (1 : EReal) else 0)
  exact if_congr (aRow_max_iff (σ b) T hT i j) rfl rfl

/-- Hence the masked values agree too. -/
theorem outR_eq (s : RefSpec.Sc) (hs : ∀ b i j, ∃ r : ℝ, s b i j = r) (T : EReal) (hT : ∃ t : ℝ, 0 < t ∧ T = t)
    (v : Fin 4 → Fin 4096 → Fin 64 → EReal) : RefSpec.outR T s v = Spec.outp s v := by
  funext b i d
  show (∑ j : Fin 4096, RefSpec.maskR T s b i j * v b j d) = ∑ j : Fin 4096, Spec.mask s b i j * v b j d
  rw [maskR_eq s hs T hT]

end Cert.MathH

end
-- ==== Proof.MathOnline.lean ====
/-
  The online column statistics are the whole column's.

  A running pair (maximum `M`, sum `L` of exponentials shifted by `M`) over the rows seen so far is updated by a new
  tile of rows to `M' = max M (max of the tile)` and `L' = exp (M − M') · L + Σ over the tile of exp (· − M')`.
  Because `exp (M − M') · exp (x − M) = exp (x − M')`, the updated pair is again (maximum, shifted sum) over all rows
  seen; the start `(−∞, 0)` is the pair of no rows, where `exp (−∞) · 0 = 0`.  After all tiles the pair is the
  column's maximum and shifted sum of exponentials.
-/
import proofs.«159045_j72310069395864_2_alg».proof.Proof.MathMask

noncomputable section

namespace Cert.MathH

open Idealize.ShloMosaic

/-- The supremum of a nonempty finite family of real numbers is a real number. -/
theorem finset_sup_real {α : Type*} (P : Finset α) (hP : P.Nonempty) (f : α → ℝ) :
    ∃ m : ℝ, P.sup (fun p => (f p : EReal)) = m := by
  obtain ⟨p, -, h⟩ := Finset.exists_mem_eq_sup P hP (fun p => (f p : EReal))
  exact ⟨f p, h⟩

/-- One update of the running pair by a nonempty tile `Q` of new real values, the values seen before being `P`'s. -/
theorem online_step {α β : Type*} (P : Finset α) (f : α → ℝ) (Q : Finset β) (hQ : Q.Nonempty) (g : β → ℝ)
    (M L : EReal) (hM : M = P.sup (fun p => (f p : EReal))) (hL : L = ∑ p ∈ P, Ideal.exp ((f p : EReal) - M)) :
    ∃ m' : ℝ, max M (Q.sup fun q => (g q : EReal)) = m' ∧
      Ideal.exp (M - m') * L + ∑ q ∈ Q, Ideal.exp ((g q : EReal) - m')
        = ∑ p ∈ P, Ideal.exp ((f p : EReal) - m') + ∑ q ∈ Q, Ideal.exp ((g q : EReal) - m') := by
  obtain ⟨mq, hmq⟩ := finset_sup_real Q hQ g
  rcases P.eq_empty_or_nonempty with rfl | hP
  · simp only [Finset.sup_empty] at hM
    subst hM
    simp only [Finset.sum_empty] at hL
    subst hL
    refine ⟨mq, by rw [hmq, max_bot_left], ?_⟩
    simp
  · obtain ⟨m, hm⟩ := finset_sup_real P hP f
    rw [hm] at hM
    subst hM
    refine ⟨max m mq, by rw [hmq]; exact (EReal.coe_strictMono.monotone.map_max).symm, ?_⟩
    congr 1
    rw [hL]
    simp only [← EReal.coe_sub, Ideal.exp_coe, coe_sum, ← EReal.coe_mul]
    congr 1
    rw [Finset.mul_sum]
    refine Finset.sum_congr rfl fun p _ => ?_
    rw [← Real.exp_add]
    congr 1
    ring

/-! ## Tiles of `R` rows, numbered by natural numbers -/

section tiles

variable {R : ℕ}

/-- The update of the running pair by one tile, in the order the arithmetic is done: the maximum of the old maximum and
    the tile's; the old sum rescaled, plus the tile's shifted sum. -/
def onlineStep (ml : EReal × EReal) (tile : Fin R → EReal) : EReal × EReal :=
  (max ml.1 (Finset.univ.sup tile),
    Ideal.exp (ml.1 - max ml.1 (Finset.univ.sup tile)) * ml.2
      + ∑ r, Ideal.exp (tile r - max ml.1 (Finset.univ.sup tile)))

/-- The running pair after `n` tiles, from `(−∞, 0)`. -/
def online (a : ℕ → Fin R → EReal) : ℕ → EReal × EReal
  | 0 => (⊥, 0)
  | n + 1 => onlineStep (online a n) (a n)

/-- The pair is the maximum and the shifted sum of exponentials of the first `n` tiles. -/
def OnlineInv (a : ℕ → Fin R → ℝ) (n : ℕ) (ml : EReal × EReal) : Prop :=
  ml.1 = (Finset.range n).sup (fun t => Finset.univ.sup fun r => (a t r : EReal)) ∧
    ml.2 = ∑ t ∈ Finset.range n, ∑ r, Ideal.exp ((a t r : EReal) - ml.1)

theorem onlineInv_zero (a : ℕ → Fin R → ℝ) : OnlineInv a 0 (⊥, 0) := ⟨by simp, by simp⟩

theorem onlineInv_step [NeZero R] (a : ℕ → Fin R → ℝ) (n : ℕ) (ml : EReal × EReal) (h : OnlineInv a n ml) :
    OnlineInv a (n + 1) (onlineStep ml (fun r => (a n r : EReal))) := by
  obtain ⟨m', hm', hsum⟩ := online_step (Finset.range n ×ˢ (Finset.univ : Finset (Fin R)))
    (fun p => a p.1 p.2) (Finset.univ : Finset (Fin R)) Finset.univ_nonempty (a n) ml.1 ml.2
    (by rw [Finset.sup_product_left]; exact h.1) (by rw [Finset.sum_product]; exact h.2)
  have h1 : (onlineStep ml (fun r => (a n r : EReal))).1 = m' := hm'
  have h2 : (onlineStep ml (fun r => (a n r : EReal))).2
      = Ideal.exp (ml.1 - m') * ml.2 + ∑ r, Ideal.exp ((a n r : EReal) - m') := by
    show Ideal.exp (ml.1 - max ml.1 _) * ml.2 + ∑ r, Ideal.exp ((a n r : EReal) - max ml.1 _) = _
    rw [hm']
  refine ⟨?_, ?_⟩
  · rw [h1, ← hm', Finset.range_add_one, Finset.sup_insert, h.1]
    exact max_comm _ _
  · rw [h2, h1, hsum, Finset.sum_product, Finset.sum_range_succ]

/-- After `n` tiles of real rows the running pair is the maximum and shifted sum of exponentials of those tiles. -/
theorem online_inv [NeZero R] (a : ℕ → Fin R → ℝ) (n : ℕ) : OnlineInv a n (online (fun t r => (a t r : EReal)) n) := by
  induction n with
  | zero => exact onlineInv_zero a
  | succ n ih => exact onlineInv_step a n _ ih

end tiles

/-! ## Sixteen tiles of 256 rows cover the 4096 rows -/

/-- Row `r` of tile `n`. -/
def tileRow (n : ℕ) (r : Fin 256) : Fin 4096 := ⟨(256 * n + r.val) % 4096, Nat.mod_lt _ (by norm_num)⟩

theorem tileRow_val {n : ℕ} (hn : n < 16) (r : Fin 256) : (tileRow n r).val = 256 * n + r.val := by
  have := r.isLt
  show (256 * n + r.val) % 4096 = _
  omega

/-- Tile number and row within the tile, against the row number. -/
def tileEquiv : Fin 16 × Fin 256 ≃ Fin 4096 where
  toFun p := tileRow p.1.val p.2
  invFun i := (⟨i.val / 256, by have := i.isLt; omega⟩, ⟨i.val % 256, by omega⟩)
  left_inv p := by
    obtain ⟨⟨a, ha⟩, ⟨b, hb⟩⟩ := p
    simp only [tileRow, Prod.mk.injEq, Fin.mk.injEq]
    omega
  right_inv i := by
    obtain ⟨i, hi⟩ := i
    simp only [tileRow, Fin.mk.injEq]
    omega

/-- The supremum over the tiles of the suprema over their rows is the supremum over all rows. -/
theorem sup_range_tiles (F : Fin 4096 → EReal) :
    (Finset.range 16).sup (fun t => Finset.univ.sup fun r : Fin 256 => F (tileRow t r)) = Finset.univ.sup F := by
  apply le_antisymm
  · exact Finset.sup_le fun t _ => Finset.sup_le fun r _ => Finset.le_sup (Finset.mem_univ _)
  · refine Finset.sup_le fun i _ => ?_
    have hi := i.isLt
    have e : tileRow (i.val / 256) ⟨i.val % 256, by omega⟩ = i := tileEquiv.right_inv i
    refine Finset.le_sup_of_le (Finset.mem_range.2 (by omega : i.val / 256 < 16)) ?_
    refine Finset.le_sup_of_le (Finset.mem_univ (⟨i.val % 256, by omega⟩ : Fin 256)) ?_
    rw [e]

/-- The sum over the tiles of the sums over their rows is the sum over all rows. -/
theorem sum_range_tiles (G : Fin 4096 → EReal) :
    ∑ t ∈ Finset.range 16, ∑ r : Fin 256, G (tileRow t r) = ∑ i, G i := by
  rw [Finset.sum_range (fun t => ∑ r : Fin 256, G (tileRow t r)), ← Fintype.sum_prod_type']
  exact Fintype.sum_equiv tileEquiv _ _ fun _ => rfl

theorem sup_tiles (f : Fin 4096 → EReal) :
    Finset.univ.sup (fun t : Fin 16 => Finset.univ.sup fun r : Fin 256 => f ⟨256 * t.val + r.val, by omega⟩)
      = Finset.univ.sup f := by
  apply le_antisymm
  · exact Finset.sup_le fun t _ => Finset.sup_le fun r _ => Finset.le_sup (Finset.mem_univ _)
  · refine Finset.sup_le fun i _ => ?_
    have hi := i.isLt
    refine Finset.le_sup_of_le (Finset.mem_univ (⟨i.val / 256, by omega⟩ : Fin 16)) ?_
    refine Finset.le_sup_of_le (Finset.mem_univ (⟨i.val % 256, by omega⟩ : Fin 256)) ?_
    refine le_of_eq (congrArg f (Fin.ext ?_))
    show i.val = 256 * (i.val / 256) + i.val % 256
    omega

theorem sum_tiles (f : Fin 4096 → EReal) :
    ∑ t : Fin 16, ∑ r : Fin 256, f ⟨256 * t.val + r.val, by omega⟩ = ∑ i, f i := by
  rw [← Fintype.sum_prod_type' (f := fun (t : Fin 16) (r : Fin 256) => f ⟨256 * t.val + r.val, by omega⟩)]
  refine Fintype.sum_equiv tileEquiv _ _ fun p => congrArg f (Fin.ext ?_)
  exact (tileRow_val p.1.isLt p.2).symm

/-- The online column statistics, in the form of hypotheses on the carried pair after each tile: started from
    `(−∞, 0)` at the first tile and updated at each later one, after the sixteenth tile the pair is the column's maximum
    and its shifted sum of exponentials. -/
theorem online_tiles (s : Fin 4096 → EReal) (hs : ∀ i, ∃ x : ℝ, s i = (x : EReal)) (M L : ℕ → EReal)
    (hM0 : M 0 = max ⊥ (Finset.univ.sup fun r : Fin 256 => s (tileRow 0 r)))
    (hL0 : L 0 = Ideal.exp (⊥ - M 0) * 0 + ∑ r : Fin 256, Ideal.exp (s (tileRow 0 r) - M 0))
    (hM : ∀ n, n + 1 < 16 → M (n + 1) = max (M n) (Finset.univ.sup fun r : Fin 256 => s (tileRow (n + 1) r)))
    (hL : ∀ n, n + 1 < 16 → L (n + 1) = Ideal.exp (M n - M (n + 1)) * L n
      + ∑ r : Fin 256, Ideal.exp (s (tileRow (n + 1) r) - M (n + 1))) :
    M 15 = Finset.univ.sup s ∧ L 15 = ∑ i : Fin 4096, Ideal.exp (s i - Finset.univ.sup s) := by
  choose σ hσ using hs
  obtain rfl : s = fun i => (σ i : EReal) := funext hσ
  have hrec : ∀ n, n < 16 → (M n, L n) = online (fun t r => ((σ (tileRow t r) : ℝ) : EReal)) (n + 1) := by
    intro n
    induction n with
    | zero =>
      intro _
      rw [hL0, hM0]
      rfl
    | succ n ih =>
      intro hn
      have ih' := ih (by omega)
      rw [hL n hn, hM n hn]
      show _ = onlineStep (online (fun t r => ((σ (tileRow t r) : ℝ) : EReal)) (n + 1)) _
      rw [← ih']
      rfl
  have hinv := online_inv (fun t r => σ (tileRow t r)) 16
  rw [← hrec 15 (by norm_num)] at hinv
  obtain ⟨h1, h2⟩ := hinv
  have h1' : M 15 = Finset.univ.sup fun i => (σ i : EReal) :=
    (show M 15 = _ from h1).trans (sup_range_tiles (fun i => (σ i : EReal)))
  refine ⟨h1', ?_⟩
  have h2' : L 15 = ∑ t ∈ Finset.range 16, ∑ r : Fin 256, Ideal.exp ((σ (tileRow t r) : EReal) - M 15) := h2
  rw [h2', h1']
  exact sum_range_tiles (fun i => Ideal.exp ((σ i : EReal) - Finset.univ.sup fun i => (σ i : EReal)))

end Cert.MathH

end
-- ==== Proof.KIVal0.lean ====
/-
  The first launch's two result arrays are the column maximum and the logarithm of the column's sum of shifted
  exponentials.

  Grid point 16·b + n handles tile n of batch b: query rows 256·n … 256·n + 255 against all keys of the batch.  The pair
  of running column statistics carried from point to point starts afresh at n = 0 and is updated by one step per tile, so
  after tile 15 column j's pair is the maximum over all 4096 rows of the batch's scores in that column and the sum over
  all rows of their exponentials shifted by that maximum (the online recurrence; it uses that the scores are real
  numbers).  The last tile of each batch stores the pair — the maximum, and the logarithm of the sum — as that batch's
  rows of the two result arrays, and the four batches' blocks tile the arrays.
-/
import proofs.«159045_j72310069395864_2_alg».proof.Proof.KIVal0Step
import proofs.«159045_j72310069395864_2_alg».proof.Proof.KIVal0Blk
import proofs.«159045_j72310069395864_2_alg».proof.Proof.KIVal0Arr
import proofs.«159045_j72310069395864_2_alg».proof.Proof.MathOnline

noncomputable section

namespace Cert.KernelIdeal.H.Val0

open Cert.KernelIdeal Cert.KernelIdeal.Gen Cert.KernelIdeal.H
open Idealize.ShloMosaic Idealize.ShloMosaic.ValueIdx
open Cert.MathH (tileRow tileRow_val)

/-- The queries and the keys as the launch finds them. -/
abbrev Qa (V : Entry Ideal) (c : Dev nD) : S4x4096x64.Idx → EReal := V c main_arg0
abbrev Ka (V : Entry Ideal) (c : Dev nD) : S4x4096x64.Idx → EReal := V c main_arg1

/-- Column j of batch b's scores. -/
abbrev colS (V : Entry Ideal) (c : Dev nD) (b : Fin 4) (j : Fin 4096) : Fin 4096 → EReal :=
  fun i => Cert.Spec.S (Qa V c) (Ka V c) b i j

/-- The query block at point 16·b + n is tile n of batch b. -/
theorem blk_q (V : Entry Ideal) (c : Dev nD) (b : Fin 4) (n : ℕ) (hn : n < 16) (ht : 16 * b.val + n < cfg0.N)
    (r : Fin 256) (d : Fin 64) :
    (iblk0 V c 0 ⟨16 * b.val + n, ht⟩ : Vec Ideal S1x256x64 .f32) (ix3 (0 : Fin 1) r d) = Qa V c (ix3 b (tileRow n r) d) :=
  iblk0_q V c ⟨16 * b.val + n, ht⟩ r d b (tileRow n r)
    (by show b.val = (16 * b.val + n) / 16; omega)
    (by rw [tileRow_val hn]; show 256 * n + r.val = 256 * ((16 * b.val + n) % 16) + r.val; omega)

/-- The key block at point 16·b + n is batch b. -/
theorem blk_k (V : Entry Ideal) (c : Dev nD) (b : Fin 4) (n : ℕ) (hn : n < 16) (ht : 16 * b.val + n < cfg0.N)
    (j : Fin 4096) (d : Fin 64) :
    (iblk0 V c 1 ⟨16 * b.val + n, ht⟩ : Vec Ideal S1x4096x64 .f32) (ix3 (0 : Fin 1) j d) = Ka V c (ix3 b j d) :=
  iblk0_k V c ⟨16 * b.val + n, ht⟩ j d b (by show b.val = (16 * b.val + n) / 16; omega)

/-- Column j's running maximum and running sum after tile n of batch b. -/
def Mcol (V : Entry Ideal) (c : Dev nD) (b : Fin 4) (j : Fin 4096) (n : ℕ) : EReal :=
  if h : 16 * b.val + n < cfg0.N then (carry0 V c (16 * b.val + n) h).1 (ix2 (0 : Fin 1) j) else 0
def Lcol (V : Entry Ideal) (c : Dev nD) (b : Fin 4) (j : Fin 4096) (n : ℕ) : EReal :=
  if h : 16 * b.val + n < cfg0.N then (carry0 V c (16 * b.val + n) h).2 (ix2 (0 : Fin 1) j) else 0

/-- The first tile of a batch. -/
theorem col_first (V : Entry Ideal) (c : Dev nD) (b : Fin 4) (j : Fin 4096) (h0 : 16 * b.val + 0 < cfg0.N) :
    (carry0 V c (16 * b.val + 0) h0).1 (ix2 (0 : Fin 1) j)
        = max ⊥ (Finset.univ.sup fun r : Fin 256 => colS V c b j (tileRow 0 r))
    ∧ (carry0 V c (16 * b.val + 0) h0).2 (ix2 (0 : Fin 1) j)
        = Ideal.exp (⊥ - max ⊥ (Finset.univ.sup fun r : Fin 256 => colS V c b j (tileRow 0 r))) * 0
          + ∑ r : Fin 256, Ideal.exp (colS V c b j (tileRow 0 r)
              - max ⊥ (Finset.univ.sup fun r : Fin 256 => colS V c b j (tileRow 0 r))) := by
  rw [carry0_first V c (16 * b.val + 0) h0 (by omega)]
  exact point_first (Qa V c) (Ka V c) (iblk0 V c 0 ⟨16 * b.val + 0, h0⟩) (iblk0 V c 1 ⟨16 * b.val + 0, h0⟩) b (tileRow 0)
    (fun r d => blk_q V c b 0 (by omega) h0 r d) (fun j d => blk_k V c b 0 (by omega) h0 j d) j

/-- A later tile of a batch. -/
theorem col_next (V : Entry Ideal) (c : Dev nD) (b : Fin 4) (j : Fin 4096) (n : ℕ) (hn : n + 1 < 16)
    (h1 : 16 * b.val + n + 1 < cfg0.N) :
    (carry0 V c (16 * b.val + n + 1) h1).1 (ix2 (0 : Fin 1) j)
        = max ((carry0 V c (16 * b.val + n) (Nat.lt_of_succ_lt h1)).1 (ix2 (0 : Fin 1) j))
            (Finset.univ.sup fun r : Fin 256 => colS V c b j (tileRow (n + 1) r))
    ∧ (carry0 V c (16 * b.val + n + 1) h1).2 (ix2 (0 : Fin 1) j)
        = Ideal.exp ((carry0 V c (16 * b.val + n) (Nat.lt_of_succ_lt h1)).1 (ix2 (0 : Fin 1) j)
              - max ((carry0 V c (16 * b.val + n) (Nat.lt_of_succ_lt h1)).1 (ix2 (0 : Fin 1) j))
                  (Finset.univ.sup fun r : Fin 256 => colS V c b j (tileRow (n + 1) r)))
            * (carry0 V c (16 * b.val + n) (Nat.lt_of_succ_lt h1)).2 (ix2 (0 : Fin 1) j)
          + ∑ r : Fin 256, Ideal.exp (colS V c b j (tileRow (n + 1) r)
              - max ((carry0 V c (16 * b.val + n) (Nat.lt_of_succ_lt h1)).1 (ix2 (0 : Fin 1) j))
                  (Finset.univ.sup fun r : Fin 256 => colS V c b j (tileRow (n + 1) r))) := by
  rw [carry0_next V c (16 * b.val + n) h1 (by omega)]
  exact point_next (Qa V c) (Ka V c) (iblk0 V c 0 ⟨16 * b.val + n + 1, h1⟩) (iblk0 V c 1 ⟨16 * b.val + n + 1, h1⟩)
    (carry0 V c (16 * b.val + n) (Nat.lt_of_succ_lt h1)).1 (carry0 V c (16 * b.val + n) (Nat.lt_of_succ_lt h1)).2 b (tileRow (n + 1))
    (fun r d => blk_q V c b (n + 1) hn h1 r d) (fun j d => blk_k V c b (n + 1) hn h1 j d) j

/-- After the sixteen tiles of batch b, column j's pair is the column's maximum and its sum of shifted exponentials. -/
theorem col_final (V : Entry Ideal) (c : Dev nD)
    (hq : Cert.Spec.Finite (V c main_arg0 : S4x4096x64.Idx → EReal)) (hk : Cert.Spec.Finite (V c main_arg1 : S4x4096x64.Idx → EReal))
    (b : Fin 4) (j : Fin 4096) (ht : 16 * b.val + 15 < cfg0.N) :
    (carry0 V c (16 * b.val + 15) ht).1 (ix2 (0 : Fin 1) j) = Cert.Spec.cmax (Cert.Spec.S (Qa V c) (Ka V c)) b j
    ∧ (carry0 V c (16 * b.val + 15) ht).2 (ix2 (0 : Fin 1) j) = Cert.Spec.csum (Cert.Spec.S (Qa V c) (Ka V c)) b j := by
  have hN : cfg0.N = 64 := N_0
  have hb := b.isLt
  have hs : ∀ i, ∃ x : ℝ, colS V c b j i = (x : EReal) := fun i =>
    Cert.MathH.sco_real (Cert.Spec.cur3 (Qa V c)) (Cert.Spec.cur3 (Ka V c)) (fun b i d => hq (ix3 b i d)) (fun b i d => hk (ix3 b i d)) b i j
  have hlt : ∀ n, n < 16 → 16 * b.val + n < cfg0.N := fun n hn => by omega
  have hM0 : Mcol V c b j 0 = max ⊥ (Finset.univ.sup fun r : Fin 256 => colS V c b j (tileRow 0 r)) := by
    unfold Mcol; rw [dif_pos (hlt 0 (by omega))]; exact (col_first V c b j (hlt 0 (by omega))).1
  have hL0 : Lcol V c b j 0 = Ideal.exp (⊥ - Mcol V c b j 0) * 0 + ∑ r : Fin 256, Ideal.exp (colS V c b j (tileRow 0 r) - Mcol V c b j 0) := by
    rw [hM0]; unfold Lcol; rw [dif_pos (hlt 0 (by omega))]; exact (col_first V c b j (hlt 0 (by omega))).2
  have hM : ∀ n, n + 1 < 16 → Mcol V c b j (n + 1)
      = max (Mcol V c b j n) (Finset.univ.sup fun r : Fin 256 => colS V c b j (tileRow (n + 1) r)) := by
    intro n hn
    unfold Mcol; rw [dif_pos (hlt (n + 1) hn), dif_pos (hlt n (by omega))]
    exact (col_next V c b j n hn (hlt (n + 1) hn)).1
  have hL : ∀ n, n + 1 < 16 → Lcol V c b j (n + 1)
      = Ideal.exp (Mcol V c b j n - Mcol V c b j (n + 1)) * Lcol V c b j n
        + ∑ r : Fin 256, Ideal.exp (colS V c b j (tileRow (n + 1) r) - Mcol V c b j (n + 1)) := by
    intro n hn
    rw [hM n hn]
    unfold Mcol Lcol; rw [dif_pos (hlt (n + 1) hn), dif_pos (hlt n (by omega)), dif_pos (hlt n (by omega))]
    exact (col_next V c b j n hn (hlt (n + 1) hn)).2
  have key := Cert.MathH.online_tiles (colS V c b j) hs (Mcol V c b j) (Lcol V c b j) hM0 hL0 hM hL
  unfold Mcol Lcol at key
  rw [dif_pos ht, dif_pos ht] at key
  exact key

/-- The first launch's two result arrays are the specification's column statistics of the queries and keys. -/
theorem val0 (V : Entry Ideal) (c : Dev nD) (dat : Pipeline.Dat τ (Elt Ideal) Unit ℕ (UR sig nD τ) ℕ cfg0 c)
    (hA : ∀ w, dat.A w = V c (Pipeline.arrRef spec0 w))
    (h2 : ∀ t : Fin cfg0.N, t.val % 16 = 15 → dat.after 2 t = k0_pay1 (carry0 V c t.val t.isLt).1)
    (h3 : ∀ t : Fin cfg0.N, t.val % 16 = 15 → dat.after 3 t = k0_pay2 (carry0 V c t.val t.isLt).2)
    (hq : Cert.Spec.Finite (V c main_arg0 : S4x4096x64.Idx → EReal)) (hk : Cert.Spec.Finite (V c main_arg1 : S4x4096x64.Idx → EReal)) :
    (dat.arrAt 2 cfg0.N : S4x1x4096.Idx → EReal) = Cert.Spec.Gcmax (V c main_arg0) (V c main_arg1)
    ∧ (dat.arrAt 3 cfg0.N : S4x1x4096.Idx → EReal) = Cert.Spec.Glcs (V c main_arg0) (V c main_arg1) := by
  have hN : cfg0.N = 64 := N_0
  refine arr_of_after c dat (Cert.Spec.Gcmax (V c main_arg0) (V c main_arg1)) (Cert.Spec.Glcs (V c main_arg0) (V c main_arg1)) ?_ ?_
  · intro t ht b hb j
    have hlt := t.isLt
    have ht' : 16 * b.val + 15 < cfg0.N := by omega
    obtain rfl : t = ⟨16 * b.val + 15, ht'⟩ := Fin.ext (by show t.val = 16 * b.val + 15; omega)
    refine (congrFun (h2 _ ht) _).trans ?_
    refine (pay1_apply _ j).trans ?_
    exact (col_final V c hq hk b j ht').1
  · intro t ht b hb j
    have hlt := t.isLt
    have ht' : 16 * b.val + 15 < cfg0.N := by omega
    obtain rfl : t = ⟨16 * b.val + 15, ht'⟩ := Fin.ext (by show t.val = 16 * b.val + 15; omega)
    refine (congrFun (h3 _ ht) _).trans ?_
    refine (pay2_apply _ j).trans ?_
    exact congrArg Ideal.log (col_final V c hq hk b j ht').2

end Cert.KernelIdeal.H.Val0

end
-- ==== Proof.KIVal1Pay.lean ====
/-
  One grid point of the second launch, entry by entry.

  At a grid point the program holds a tile of 128 query rows, all 4096 keys and values of the batch, and the two rows of
  column statistics.  This module reads each value it computes at one entry of its block:
  * the scaled scores of the tile are the sums over the 64 features of query times key, times one eighth;
  * the log-softmax block at (r, j) is the score less the row's supremum less the logarithm of the row's sum of shifted
    exponentials (each maximum folded from −∞ over a whole row is the row's supremum);
  * the mask block at (r, j) is 1 where twice the score less the two column statistics attains the supremum of that
    expression over the row, and 0 elsewhere: the comparison's bit, widened and converted, is that number;
  * the product block at (r, d) is the sum over the 4096 keys of mask times value (the change of float format before the
    product is the identity on extended reals).
-/
import proofs.«159045_j72310069395864_2_alg».proof.Proof.KIDefs
import proofs.«159045_j72310069395864_2_alg».proof.Proof.MathBasics
import Idealize.ShloMosaic.Lib.ValueLayout
import Idealize.ShloMosaic.PureOps.Ideal.Laws

noncomputable section

namespace Cert.KernelIdeal.H.Val1

open Cert.KernelIdeal Cert.KernelIdeal.Gen Cert.KernelIdeal.H
open Idealize.ShloMosaic Idealize.ShloMosaic.ValueIdx

/-! ## The two products' operand indices -/

/-- The product of the query tile with the keys: both operands contract their feature axis. -/
abbrev D5 := dot_S128x64_S4096x64_S128x4096_1_1_0_0_n_n
/-- The product of the mask with the values: the mask's key axis against the values' position axis. -/
abbrev D1 := dot_S128x4096_S4096x64_S128x64_1_0_0_1_n_n

theorem lhs5_0 (i : S128x4096.Idx) (q : D5.contr.Idx) : (D5.lhsIdx i q 0).val = (i 0).val := by
  unfold DotDims.lhsIdx
  rw [dif_neg (show ¬(0 : Fin S128x64.rank) ∈ D5.lhsBatch by decide), dif_pos (show (0 : Fin S128x64.rank) ∈ D5.lhsNonContracting by decide)]
  rfl
theorem lhs5_1 (i : S128x4096.Idx) (q : D5.contr.Idx) : (D5.lhsIdx i q 1).val = (q ⟨0, by decide⟩).val :=
  D5.lhsIdx_val_of_single rfl i q
theorem rhs5_0 (i : S128x4096.Idx) (q : D5.contr.Idx) : (D5.rhsIdx i q 0).val = (i 1).val := by
  unfold DotDims.rhsIdx
  rw [dif_neg (show ¬(0 : Fin S4096x64.rank) ∈ D5.rhsBatch by decide), dif_pos (show (0 : Fin S4096x64.rank) ∈ D5.rhsNonContracting by decide)]
  rfl
theorem rhs5_1 (i : S128x4096.Idx) (q : D5.contr.Idx) : (D5.rhsIdx i q 1).val = (q ⟨0, by decide⟩).val :=
  D5.rhsIdx_val_of_single rfl i q

theorem lhs1_0 (i : S128x64.Idx) (q : D1.contr.Idx) : (D1.lhsIdx i q 0).val = (i 0).val := by
  unfold DotDims.lhsIdx
  rw [dif_neg (show ¬(0 : Fin S128x4096.rank) ∈ D1.lhsBatch by decide), dif_pos (show (0 : Fin S128x4096.rank) ∈ D1.lhsNonContracting by decide)]
  rfl
theorem lhs1_1 (i : S128x64.Idx) (q : D1.contr.Idx) : (D1.lhsIdx i q 1).val = (q ⟨0, by decide⟩).val :=
  D1.lhsIdx_val_of_single rfl i q
theorem rhs1_0 (i : S128x64.Idx) (q : D1.contr.Idx) : (D1.rhsIdx i q 0).val = (q ⟨0, by decide⟩).val :=
  D1.rhsIdx_val_of_single rfl i q
theorem rhs1_1 (i : S128x64.Idx) (q : D1.contr.Idx) : (D1.rhsIdx i q 1).val = (i 1).val := by
  unfold DotDims.rhsIdx
  rw [dif_neg (show ¬(1 : Fin S4096x64.rank) ∈ D1.rhsBatch by decide), dif_pos (show (1 : Fin S4096x64.rank) ∈ D1.rhsNonContracting by decide)]
  rfl

/-! ## The scaled scores of a tile -/

/-- The scaled scores of a tile of 128 query rows against all 4096 keys. -/
def sT (q : S1x128x64.Idx → EReal) (k : S1x4096x64.Idx → EReal) (r : Fin 128) (j : Fin 4096) : EReal :=
  (∑ d : Fin 64, q (ix3 (0 : Fin 1) r d) * k (ix3 (0 : Fin 1) j d)) * Spec.eighth

theorem pay5_apply (v0 : Vec Ideal S1x128x64 .f32) (v2 : Vec Ideal S1x4096x64 .f32) (r : Fin 128) (j : Fin 4096) :
    k1_pay5 v0 v2 (ix2 r j) = sT v0 v2 r j := by
  unfold k1_pay5 sT
  show (FloatOps.matmul D5 (some .fp32) (shapeCast S128x64 v0 Facts₀.shapeCasts_S1x128x64_S128x64) (shapeCast S4096x64 v2 Facts₀.shapeCasts_S1x4096x64_S4096x64) (constant S128x4096 .f32 0x00000000#32) (ix2 r j)) * Ideal.ofBits .f32 0x3E000000#32 = _
  refine congrArg (· * Ideal.ofBits .f32 0x3E000000#32) ?_
  refine (Ideal.matmul_constant_zero_apply D5 (some .fp32) _ _ (ix2 r j)).trans ?_
  rw [← Equiv.sum_comp (contrEquiv1 D5 64 rfl rfl).symm]
  refine Finset.sum_congr rfl fun k _ => ?_
  have hk := contrEquiv1_symm_val D5 64 rfl rfl k
  have el : D5.lhsIdx (ix2 r j) ((contrEquiv1 D5 64 rfl rfl).symm k) = ix2 r k := funext fun a => Fin.ext (by
    match a with
    | ⟨0, _⟩ => exact lhs5_0 _ _
    | ⟨1, _⟩ => exact (lhs5_1 _ _).trans hk)
  have er : D5.rhsIdx (ix2 r j) ((contrEquiv1 D5 64 rfl rfl).symm k) = ix2 j k := funext fun a => Fin.ext (by
    match a with
    | ⟨0, _⟩ => exact rhs5_0 _ _
    | ⟨1, _⟩ => exact (rhs5_1 _ _).trans hk)
  rw [el, er, shapeCast_1ab_ab_apply, shapeCast_1ab_ab_apply]

/-- A row of the tile's scores. -/
theorem pay5_row (v0 : Vec Ideal S1x128x64 .f32) (v2 : Vec Ideal S1x4096x64 .f32) (r : Fin 128) :
    (fun j : Fin 4096 => k1_pay5 v0 v2 (ix2 r j)) = sT v0 v2 r := funext fun j => pay5_apply v0 v2 r j

/-! ## Columns of row statistics: the casts, the reductions -/

section
variable {α : Type}

/-- A vector of 128 row statistics viewed as a column reads its entry. -/
theorem colCast_apply (v : S128.Idx → α) (h : S128.ShapeCasts S128x1) (r : Fin 128) (u : Fin 1) :
    shapeCast S128x1 v h (ix2 r u) = v (ix1 r) :=
  shapeCast_apply v h _ _ (by
    have hu : u.val = 0 := by omega
    rw [Shape.rowMajor_val_two, Shape.rowMajor_val_one]
    show r.val = r.val * 1 + u.val
    omega)

/-- A column spread over the 4096 entries of each row reads the row's entry. -/
theorem colBcast_apply (v : S128x1.Idx → α) (h : S128x1.Broadcasts S128x4096) (r : Fin 128) (j : Fin 4096) :
    broadcastTo S128x4096 v h (ix2 r j) = v (ix2 r (0 : Fin 1)) := by
  refine broadcastTo_apply v h (ix2 r j) (ix2 r (0 : Fin 1)) fun ax => ?_
  match ax with
  | ⟨0, _⟩ => rfl
  | ⟨1, _⟩ => rfl
end

/-- The maximum over a row, folded from −∞, is the row's supremum. -/
theorem rowMax_apply (x : FVec Ideal S128x4096 .f32) (hφ : FKind.Formats .f32)
    (hacc : (0xFF800000#32 : BitVec 32) = FKind.maximumf.neutral .f32 hφ) (r : Fin 128) :
    multiReduction .maximumf [1] S128 x 0xFF800000#32 Facts₀.reduces_S128x4096_S128 hφ hacc (ix1 r)
      = Finset.univ.sup fun j : Fin 4096 => x (ix2 r j) := by
  refine (Ideal.multiReduction_maximumf_single x _ _ hφ hacc (ix1 r)).trans ?_
  show (Finset.univ : Finset (Fin 4096)).fold max (Ideal.ofBits .f32 0xFF800000#32) _ = _
  rw [Cert.MathH.ofBits_neg_inf, ← Cert.MathH.fold_max_eq_sup]
  refine congrArg (fun f : Fin 4096 → EReal => Finset.fold max ⊥ f Finset.univ) (funext fun j => ?_)
  exact congrArg x (funext fun a => Fin.ext (by match a with | ⟨0, _⟩ => rfl | ⟨1, _⟩ => rfl))

/-- The sum over a row. -/
theorem rowSum_apply (x : FVec Ideal S128x4096 .f32) (hφ : FKind.Formats .f32)
    (hacc : (0x00000000#32 : BitVec 32) = FKind.add.neutral .f32 hφ) (r : Fin 128) :
    multiReduction .add [1] S128 x 0x00000000#32 Facts₀.reduces_S128x4096_S128 hφ hacc (ix1 r)
      = ∑ j : Fin 4096, x (ix2 r j) := by
  refine (Ideal.multiReduction_add_single x _ _ hφ hacc (ix1 r)).trans ?_
  show ∑ j : Fin 4096, _ = _
  refine Finset.sum_congr rfl fun j _ => ?_
  exact congrArg x (funext fun a => Fin.ext (by match a with | ⟨0, _⟩ => rfl | ⟨1, _⟩ => rfl))

/-- The row maxima as a block: every entry of a row holds the row's maximum. -/
def rmaxB (x : FVec Ideal S128x4096 .f32) (hφ : FKind.Formats .f32)
    (hacc : (0xFF800000#32 : BitVec 32) = FKind.maximumf.neutral .f32 hφ) : FVec Ideal S128x4096 .f32 :=
  broadcastTo S128x4096 (shapeCast S128x1 (multiReduction .maximumf [1] S128 x 0xFF800000#32 Facts₀.reduces_S128x4096_S128 hφ hacc)
    Facts₀.shapeCasts_S128_S128x1) Facts₀.broadcasts_S128x1_S128x4096

theorem rmaxB_apply (x : FVec Ideal S128x4096 .f32) (hφ : FKind.Formats .f32)
    (hacc : (0xFF800000#32 : BitVec 32) = FKind.maximumf.neutral .f32 hφ) (r : Fin 128) (j : Fin 4096) :
    rmaxB x hφ hacc (ix2 r j) = Finset.univ.sup fun j' : Fin 4096 => x (ix2 r j') := by
  unfold rmaxB
  rw [colBcast_apply, colCast_apply, rowMax_apply]

/-! ## The log-softmax block -/

/-- The log-softmax of one row of scores. -/
def rowLA (row : Fin 4096 → EReal) (j : Fin 4096) : EReal :=
  row j - Finset.univ.sup row - Ideal.log (∑ j' : Fin 4096, Ideal.exp (row j' - Finset.univ.sup row))

theorem la_apply (x : FVec Ideal S128x4096 .f32) (hφ : FKind.Formats .f32)
    (hacc : (0xFF800000#32 : BitVec 32) = FKind.maximumf.neutral .f32 hφ) (hφ' : FKind.Formats .f32)
    (hacc' : (0x00000000#32 : BitVec 32) = FKind.add.neutral .f32 hφ') (r : Fin 128) (j : Fin 4096) :
    subf (subf x (rmaxB x hφ hacc))
        (broadcastTo S128x4096 (log (shapeCast S128x1 (multiReduction .add [1] S128 (exp (subf x (rmaxB x hφ hacc))) 0x00000000#32
          Facts₀.reduces_S128x4096_S128 hφ' hacc') Facts₀.shapeCasts_S128_S128x1)) Facts₀.broadcasts_S128x1_S128x4096) (ix2 r j)
      = rowLA (fun j' => x (ix2 r j')) j := by
  show (x (ix2 r j) - rmaxB x hφ hacc (ix2 r j)) - broadcastTo S128x4096 _ Facts₀.broadcasts_S128x1_S128x4096 (ix2 r j) = _
  rw [rmaxB_apply, colBcast_apply]
  show _ - Ideal.log (shapeCast S128x1 _ Facts₀.shapeCasts_S128_S128x1 (ix2 r (0 : Fin 1))) = _
  rw [colCast_apply, rowSum_apply]
  unfold rowLA
  refine congrArg (fun z => _ - Ideal.log z) (Finset.sum_congr rfl fun j' _ => ?_)
  show Ideal.exp (x (ix2 r j') - rmaxB x hφ hacc (ix2 r j')) = _
  rw [rmaxB_apply]

theorem pay6_apply (v0 : Vec Ideal S1x128x64 .f32) (v2 : Vec Ideal S1x4096x64 .f32) (r : Fin 128) (j : Fin 4096) :
    k1_pay6 v0 v2 (ix2 r j) = rowLA (sT v0 v2 r) j := by
  unfold k1_pay6
  refine (la_apply (k1_pay5 v0 v2) _ _ _ _ r j).trans ?_
  rw [pay5_row]

/-! ## The mask block -/

/-- Twice the score less the two column statistics, along one row. -/
def rowScore (row cm lc : Fin 4096 → EReal) (j : Fin 4096) : EReal := Spec.two * row j - cm j - lc j
/-- The hard mask of one row: 1 where the row's expression attains its supremum. -/
def rowMask (row cm lc : Fin 4096 → EReal) (j : Fin 4096) : EReal :=
  if rowScore row cm lc j = Finset.univ.sup (rowScore row cm lc) then 1 else 0

/-- The block of that expression, from the scores and the two loaded rows of statistics. -/
def scoreT (x : FVec Ideal S128x4096 .f32) (v6 v8 : Vec Ideal S1x1x4096 .f32) : FVec Ideal S128x4096 .f32 :=
  subf (subf (mulf (broadcast S128x4096 (Scalar.ofBits .f32 0x40000000#32)) x)
      (broadcastTo S128x4096 (shapeCast S1x4096 v6 Facts₀.shapeCasts_S1x1x4096_S1x4096) Facts₀.broadcasts_S1x4096_S128x4096))
    (broadcastTo S128x4096 (shapeCast S1x4096 v8 Facts₀.shapeCasts_S1x1x4096_S1x4096) Facts₀.broadcasts_S1x4096_S128x4096)

theorem scoreT_apply (x : FVec Ideal S128x4096 .f32) (v6 v8 : Vec Ideal S1x1x4096 .f32) (r : Fin 128) (j : Fin 4096) :
    scoreT x v6 v8 (ix2 r j)
      = rowScore (fun j' => x (ix2 r j')) (fun j' => v6 (ix3 (0 : Fin 1) (0 : Fin 1) j')) (fun j' => v8 (ix3 (0 : Fin 1) (0 : Fin 1) j')) j := by
  show Ideal.ofBits .f32 0x40000000#32 * x (ix2 r j)
      - broadcastTo S128x4096 (shapeCast S1x4096 v6 Facts₀.shapeCasts_S1x1x4096_S1x4096) Facts₀.broadcasts_S1x4096_S128x4096 (ix2 r j)
      - broadcastTo S128x4096 (shapeCast S1x4096 v8 Facts₀.shapeCasts_S1x1x4096_S1x4096) Facts₀.broadcasts_S1x4096_S128x4096 (ix2 r j) = _
  rw [broadcastTo_1b_ab_apply, broadcastTo_1b_ab_apply, shapeCast_1ab_ab_apply, shapeCast_1ab_ab_apply]
  rfl

/-- The bit of an equality of extended reals, widened to a word and converted, is 1 or 0. -/
theorem oeq_word (a b : EReal) :
    (FloatOps.sitofp (F := Ideal) .f32 ((FloatOps.cmpf (F := Ideal) (φ := .f32) .oeq a b).setWidth 32) : EReal) = if a = b then 1 else 0 := by
  show ((((BitVec.ofBool (decide (a = b))).setWidth 32).toInt : ℝ) : EReal) = _
  by_cases h : a = b
  · simp [h]
  · simp [h]

theorem maskT_apply (sc : FVec Ideal S128x4096 .f32) (hφ : FKind.Formats .f32)
    (hacc : (0xFF800000#32 : BitVec 32) = FKind.maximumf.neutral .f32 hφ) (r : Fin 128) (j : Fin 4096) :
    (sitofp .f32 (extui 32 (cmpf .oeq sc (rmaxB sc hφ hacc)) Facts₀.natLt_1_32) : FVec Ideal S128x4096 .f32) (ix2 r j)
      = if sc (ix2 r j) = Finset.univ.sup (fun j' : Fin 4096 => sc (ix2 r j')) then 1 else 0 := by
  show FloatOps.sitofp (F := Ideal) .f32 ((FloatOps.cmpf (F := Ideal) (φ := .f32) .oeq (sc (ix2 r j)) (rmaxB sc hφ hacc (ix2 r j))).setWidth 32) = _
  rw [rmaxB_apply]
  exact oeq_word _ _

theorem pay7_apply (v0 : Vec Ideal S1x128x64 .f32) (v2 : Vec Ideal S1x4096x64 .f32) (v6 v8 : Vec Ideal S1x1x4096 .f32)
    (r : Fin 128) (j : Fin 4096) :
    k1_pay7 v0 v2 v6 v8 (ix2 r j)
      = rowMask (sT v0 v2 r) (fun j' => v6 (ix3 (0 : Fin 1) (0 : Fin 1) j')) (fun j' => v8 (ix3 (0 : Fin 1) (0 : Fin 1) j')) j := by
  unfold k1_pay7
  refine (maskT_apply (scoreT (k1_pay5 v0 v2) v6 v8) _ _ r j).trans ?_
  simp only [scoreT_apply]
  rw [pay5_row]
  rfl

/-! ## The product with the values, and the casts to blocks -/

theorem pay4_apply (v4 : Vec Ideal S1x4096x64 .f32) (j : Fin 4096) (d : Fin 64) :
    k1_pay4 v4 (ix2 j d) = v4 (ix3 (0 : Fin 1) j d) := by
  unfold k1_pay4
  exact shapeCast_1ab_ab_apply _ _ _ _

theorem pay2_apply (v36 : FVec Ideal S128x4096 .f32) (u : Fin 1) (r : Fin 128) (j : Fin 4096) :
    k1_pay2 v36 (ix3 u r j) = v36 (ix2 r j) := by
  unfold k1_pay2
  exact shapeCast_ab_1ab_apply _ _ _ _ _

theorem pay3_apply (v24 : FVec Ideal S128x4096 .f32) (u : Fin 1) (r : Fin 128) (j : Fin 4096) :
    k1_pay3 v24 (ix3 u r j) = v24 (ix2 r j) := by
  unfold k1_pay3
  exact shapeCast_ab_1ab_apply _ _ _ _ _

theorem pay1_apply (v5 : FVec Ideal S4096x64 .f32) (v36 : FVec Ideal S128x4096 .f32) (u : Fin 1) (r : Fin 128) (d : Fin 64) :
    k1_pay1 v5 v36 (ix3 u r d) = ∑ j : Fin 4096, v36 (ix2 r j) * v5 (ix2 j d) := by
  unfold k1_pay1
  refine (shapeCast_ab_1ab_apply _ _ u r d).trans ?_
  refine (Ideal.matmul_constant_zero_apply D1 none _ _ (ix2 r d)).trans ?_
  rw [← Equiv.sum_comp (contrEquiv1 D1 4096 rfl rfl).symm]
  refine Finset.sum_congr rfl fun k _ => ?_
  have hk := contrEquiv1_symm_val D1 4096 rfl rfl k
  have el : D1.lhsIdx (ix2 r d) ((contrEquiv1 D1 4096 rfl rfl).symm k) = ix2 r k := funext fun a => Fin.ext (by
    match a with
    | ⟨0, _⟩ => exact lhs1_0 _ _
    | ⟨1, _⟩ => exact (lhs1_1 _ _).trans hk)
  have er : D1.rhsIdx (ix2 r d) ((contrEquiv1 D1 4096 rfl rfl).symm k) = ix2 k d := funext fun a => Fin.ext (by
    match a with
    | ⟨0, _⟩ => exact (rhs1_0 _ _).trans hk
    | ⟨1, _⟩ => exact rhs1_1 _ _)
  rw [el, er]
  rfl

end Cert.KernelIdeal.H.Val1

end
-- ==== Proof.KIBlk1.lean ====
/-
  The block geometry of the second launch: on the grid of 4 × 32 points, point `t` works on batch `t / 32` and on the
  rows `128·(t mod 32) … 128·(t mod 32) + 127`.  The windows of the queries and of the three results move with the point
  (one batch, 128 rows); the windows of the keys, the values and the two column statistics hold the whole batch.
-/
import proofs.«159045_j72310069395864_2_alg».proof.Proof.KIDefs
import Idealize.ShloMosaic.Lib.Pipeline.Value
import Idealize.ShloMosaic.Lib.ValueIdx

noncomputable section

namespace Cert.KernelIdeal.H.Blk1

open Cert.KernelIdeal Cert.KernelIdeal.Gen Cert.KernelIdeal.H
open Idealize.ShloMosaic Idealize.ShloMosaic.TcCoe Idealize.SL.Sem Idealize.ShloMosaic.ValueIdx

variable {F : FTy → Type} [FloatOps F]

/-! ## The grid -/

theorem lt128 (t : Fin cfg1.N) : t.val < 128 := lt_of_lt_of_eq t.isLt N_1

/-- The batch of grid point `t`. -/
def bt (t : Fin cfg1.N) : Fin 4 := ⟨t.val / 32, by have := lt128 t; omega⟩
/-- The array row of row `r` of the 128 rows of grid point `t`. -/
def rowOf (t : Fin cfg1.N) (r : Fin 128) : Fin 4096 := ⟨128 * (t.val % 32) + r.val, by have := r.isLt; omega⟩

theorem bt_val (t : Fin cfg1.N) : (bt t).val = t.val / 32 := rfl
theorem rowOf_val (t : Fin cfg1.N) (r : Fin 128) : (rowOf t r).val = 128 * (t.val % 32) + r.val := rfl

/-! ## The printed index maps, decided over the grid

Every window's block index on the batch axis is `t / 32`; the windows of the queries and of the three results have block
index `t mod 32` on the row axis; every other block index is 0. -/

theorem idx0 (t : Fin cfg1.N) : win1_0.index t (0 : Fin 3) = t.val / 32 ∧ win1_0.index t (1 : Fin 3) = t.val % 32 ∧ win1_0.index t (2 : Fin 3) = 0 :=
  (by decide +kernel : ∀ t : Fin grid1.N, win1_0.index t (0 : Fin 3) = t.val / 32 ∧ win1_0.index t (1 : Fin 3) = t.val % 32 ∧ win1_0.index t (2 : Fin 3) = 0) t
theorem idx1 (t : Fin cfg1.N) : win1_1.index t (0 : Fin 3) = t.val / 32 ∧ win1_1.index t (1 : Fin 3) = 0 ∧ win1_1.index t (2 : Fin 3) = 0 :=
  (by decide +kernel : ∀ t : Fin grid1.N, win1_1.index t (0 : Fin 3) = t.val / 32 ∧ win1_1.index t (1 : Fin 3) = 0 ∧ win1_1.index t (2 : Fin 3) = 0) t
theorem idx2 (t : Fin cfg1.N) : win1_2.index t (0 : Fin 3) = t.val / 32 ∧ win1_2.index t (1 : Fin 3) = 0 ∧ win1_2.index t (2 : Fin 3) = 0 :=
  (by decide +kernel : ∀ t : Fin grid1.N, win1_2.index t (0 : Fin 3) = t.val / 32 ∧ win1_2.index t (1 : Fin 3) = 0 ∧ win1_2.index t (2 : Fin 3) = 0) t
theorem idx3 (t : Fin cfg1.N) : win1_3.index t (0 : Fin 3) = t.val / 32 ∧ win1_3.index t (1 : Fin 3) = 0 ∧ win1_3.index t (2 : Fin 3) = 0 :=
  (by decide +kernel : ∀ t : Fin grid1.N, win1_3.index t (0 : Fin 3) = t.val / 32 ∧ win1_3.index t (1 : Fin 3) = 0 ∧ win1_3.index t (2 : Fin 3) = 0) t
theorem idx4 (t : Fin cfg1.N) : win1_4.index t (0 : Fin 3) = t.val / 32 ∧ win1_4.index t (1 : Fin 3) = 0 ∧ win1_4.index t (2 : Fin 3) = 0 :=
  (by decide +kernel : ∀ t : Fin grid1.N, win1_4.index t (0 : Fin 3) = t.val / 32 ∧ win1_4.index t (1 : Fin 3) = 0 ∧ win1_4.index t (2 : Fin 3) = 0) t
theorem idx5 (t : Fin cfg1.N) : win1_5.index t (0 : Fin 3) = t.val / 32 ∧ win1_5.index t (1 : Fin 3) = t.val % 32 ∧ win1_5.index t (2 : Fin 3) = 0 :=
  (by decide +kernel : ∀ t : Fin grid1.N, win1_5.index t (0 : Fin 3) = t.val / 32 ∧ win1_5.index t (1 : Fin 3) = t.val % 32 ∧ win1_5.index t (2 : Fin 3) = 0) t
theorem idx6 (t : Fin cfg1.N) : win1_6.index t (0 : Fin 3) = t.val / 32 ∧ win1_6.index t (1 : Fin 3) = t.val % 32 ∧ win1_6.index t (2 : Fin 3) = 0 :=
  (by decide +kernel : ∀ t : Fin grid1.N, win1_6.index t (0 : Fin 3) = t.val / 32 ∧ win1_6.index t (1 : Fin 3) = t.val % 32 ∧ win1_6.index t (2 : Fin 3) = 0) t
theorem idx7 (t : Fin cfg1.N) : win1_7.index t (0 : Fin 3) = t.val / 32 ∧ win1_7.index t (1 : Fin 3) = t.val % 32 ∧ win1_7.index t (2 : Fin 3) = 0 :=
  (by decide +kernel : ∀ t : Fin grid1.N, win1_7.index t (0 : Fin 3) = t.val / 32 ∧ win1_7.index t (1 : Fin 3) = t.val % 32 ∧ win1_7.index t (2 : Fin 3) = 0) t

/-! ## The input blocks -/

/-- The block of queries at point `t`: batch `t / 32`, rows `128·(t mod 32) + r`. -/
theorem read0 (V : Entry F) (c : Dev nD) (t : Fin cfg1.N) (r : Fin 128) (d : Fin 64) :
    iblk1 V c 0 t (ix3 (0 : Fin 1) r d) = V c main_arg0 (ix3 (bt t) (rowOf t r) d) := by
  show V c main_arg0 (((cfg1.win 0).blk t).view.emb (ix3 (0 : Fin 1) r d)) = _
  refine congrArg (V c main_arg0) ?_
  obtain ⟨e0, e1, e2⟩ := idx0 t
  funext a; apply Fin.ext
  match a with
  | ⟨0, _⟩ => show win1_0.index t (0 : Fin 3) * 1 + 1 * 0 = t.val / 32; omega
  | ⟨1, _⟩ => show win1_0.index t (1 : Fin 3) * 128 + 1 * r.val = 128 * (t.val % 32) + r.val; omega
  | ⟨2, _⟩ => show win1_0.index t (2 : Fin 3) * 64 + 1 * d.val = d.val; omega

/-- The block of keys at point `t`: the whole batch `t / 32`. -/
theorem read1 (V : Entry F) (c : Dev nD) (t : Fin cfg1.N) (j : Fin 4096) (d : Fin 64) :
    iblk1 V c 1 t (ix3 (0 : Fin 1) j d) = V c main_arg1 (ix3 (bt t) j d) := by
  show V c main_arg1 (((cfg1.win 1).blk t).view.emb (ix3 (0 : Fin 1) j d)) = _
  refine congrArg (V c main_arg1) ?_
  obtain ⟨e0, e1, e2⟩ := idx1 t
  funext a; apply Fin.ext
  match a with
  | ⟨0, _⟩ => show win1_1.index t (0 : Fin 3) * 1 + 1 * 0 = t.val / 32; omega
  | ⟨1, _⟩ => show win1_1.index t (1 : Fin 3) * 4096 + 1 * j.val = j.val; omega
  | ⟨2, _⟩ => show win1_1.index t (2 : Fin 3) * 64 + 1 * d.val = d.val; omega

/-- The block of values at point `t`: the whole batch `t / 32`. -/
theorem read2 (V : Entry F) (c : Dev nD) (t : Fin cfg1.N) (j : Fin 4096) (d : Fin 64) :
    iblk1 V c 2 t (ix3 (0 : Fin 1) j d) = V c main_arg2 (ix3 (bt t) j d) := by
  show V c main_arg2 (((cfg1.win 2).blk t).view.emb (ix3 (0 : Fin 1) j d)) = _
  refine congrArg (V c main_arg2) ?_
  obtain ⟨e0, e1, e2⟩ := idx2 t
  funext a; apply Fin.ext
  match a with
  | ⟨0, _⟩ => show win1_2.index t (0 : Fin 3) * 1 + 1 * 0 = t.val / 32; omega
  | ⟨1, _⟩ => show win1_2.index t (1 : Fin 3) * 4096 + 1 * j.val = j.val; omega
  | ⟨2, _⟩ => show win1_2.index t (2 : Fin 3) * 64 + 1 * d.val = d.val; omega

/-- The block of column maxima at point `t`: the whole batch `t / 32`. -/
theorem read3 (V : Entry F) (c : Dev nD) (t : Fin cfg1.N) (j : Fin 4096) :
    iblk1 V c 3 t (ix3 (0 : Fin 1) (0 : Fin 1) j) = V c main_v0_0 (ix3 (bt t) (0 : Fin 1) j) := by
  show V c main_v0_0 (((cfg1.win 3).blk t).view.emb (ix3 (0 : Fin 1) (0 : Fin 1) j)) = _
  refine congrArg (V c main_v0_0) ?_
  obtain ⟨e0, e1, e2⟩ := idx3 t
  funext a; apply Fin.ext
  match a with
  | ⟨0, _⟩ => show win1_3.index t (0 : Fin 3) * 1 + 1 * 0 = t.val / 32; omega
  | ⟨1, _⟩ => show win1_3.index t (1 : Fin 3) * 1 + 1 * 0 = 0; omega
  | ⟨2, _⟩ => show win1_3.index t (2 : Fin 3) * 4096 + 1 * j.val = j.val; omega

/-- The block of logarithms of column sums at point `t`: the whole batch `t / 32`. -/
theorem read4 (V : Entry F) (c : Dev nD) (t : Fin cfg1.N) (j : Fin 4096) :
    iblk1 V c 4 t (ix3 (0 : Fin 1) (0 : Fin 1) j) = V c main_v0_1 (ix3 (bt t) (0 : Fin 1) j) := by
  show V c main_v0_1 (((cfg1.win 4).blk t).view.emb (ix3 (0 : Fin 1) (0 : Fin 1) j)) = _
  refine congrArg (V c main_v0_1) ?_
  obtain ⟨e0, e1, e2⟩ := idx4 t
  funext a; apply Fin.ext
  match a with
  | ⟨0, _⟩ => show win1_4.index t (0 : Fin 3) * 1 + 1 * 0 = t.val / 32; omega
  | ⟨1, _⟩ => show win1_4.index t (1 : Fin 3) * 1 + 1 * 0 = 0; omega
  | ⟨2, _⟩ => show win1_4.index t (2 : Fin 3) * 4096 + 1 * j.val = j.val; omega

/-! ## The output blocks -/

/-! ### Window 5: the masked values -/

/-- An index of the array is in point `t`'s block iff each coordinate is in the block's range on its axis. -/
theorem mem_blk5 (t : Fin cfg1.N) (i : S4x4096x64.Idx) :
    i ∈ ((cfg1.win 5).blk t).view.set ↔ ∀ a : Fin 3, win1_5.index t a * S1x128x64.size a ≤ (i a).val ∧ (i a).val < win1_5.index t a * S1x128x64.size a + S1x128x64.size a := by
  show i ∈ ((View.whole main_v1_0).slice (win1_5.rect t)).set ↔ _
  rw [View.set_slice_whole, Rect.mem_set_unit]
  exact Iff.rfl

/-- The same by coordinates: the batch is `t / 32` and the row is among the point's 128 rows. -/
theorem mem_blk5_ix (t : Fin cfg1.N) (b : Fin 4) (ρ : Fin 4096) (x : Fin 64) :
    ix3 b ρ x ∈ ((cfg1.win 5).blk t).view.set
      ↔ b.val = t.val / 32 ∧ 128 * (t.val % 32) ≤ ρ.val ∧ ρ.val < 128 * (t.val % 32) + 128 := by
  rw [mem_blk5]
  obtain ⟨e0, e1, e2⟩ := idx5 t
  constructor
  · intro h
    have h0 : win1_5.index t (0 : Fin 3) * 1 ≤ b.val ∧ b.val < win1_5.index t (0 : Fin 3) * 1 + 1 := h 0
    have h1 : win1_5.index t (1 : Fin 3) * 128 ≤ ρ.val ∧ ρ.val < win1_5.index t (1 : Fin 3) * 128 + 128 := h 1
    omega
  · intro h a
    match a with
    | ⟨0, _⟩ => show win1_5.index t (0 : Fin 3) * 1 ≤ b.val ∧ b.val < win1_5.index t (0 : Fin 3) * 1 + 1; omega
    | ⟨1, _⟩ => show win1_5.index t (1 : Fin 3) * 128 ≤ ρ.val ∧ ρ.val < win1_5.index t (1 : Fin 3) * 128 + 128; omega
    | ⟨2, _⟩ => show win1_5.index t (2 : Fin 3) * 64 ≤ x.val ∧ x.val < win1_5.index t (2 : Fin 3) * 64 + 64; have := x.isLt; omega

/-- Where an element of the block sits in the array: batch `t / 32`, row `128·(t mod 32) + r`, the same last coordinate. -/
theorem emb5 (t : Fin cfg1.N) (r : Fin 128) (x : Fin 64) :
    ((cfg1.win 5).blk t).view.emb (ix3 (0 : Fin 1) r x) = ix3 (bt t) (rowOf t r) x := by
  obtain ⟨e0, e1, e2⟩ := idx5 t
  funext a; apply Fin.ext
  match a with
  | ⟨0, _⟩ => show win1_5.index t (0 : Fin 3) * 1 + 1 * 0 = t.val / 32; omega
  | ⟨1, _⟩ => show win1_5.index t (1 : Fin 3) * 128 + 1 * r.val = 128 * (t.val % 32) + r.val; omega
  | ⟨2, _⟩ => show win1_5.index t (2 : Fin 3) * 64 + 1 * x.val = x.val; omega

/-- A function of the whole array read through point `t`'s block. -/
theorem readG5 (G : (⟨S4x4096x64, .f32⟩ : BufTy).Contents (Elt F)) (t : Fin cfg1.N) (r : Fin 128) (x : Fin 64) :
    ((cfg1.win 5).blk t).view.read (Elt F) G (ix3 (0 : Fin 1) r x) = G (ix3 (bt t) (rowOf t r) x) := by
  show G (((cfg1.win 5).blk t).view.emb (ix3 (0 : Fin 1) r x)) = _
  rw [emb5]

/-- The blocks cover the array: batch `b`, row `ρ` is in the block of point `32·b + ρ / 128`, and every point writes back. -/
theorem cover5 (i : S4x4096x64.Idx) :
    ∃ t : Fin cfg1.N, (cfg1.win 5).flush t = true ∧ i ∈ ((cfg1.win 5).blk t).view.set := by
  obtain ⟨b, ρ, x, rfl⟩ : ∃ (b : Fin 4) (ρ : Fin 4096) (x : Fin 64), i = ix3 b ρ x := ⟨i 0, i 1, i 2, eq_ix3 i⟩
  have hb := b.isLt
  have hρ := ρ.isLt
  refine ⟨⟨32 * b.val + ρ.val / 128, lt_of_lt_of_eq (by omega) N_1.symm⟩, flush1_5 _, ?_⟩
  rw [mem_blk5_ix]
  show b.val = (32 * b.val + ρ.val / 128) / 32 ∧ 128 * ((32 * b.val + ρ.val / 128) % 32) ≤ ρ.val
    ∧ ρ.val < 128 * ((32 * b.val + ρ.val / 128) % 32) + 128
  omega

/-! ### Window 6: the mask -/

/-- An index of the array is in point `t`'s block iff each coordinate is in the block's range on its axis. -/
theorem mem_blk6 (t : Fin cfg1.N) (i : S4x4096x4096.Idx) :
    i ∈ ((cfg1.win 6).blk t).view.set ↔ ∀ a : Fin 3, win1_6.index t a * S1x128x4096.size a ≤ (i a).val ∧ (i a).val < win1_6.index t a * S1x128x4096.size a + S1x128x4096.size a := by
  show i ∈ ((View.whole main_v1_1).slice (win1_6.rect t)).set ↔ _
  rw [View.set_slice_whole, Rect.mem_set_unit]
  exact Iff.rfl

/-- The same by coordinates: the batch is `t / 32` and the row is among the point's 128 rows. -/
theorem mem_blk6_ix (t : Fin cfg1.N) (b : Fin 4) (ρ : Fin 4096) (x : Fin 4096) :
    ix3 b ρ x ∈ ((cfg1.win 6).blk t).view.set
      ↔ b.val = t.val / 32 ∧ 128 * (t.val % 32) ≤ ρ.val ∧ ρ.val < 128 * (t.val % 32) + 128 := by
  rw [mem_blk6]
  obtain ⟨e0, e1, e2⟩ := idx6 t
  constructor
  · intro h
    have h0 : win1_6.index t (0 : Fin 3) * 1 ≤ b.val ∧ b.val < win1_6.index t (0 : Fin 3) * 1 + 1 := h 0
    have h1 : win1_6.index t (1 : Fin 3) * 128 ≤ ρ.val ∧ ρ.val < win1_6.index t (1 : Fin 3) * 128 + 128 := h 1
    omega
  · intro h a
    match a with
    | ⟨0, _⟩ => show win1_6.index t (0 : Fin 3) * 1 ≤ b.val ∧ b.val < win1_6.index t (0 : Fin 3) * 1 + 1; omega
    | ⟨1, _⟩ => show win1_6.index t (1 : Fin 3) * 128 ≤ ρ.val ∧ ρ.val < win1_6.index t (1 : Fin 3) * 128 + 128; omega
    | ⟨2, _⟩ => show win1_6.index t (2 : Fin 3) * 4096 ≤ x.val ∧ x.val < win1_6.index t (2 : Fin 3) * 4096 + 4096; have := x.isLt; omega

/-- Where an element of the block sits in the array: batch `t / 32`, row `128·(t mod 32) + r`, the same last coordinate. -/
theorem emb6 (t : Fin cfg1.N) (r : Fin 128) (x : Fin 4096) :
    ((cfg1.win 6).blk t).view.emb (ix3 (0 : Fin 1) r x) = ix3 (bt t) (rowOf t r) x := by
  obtain ⟨e0, e1, e2⟩ := idx6 t
  funext a; apply Fin.ext
  match a with
  | ⟨0, _⟩ => show win1_6.index t (0 : Fin 3) * 1 + 1 * 0 = t.val / 32; omega
  | ⟨1, _⟩ => show win1_6.index t (1 : Fin 3) * 128 + 1 * r.val = 128 * (t.val % 32) + r.val; omega
  | ⟨2, _⟩ => show win1_6.index t (2 : Fin 3) * 4096 + 1 * x.val = x.val; omega

/-- A function of the whole array read through point `t`'s block. -/
theorem readG6 (G : (⟨S4x4096x4096, .f32⟩ : BufTy).Contents (Elt F)) (t : Fin cfg1.N) (r : Fin 128) (x : Fin 4096) :
    ((cfg1.win 6).blk t).view.read (Elt F) G (ix3 (0 : Fin 1) r x) = G (ix3 (bt t) (rowOf t r) x) := by
  show G (((cfg1.win 6).blk t).view.emb (ix3 (0 : Fin 1) r x)) = _
  rw [emb6]

/-- The blocks cover the array: batch `b`, row `ρ` is in the block of point `32·b + ρ / 128`, and every point writes back. -/
theorem cover6 (i : S4x4096x4096.Idx) :
    ∃ t : Fin cfg1.N, (cfg1.win 6).flush t = true ∧ i ∈ ((cfg1.win 6).blk t).view.set := by
  obtain ⟨b, ρ, x, rfl⟩ : ∃ (b : Fin 4) (ρ : Fin 4096) (x : Fin 4096), i = ix3 b ρ x := ⟨i 0, i 1, i 2, eq_ix3 i⟩
  have hb := b.isLt
  have hρ := ρ.isLt
  refine ⟨⟨32 * b.val + ρ.val / 128, lt_of_lt_of_eq (by omega) N_1.symm⟩, flush1_6 _, ?_⟩
  rw [mem_blk6_ix]
  show b.val = (32 * b.val + ρ.val / 128) / 32 ∧ 128 * ((32 * b.val + ρ.val / 128) % 32) ≤ ρ.val
    ∧ ρ.val < 128 * ((32 * b.val + ρ.val / 128) % 32) + 128
  omega

/-! ### Window 7: the log-softmax -/

/-- An index of the array is in point `t`'s block iff each coordinate is in the block's range on its axis. -/
theorem mem_blk7 (t : Fin cfg1.N) (i : S4x4096x4096.Idx) :
    i ∈ ((cfg1.win 7).blk t).view.set ↔ ∀ a : Fin 3, win1_7.index t a * S1x128x4096.size a ≤ (i a).val ∧ (i a).val < win1_7.index t a * S1x128x4096.size a + S1x128x4096.size a := by
  show i ∈ ((View.whole main_v1_2).slice (win1_7.rect t)).set ↔ _
  rw [View.set_slice_whole, Rect.mem_set_unit]
  exact Iff.rfl

/-- The same by coordinates: the batch is `t / 32` and the row is among the point's 128 rows. -/
theorem mem_blk7_ix (t : Fin cfg1.N) (b : Fin 4) (ρ : Fin 4096) (x : Fin 4096) :
    ix3 b ρ x ∈ ((cfg1.win 7).blk t).view.set
      ↔ b.val = t.val / 32 ∧ 128 * (t.val % 32) ≤ ρ.val ∧ ρ.val < 128 * (t.val % 32) + 128 := by
  rw [mem_blk7]
  obtain ⟨e0, e1, e2⟩ := idx7 t
  constructor
  · intro h
    have h0 : win1_7.index t (0 : Fin 3) * 1 ≤ b.val ∧ b.val < win1_7.index t (0 : Fin 3) * 1 + 1 := h 0
    have h1 : win1_7.index t (1 : Fin 3) * 128 ≤ ρ.val ∧ ρ.val < win1_7.index t (1 : Fin 3) * 128 + 128 := h 1
    omega
  · intro h a
    match a with
    | ⟨0, _⟩ => show win1_7.index t (0 : Fin 3) * 1 ≤ b.val ∧ b.val < win1_7.index t (0 : Fin 3) * 1 + 1; omega
    | ⟨1, _⟩ => show win1_7.index t (1 : Fin 3) * 128 ≤ ρ.val ∧ ρ.val < win1_7.index t (1 : Fin 3) * 128 + 128; omega
    | ⟨2, _⟩ => show win1_7.index t (2 : Fin 3) * 4096 ≤ x.val ∧ x.val < win1_7.index t (2 : Fin 3) * 4096 + 4096; have := x.isLt; omega

/-- Where an element of the block sits in the array: batch `t / 32`, row `128·(t mod 32) + r`, the same last coordinate. -/
theorem emb7 (t : Fin cfg1.N) (r : Fin 128) (x : Fin 4096) :
    ((cfg1.win 7).blk t).view.emb (ix3 (0 : Fin 1) r x) = ix3 (bt t) (rowOf t r) x := by
  obtain ⟨e0, e1, e2⟩ := idx7 t
  funext a; apply Fin.ext
  match a with
  | ⟨0, _⟩ => show win1_7.index t (0 : Fin 3) * 1 + 1 * 0 = t.val / 32; omega
  | ⟨1, _⟩ => show win1_7.index t (1 : Fin 3) * 128 + 1 * r.val = 128 * (t.val % 32) + r.val; omega
  | ⟨2, _⟩ => show win1_7.index t (2 : Fin 3) * 4096 + 1 * x.val = x.val; omega

/-- A function of the whole array read through point `t`'s block. -/
theorem readG7 (G : (⟨S4x4096x4096, .f32⟩ : BufTy).Contents (Elt F)) (t : Fin cfg1.N) (r : Fin 128) (x : Fin 4096) :
    ((cfg1.win 7).blk t).view.read (Elt F) G (ix3 (0 : Fin 1) r x) = G (ix3 (bt t) (rowOf t r) x) := by
  show G (((cfg1.win 7).blk t).view.emb (ix3 (0 : Fin 1) r x)) = _
  rw [emb7]

/-- The blocks cover the array: batch `b`, row `ρ` is in the block of point `32·b + ρ / 128`, and every point writes back. -/
theorem cover7 (i : S4x4096x4096.Idx) :
    ∃ t : Fin cfg1.N, (cfg1.win 7).flush t = true ∧ i ∈ ((cfg1.win 7).blk t).view.set := by
  obtain ⟨b, ρ, x, rfl⟩ : ∃ (b : Fin 4) (ρ : Fin 4096) (x : Fin 4096), i = ix3 b ρ x := ⟨i 0, i 1, i 2, eq_ix3 i⟩
  have hb := b.isLt
  have hρ := ρ.isLt
  refine ⟨⟨32 * b.val + ρ.val / 128, lt_of_lt_of_eq (by omega) N_1.symm⟩, flush1_7 _, ?_⟩
  rw [mem_blk7_ix]
  show b.val = (32 * b.val + ρ.val / 128) / 32 ∧ 128 * ((32 * b.val + ρ.val / 128) % 32) ≤ ρ.val
    ∧ ρ.val < 128 * ((32 * b.val + ρ.val / 128) % 32) + 128
  omega

end Cert.KernelIdeal.H.Blk1

end
-- ==== Proof.KIVal1W56.lean ====
/-
  The second launch's product and mask arrays.

  The grid point numbered t works on batch t / 32 and on the 128 query rows from 128·(t mod 32).  The blocks it reads
  are those rows of the queries, and the whole batch of keys, of values and of the two column statistics; so the scores
  it forms are the specification's scores of that batch at those rows.  What it writes back to the mask array is
  therefore the specification's mask read through its block, and what it writes back to the product array is the
  specification's mask times the values, summed over the 4096 keys, read through its block.  Every point writes its
  blocks back, and the blocks tile both arrays: the arrays end holding the specification's functions.
-/
import proofs.«159045_j72310069395864_2_alg».proof.Proof.KIVal1Pay
import proofs.«159045_j72310069395864_2_alg».proof.Proof.KIBlk1
import Idealize.ShloMosaic.Lib.Pipeline.Value

noncomputable section

namespace Cert.KernelIdeal.H.Val1

open Cert.KernelIdeal Cert.KernelIdeal.Gen Cert.KernelIdeal.H Cert.KernelIdeal.H.Blk1
open Idealize.ShloMosaic Idealize.ShloMosaic.ValueIdx Idealize.ShloMosaic.TcCoe Idealize.SL.Sem

variable (V : Entry Ideal) (c : Dev nD)

/-- The scores a point forms from its blocks are the specification's scores of its batch at its rows. -/
theorem sT_blk (t : Fin cfg1.N) (r : Fin 128) :
    sT (iblk1 V c 0 t) (iblk1 V c 1 t) r = Spec.S (V c main_arg0) (V c main_arg1) (bt t) (rowOf t r) :=
  funext fun j => congrArg (· * Spec.eighth)
    (Finset.sum_congr rfl fun d _ => congrArg₂ (· * ·) (read0 V c t r d) (read1 V c t j d))

/-- The two rows of column statistics a point loads are the statistics of its batch. -/
theorem cm_blk (t : Fin cfg1.N) :
    (fun j' : Fin 4096 => iblk1 V c 3 t (ix3 (0 : Fin 1) (0 : Fin 1) j')) = Spec.colOf (V c main_v0_0) (bt t) :=
  funext fun j' => read3 V c t j'
theorem lc_blk (t : Fin cfg1.N) :
    (fun j' : Fin 4096 => iblk1 V c 4 t (ix3 (0 : Fin 1) (0 : Fin 1) j')) = Spec.colOf (V c main_v0_1) (bt t) :=
  funext fun j' => read4 V c t j'

/-- An entry of the mask a point computes is the specification's mask at its batch and row. -/
theorem mask_entry (t : Fin cfg1.N) (r : Fin 128) (j : Fin 4096) :
    k1_pay7 (iblk1 V c 0 t) (iblk1 V c 1 t) (iblk1 V c 3 t) (iblk1 V c 4 t) (ix2 r j)
      = Spec.maskG (Spec.S (V c main_arg0) (V c main_arg1)) (Spec.colOf (V c main_v0_0)) (Spec.colOf (V c main_v0_1)) (bt t) (rowOf t r) j := by
  refine (pay7_apply (iblk1 V c 0 t) (iblk1 V c 1 t) (iblk1 V c 3 t) (iblk1 V c 4 t) r j).trans ?_
  rw [sT_blk V c t r, cm_blk V c t, lc_blk V c t]
  rfl

variable (dat : Pipeline.Dat τ (Elt Ideal) Unit ℕ (UR sig nD τ) ℕ cfg1 c)

/-! ## The mask array -/

/-- What a point writes back to the mask array is the specification's mask read through the point's block. -/
theorem flushed6_eq
    (h6 : ∀ t : Fin cfg1.N, dat.after 6 t = k1_pay2 (k1_pay7 (iblk1 V c 0 t) (iblk1 V c 1 t) (iblk1 V c 3 t) (iblk1 V c 4 t)))
    (t : Fin cfg1.N) :
    dat.flushed 6 t = ((cfg1.win 6).blk t).view.read (Elt Ideal)
      (Spec.G1mask (V c main_arg0) (V c main_arg1) (V c main_v0_0) (V c main_v0_1)) := by
  show (cfg1.win 6).cut (cfg1.grid.coords t) (dat.after 6 t) = _
  rw [h6 t]
  funext y
  obtain ⟨z, r, x, rfl⟩ : ∃ (z : Fin 1) (r : Fin 128) (x : Fin 4096), y = ix3 z r x := ⟨y 0, y 1, y 2, eq_ix3 y⟩
  obtain rfl : z = 0 := Subsingleton.elim _ _
  refine Eq.trans ?_ (readG6 _ t r x).symm
  show k1_pay2 (k1_pay7 (iblk1 V c 0 t) (iblk1 V c 1 t) (iblk1 V c 3 t) (iblk1 V c 4 t)) (ix3 (0 : Fin 1) r x) = _
  refine (pay2_apply _ (0 : Fin 1) r x).trans ?_
  exact mask_entry V c t r x

theorem val1_6
    (h6 : ∀ t : Fin cfg1.N, dat.after 6 t = k1_pay2 (k1_pay7 (iblk1 V c 0 t) (iblk1 V c 1 t) (iblk1 V c 3 t) (iblk1 V c 4 t))) :
    (dat.arrAt 6 cfg1.N : S4x4096x4096.Idx → EReal) = Spec.G1mask (V c main_arg0) (V c main_arg1) (V c main_v0_0) (V c main_v0_1) :=
  dat.arrAt_eq_of_cover 6 _ (fun t _ => flushed6_eq V c dat h6 t) (fun i => cover6 i)

/-! ## The product array -/

/-- What a point writes back to the product array is the specification's product read through the point's block. -/
theorem flushed5_eq
    (h5 : ∀ t : Fin cfg1.N, dat.after 5 t = k1_pay1 (k1_pay4 (iblk1 V c 2 t)) (k1_pay7 (iblk1 V c 0 t) (iblk1 V c 1 t) (iblk1 V c 3 t) (iblk1 V c 4 t)))
    (t : Fin cfg1.N) :
    dat.flushed 5 t = ((cfg1.win 5).blk t).view.read (Elt Ideal)
      (Spec.G1out (V c main_arg0) (V c main_arg1) (V c main_arg2) (V c main_v0_0) (V c main_v0_1)) := by
  show (cfg1.win 5).cut (cfg1.grid.coords t) (dat.after 5 t) = _
  rw [h5 t]
  funext y
  obtain ⟨z, r, x, rfl⟩ : ∃ (z : Fin 1) (r : Fin 128) (x : Fin 64), y = ix3 z r x := ⟨y 0, y 1, y 2, eq_ix3 y⟩
  obtain rfl : z = 0 := Subsingleton.elim _ _
  refine Eq.trans ?_ (readG5 _ t r x).symm
  show k1_pay1 (k1_pay4 (iblk1 V c 2 t)) (k1_pay7 (iblk1 V c 0 t) (iblk1 V c 1 t) (iblk1 V c 3 t) (iblk1 V c 4 t)) (ix3 (0 : Fin 1) r x) = _
  refine (pay1_apply _ _ (0 : Fin 1) r x).trans ?_
  show _ = ∑ j : Fin 4096, Spec.maskG (Spec.S (V c main_arg0) (V c main_arg1)) (Spec.colOf (V c main_v0_0)) (Spec.colOf (V c main_v0_1)) (bt t) (rowOf t r) j
      * (V c main_arg2 : S4x4096x64.Idx → EReal) (ix3 (bt t) j x)
  refine Finset.sum_congr rfl fun j _ => ?_
  exact congrArg₂ (· * ·) (mask_entry V c t r j) ((pay4_apply (iblk1 V c 2 t) j x).trans (read2 V c t j x))

theorem val1_5
    (h5 : ∀ t : Fin cfg1.N, dat.after 5 t = k1_pay1 (k1_pay4 (iblk1 V c 2 t)) (k1_pay7 (iblk1 V c 0 t) (iblk1 V c 1 t) (iblk1 V c 3 t) (iblk1 V c 4 t))) :
    (dat.arrAt 5 cfg1.N : S4x4096x64.Idx → EReal) = Spec.G1out (V c main_arg0) (V c main_arg1) (V c main_arg2) (V c main_v0_0) (V c main_v0_1) :=
  dat.arrAt_eq_of_cover 5 _ (fun t _ => flushed5_eq V c dat h5 t) (fun i => cover5 i)

end Cert.KernelIdeal.H.Val1

end
-- ==== Proof.KIVal1.lean ====
/-
  The second launch's three result arrays are the specification's functions of the five arrays it reads.

  The log-softmax array: what a grid point writes back is the row-wise log-softmax of the scores of its batch at its 128
  rows, read through its block; every point writes back and the blocks tile the array.  With the product and the mask
  arrays this gives all three results.
-/
import proofs.«159045_j72310069395864_2_alg».proof.Proof.KIVal1W56

noncomputable section

namespace Cert.KernelIdeal.H.Val1

open Cert.KernelIdeal Cert.KernelIdeal.Gen Cert.KernelIdeal.H Cert.KernelIdeal.H.Blk1
open Idealize.ShloMosaic Idealize.ShloMosaic.ValueIdx Idealize.ShloMosaic.TcCoe Idealize.SL.Sem

variable (V : Entry Ideal) (c : Dev nD) (dat : Pipeline.Dat τ (Elt Ideal) Unit ℕ (UR sig nD τ) ℕ cfg1 c)

/-- What a point writes back to the log-softmax array is the specification's log-softmax read through the point's block. -/
theorem flushed7_eq
    (h7 : ∀ t : Fin cfg1.N, dat.after 7 t = k1_pay3 (k1_pay6 (iblk1 V c 0 t) (iblk1 V c 1 t)))
    (t : Fin cfg1.N) :
    dat.flushed 7 t = ((cfg1.win 7).blk t).view.read (Elt Ideal) (Spec.G1logattn (V c main_arg0) (V c main_arg1)) := by
  show (cfg1.win 7).cut (cfg1.grid.coords t) (dat.after 7 t) = _
  rw [h7 t]
  funext y
  obtain ⟨z, r, x, rfl⟩ : ∃ (z : Fin 1) (r : Fin 128) (x : Fin 4096), y = ix3 z r x := ⟨y 0, y 1, y 2, eq_ix3 y⟩
  obtain rfl : z = 0 := Subsingleton.elim _ _
  refine Eq.trans ?_ (readG7 _ t r x).symm
  show k1_pay3 (k1_pay6 (iblk1 V c 0 t) (iblk1 V c 1 t)) (ix3 (0 : Fin 1) r x) = _
  refine (pay3_apply _ (0 : Fin 1) r x).trans ?_
  refine (pay6_apply (iblk1 V c 0 t) (iblk1 V c 1 t) r x).trans ?_
  rw [sT_blk V c t r]
  rfl

theorem val1_7
    (h7 : ∀ t : Fin cfg1.N, dat.after 7 t = k1_pay3 (k1_pay6 (iblk1 V c 0 t) (iblk1 V c 1 t))) :
    (dat.arrAt 7 cfg1.N : S4x4096x4096.Idx → EReal) = Spec.G1logattn (V c main_arg0) (V c main_arg1) :=
  dat.arrAt_eq_of_cover 7 _ (fun t _ => flushed7_eq V c dat h7 t) (fun i => cover7 i)

/-- The three result arrays after the second launch. -/
theorem val1 (V : Entry Ideal) (c : Dev nD) (dat : Pipeline.Dat τ (Elt Ideal) Unit ℕ (UR sig nD τ) ℕ cfg1 c)
    (hA : ∀ w, dat.A w = V c (Pipeline.arrRef spec1 w))
    (h5 : ∀ t : Fin cfg1.N, dat.after 5 t = k1_pay1 (k1_pay4 (iblk1 V c 2 t)) (k1_pay7 (iblk1 V c 0 t) (iblk1 V c 1 t) (iblk1 V c 3 t) (iblk1 V c 4 t)))
    (h6 : ∀ t : Fin cfg1.N, dat.after 6 t = k1_pay2 (k1_pay7 (iblk1 V c 0 t) (iblk1 V c 1 t) (iblk1 V c 3 t) (iblk1 V c 4 t)))
    (h7 : ∀ t : Fin cfg1.N, dat.after 7 t = k1_pay3 (k1_pay6 (iblk1 V c 0 t) (iblk1 V c 1 t))) :
    (dat.arrAt 5 cfg1.N : S4x4096x64.Idx → EReal) = Spec.G1out (V c main_arg0) (V c main_arg1) (V c main_arg2) (V c main_v0_0) (V c main_v0_1)
    ∧ (dat.arrAt 6 cfg1.N : S4x4096x4096.Idx → EReal) = Spec.G1mask (V c main_arg0) (V c main_arg1) (V c main_v0_0) (V c main_v0_1)
    ∧ (dat.arrAt 7 cfg1.N : S4x4096x4096.Idx → EReal) = Spec.G1logattn (V c main_arg0) (V c main_arg1) :=
  ⟨val1_5 V c dat h5, val1_6 V c dat h6, val1_7 V c dat h7⟩

end Cert.KernelIdeal.H.Val1

end
-- ==== Proof.KIValue.lean ====
/-
  The values of the program's three results over the extended reals: after the run, on every core, the three result arrays
  are the specification's functions of the three argument arrays as launched, and the arguments are unchanged.  The first
  launch leaves the two column statistics of the scores, the second launch forms the three results from the arguments and
  from those statistics, and the results from the true statistics are the specification's.
-/
import proofs.«159045_j72310069395864_2_alg».proof.Proof.KIFrame
import proofs.«159045_j72310069395864_2_alg».proof.Proof.KIVal0
import proofs.«159045_j72310069395864_2_alg».proof.Proof.KIVal1
import proofs.«159045_j72310069395864_2_alg».proof.Proof.Spec

set_option maxRecDepth 16384

noncomputable section

namespace Cert.KernelIdeal.H.Value

open Cert.KernelIdeal Cert.KernelIdeal.Gen Cert.KernelIdeal.H Cert.KernelIdeal.H.Frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- THE VALUES: from real queries and keys, the program runs and ends with the masked values, the mask and the
    log-softmax of the specification in its three result arrays, the arguments as launched. -/
theorem values
    (hq : ∀ c : Dev nD, Spec.Finite (m ((c.tc : Thread nD τ).loc main_arg0) : S4x4096x64.Idx → EReal))
    (hk : ∀ c : Dev nD, Spec.Finite (m ((c.tc : Thread nD τ).loc main_arg1) : S4x4096x64.Idx → EReal)) :
    θ_run defs (onTc (τ := τ) (main (F := Ideal))) ⟨m, fun _ => 0, ρ⟩ (fun r => ∀ c : Dev nD,
      r.2.mem ((c.tc : Thread nD τ).loc main_v1_0) = Spec.Gout (m ((c.tc : Thread nD τ).loc main_arg0)) (m ((c.tc : Thread nD τ).loc main_arg1)) (m ((c.tc : Thread nD τ).loc main_arg2))
      ∧ r.2.mem ((c.tc : Thread nD τ).loc main_v1_1) = Spec.Gmask (m ((c.tc : Thread nD τ).loc main_arg0)) (m ((c.tc : Thread nD τ).loc main_arg1))
      ∧ r.2.mem ((c.tc : Thread nD τ).loc main_v1_2) = Spec.Glogattn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    -- the first launch's two statistics arrays, from the launch memory
    have hv0 := Val0.val0 (Run.V1 m) c (d0 (Run.V1 m) c) (fun w => R0.A_eq0 (Run.V1 m) c w)
      (fun t ht => R0.after0_2 (Run.V1 m) c t ht) (fun t ht => R0.after0_3 (Run.V1 m) c t ht) (hq c) (hk c)
    -- the second launch's three result arrays, from what the first launch leaves
    have hv1 := Val1.val1 (Run.V2 d0 m) c (R1.dat1 (Run.V2 d0 m) c) (fun w => R1.A_eq1 (Run.V2 d0 m) c w)
      (fun t => R1.after1_5 (Run.V2 d0 m) c t) (fun t => R1.after1_6 (Run.V2 d0 m) c t)
      (fun t => R1.after1_7 (Run.V2 d0 m) c t)
    rw [Run.V2_arg0 d0 hA0 m c, Run.V2_arg1 d0 hA0 m c, Run.V2_arg2 d0 m c, Run.V2_v0_0 d0 m c,
      Run.V2_v0_1 d0 m c, hv0.1, hv0.2] at hv1
    refine ⟨?_, ?_, ?_, ?_, ?_, ?_⟩
    · exact ((h c _ (Run.mem_uc main_v1_0 (by decide))).trans (Run.W4_arr d0 d1 m c 5)).trans
        (hv1.1.trans (Spec.G1out_stats _ _ _))
    · exact ((h c _ (Run.mem_uc main_v1_1 (by decide))).trans (Run.W4_arr d0 d1 m c 6)).trans
        (hv1.2.1.trans (Spec.G1mask_stats _ _))
    · exact ((h c _ (Run.mem_uc main_v1_2 (by decide))).trans (Run.W4_arr d0 d1 m c 7)).trans hv1.2.2
    · exact (h c _ (Run.mem_uc main_arg0 (by decide))).trans (Run.W4_main_arg0 d0 d1 hA0 hA1 m c)
    · exact (h c _ (Run.mem_uc main_arg1 (by decide))).trans (Run.W4_main_arg1 d0 d1 hA0 hA1 m c)
    · exact (h c _ (Run.mem_uc main_arg2 (by decide))).trans (Run.W4_main_arg2 d0 d1 hA1 m c))
    (Frame.run m ρ)

end Cert.KernelIdeal.H.Value

end
-- ==== Proof.RefRunOps.lean ====
/- The reference program's @main as a line of its 72 host operations, and what each operation does to the buffers.

   Each operation `op_k` is named; `tl_k` is the line from operation `k` on. `main_eq` reads @main as `seq ops`:
   the outlined call's body is the line of its fifteen operations (`body_eq`), @main as printed is four operations,
   the call, and the line of the last fifty-three (`main_split`), and only the binds of the four-operation prefix
   have to be re-associated (`prefix_eq`). For each operation: every buffer other than its result keeps its
   contents (`op_k_ne`), and its result buffer takes the operation's stage function of the arguments, given that its
   operands hold theirs (`op_k_val`). -/
import proofs.«159045_j72310069395864_2_alg».proof.Proof.RefReadP

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-! ## The operations, in order (a called function's operations stand in its call's place) -/

abbrev op_0 : HloOp τ sig (Elt F) :=
  binary main_arg0 main_arg1 main_v0 ((fun l r => Host.dotGeneral dot_S4x4096x64_S4x4096x64_S4x4096x4096_2_2_1_1_0_0 none l r) : (⟨S4x4096x64, .f32⟩ : BufTy).Contents (Elt F) → (⟨S4x4096x64, .f32⟩ : BufTy).Contents (Elt F) → (⟨S4x4096x4096, .f32⟩ : BufTy).Contents (Elt F))
abbrev op_1 : HloOp τ sig (Elt F) :=
  nullary main_cst (constant S_ .f32 0x41000000#32)
abbrev op_2 : HloOp τ sig (Elt F) :=
  unary main_cst main_v1 (broadcastInDim S4x4096x4096 ![] bcast_S_S4x4096x4096 : (⟨S_, .f32⟩ : BufTy).Contents (Elt F) → (⟨S4x4096x4096, .f32⟩ : BufTy).Contents (Elt F))
abbrev op_3 : HloOp τ sig (Elt F) :=
  binary main_v0 main_v1 main_v2 (Host.divf : (⟨S4x4096x4096, .f32⟩ : BufTy).Contents (Elt F) → (⟨S4x4096x4096, .f32⟩ : BufTy).Contents (Elt F) → (⟨S4x4096x4096, .f32⟩ : BufTy).Contents (Elt F))
abbrev op_4 : HloOp τ sig (Elt F) :=
  TRef.nullary (TRef.of (T := ⟨S_, .f32⟩) main_call0_cst) (constant S_ .f32 0xFF800000#32)
abbrev op_5 : HloOp τ sig (Elt F) :=
  TRef.binary (TRef.of (T := ⟨S4x4096x4096, .f32⟩) main_v2) (TRef.of (T := ⟨S_, .f32⟩) main_call0_cst) (TRef.of (T := ⟨S4x4096, .f32⟩) main_call0_v0) (fun x v => Host.reduce FloatOps.maximumf x v reducesTo_S4x4096x4096_S4x4096_d2 h_S_)
abbrev op_6 : HloOp τ sig (Elt F) :=
  TRef.nullary (TRef.of (T := ⟨S_, .f32⟩) main_call0_cst_0) (constant S_ .f32 0xFF800000#32)
abbrev op_7 : HloOp τ sig (Elt F) :=
  TRef.unary (TRef.of (T := ⟨S_, .f32⟩) main_call0_cst_0) (TRef.of (T := ⟨S4x4096, .f32⟩) main_call0_v1) (broadcastInDim S4x4096 ![] bcast_S_S4x4096)
abbrev op_8 : HloOp τ sig (Elt F) :=
  TRef.binary (TRef.of (T := ⟨S4x4096, .f32⟩) main_call0_v1) (TRef.of (T := ⟨S4x4096, .f32⟩) main_call0_v0) (TRef.of (T := ⟨S4x4096, .f32⟩) main_call0_v2) maximumf
abbrev op_9 : HloOp τ sig (Elt F) :=
  TRef.unary (TRef.of (T := ⟨S4x4096, .f32⟩) main_call0_v2) (TRef.of (T := ⟨S4x4096x1, .f32⟩) main_call0_v3) (broadcastInDim S4x4096x1 ![0, 1] bcast_S4x4096_S4x4096x1_0_1)
abbrev op_10 : HloOp τ sig (Elt F) :=
  TRef.unary (TRef.of (T := ⟨S4x4096x1, .f32⟩) main_call0_v3) (TRef.of (T := ⟨S4x4096x4096, .f32⟩) main_call0_v4) (broadcastInDim S4x4096x4096 ![0, 1, 2] bcast_S4x4096x1_S4x4096x4096_0_1_2)
abbrev op_11 : HloOp τ sig (Elt F) :=
  TRef.binary (TRef.of (T := ⟨S4x4096x4096, .f32⟩) main_v2) (TRef.of (T := ⟨S4x4096x4096, .f32⟩) main_call0_v4) (TRef.of (T := ⟨S4x4096x4096, .f32⟩) main_call0_v5) subf
abbrev op_12 : HloOp τ sig (Elt F) :=
  TRef.unary (TRef.of (T := ⟨S4x4096x4096, .f32⟩) main_call0_v5) (TRef.of (T := ⟨S4x4096x4096, .f32⟩) main_call0_v6) Host.exp
abbrev op_13 : HloOp τ sig (Elt F) :=
  TRef.nullary (TRef.of (T := ⟨S_, .f32⟩) main_call0_cst_1) (constant S_ .f32 0x00000000#32)
abbrev op_14 : HloOp τ sig (Elt F) :=
  TRef.binary (TRef.of (T := ⟨S4x4096x4096, .f32⟩) main_call0_v6) (TRef.of (T := ⟨S_, .f32⟩) main_call0_cst_1) (TRef.of (T := ⟨S4x4096, .f32⟩) main_call0_v7) (fun x v => Host.reduceAdd x v reducesTo_S4x4096x4096_S4x4096_d2 h_S_)
abbrev op_15 : HloOp τ sig (Elt F) :=
  TRef.unary (TRef.of (T := ⟨S4x4096, .f32⟩) main_call0_v7) (TRef.of (T := ⟨S4x4096x1, .f32⟩) main_call0_v8) (broadcastInDim S4x4096x1 ![0, 1] bcast_S4x4096_S4x4096x1_0_1)
abbrev op_16 : HloOp τ sig (Elt F) :=
  TRef.unary (TRef.of (T := ⟨S4x4096x1, .f32⟩) main_call0_v8) (TRef.of (T := ⟨S4x4096x1, .f32⟩) main_call0_v9) Host.log
abbrev op_17 : HloOp τ sig (Elt F) :=
  TRef.unary (TRef.of (T := ⟨S4x4096x1, .f32⟩) main_call0_v9) (TRef.of (T := ⟨S4x4096x4096, .f32⟩) main_call0_v10) (broadcastInDim S4x4096x4096 ![0, 1, 2] bcast_S4x4096x1_S4x4096x4096_0_1_2)
abbrev op_18 : HloOp τ sig (Elt F) :=
  TRef.binary (TRef.of (T := ⟨S4x4096x4096, .f32⟩) main_call0_v5) (TRef.of (T := ⟨S4x4096x4096, .f32⟩) main_call0_v10) (TRef.of (T := ⟨S4x4096x4096, .f32⟩) main_v3) subf
abbrev op_19 : HloOp τ sig (Elt F) :=
  nullary main_cst_0 (constant S_ .f32 0xFF800000#32)
abbrev op_20 : HloOp τ sig (Elt F) :=
  binary main_v2 main_cst_0 main_v4 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F))
abbrev op_21 : HloOp τ sig (Elt F) :=
  nullary main_cst_1 (constant S_ .f32 0xFF800000#32)
abbrev op_22 : HloOp τ sig (Elt F) :=
  unary main_cst_1 main_v5 (broadcastInDim S4x4096 ![] bcast_S_S4x4096 : (⟨S_, .f32⟩ : BufTy).Contents (Elt F) → (⟨S4x4096, .f32⟩ : BufTy).Contents (Elt F))
abbrev op_23 : HloOp τ sig (Elt F) :=
  binary main_v5 main_v4 main_v6 (maximumf : (⟨S4x4096, .f32⟩ : BufTy).Contents (Elt F) → (⟨S4x4096, .f32⟩ : BufTy).Contents (Elt F) → (⟨S4x4096, .f32⟩ : BufTy).Contents (Elt F))
abbrev op_24 : HloOp τ sig (Elt F) :=
  unary main_v6 main_v7 (broadcastInDim S4x4096x1 ![0, 1] bcast_S4x4096_S4x4096x1_0_1 : (⟨S4x4096, .f32⟩ : BufTy).Contents (Elt F) → (⟨S4x4096x1, .f32⟩ : BufTy).Contents (Elt F))
abbrev op_25 : HloOp τ sig (Elt F) :=
  unary main_v7 main_v8 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F))
abbrev op_26 : HloOp τ sig (Elt F) :=
  binary main_v2 main_v8 main_v9 (subf : (⟨S4x4096x4096, .f32⟩ : BufTy).Contents (Elt F) → (⟨S4x4096x4096, .f32⟩ : BufTy).Contents (Elt F) → (⟨S4x4096x4096, .f32⟩ : BufTy).Contents (Elt F))
abbrev op_27 : HloOp τ sig (Elt F) :=
  unary main_v9 main_v10 (Host.exp : (⟨S4x4096x4096, .f32⟩ : BufTy).Contents (Elt F) → (⟨S4x4096x4096, .f32⟩ : BufTy).Contents (Elt F))
abbrev op_28 : HloOp τ sig (Elt F) :=
  nullary main_cst_2 (constant S_ .f32 0x00000000#32)
abbrev op_29 : HloOp τ sig (Elt F) :=
  binary main_v10 main_cst_2 main_v11 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F))
abbrev op_30 : HloOp τ sig (Elt F) :=
  unary main_v11 main_v12 (broadcastInDim S4x4096x1 ![0, 1] bcast_S4x4096_S4x4096x1_0_1 : (⟨S4x4096, .f32⟩ : BufTy).Contents (Elt F) → (⟨S4x4096x1, .f32⟩ : BufTy).Contents (Elt F))
abbrev op_31 : HloOp τ sig (Elt F) :=
  unary main_v12 main_v13 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F))
abbrev op_32 : HloOp τ sig (Elt F) :=
  binary main_v10 main_v13 main_v14 (Host.divf : (⟨S4x4096x4096, .f32⟩ : BufTy).Contents (Elt F) → (⟨S4x4096x4096, .f32⟩ : BufTy).Contents (Elt F) → (⟨S4x4096x4096, .f32⟩ : BufTy).Contents (Elt F))
abbrev op_33 : HloOp τ sig (Elt F) :=
  nullary main_cst_3 (constant S_ .f32 0xFF800000#32)
abbrev op_34 : HloOp τ sig (Elt F) :=
  binary main_v2 main_cst_3 main_v15 ((fun x v => Host.reduce FloatOps.maximumf x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F))
abbrev op_35 : HloOp τ sig (Elt F) :=
  nullary main_cst_4 (constant S_ .f32 0xFF800000#32)
abbrev op_36 : HloOp τ sig (Elt F) :=
  unary main_cst_4 main_v16 (broadcastInDim S4x4096 ![] bcast_S_S4x4096 : (⟨S_, .f32⟩ : BufTy).Contents (Elt F) → (⟨S4x4096, .f32⟩ : BufTy).Contents (Elt F))
abbrev op_37 : HloOp τ sig (Elt F) :=
  binary main_v16 main_v15 main_v17 (maximumf : (⟨S4x4096, .f32⟩ : BufTy).Contents (Elt F) → (⟨S4x4096, .f32⟩ : BufTy).Contents (Elt F) → (⟨S4x4096, .f32⟩ : BufTy).Contents (Elt F))
abbrev op_38 : HloOp τ sig (Elt F) :=
  unary main_v17 main_v18 (broadcastInDim S4x1x4096 ![0, 2] bcast_S4x4096_S4x1x4096_0_2 : (⟨S4x4096, .f32⟩ : BufTy).Contents (Elt F) → (⟨S4x1x4096, .f32⟩ : BufTy).Contents (Elt F))
abbrev op_39 : HloOp τ sig (Elt F) :=
  unary main_v18 main_v19 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F))
abbrev op_40 : HloOp τ sig (Elt F) :=
  binary main_v2 main_v19 main_v20 (subf : (⟨S4x4096x4096, .f32⟩ : BufTy).Contents (Elt F) → (⟨S4x4096x4096, .f32⟩ : BufTy).Contents (Elt F) → (⟨S4x4096x4096, .f32⟩ : BufTy).Contents (Elt F))
abbrev op_41 : HloOp τ sig (Elt F) :=
  unary main_v20 main_v21 (Host.exp : (⟨S4x4096x4096, .f32⟩ : BufTy).Contents (Elt F) → (⟨S4x4096x4096, .f32⟩ : BufTy).Contents (Elt F))
abbrev op_42 : HloOp τ sig (Elt F) :=
  nullary main_cst_5 (constant S_ .f32 0x00000000#32)
abbrev op_43 : HloOp τ sig (Elt F) :=
  binary main_v21 main_cst_5 main_v22 ((fun x v => Host.reduceAdd x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F))
abbrev op_44 : HloOp τ sig (Elt F) :=
  unary main_v22 main_v23 (broadcastInDim S4x1x4096 ![0, 2] bcast_S4x4096_S4x1x4096_0_2 : (⟨S4x4096, .f32⟩ : BufTy).Contents (Elt F) → (⟨S4x1x4096, .f32⟩ : BufTy).Contents (Elt F))
abbrev op_45 : HloOp τ sig (Elt F) :=
  unary main_v23 main_v24 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F))
abbrev op_46 : HloOp τ sig (Elt F) :=
  binary main_v21 main_v24 main_v25 (Host.divf : (⟨S4x4096x4096, .f32⟩ : BufTy).Contents (Elt F) → (⟨S4x4096x4096, .f32⟩ : BufTy).Contents (Elt F) → (⟨S4x4096x4096, .f32⟩ : BufTy).Contents (Elt F))
abbrev op_47 : HloOp τ sig (Elt F) :=
  binary main_v14 main_v25 main_v26 (mulf : (⟨S4x4096x4096, .f32⟩ : BufTy).Contents (Elt F) → (⟨S4x4096x4096, .f32⟩ : BufTy).Contents (Elt F) → (⟨S4x4096x4096, .f32⟩ : BufTy).Contents (Elt F))
abbrev op_48 : HloOp τ sig (Elt F) :=
  nullary main_cst_6 (constant S_ .f32 0x3CCCCCCD#32)
abbrev op_49 : HloOp τ sig (Elt F) :=
  unary main_cst_6 main_v27 (broadcastInDim S4x4096x4096 ![] bcast_S_S4x4096x4096 : (⟨S_, .f32⟩ : BufTy).Contents (Elt F) → (⟨S4x4096x4096, .f32⟩ : BufTy).Contents (Elt F))
abbrev op_50 : HloOp τ sig (Elt F) :=
  binary main_v26 main_v27 main_v28 (Host.divf : (⟨S4x4096x4096, .f32⟩ : BufTy).Contents (Elt F) → (⟨S4x4096x4096, .f32⟩ : BufTy).Contents (Elt F) → (⟨S4x4096x4096, .f32⟩ : BufTy).Contents (Elt F))
abbrev op_51 : HloOp τ sig (Elt F) :=
  nullary main_cst_7 (constant S_ .f32 0xFF800000#32)
abbrev op_52 : HloOp τ sig (Elt F) :=
  binary main_v28 main_cst_7 main_v29 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F))
abbrev op_53 : HloOp τ sig (Elt F) :=
  nullary main_cst_8 (constant S_ .f32 0xFF800000#32)
abbrev op_54 : HloOp τ sig (Elt F) :=
  unary main_cst_8 main_v30 (broadcastInDim S4x4096 ![] bcast_S_S4x4096 : (⟨S_, .f32⟩ : BufTy).Contents (Elt F) → (⟨S4x4096, .f32⟩ : BufTy).Contents (Elt F))
abbrev op_55 : HloOp τ sig (Elt F) :=
  binary main_v30 main_v29 main_v31 (maximumf : (⟨S4x4096, .f32⟩ : BufTy).Contents (Elt F) → (⟨S4x4096, .f32⟩ : BufTy).Contents (Elt F) → (⟨S4x4096, .f32⟩ : BufTy).Contents (Elt F))
abbrev op_56 : HloOp τ sig (Elt F) :=
  unary main_v31 main_v32 (broadcastInDim S4x4096x1 ![0, 1] bcast_S4x4096_S4x4096x1_0_1 : (⟨S4x4096, .f32⟩ : BufTy).Contents (Elt F) → (⟨S4x4096x1, .f32⟩ : BufTy).Contents (Elt F))
abbrev op_57 : HloOp τ sig (Elt F) :=
  unary main_v32 main_v33 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F))
abbrev op_58 : HloOp τ sig (Elt F) :=
  binary main_v28 main_v33 main_v34 (subf : (⟨S4x4096x4096, .f32⟩ : BufTy).Contents (Elt F) → (⟨S4x4096x4096, .f32⟩ : BufTy).Contents (Elt F) → (⟨S4x4096x4096, .f32⟩ : BufTy).Contents (Elt F))
abbrev op_59 : HloOp τ sig (Elt F) :=
  unary main_v34 main_v35 (Host.exp : (⟨S4x4096x4096, .f32⟩ : BufTy).Contents (Elt F) → (⟨S4x4096x4096, .f32⟩ : BufTy).Contents (Elt F))
abbrev op_60 : HloOp τ sig (Elt F) :=
  nullary main_cst_9 (constant S_ .f32 0x00000000#32)
abbrev op_61 : HloOp τ sig (Elt F) :=
  binary main_v35 main_cst_9 main_v36 ((fun x v => Host.reduceAdd x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F))
abbrev op_62 : HloOp τ sig (Elt F) :=
  unary main_v36 main_v37 (broadcastInDim S4x4096x1 ![0, 1] bcast_S4x4096_S4x4096x1_0_1 : (⟨S4x4096, .f32⟩ : BufTy).Contents (Elt F) → (⟨S4x4096x1, .f32⟩ : BufTy).Contents (Elt F))
abbrev op_63 : HloOp τ sig (Elt F) :=
  unary main_v37 main_v38 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F))
abbrev op_64 : HloOp τ sig (Elt F) :=
  binary main_v35 main_v38 main_v39 (Host.divf : (⟨S4x4096x4096, .f32⟩ : BufTy).Contents (Elt F) → (⟨S4x4096x4096, .f32⟩ : BufTy).Contents (Elt F) → (⟨S4x4096x4096, .f32⟩ : BufTy).Contents (Elt F))
abbrev op_65 : HloOp τ sig (Elt F) :=
  nullary main_cst_10 (constant S_ .f32 0xFF800000#32)
abbrev op_66 : HloOp τ sig (Elt F) :=
  binary main_v39 main_cst_10 main_v40 ((fun x v => Host.reduce FloatOps.maximumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F))
abbrev op_67 : HloOp τ sig (Elt F) :=
  unary main_v40 main_v41 (broadcastInDim S4x4096x1 ![0, 1] bcast_S4x4096_S4x4096x1_0_1 : (⟨S4x4096, .f32⟩ : BufTy).Contents (Elt F) → (⟨S4x4096x1, .f32⟩ : BufTy).Contents (Elt F))
abbrev op_68 : HloOp τ sig (Elt F) :=
  unary main_v41 main_v42 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F))
abbrev op_69 : HloOp τ sig (Elt F) :=
  binary main_v39 main_v42 main_v43 (cmpf .oeq : (⟨S4x4096x4096, .f32⟩ : BufTy).Contents (Elt F) → (⟨S4x4096x4096, .f32⟩ : BufTy).Contents (Elt F) → (⟨S4x4096x4096, .i1⟩ : BufTy).Contents (Elt F))
abbrev op_70 : HloOp τ sig (Elt F) :=
  unary main_v43 main_v44 (uitofp .f32 : (⟨S4x4096x4096, .i1⟩ : BufTy).Contents (Elt F) → (⟨S4x4096x4096, .f32⟩ : BufTy).Contents (Elt F))
abbrev op_71 : HloOp τ sig (Elt F) :=
  binary main_v44 main_arg2 main_v45 ((fun l r => Host.dotGeneral dot_S4x4096x4096_S4x4096x64_S4x4096x64_2_1_1_2_0_0 none l r) : (⟨S4x4096x4096, .f32⟩ : BufTy).Contents (Elt F) → (⟨S4x4096x64, .f32⟩ : BufTy).Contents (Elt F) → (⟨S4x4096x64, .f32⟩ : BufTy).Contents (Elt F))

abbrev tl_72 : List (HloOp τ sig (Elt F)) := []
abbrev tl_71 : List (HloOp τ sig (Elt F)) := op_71 (F := F) :: tl_72
abbrev tl_70 : List (HloOp τ sig (Elt F)) := op_70 (F := F) :: tl_71
abbrev tl_69 : List (HloOp τ sig (Elt F)) := op_69 (F := F) :: tl_70
abbrev tl_68 : List (HloOp τ sig (Elt F)) := op_68 (F := F) :: tl_69
abbrev tl_67 : List (HloOp τ sig (Elt F)) := op_67 (F := F) :: tl_68
abbrev tl_66 : List (HloOp τ sig (Elt F)) := op_66 (F := F) :: tl_67
abbrev tl_65 : List (HloOp τ sig (Elt F)) := op_65 (F := F) :: tl_66
abbrev tl_64 : List (HloOp τ sig (Elt F)) := op_64 (F := F) :: tl_65
abbrev tl_63 : List (HloOp τ sig (Elt F)) := op_63 (F := F) :: tl_64
abbrev tl_62 : List (HloOp τ sig (Elt F)) := op_62 (F := F) :: tl_63
abbrev tl_61 : List (HloOp τ sig (Elt F)) := op_61 (F := F) :: tl_62
abbrev tl_60 : List (HloOp τ sig (Elt F)) := op_60 (F := F) :: tl_61
abbrev tl_59 : List (HloOp τ sig (Elt F)) := op_59 (F := F) :: tl_60
abbrev tl_58 : List (HloOp τ sig (Elt F)) := op_58 (F := F) :: tl_59
abbrev tl_57 : List (HloOp τ sig (Elt F)) := op_57 (F := F) :: tl_58
abbrev tl_56 : List (HloOp τ sig (Elt F)) := op_56 (F := F) :: tl_57
abbrev tl_55 : List (HloOp τ sig (Elt F)) := op_55 (F := F) :: tl_56
abbrev tl_54 : List (HloOp τ sig (Elt F)) := op_54 (F := F) :: tl_55
abbrev tl_53 : List (HloOp τ sig (Elt F)) := op_53 (F := F) :: tl_54
abbrev tl_52 : List (HloOp τ sig (Elt F)) := op_52 (F := F) :: tl_53
abbrev tl_51 : List (HloOp τ sig (Elt F)) := op_51 (F := F) :: tl_52
abbrev tl_50 : List (HloOp τ sig (Elt F)) := op_50 (F := F) :: tl_51
abbrev tl_49 : List (HloOp τ sig (Elt F)) := op_49 (F := F) :: tl_50
abbrev tl_48 : List (HloOp τ sig (Elt F)) := op_48 (F := F) :: tl_49
abbrev tl_47 : List (HloOp τ sig (Elt F)) := op_47 (F := F) :: tl_48
abbrev tl_46 : List (HloOp τ sig (Elt F)) := op_46 (F := F) :: tl_47
abbrev tl_45 : List (HloOp τ sig (Elt F)) := op_45 (F := F) :: tl_46
abbrev tl_44 : List (HloOp τ sig (Elt F)) := op_44 (F := F) :: tl_45
abbrev tl_43 : List (HloOp τ sig (Elt F)) := op_43 (F := F) :: tl_44
abbrev tl_42 : List (HloOp τ sig (Elt F)) := op_42 (F := F) :: tl_43
abbrev tl_41 : List (HloOp τ sig (Elt F)) := op_41 (F := F) :: tl_42
abbrev tl_40 : List (HloOp τ sig (Elt F)) := op_40 (F := F) :: tl_41
abbrev tl_39 : List (HloOp τ sig (Elt F)) := op_39 (F := F) :: tl_40
abbrev tl_38 : List (HloOp τ sig (Elt F)) := op_38 (F := F) :: tl_39
abbrev tl_37 : List (HloOp τ sig (Elt F)) := op_37 (F := F) :: tl_38
abbrev tl_36 : List (HloOp τ sig (Elt F)) := op_36 (F := F) :: tl_37
abbrev tl_35 : List (HloOp τ sig (Elt F)) := op_35 (F := F) :: tl_36
abbrev tl_34 : List (HloOp τ sig (Elt F)) := op_34 (F := F) :: tl_35
abbrev tl_33 : List (HloOp τ sig (Elt F)) := op_33 (F := F) :: tl_34
abbrev tl_32 : List (HloOp τ sig (Elt F)) := op_32 (F := F) :: tl_33
abbrev tl_31 : List (HloOp τ sig (Elt F)) := op_31 (F := F) :: tl_32
abbrev tl_30 : List (HloOp τ sig (Elt F)) := op_30 (F := F) :: tl_31
abbrev tl_29 : List (HloOp τ sig (Elt F)) := op_29 (F := F) :: tl_30
abbrev tl_28 : List (HloOp τ sig (Elt F)) := op_28 (F := F) :: tl_29
abbrev tl_27 : List (HloOp τ sig (Elt F)) := op_27 (F := F) :: tl_28
abbrev tl_26 : List (HloOp τ sig (Elt F)) := op_26 (F := F) :: tl_27
abbrev tl_25 : List (HloOp τ sig (Elt F)) := op_25 (F := F) :: tl_26
abbrev tl_24 : List (HloOp τ sig (Elt F)) := op_24 (F := F) :: tl_25
abbrev tl_23 : List (HloOp τ sig (Elt F)) := op_23 (F := F) :: tl_24
abbrev tl_22 : List (HloOp τ sig (Elt F)) := op_22 (F := F) :: tl_23
abbrev tl_21 : List (HloOp τ sig (Elt F)) := op_21 (F := F) :: tl_22
abbrev tl_20 : List (HloOp τ sig (Elt F)) := op_20 (F := F) :: tl_21
abbrev tl_19 : List (HloOp τ sig (Elt F)) := op_19 (F := F) :: tl_20
abbrev tl_18 : List (HloOp τ sig (Elt F)) := op_18 (F := F) :: tl_19
abbrev tl_17 : List (HloOp τ sig (Elt F)) := op_17 (F := F) :: tl_18
abbrev tl_16 : List (HloOp τ sig (Elt F)) := op_16 (F := F) :: tl_17
abbrev tl_15 : List (HloOp τ sig (Elt F)) := op_15 (F := F) :: tl_16
abbrev tl_14 : List (HloOp τ sig (Elt F)) := op_14 (F := F) :: tl_15
abbrev tl_13 : List (HloOp τ sig (Elt F)) := op_13 (F := F) :: tl_14
abbrev tl_12 : List (HloOp τ sig (Elt F)) := op_12 (F := F) :: tl_13
abbrev tl_11 : List (HloOp τ sig (Elt F)) := op_11 (F := F) :: tl_12
abbrev tl_10 : List (HloOp τ sig (Elt F)) := op_10 (F := F) :: tl_11
abbrev tl_9 : List (HloOp τ sig (Elt F)) := op_9 (F := F) :: tl_10
abbrev tl_8 : List (HloOp τ sig (Elt F)) := op_8 (F := F) :: tl_9
abbrev tl_7 : List (HloOp τ sig (Elt F)) := op_7 (F := F) :: tl_8
abbrev tl_6 : List (HloOp τ sig (Elt F)) := op_6 (F := F) :: tl_7
abbrev tl_5 : List (HloOp τ sig (Elt F)) := op_5 (F := F) :: tl_6
abbrev tl_4 : List (HloOp τ sig (Elt F)) := op_4 (F := F) :: tl_5
abbrev tl_3 : List (HloOp τ sig (Elt F)) := op_3 (F := F) :: tl_4
abbrev tl_2 : List (HloOp τ sig (Elt F)) := op_2 (F := F) :: tl_3
abbrev tl_1 : List (HloOp τ sig (Elt F)) := op_1 (F := F) :: tl_2
abbrev tl_0 : List (HloOp τ sig (Elt F)) := op_0 (F := F) :: tl_1

/-! ## @main is the line -/

/-- @main's 72 operations, in order. -/
abbrev ops : List (HloOp τ sig (Elt F)) :=
  [op_0 (F := F), op_1, op_2, op_3, op_4, op_5, op_6, op_7, op_8, op_9, op_10, op_11, op_12, op_13, op_14, op_15, op_16, op_17, op_18, op_19, op_20, op_21, op_22, op_23, op_24, op_25, op_26, op_27, op_28, op_29, op_30, op_31, op_32, op_33, op_34, op_35, op_36, op_37, op_38, op_39, op_40, op_41, op_42, op_43, op_44, op_45, op_46, op_47, op_48, op_49, op_50, op_51, op_52, op_53, op_54, op_55, op_56, op_57, op_58, op_59, op_60, op_61, op_62, op_63, op_64, op_65, op_66, op_67, op_68, op_69, op_70, op_71]

abbrev tlA : List (HloOp τ sig (Elt F)) := [op_0 (F := F), op_1, op_2, op_3]
abbrev tlB : List (HloOp τ sig (Elt F)) := [op_4 (F := F), op_5, op_6, op_7, op_8, op_9, op_10, op_11, op_12, op_13, op_14, op_15, op_16, op_17, op_18]

/-- The outlined call's body, at the call site's buffers, is the line of its fifteen operations. -/
theorem body_eq : fn_log_softmax.body (F := F) (.of main_v2) main_call0 = seq (tlB (F := F)) := rfl

/-- A line of four operations followed by `X`, with the binds nested to the right. -/
theorem prefix_eq (X : Prog (TpuEff nD τ sig (Elt F) (Pipeline.Sig Λ₀ (Fin 0) fun p => (pcfgs (F := F) p).Adm) .tc) PUnit) :
    (seq (tlA (F := F)) >>= fun _ => X)
      = (hlo rfl (op_0 (F := F)) (fun _ => .ret (⟨⟩ : PUnit)) >>= fun _ => hlo rfl (op_1 (F := F)) (fun _ => .ret (⟨⟩ : PUnit)) >>= fun _ =>
          hlo rfl (op_2 (F := F)) (fun _ => .ret (⟨⟩ : PUnit)) >>= fun _ => hlo rfl (op_3 (F := F)) (fun _ => .ret (⟨⟩ : PUnit)) >>= fun _ => X) := by
  simp only [seq, bind_assoc, pure_bind]

/-- @main, read with its binds as printed: four operations, the call, the line of the last fifty-three. -/
theorem main_split (c : Dev nD) : main (F := F) c
      = (hlo rfl (op_0 (F := F)) (fun _ => .ret (⟨⟩ : PUnit)) >>= fun _ => hlo rfl (op_1 (F := F)) (fun _ => .ret (⟨⟩ : PUnit)) >>= fun _ =>
          hlo rfl (op_2 (F := F)) (fun _ => .ret (⟨⟩ : PUnit)) >>= fun _ => hlo rfl (op_3 (F := F)) (fun _ => .ret (⟨⟩ : PUnit)) >>= fun _ =>
          (fn_log_softmax.body (F := F) (.of main_v2) main_call0 >>= fun _ => seq (tl_19 (F := F)))) := rfl

theorem main_eq (c : Dev nD) : main (F := F) c = seq (ops (F := F)) := by
  rw [main_split, ← prefix_eq, body_eq, ← seq_append, ← seq_append]
  rfl

theorem ops_eq_tl : (ops : List (HloOp τ sig (Elt F))) = tl_0 := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., unary_bufs_sub .., binary_bufs_sub .., unary_bufs_sub .., binary_bufs_sub ..⟩

/-! ## One operation's effect on the buffers -/

theorem op_0_ne (V : Valuation τ sig (Elt F)) (r : Ref sig .tc) (h : r ≠ main_v0) :
    (op_0 (F := F)).result V (Proc.devRef .tc r) = V (Proc.devRef .tc r) :=
  binary_result_ne _ _ _ _ _ _ _ V h
theorem op_0_val (V : Valuation τ sig (Elt F)) (x0 x1 x2 : (⟨S4x4096x64, .f32⟩ : BufTy).Contents (Elt F)) (h_main_arg0 : V (Proc.devRef .tc main_arg0) = x0) (h_main_arg1 : V (Proc.devRef .tc main_arg1) = x1) :
    (op_0 (F := F)).result V (Proc.devRef .tc main_v0) = ReadP.val_main_v0 (F := F) x0 x1 := by
  have e : (op_0 (F := F)).result V (Proc.devRef .tc main_v0) = _ := binary_result _ _ _ _ _ _ _ V
  rw [h_main_arg0, h_main_arg1] at e
  exact e
theorem op_1_ne (V : Valuation τ sig (Elt F)) (r : Ref sig .tc) (h : r ≠ main_cst) :
    (op_1 (F := F)).result V (Proc.devRef .tc r) = V (Proc.devRef .tc r) :=
  nullary_result_ne _ _ _ V h
theorem op_1_val (V : Valuation τ sig (Elt F)) (x0 x1 x2 : (⟨S4x4096x64, .f32⟩ : BufTy).Contents (Elt F)) :
    (op_1 (F := F)).result V (Proc.devRef .tc main_cst) = ReadP.val_main_cst (F := F) := by
  have e : (op_1 (F := F)).result V (Proc.devRef .tc main_cst) = _ := nullary_result _ _ _ V
  exact e
theorem op_2_ne (V : Valuation τ sig (Elt F)) (r : Ref sig .tc) (h : r ≠ main_v1) :
    (op_2 (F := F)).result V (Proc.devRef .tc r) = V (Proc.devRef .tc r) :=
  unary_result_ne _ _ _ _ _ V h
theorem op_2_val (V : Valuation τ sig (Elt F)) (x0 x1 x2 : (⟨S4x4096x64, .f32⟩ : BufTy).Contents (Elt F)) (h_main_cst : V (Proc.devRef .tc main_cst) = ReadP.val_main_cst (F := F)) :
    (op_2 (F := F)).result V (Proc.devRef .tc main_v1) = ReadP.val_main_v1 (F := F) := by
  have e : (op_2 (F := F)).result V (Proc.devRef .tc main_v1) = _ := unary_result _ _ _ _ _ V
  rw [h_main_cst] at e
  exact e
theorem op_3_ne (V : Valuation τ sig (Elt F)) (r : Ref sig .tc) (h : r ≠ main_v2) :
    (op_3 (F := F)).result V (Proc.devRef .tc r) = V (Proc.devRef .tc r) :=
  binary_result_ne _ _ _ _ _ _ _ V h
theorem op_3_val (V : Valuation τ sig (Elt F)) (x0 x1 x2 : (⟨S4x4096x64, .f32⟩ : BufTy).Contents (Elt F)) (h_main_v0 : V (Proc.devRef .tc main_v0) = ReadP.val_main_v0 (F := F) x0 x1) (h_main_v1 : V (Proc.devRef .tc main_v1) = ReadP.val_main_v1 (F := F)) :
    (op_3 (F := F)).result V (Proc.devRef .tc main_v2) = ReadP.val_main_v2 (F := F) x0 x1 := by
  have e : (op_3 (F := F)).result V (Proc.devRef .tc main_v2) = _ := binary_result _ _ _ _ _ _ _ V
  rw [h_main_v0, h_main_v1] at e
  exact e
theorem op_4_ne (V : Valuation τ sig (Elt F)) (r : Ref sig .tc) (h : r ≠ main_call0_cst) :
    (op_4 (F := F)).result V (Proc.devRef .tc r) = V (Proc.devRef .tc r) :=
  nullary_result_ne _ _ _ V h
theorem op_4_val (V : Valuation τ sig (Elt F)) (x0 x1 x2 : (⟨S4x4096x64, .f32⟩ : BufTy).Contents (Elt F)) :
    (op_4 (F := F)).result V (Proc.devRef .tc main_call0_cst) = ReadP.val_main_call0_cst (F := F) := by
  have e : (op_4 (F := F)).result V (Proc.devRef .tc main_call0_cst) = _ := nullary_result _ _ _ V
  exact e
theorem op_5_ne (V : Valuation τ sig (Elt F)) (r : Ref sig .tc) (h : r ≠ main_call0_v0) :
    (op_5 (F := F)).result V (Proc.devRef .tc r) = V (Proc.devRef .tc r) :=
  binary_result_ne _ _ _ _ _ _ _ V h
theorem op_5_val (V : Valuation τ sig (Elt F)) (x0 x1 x2 : (⟨S4x4096x64, .f32⟩ : BufTy).Contents (Elt F)) (h_main_v2 : V (Proc.devRef .tc main_v2) = ReadP.val_main_v2 (F := F) x0 x1) (h_main_call0_cst : V (Proc.devRef .tc main_call0_cst) = ReadP.val_main_call0_cst (F := F)) :
    (op_5 (F := F)).result V (Proc.devRef .tc main_call0_v0) = ReadP.val_main_call0_v0 (F := F) x0 x1 := by
  have e : (op_5 (F := F)).result V (Proc.devRef .tc main_call0_v0) = _ := binary_result _ _ _ _ _ _ _ V
  rw [h_main_v2, h_main_call0_cst] at e
  simp only [cast_eq] at e
  exact e
theorem op_6_ne (V : Valuation τ sig (Elt F)) (r : Ref sig .tc) (h : r ≠ main_call0_cst_0) :
    (op_6 (F := F)).result V (Proc.devRef .tc r) = V (Proc.devRef .tc r) :=
  nullary_result_ne _ _ _ V h
theorem op_6_val (V : Valuation τ sig (Elt F)) (x0 x1 x2 : (⟨S4x4096x64, .f32⟩ : BufTy).Contents (Elt F)) :
    (op_6 (F := F)).result V (Proc.devRef .tc main_call0_cst_0) = ReadP.val_main_call0_cst_0 (F := F) := by
  have e : (op_6 (F := F)).result V (Proc.devRef .tc main_call0_cst_0) = _ := nullary_result _ _ _ V
  exact e
theorem op_7_ne (V : Valuation τ sig (Elt F)) (r : Ref sig .tc) (h : r ≠ main_call0_v1) :
    (op_7 (F := F)).result V (Proc.devRef .tc r) = V (Proc.devRef .tc r) :=
  unary_result_ne _ _ _ _ _ V h
theorem op_7_val (V : Valuation τ sig (Elt F)) (x0 x1 x2 : (⟨S4x4096x64, .f32⟩ : BufTy).Contents (Elt F)) (h_main_call0_cst_0 : V (Proc.devRef .tc main_call0_cst_0) = ReadP.val_main_call0_cst_0 (F := F)) :
    (op_7 (F := F)).result V (Proc.devRef .tc main_call0_v1) = ReadP.val_main_call0_v1 (F := F) := by
  have e : (op_7 (F := F)).result V (Proc.devRef .tc main_call0_v1) = _ := unary_result _ _ _ _ _ V
  rw [h_main_call0_cst_0] at e
  exact e
theorem op_8_ne (V : Valuation τ sig (Elt F)) (r : Ref sig .tc) (h : r ≠ main_call0_v2) :
    (op_8 (F := F)).result V (Proc.devRef .tc r) = V (Proc.devRef .tc r) :=
  binary_result_ne _ _ _ _ _ _ _ V h
theorem op_8_val (V : Valuation τ sig (Elt F)) (x0 x1 x2 : (⟨S4x4096x64, .f32⟩ : BufTy).Contents (Elt F)) (h_main_call0_v1 : V (Proc.devRef .tc main_call0_v1) = ReadP.val_main_call0_v1 (F := F)) (h_main_call0_v0 : V (Proc.devRef .tc main_call0_v0) = ReadP.val_main_call0_v0 (F := F) x0 x1) :
    (op_8 (F := F)).result V (Proc.devRef .tc main_call0_v2) = ReadP.val_main_call0_v2 (F := F) x0 x1 := by
  have e : (op_8 (F := F)).result V (Proc.devRef .tc main_call0_v2) = _ := binary_result _ _ _ _ _ _ _ V
  show _ = maximumf (ReadP.val_main_call0_v1 (F := F)) (ReadP.val_main_call0_v0 (F := F) x0 x1)
  rw [← h_main_call0_v1, ← h_main_call0_v0]
  exact e
theorem op_9_ne (V : Valuation τ sig (Elt F)) (r : Ref sig .tc) (h : r ≠ main_call0_v3) :
    (op_9 (F := F)).result V (Proc.devRef .tc r) = V (Proc.devRef .tc r) :=
  unary_result_ne _ _ _ _ _ V h
theorem op_9_val (V : Valuation τ sig (Elt F)) (x0 x1 x2 : (⟨S4x4096x64, .f32⟩ : BufTy).Contents (Elt F)) (h_main_call0_v2 : V (Proc.devRef .tc main_call0_v2) = ReadP.val_main_call0_v2 (F := F) x0 x1) :
    (op_9 (F := F)).result V (Proc.devRef .tc main_call0_v3) = ReadP.val_main_call0_v3 (F := F) x0 x1 := by
  have e : (op_9 (F := F)).result V (Proc.devRef .tc main_call0_v3) = _ := unary_result _ _ _ _ _ V
  rw [h_main_call0_v2] at e
  exact e
theorem op_10_ne (V : Valuation τ sig (Elt F)) (r : Ref sig .tc) (h : r ≠ main_call0_v4) :
    (op_10 (F := F)).result V (Proc.devRef .tc r) = V (Proc.devRef .tc r) :=
  unary_result_ne _ _ _ _ _ V h
theorem op_10_val (V : Valuation τ sig (Elt F)) (x0 x1 x2 : (⟨S4x4096x64, .f32⟩ : BufTy).Contents (Elt F)) (h_main_call0_v3 : V (Proc.devRef .tc main_call0_v3) = ReadP.val_main_call0_v3 (F := F) x0 x1) :
    (op_10 (F := F)).result V (Proc.devRef .tc main_call0_v4) = ReadP.val_main_call0_v4 (F := F) x0 x1 := by
  have e : (op_10 (F := F)).result V (Proc.devRef .tc main_call0_v4) = _ := unary_result _ _ _ _ _ V
  rw [h_main_call0_v3] at e
  exact e
theorem op_11_ne (V : Valuation τ sig (Elt F)) (r : Ref sig .tc) (h : r ≠ main_call0_v5) :
    (op_11 (F := F)).result V (Proc.devRef .tc r) = V (Proc.devRef .tc r) :=
  binary_result_ne _ _ _ _ _ _ _ V h
theorem op_11_val (V : Valuation τ sig (Elt F)) (x0 x1 x2 : (⟨S4x4096x64, .f32⟩ : BufTy).Contents (Elt F)) (h_main_v2 : V (Proc.devRef .tc main_v2) = ReadP.val_main_v2 (F := F) x0 x1) (h_main_call0_v4 : V (Proc.devRef .tc main_call0_v4) = ReadP.val_main_call0_v4 (F := F) x0 x1) :
    (op_11 (F := F)).result V (Proc.devRef .tc main_call0_v5) = ReadP.val_main_call0_v5 (F := F) x0 x1 := by
  have e : (op_11 (F := F)).result V (Proc.devRef .tc main_call0_v5) = _ := binary_result _ _ _ _ _ _ _ V
  rw [h_main_v2, h_main_call0_v4] at e
  exact e
theorem op_12_ne (V : Valuation τ sig (Elt F)) (r : Ref sig .tc) (h : r ≠ main_call0_v6) :
    (op_12 (F := F)).result V (Proc.devRef .tc r) = V (Proc.devRef .tc r) :=
  unary_result_ne _ _ _ _ _ V h
theorem op_12_val (V : Valuation τ sig (Elt F)) (x0 x1 x2 : (⟨S4x4096x64, .f32⟩ : BufTy).Contents (Elt F)) (h_main_call0_v5 : V (Proc.devRef .tc main_call0_v5) = ReadP.val_main_call0_v5 (F := F) x0 x1) :
    (op_12 (F := F)).result V (Proc.devRef .tc main_call0_v6) = ReadP.val_main_call0_v6 (F := F) x0 x1 := by
  have e : (op_12 (F := F)).result V (Proc.devRef .tc main_call0_v6) = _ := unary_result _ _ _ _ _ V
  rw [h_main_call0_v5] at e
  exact e
theorem op_13_ne (V : Valuation τ sig (Elt F)) (r : Ref sig .tc) (h : r ≠ main_call0_cst_1) :
    (op_13 (F := F)).result V (Proc.devRef .tc r) = V (Proc.devRef .tc r) :=
  nullary_result_ne _ _ _ V h
theorem op_13_val (V : Valuation τ sig (Elt F)) (x0 x1 x2 : (⟨S4x4096x64, .f32⟩ : BufTy).Contents (Elt F)) :
    (op_13 (F := F)).result V (Proc.devRef .tc main_call0_cst_1) = ReadP.val_main_call0_cst_1 (F := F) := by
  have e : (op_13 (F := F)).result V (Proc.devRef .tc main_call0_cst_1) = _ := nullary_result _ _ _ V
  exact e
theorem op_14_ne (V : Valuation τ sig (Elt F)) (r : Ref sig .tc) (h : r ≠ main_call0_v7) :
    (op_14 (F := F)).result V (Proc.devRef .tc r) = V (Proc.devRef .tc r) :=
  binary_result_ne _ _ _ _ _ _ _ V h
theorem op_14_val (V : Valuation τ sig (Elt F)) (x0 x1 x2 : (⟨S4x4096x64, .f32⟩ : BufTy).Contents (Elt F)) (h_main_call0_v6 : V (Proc.devRef .tc main_call0_v6) = ReadP.val_main_call0_v6 (F := F) x0 x1) (h_main_call0_cst_1 : V (Proc.devRef .tc main_call0_cst_1) = ReadP.val_main_call0_cst_1 (F := F)) :
    (op_14 (F := F)).result V (Proc.devRef .tc main_call0_v7) = ReadP.val_main_call0_v7 (F := F) x0 x1 := by
  have e : (op_14 (F := F)).result V (Proc.devRef .tc main_call0_v7) = _ := binary_result _ _ _ _ _ _ _ V
  rw [h_main_call0_v6, h_main_call0_cst_1] at e
  exact e
theorem op_15_ne (V : Valuation τ sig (Elt F)) (r : Ref sig .tc) (h : r ≠ main_call0_v8) :
    (op_15 (F := F)).result V (Proc.devRef .tc r) = V (Proc.devRef .tc r) :=
  unary_result_ne _ _ _ _ _ V h
theorem op_15_val (V : Valuation τ sig (Elt F)) (x0 x1 x2 : (⟨S4x4096x64, .f32⟩ : BufTy).Contents (Elt F)) (h_main_call0_v7 : V (Proc.devRef .tc main_call0_v7) = ReadP.val_main_call0_v7 (F := F) x0 x1) :
    (op_15 (F := F)).result V (Proc.devRef .tc main_call0_v8) = ReadP.val_main_call0_v8 (F := F) x0 x1 := by
  have e : (op_15 (F := F)).result V (Proc.devRef .tc main_call0_v8) = _ := unary_result _ _ _ _ _ V
  rw [h_main_call0_v7] at e
  exact e
theorem op_16_ne (V : Valuation τ sig (Elt F)) (r : Ref sig .tc) (h : r ≠ main_call0_v9) :
    (op_16 (F := F)).result V (Proc.devRef .tc r) = V (Proc.devRef .tc r) :=
  unary_result_ne _ _ _ _ _ V h
theorem op_16_val (V : Valuation τ sig (Elt F)) (x0 x1 x2 : (⟨S4x4096x64, .f32⟩ : BufTy).Contents (Elt F)) (h_main_call0_v8 : V (Proc.devRef .tc main_call0_v8) = ReadP.val_main_call0_v8 (F := F) x0 x1) :
    (op_16 (F := F)).result V (Proc.devRef .tc main_call0_v9) = ReadP.val_main_call0_v9 (F := F) x0 x1 := by
  have e : (op_16 (F := F)).result V (Proc.devRef .tc main_call0_v9) = _ := unary_result _ _ _ _ _ V
  rw [h_main_call0_v8] at e
  exact e
theorem op_17_ne (V : Valuation τ sig (Elt F)) (r : Ref sig .tc) (h : r ≠ main_call0_v10) :
    (op_17 (F := F)).result V (Proc.devRef .tc r) = V (Proc.devRef .tc r) :=
  unary_result_ne _ _ _ _ _ V h
theorem op_17_val (V : Valuation τ sig (Elt F)) (x0 x1 x2 : (⟨S4x4096x64, .f32⟩ : BufTy).Contents (Elt F)) (h_main_call0_v9 : V (Proc.devRef .tc main_call0_v9) = ReadP.val_main_call0_v9 (F := F) x0 x1) :
    (op_17 (F := F)).result V (Proc.devRef .tc main_call0_v10) = ReadP.val_main_call0_v10 (F := F) x0 x1 := by
  have e : (op_17 (F := F)).result V (Proc.devRef .tc main_call0_v10) = _ := unary_result _ _ _ _ _ V
  rw [h_main_call0_v9] at e
  exact e
theorem op_18_ne (V : Valuation τ sig (Elt F)) (r : Ref sig .tc) (h : r ≠ main_v3) :
    (op_18 (F := F)).result V (Proc.devRef .tc r) = V (Proc.devRef .tc r) :=
  binary_result_ne _ _ _ _ _ _ _ V h
theorem op_18_val (V : Valuation τ sig (Elt F)) (x0 x1 x2 : (⟨S4x4096x64, .f32⟩ : BufTy).Contents (Elt F)) (h_main_call0_v5 : V (Proc.devRef .tc main_call0_v5) = ReadP.val_main_call0_v5 (F := F) x0 x1) (h_main_call0_v10 : V (Proc.devRef .tc main_call0_v10) = ReadP.val_main_call0_v10 (F := F) x0 x1) :
    (op_18 (F := F)).result V (Proc.devRef .tc main_v3) = ReadP.val_main_v3 (F := F) x0 x1 := by
  have e : (op_18 (F := F)).result V (Proc.devRef .tc main_v3) = _ := binary_result _ _ _ _ _ _ _ V
  rw [h_main_call0_v5, h_main_call0_v10] at e
  exact e
theorem op_19_ne (V : Valuation τ sig (Elt F)) (r : Ref sig .tc) (h : r ≠ main_cst_0) :
    (op_19 (F := F)).result V (Proc.devRef .tc r) = V (Proc.devRef .tc r) :=
  nullary_result_ne _ _ _ V h
theorem op_19_val (V : Valuation τ sig (Elt F)) (x0 x1 x2 : (⟨S4x4096x64, .f32⟩ : BufTy).Contents (Elt F)) :
    (op_19 (F := F)).result V (Proc.devRef .tc main_cst_0) = ReadP.val_main_cst_0 (F := F) := by
  have e : (op_19 (F := F)).result V (Proc.devRef .tc main_cst_0) = _ := nullary_result _ _ _ V
  exact e
theorem op_20_ne (V : Valuation τ sig (Elt F)) (r : Ref sig .tc) (h : r ≠ main_v4) :
    (op_20 (F := F)).result V (Proc.devRef .tc r) = V (Proc.devRef .tc r) :=
  binary_result_ne _ _ _ _ _ _ _ V h
theorem op_20_val (V : Valuation τ sig (Elt F)) (x0 x1 x2 : (⟨S4x4096x64, .f32⟩ : BufTy).Contents (Elt F)) (h_main_v2 : V (Proc.devRef .tc main_v2) = ReadP.val_main_v2 (F := F) x0 x1) (h_main_cst_0 : V (Proc.devRef .tc main_cst_0) = ReadP.val_main_cst_0 (F := F)) :
    (op_20 (F := F)).result V (Proc.devRef .tc main_v4) = ReadP.val_main_v4 (F := F) x0 x1 := by
  have e : (op_20 (F := F)).result V (Proc.devRef .tc main_v4) = _ := binary_result _ _ _ _ _ _ _ V
  rw [h_main_v2, h_main_cst_0] at e
  exact e
theorem op_21_ne (V : Valuation τ sig (Elt F)) (r : Ref sig .tc) (h : r ≠ main_cst_1) :
    (op_21 (F := F)).result V (Proc.devRef .tc r) = V (Proc.devRef .tc r) :=
  nullary_result_ne _ _ _ V h
theorem op_21_val (V : Valuation τ sig (Elt F)) (x0 x1 x2 : (⟨S4x4096x64, .f32⟩ : BufTy).Contents (Elt F)) :
    (op_21 (F := F)).result V (Proc.devRef .tc main_cst_1) = ReadP.val_main_cst_1 (F := F) := by
  have e : (op_21 (F := F)).result V (Proc.devRef .tc main_cst_1) = _ := nullary_result _ _ _ V
  exact e
theorem op_22_ne (V : Valuation τ sig (Elt F)) (r : Ref sig .tc) (h : r ≠ main_v5) :
    (op_22 (F := F)).result V (Proc.devRef .tc r) = V (Proc.devRef .tc r) :=
  unary_result_ne _ _ _ _ _ V h
theorem op_22_val (V : Valuation τ sig (Elt F)) (x0 x1 x2 : (⟨S4x4096x64, .f32⟩ : BufTy).Contents (Elt F)) (h_main_cst_1 : V (Proc.devRef .tc main_cst_1) = ReadP.val_main_cst_1 (F := F)) :
    (op_22 (F := F)).result V (Proc.devRef .tc main_v5) = ReadP.val_main_v5 (F := F) := by
  have e : (op_22 (F := F)).result V (Proc.devRef .tc main_v5) = _ := unary_result _ _ _ _ _ V
  rw [h_main_cst_1] at e
  exact e
theorem op_23_ne (V : Valuation τ sig (Elt F)) (r : Ref sig .tc) (h : r ≠ main_v6) :
    (op_23 (F := F)).result V (Proc.devRef .tc r) = V (Proc.devRef .tc r) :=
  binary_result_ne _ _ _ _ _ _ _ V h
theorem op_23_val (V : Valuation τ sig (Elt F)) (x0 x1 x2 : (⟨S4x4096x64, .f32⟩ : BufTy).Contents (Elt F)) (h_main_v5 : V (Proc.devRef .tc main_v5) = ReadP.val_main_v5 (F := F)) (h_main_v4 : V (Proc.devRef .tc main_v4) = ReadP.val_main_v4 (F := F) x0 x1) :
    (op_23 (F := F)).result V (Proc.devRef .tc main_v6) = ReadP.val_main_v6 (F := F) x0 x1 := by
  have e : (op_23 (F := F)).result V (Proc.devRef .tc main_v6) = _ := binary_result _ _ _ _ _ _ _ V
  rw [h_main_v5, h_main_v4] at e
  exact e
theorem op_24_ne (V : Valuation τ sig (Elt F)) (r : Ref sig .tc) (h : r ≠ main_v7) :
    (op_24 (F := F)).result V (Proc.devRef .tc r) = V (Proc.devRef .tc r) :=
  unary_result_ne _ _ _ _ _ V h
theorem op_24_val (V : Valuation τ sig (Elt F)) (x0 x1 x2 : (⟨S4x4096x64, .f32⟩ : BufTy).Contents (Elt F)) (h_main_v6 : V (Proc.devRef .tc main_v6) = ReadP.val_main_v6 (F := F) x0 x1) :
    (op_24 (F := F)).result V (Proc.devRef .tc main_v7) = ReadP.val_main_v7 (F := F) x0 x1 := by
  have e : (op_24 (F := F)).result V (Proc.devRef .tc main_v7) = _ := unary_result _ _ _ _ _ V
  rw [h_main_v6] at e
  exact e
theorem op_25_ne (V : Valuation τ sig (Elt F)) (r : Ref sig .tc) (h : r ≠ main_v8) :
    (op_25 (F := F)).result V (Proc.devRef .tc r) = V (Proc.devRef .tc r) :=
  unary_result_ne _ _ _ _ _ V h
theorem op_25_val (V : Valuation τ sig (Elt F)) (x0 x1 x2 : (⟨S4x4096x64, .f32⟩ : BufTy).Contents (Elt F)) (h_main_v7 : V (Proc.devRef .tc main_v7) = ReadP.val_main_v7 (F := F) x0 x1) :
    (op_25 (F := F)).result V (Proc.devRef .tc main_v8) = ReadP.val_main_v8 (F := F) x0 x1 := by
  have e : (op_25 (F := F)).result V (Proc.devRef .tc main_v8) = _ := unary_result _ _ _ _ _ V
  rw [h_main_v7] at e
  exact e
theorem op_26_ne (V : Valuation τ sig (Elt F)) (r : Ref sig .tc) (h : r ≠ main_v9) :
    (op_26 (F := F)).result V (Proc.devRef .tc r) = V (Proc.devRef .tc r) :=
  binary_result_ne _ _ _ _ _ _ _ V h
theorem op_26_val (V : Valuation τ sig (Elt F)) (x0 x1 x2 : (⟨S4x4096x64, .f32⟩ : BufTy).Contents (Elt F)) (h_main_v2 : V (Proc.devRef .tc main_v2) = ReadP.val_main_v2 (F := F) x0 x1) (h_main_v8 : V (Proc.devRef .tc main_v8) = ReadP.val_main_v8 (F := F) x0 x1) :
    (op_26 (F := F)).result V (Proc.devRef .tc main_v9) = ReadP.val_main_v9 (F := F) x0 x1 := by
  have e : (op_26 (F := F)).result V (Proc.devRef .tc main_v9) = _ := binary_result _ _ _ _ _ _ _ V
  rw [h_main_v2, h_main_v8] at e
  exact e
theorem op_27_ne (V : Valuation τ sig (Elt F)) (r : Ref sig .tc) (h : r ≠ main_v10) :
    (op_27 (F := F)).result V (Proc.devRef .tc r) = V (Proc.devRef .tc r) :=
  unary_result_ne _ _ _ _ _ V h
theorem op_27_val (V : Valuation τ sig (Elt F)) (x0 x1 x2 : (⟨S4x4096x64, .f32⟩ : BufTy).Contents (Elt F)) (h_main_v9 : V (Proc.devRef .tc main_v9) = ReadP.val_main_v9 (F := F) x0 x1) :
    (op_27 (F := F)).result V (Proc.devRef .tc main_v10) = ReadP.val_main_v10 (F := F) x0 x1 := by
  have e : (op_27 (F := F)).result V (Proc.devRef .tc main_v10) = _ := unary_result _ _ _ _ _ V
  rw [h_main_v9] at e
  exact e
theorem op_28_ne (V : Valuation τ sig (Elt F)) (r : Ref sig .tc) (h : r ≠ main_cst_2) :
    (op_28 (F := F)).result V (Proc.devRef .tc r) = V (Proc.devRef .tc r) :=
  nullary_result_ne _ _ _ V h
theorem op_28_val (V : Valuation τ sig (Elt F)) (x0 x1 x2 : (⟨S4x4096x64, .f32⟩ : BufTy).Contents (Elt F)) :
    (op_28 (F := F)).result V (Proc.devRef .tc main_cst_2) = ReadP.val_main_cst_2 (F := F) := by
  have e : (op_28 (F := F)).result V (Proc.devRef .tc main_cst_2) = _ := nullary_result _ _ _ V
  exact e
theorem op_29_ne (V : Valuation τ sig (Elt F)) (r : Ref sig .tc) (h : r ≠ main_v11) :
    (op_29 (F := F)).result V (Proc.devRef .tc r) = V (Proc.devRef .tc r) :=
  binary_result_ne _ _ _ _ _ _ _ V h
theorem op_29_val (V : Valuation τ sig (Elt F)) (x0 x1 x2 : (⟨S4x4096x64, .f32⟩ : BufTy).Contents (Elt F)) (h_main_v10 : V (Proc.devRef .tc main_v10) = ReadP.val_main_v10 (F := F) x0 x1) (h_main_cst_2 : V (Proc.devRef .tc main_cst_2) = ReadP.val_main_cst_2 (F := F)) :
    (op_29 (F := F)).result V (Proc.devRef .tc main_v11) = ReadP.val_main_v11 (F := F) x0 x1 := by
  have e : (op_29 (F := F)).result V (Proc.devRef .tc main_v11) = _ := binary_result _ _ _ _ _ _ _ V
  rw [h_main_v10, h_main_cst_2] at e
  exact e
theorem op_30_ne (V : Valuation τ sig (Elt F)) (r : Ref sig .tc) (h : r ≠ main_v12) :
    (op_30 (F := F)).result V (Proc.devRef .tc r) = V (Proc.devRef .tc r) :=
  unary_result_ne _ _ _ _ _ V h
theorem op_30_val (V : Valuation τ sig (Elt F)) (x0 x1 x2 : (⟨S4x4096x64, .f32⟩ : BufTy).Contents (Elt F)) (h_main_v11 : V (Proc.devRef .tc main_v11) = ReadP.val_main_v11 (F := F) x0 x1) :
    (op_30 (F := F)).result V (Proc.devRef .tc main_v12) = ReadP.val_main_v12 (F := F) x0 x1 := by
  have e : (op_30 (F := F)).result V (Proc.devRef .tc main_v12) = _ := unary_result _ _ _ _ _ V
  rw [h_main_v11] at e
  exact e
theorem op_31_ne (V : Valuation τ sig (Elt F)) (r : Ref sig .tc) (h : r ≠ main_v13) :
    (op_31 (F := F)).result V (Proc.devRef .tc r) = V (Proc.devRef .tc r) :=
  unary_result_ne _ _ _ _ _ V h
theorem op_31_val (V : Valuation τ sig (Elt F)) (x0 x1 x2 : (⟨S4x4096x64, .f32⟩ : BufTy).Contents (Elt F)) (h_main_v12 : V (Proc.devRef .tc main_v12) = ReadP.val_main_v12 (F := F) x0 x1) :
    (op_31 (F := F)).result V (Proc.devRef .tc main_v13) = ReadP.val_main_v13 (F := F) x0 x1 := by
  have e : (op_31 (F := F)).result V (Proc.devRef .tc main_v13) = _ := unary_result _ _ _ _ _ V
  rw [h_main_v12] at e
  exact e
theorem op_32_ne (V : Valuation τ sig (Elt F)) (r : Ref sig .tc) (h : r ≠ main_v14) :
    (op_32 (F := F)).result V (Proc.devRef .tc r) = V (Proc.devRef .tc r) :=
  binary_result_ne _ _ _ _ _ _ _ V h
theorem op_32_val (V : Valuation τ sig (Elt F)) (x0 x1 x2 : (⟨S4x4096x64, .f32⟩ : BufTy).Contents (Elt F)) (h_main_v10 : V (Proc.devRef .tc main_v10) = ReadP.val_main_v10 (F := F) x0 x1) (h_main_v13 : V (Proc.devRef .tc main_v13) = ReadP.val_main_v13 (F := F) x0 x1) :
    (op_32 (F := F)).result V (Proc.devRef .tc main_v14) = ReadP.val_main_v14 (F := F) x0 x1 := by
  have e : (op_32 (F := F)).result V (Proc.devRef .tc main_v14) = _ := binary_result _ _ _ _ _ _ _ V
  rw [h_main_v10, h_main_v13] at e
  exact e
theorem op_33_ne (V : Valuation τ sig (Elt F)) (r : Ref sig .tc) (h : r ≠ main_cst_3) :
    (op_33 (F := F)).result V (Proc.devRef .tc r) = V (Proc.devRef .tc r) :=
  nullary_result_ne _ _ _ V h
theorem op_33_val (V : Valuation τ sig (Elt F)) (x0 x1 x2 : (⟨S4x4096x64, .f32⟩ : BufTy).Contents (Elt F)) :
    (op_33 (F := F)).result V (Proc.devRef .tc main_cst_3) = ReadP.val_main_cst_3 (F := F) := by
  have e : (op_33 (F := F)).result V (Proc.devRef .tc main_cst_3) = _ := nullary_result _ _ _ V
  exact e
theorem op_34_ne (V : Valuation τ sig (Elt F)) (r : Ref sig .tc) (h : r ≠ main_v15) :
    (op_34 (F := F)).result V (Proc.devRef .tc r) = V (Proc.devRef .tc r) :=
  binary_result_ne _ _ _ _ _ _ _ V h
theorem op_34_val (V : Valuation τ sig (Elt F)) (x0 x1 x2 : (⟨S4x4096x64, .f32⟩ : BufTy).Contents (Elt F)) (h_main_v2 : V (Proc.devRef .tc main_v2) = ReadP.val_main_v2 (F := F) x0 x1) (h_main_cst_3 : V (Proc.devRef .tc main_cst_3) = ReadP.val_main_cst_3 (F := F)) :
    (op_34 (F := F)).result V (Proc.devRef .tc main_v15) = ReadP.val_main_v15 (F := F) x0 x1 := by
  have e : (op_34 (F := F)).result V (Proc.devRef .tc main_v15) = _ := binary_result _ _ _ _ _ _ _ V
  rw [h_main_v2, h_main_cst_3] at e
  exact e
theorem op_35_ne (V : Valuation τ sig (Elt F)) (r : Ref sig .tc) (h : r ≠ main_cst_4) :
    (op_35 (F := F)).result V (Proc.devRef .tc r) = V (Proc.devRef .tc r) :=
  nullary_result_ne _ _ _ V h
theorem op_35_val (V : Valuation τ sig (Elt F)) (x0 x1 x2 : (⟨S4x4096x64, .f32⟩ : BufTy).Contents (Elt F)) :
    (op_35 (F := F)).result V (Proc.devRef .tc main_cst_4) = ReadP.val_main_cst_4 (F := F) := by
  have e : (op_35 (F := F)).result V (Proc.devRef .tc main_cst_4) = _ := nullary_result _ _ _ V
  exact e
theorem op_36_ne (V : Valuation τ sig (Elt F)) (r : Ref sig .tc) (h : r ≠ main_v16) :
    (op_36 (F := F)).result V (Proc.devRef .tc r) = V (Proc.devRef .tc r) :=
  unary_result_ne _ _ _ _ _ V h
theorem op_36_val (V : Valuation τ sig (Elt F)) (x0 x1 x2 : (⟨S4x4096x64, .f32⟩ : BufTy).Contents (Elt F)) (h_main_cst_4 : V (Proc.devRef .tc main_cst_4) = ReadP.val_main_cst_4 (F := F)) :
    (op_36 (F := F)).result V (Proc.devRef .tc main_v16) = ReadP.val_main_v16 (F := F) := by
  have e : (op_36 (F := F)).result V (Proc.devRef .tc main_v16) = _ := unary_result _ _ _ _ _ V
  rw [h_main_cst_4] at e
  exact e
theorem op_37_ne (V : Valuation τ sig (Elt F)) (r : Ref sig .tc) (h : r ≠ main_v17) :
    (op_37 (F := F)).result V (Proc.devRef .tc r) = V (Proc.devRef .tc r) :=
  binary_result_ne _ _ _ _ _ _ _ V h
theorem op_37_val (V : Valuation τ sig (Elt F)) (x0 x1 x2 : (⟨S4x4096x64, .f32⟩ : BufTy).Contents (Elt F)) (h_main_v16 : V (Proc.devRef .tc main_v16) = ReadP.val_main_v16 (F := F)) (h_main_v15 : V (Proc.devRef .tc main_v15) = ReadP.val_main_v15 (F := F) x0 x1) :
    (op_37 (F := F)).result V (Proc.devRef .tc main_v17) = ReadP.val_main_v17 (F := F) x0 x1 := by
  have e : (op_37 (F := F)).result V (Proc.devRef .tc main_v17) = _ := binary_result _ _ _ _ _ _ _ V
  rw [h_main_v16, h_main_v15] at e
  exact e
theorem op_38_ne (V : Valuation τ sig (Elt F)) (r : Ref sig .tc) (h : r ≠ main_v18) :
    (op_38 (F := F)).result V (Proc.devRef .tc r) = V (Proc.devRef .tc r) :=
  unary_result_ne _ _ _ _ _ V h
theorem op_38_val (V : Valuation τ sig (Elt F)) (x0 x1 x2 : (⟨S4x4096x64, .f32⟩ : BufTy).Contents (Elt F)) (h_main_v17 : V (Proc.devRef .tc main_v17) = ReadP.val_main_v17 (F := F) x0 x1) :
    (op_38 (F := F)).result V (Proc.devRef .tc main_v18) = ReadP.val_main_v18 (F := F) x0 x1 := by
  have e : (op_38 (F := F)).result V (Proc.devRef .tc main_v18) = _ := unary_result _ _ _ _ _ V
  rw [h_main_v17] at e
  exact e
theorem op_39_ne (V : Valuation τ sig (Elt F)) (r : Ref sig .tc) (h : r ≠ main_v19) :
    (op_39 (F := F)).result V (Proc.devRef .tc r) = V (Proc.devRef .tc r) :=
  unary_result_ne _ _ _ _ _ V h
theorem op_39_val (V : Valuation τ sig (Elt F)) (x0 x1 x2 : (⟨S4x4096x64, .f32⟩ : BufTy).Contents (Elt F)) (h_main_v18 : V (Proc.devRef .tc main_v18) = ReadP.val_main_v18 (F := F) x0 x1) :
    (op_39 (F := F)).result V (Proc.devRef .tc main_v19) = ReadP.val_main_v19 (F := F) x0 x1 := by
  have e : (op_39 (F := F)).result V (Proc.devRef .tc main_v19) = _ := unary_result _ _ _ _ _ V
  rw [h_main_v18] at e
  exact e
theorem op_40_ne (V : Valuation τ sig (Elt F)) (r : Ref sig .tc) (h : r ≠ main_v20) :
    (op_40 (F := F)).result V (Proc.devRef .tc r) = V (Proc.devRef .tc r) :=
  binary_result_ne _ _ _ _ _ _ _ V h
theorem op_40_val (V : Valuation τ sig (Elt F)) (x0 x1 x2 : (⟨S4x4096x64, .f32⟩ : BufTy).Contents (Elt F)) (h_main_v2 : V (Proc.devRef .tc main_v2) = ReadP.val_main_v2 (F := F) x0 x1) (h_main_v19 : V (Proc.devRef .tc main_v19) = ReadP.val_main_v19 (F := F) x0 x1) :
    (op_40 (F := F)).result V (Proc.devRef .tc main_v20) = ReadP.val_main_v20 (F := F) x0 x1 := by
  have e : (op_40 (F := F)).result V (Proc.devRef .tc main_v20) = _ := binary_result _ _ _ _ _ _ _ V
  rw [h_main_v2, h_main_v19] at e
  exact e
theorem op_41_ne (V : Valuation τ sig (Elt F)) (r : Ref sig .tc) (h : r ≠ main_v21) :
    (op_41 (F := F)).result V (Proc.devRef .tc r) = V (Proc.devRef .tc r) :=
  unary_result_ne _ _ _ _ _ V h
theorem op_41_val (V : Valuation τ sig (Elt F)) (x0 x1 x2 : (⟨S4x4096x64, .f32⟩ : BufTy).Contents (Elt F)) (h_main_v20 : V (Proc.devRef .tc main_v20) = ReadP.val_main_v20 (F := F) x0 x1) :
    (op_41 (F := F)).result V (Proc.devRef .tc main_v21) = ReadP.val_main_v21 (F := F) x0 x1 := by
  have e : (op_41 (F := F)).result V (Proc.devRef .tc main_v21) = _ := unary_result _ _ _ _ _ V
  rw [h_main_v20] at e
  exact e
theorem op_42_ne (V : Valuation τ sig (Elt F)) (r : Ref sig .tc) (h : r ≠ main_cst_5) :
    (op_42 (F := F)).result V (Proc.devRef .tc r) = V (Proc.devRef .tc r) :=
  nullary_result_ne _ _ _ V h
theorem op_42_val (V : Valuation τ sig (Elt F)) (x0 x1 x2 : (⟨S4x4096x64, .f32⟩ : BufTy).Contents (Elt F)) :
    (op_42 (F := F)).result V (Proc.devRef .tc main_cst_5) = ReadP.val_main_cst_5 (F := F) := by
  have e : (op_42 (F := F)).result V (Proc.devRef .tc main_cst_5) = _ := nullary_result _ _ _ V
  exact e
theorem op_43_ne (V : Valuation τ sig (Elt F)) (r : Ref sig .tc) (h : r ≠ main_v22) :
    (op_43 (F := F)).result V (Proc.devRef .tc r) = V (Proc.devRef .tc r) :=
  binary_result_ne _ _ _ _ _ _ _ V h
theorem op_43_val (V : Valuation τ sig (Elt F)) (x0 x1 x2 : (⟨S4x4096x64, .f32⟩ : BufTy).Contents (Elt F)) (h_main_v21 : V (Proc.devRef .tc main_v21) = ReadP.val_main_v21 (F := F) x0 x1) (h_main_cst_5 : V (Proc.devRef .tc main_cst_5) = ReadP.val_main_cst_5 (F := F)) :
    (op_43 (F := F)).result V (Proc.devRef .tc main_v22) = ReadP.val_main_v22 (F := F) x0 x1 := by
  have e : (op_43 (F := F)).result V (Proc.devRef .tc main_v22) = _ := binary_result _ _ _ _ _ _ _ V
  rw [h_main_v21, h_main_cst_5] at e
  exact e
theorem op_44_ne (V : Valuation τ sig (Elt F)) (r : Ref sig .tc) (h : r ≠ main_v23) :
    (op_44 (F := F)).result V (Proc.devRef .tc r) = V (Proc.devRef .tc r) :=
  unary_result_ne _ _ _ _ _ V h
theorem op_44_val (V : Valuation τ sig (Elt F)) (x0 x1 x2 : (⟨S4x4096x64, .f32⟩ : BufTy).Contents (Elt F)) (h_main_v22 : V (Proc.devRef .tc main_v22) = ReadP.val_main_v22 (F := F) x0 x1) :
    (op_44 (F := F)).result V (Proc.devRef .tc main_v23) = ReadP.val_main_v23 (F := F) x0 x1 := by
  have e : (op_44 (F := F)).result V (Proc.devRef .tc main_v23) = _ := unary_result _ _ _ _ _ V
  rw [h_main_v22] at e
  exact e
theorem op_45_ne (V : Valuation τ sig (Elt F)) (r : Ref sig .tc) (h : r ≠ main_v24) :
    (op_45 (F := F)).result V (Proc.devRef .tc r) = V (Proc.devRef .tc r) :=
  unary_result_ne _ _ _ _ _ V h
theorem op_45_val (V : Valuation τ sig (Elt F)) (x0 x1 x2 : (⟨S4x4096x64, .f32⟩ : BufTy).Contents (Elt F)) (h_main_v23 : V (Proc.devRef .tc main_v23) = ReadP.val_main_v23 (F := F) x0 x1) :
    (op_45 (F := F)).result V (Proc.devRef .tc main_v24) = ReadP.val_main_v24 (F := F) x0 x1 := by
  have e : (op_45 (F := F)).result V (Proc.devRef .tc main_v24) = _ := unary_result _ _ _ _ _ V
  rw [h_main_v23] at e
  exact e
theorem op_46_ne (V : Valuation τ sig (Elt F)) (r : Ref sig .tc) (h : r ≠ main_v25) :
    (op_46 (F := F)).result V (Proc.devRef .tc r) = V (Proc.devRef .tc r) :=
  binary_result_ne _ _ _ _ _ _ _ V h
theorem op_46_val (V : Valuation τ sig (Elt F)) (x0 x1 x2 : (⟨S4x4096x64, .f32⟩ : BufTy).Contents (Elt F)) (h_main_v21 : V (Proc.devRef .tc main_v21) = ReadP.val_main_v21 (F := F) x0 x1) (h_main_v24 : V (Proc.devRef .tc main_v24) = ReadP.val_main_v24 (F := F) x0 x1) :
    (op_46 (F := F)).result V (Proc.devRef .tc main_v25) = ReadP.val_main_v25 (F := F) x0 x1 := by
  have e : (op_46 (F := F)).result V (Proc.devRef .tc main_v25) = _ := binary_result _ _ _ _ _ _ _ V
  rw [h_main_v21, h_main_v24] at e
  exact e
theorem op_47_ne (V : Valuation τ sig (Elt F)) (r : Ref sig .tc) (h : r ≠ main_v26) :
    (op_47 (F := F)).result V (Proc.devRef .tc r) = V (Proc.devRef .tc r) :=
  binary_result_ne _ _ _ _ _ _ _ V h
theorem op_47_val (V : Valuation τ sig (Elt F)) (x0 x1 x2 : (⟨S4x4096x64, .f32⟩ : BufTy).Contents (Elt F)) (h_main_v14 : V (Proc.devRef .tc main_v14) = ReadP.val_main_v14 (F := F) x0 x1) (h_main_v25 : V (Proc.devRef .tc main_v25) = ReadP.val_main_v25 (F := F) x0 x1) :
    (op_47 (F := F)).result V (Proc.devRef .tc main_v26) = ReadP.val_main_v26 (F := F) x0 x1 := by
  have e : (op_47 (F := F)).result V (Proc.devRef .tc main_v26) = _ := binary_result _ _ _ _ _ _ _ V
  rw [h_main_v14, h_main_v25] at e
  exact e
theorem op_48_ne (V : Valuation τ sig (Elt F)) (r : Ref sig .tc) (h : r ≠ main_cst_6) :
    (op_48 (F := F)).result V (Proc.devRef .tc r) = V (Proc.devRef .tc r) :=
  nullary_result_ne _ _ _ V h
theorem op_48_val (V : Valuation τ sig (Elt F)) (x0 x1 x2 : (⟨S4x4096x64, .f32⟩ : BufTy).Contents (Elt F)) :
    (op_48 (F := F)).result V (Proc.devRef .tc main_cst_6) = ReadP.val_main_cst_6 (F := F) := by
  have e : (op_48 (F := F)).result V (Proc.devRef .tc main_cst_6) = _ := nullary_result _ _ _ V
  exact e
theorem op_49_ne (V : Valuation τ sig (Elt F)) (r : Ref sig .tc) (h : r ≠ main_v27) :
    (op_49 (F := F)).result V (Proc.devRef .tc r) = V (Proc.devRef .tc r) :=
  unary_result_ne _ _ _ _ _ V h
theorem op_49_val (V : Valuation τ sig (Elt F)) (x0 x1 x2 : (⟨S4x4096x64, .f32⟩ : BufTy).Contents (Elt F)) (h_main_cst_6 : V (Proc.devRef .tc main_cst_6) = ReadP.val_main_cst_6 (F := F)) :
    (op_49 (F := F)).result V (Proc.devRef .tc main_v27) = ReadP.val_main_v27 (F := F) := by
  have e : (op_49 (F := F)).result V (Proc.devRef .tc main_v27) = _ := unary_result _ _ _ _ _ V
  rw [h_main_cst_6] at e
  exact e
theorem op_50_ne (V : Valuation τ sig (Elt F)) (r : Ref sig .tc) (h : r ≠ main_v28) :
    (op_50 (F := F)).result V (Proc.devRef .tc r) = V (Proc.devRef .tc r) :=
  binary_result_ne _ _ _ _ _ _ _ V h
theorem op_50_val (V : Valuation τ sig (Elt F)) (x0 x1 x2 : (⟨S4x4096x64, .f32⟩ : BufTy).Contents (Elt F)) (h_main_v26 : V (Proc.devRef .tc main_v26) = ReadP.val_main_v26 (F := F) x0 x1) (h_main_v27 : V (Proc.devRef .tc main_v27) = ReadP.val_main_v27 (F := F)) :
    (op_50 (F := F)).result V (Proc.devRef .tc main_v28) = ReadP.val_main_v28 (F := F) x0 x1 := by
  have e : (op_50 (F := F)).result V (Proc.devRef .tc main_v28) = _ := binary_result _ _ _ _ _ _ _ V
  rw [h_main_v26, h_main_v27] at e
  exact e
theorem op_51_ne (V : Valuation τ sig (Elt F)) (r : Ref sig .tc) (h : r ≠ main_cst_7) :
    (op_51 (F := F)).result V (Proc.devRef .tc r) = V (Proc.devRef .tc r) :=
  nullary_result_ne _ _ _ V h
theorem op_51_val (V : Valuation τ sig (Elt F)) (x0 x1 x2 : (⟨S4x4096x64, .f32⟩ : BufTy).Contents (Elt F)) :
    (op_51 (F := F)).result V (Proc.devRef .tc main_cst_7) = ReadP.val_main_cst_7 (F := F) := by
  have e : (op_51 (F := F)).result V (Proc.devRef .tc main_cst_7) = _ := nullary_result _ _ _ V
  exact e
theorem op_52_ne (V : Valuation τ sig (Elt F)) (r : Ref sig .tc) (h : r ≠ main_v29) :
    (op_52 (F := F)).result V (Proc.devRef .tc r) = V (Proc.devRef .tc r) :=
  binary_result_ne _ _ _ _ _ _ _ V h
theorem op_52_val (V : Valuation τ sig (Elt F)) (x0 x1 x2 : (⟨S4x4096x64, .f32⟩ : BufTy).Contents (Elt F)) (h_main_v28 : V (Proc.devRef .tc main_v28) = ReadP.val_main_v28 (F := F) x0 x1) (h_main_cst_7 : V (Proc.devRef .tc main_cst_7) = ReadP.val_main_cst_7 (F := F)) :
    (op_52 (F := F)).result V (Proc.devRef .tc main_v29) = ReadP.val_main_v29 (F := F) x0 x1 := by
  have e : (op_52 (F := F)).result V (Proc.devRef .tc main_v29) = _ := binary_result _ _ _ _ _ _ _ V
  rw [h_main_v28, h_main_cst_7] at e
  exact e
theorem op_53_ne (V : Valuation τ sig (Elt F)) (r : Ref sig .tc) (h : r ≠ main_cst_8) :
    (op_53 (F := F)).result V (Proc.devRef .tc r) = V (Proc.devRef .tc r) :=
  nullary_result_ne _ _ _ V h
theorem op_53_val (V : Valuation τ sig (Elt F)) (x0 x1 x2 : (⟨S4x4096x64, .f32⟩ : BufTy).Contents (Elt F)) :
    (op_53 (F := F)).result V (Proc.devRef .tc main_cst_8) = ReadP.val_main_cst_8 (F := F) := by
  have e : (op_53 (F := F)).result V (Proc.devRef .tc main_cst_8) = _ := nullary_result _ _ _ V
  exact e
theorem op_54_ne (V : Valuation τ sig (Elt F)) (r : Ref sig .tc) (h : r ≠ main_v30) :
    (op_54 (F := F)).result V (Proc.devRef .tc r) = V (Proc.devRef .tc r) :=
  unary_result_ne _ _ _ _ _ V h
theorem op_54_val (V : Valuation τ sig (Elt F)) (x0 x1 x2 : (⟨S4x4096x64, .f32⟩ : BufTy).Contents (Elt F)) (h_main_cst_8 : V (Proc.devRef .tc main_cst_8) = ReadP.val_main_cst_8 (F := F)) :
    (op_54 (F := F)).result V (Proc.devRef .tc main_v30) = ReadP.val_main_v30 (F := F) := by
  have e : (op_54 (F := F)).result V (Proc.devRef .tc main_v30) = _ := unary_result _ _ _ _ _ V
  rw [h_main_cst_8] at e
  exact e
theorem op_55_ne (V : Valuation τ sig (Elt F)) (r : Ref sig .tc) (h : r ≠ main_v31) :
    (op_55 (F := F)).result V (Proc.devRef .tc r) = V (Proc.devRef .tc r) :=
  binary_result_ne _ _ _ _ _ _ _ V h
theorem op_55_val (V : Valuation τ sig (Elt F)) (x0 x1 x2 : (⟨S4x4096x64, .f32⟩ : BufTy).Contents (Elt F)) (h_main_v30 : V (Proc.devRef .tc main_v30) = ReadP.val_main_v30 (F := F)) (h_main_v29 : V (Proc.devRef .tc main_v29) = ReadP.val_main_v29 (F := F) x0 x1) :
    (op_55 (F := F)).result V (Proc.devRef .tc main_v31) = ReadP.val_main_v31 (F := F) x0 x1 := by
  have e : (op_55 (F := F)).result V (Proc.devRef .tc main_v31) = _ := binary_result _ _ _ _ _ _ _ V
  rw [h_main_v30, h_main_v29] at e
  exact e
theorem op_56_ne (V : Valuation τ sig (Elt F)) (r : Ref sig .tc) (h : r ≠ main_v32) :
    (op_56 (F := F)).result V (Proc.devRef .tc r) = V (Proc.devRef .tc r) :=
  unary_result_ne _ _ _ _ _ V h
theorem op_56_val (V : Valuation τ sig (Elt F)) (x0 x1 x2 : (⟨S4x4096x64, .f32⟩ : BufTy).Contents (Elt F)) (h_main_v31 : V (Proc.devRef .tc main_v31) = ReadP.val_main_v31 (F := F) x0 x1) :
    (op_56 (F := F)).result V (Proc.devRef .tc main_v32) = ReadP.val_main_v32 (F := F) x0 x1 := by
  have e : (op_56 (F := F)).result V (Proc.devRef .tc main_v32) = _ := unary_result _ _ _ _ _ V
  rw [h_main_v31] at e
  exact e
theorem op_57_ne (V : Valuation τ sig (Elt F)) (r : Ref sig .tc) (h : r ≠ main_v33) :
    (op_57 (F := F)).result V (Proc.devRef .tc r) = V (Proc.devRef .tc r) :=
  unary_result_ne _ _ _ _ _ V h
theorem op_57_val (V : Valuation τ sig (Elt F)) (x0 x1 x2 : (⟨S4x4096x64, .f32⟩ : BufTy).Contents (Elt F)) (h_main_v32 : V (Proc.devRef .tc main_v32) = ReadP.val_main_v32 (F := F) x0 x1) :
    (op_57 (F := F)).result V (Proc.devRef .tc main_v33) = ReadP.val_main_v33 (F := F) x0 x1 := by
  have e : (op_57 (F := F)).result V (Proc.devRef .tc main_v33) = _ := unary_result _ _ _ _ _ V
  rw [h_main_v32] at e
  exact e
theorem op_58_ne (V : Valuation τ sig (Elt F)) (r : Ref sig .tc) (h : r ≠ main_v34) :
    (op_58 (F := F)).result V (Proc.devRef .tc r) = V (Proc.devRef .tc r) :=
  binary_result_ne _ _ _ _ _ _ _ V h
theorem op_58_val (V : Valuation τ sig (Elt F)) (x0 x1 x2 : (⟨S4x4096x64, .f32⟩ : BufTy).Contents (Elt F)) (h_main_v28 : V (Proc.devRef .tc main_v28) = ReadP.val_main_v28 (F := F) x0 x1) (h_main_v33 : V (Proc.devRef .tc main_v33) = ReadP.val_main_v33 (F := F) x0 x1) :
    (op_58 (F := F)).result V (Proc.devRef .tc main_v34) = ReadP.val_main_v34 (F := F) x0 x1 := by
  have e : (op_58 (F := F)).result V (Proc.devRef .tc main_v34) = _ := binary_result _ _ _ _ _ _ _ V
  rw [h_main_v28, h_main_v33] at e
  exact e
theorem op_59_ne (V : Valuation τ sig (Elt F)) (r : Ref sig .tc) (h : r ≠ main_v35) :
    (op_59 (F := F)).result V (Proc.devRef .tc r) = V (Proc.devRef .tc r) :=
  unary_result_ne _ _ _ _ _ V h
theorem op_59_val (V : Valuation τ sig (Elt F)) (x0 x1 x2 : (⟨S4x4096x64, .f32⟩ : BufTy).Contents (Elt F)) (h_main_v34 : V (Proc.devRef .tc main_v34) = ReadP.val_main_v34 (F := F) x0 x1) :
    (op_59 (F := F)).result V (Proc.devRef .tc main_v35) = ReadP.val_main_v35 (F := F) x0 x1 := by
  have e : (op_59 (F := F)).result V (Proc.devRef .tc main_v35) = _ := unary_result _ _ _ _ _ V
  rw [h_main_v34] at e
  exact e
theorem op_60_ne (V : Valuation τ sig (Elt F)) (r : Ref sig .tc) (h : r ≠ main_cst_9) :
    (op_60 (F := F)).result V (Proc.devRef .tc r) = V (Proc.devRef .tc r) :=
  nullary_result_ne _ _ _ V h
theorem op_60_val (V : Valuation τ sig (Elt F)) (x0 x1 x2 : (⟨S4x4096x64, .f32⟩ : BufTy).Contents (Elt F)) :
    (op_60 (F := F)).result V (Proc.devRef .tc main_cst_9) = ReadP.val_main_cst_9 (F := F) := by
  have e : (op_60 (F := F)).result V (Proc.devRef .tc main_cst_9) = _ := nullary_result _ _ _ V
  exact e
theorem op_61_ne (V : Valuation τ sig (Elt F)) (r : Ref sig .tc) (h : r ≠ main_v36) :
    (op_61 (F := F)).result V (Proc.devRef .tc r) = V (Proc.devRef .tc r) :=
  binary_result_ne _ _ _ _ _ _ _ V h
theorem op_61_val (V : Valuation τ sig (Elt F)) (x0 x1 x2 : (⟨S4x4096x64, .f32⟩ : BufTy).Contents (Elt F)) (h_main_v35 : V (Proc.devRef .tc main_v35) = ReadP.val_main_v35 (F := F) x0 x1) (h_main_cst_9 : V (Proc.devRef .tc main_cst_9) = ReadP.val_main_cst_9 (F := F)) :
    (op_61 (F := F)).result V (Proc.devRef .tc main_v36) = ReadP.val_main_v36 (F := F) x0 x1 := by
  have e : (op_61 (F := F)).result V (Proc.devRef .tc main_v36) = _ := binary_result _ _ _ _ _ _ _ V
  rw [h_main_v35, h_main_cst_9] at e
  exact e
theorem op_62_ne (V : Valuation τ sig (Elt F)) (r : Ref sig .tc) (h : r ≠ main_v37) :
    (op_62 (F := F)).result V (Proc.devRef .tc r) = V (Proc.devRef .tc r) :=
  unary_result_ne _ _ _ _ _ V h
theorem op_62_val (V : Valuation τ sig (Elt F)) (x0 x1 x2 : (⟨S4x4096x64, .f32⟩ : BufTy).Contents (Elt F)) (h_main_v36 : V (Proc.devRef .tc main_v36) = ReadP.val_main_v36 (F := F) x0 x1) :
    (op_62 (F := F)).result V (Proc.devRef .tc main_v37) = ReadP.val_main_v37 (F := F) x0 x1 := by
  have e : (op_62 (F := F)).result V (Proc.devRef .tc main_v37) = _ := unary_result _ _ _ _ _ V
  rw [h_main_v36] at e
  exact e
theorem op_63_ne (V : Valuation τ sig (Elt F)) (r : Ref sig .tc) (h : r ≠ main_v38) :
    (op_63 (F := F)).result V (Proc.devRef .tc r) = V (Proc.devRef .tc r) :=
  unary_result_ne _ _ _ _ _ V h
theorem op_63_val (V : Valuation τ sig (Elt F)) (x0 x1 x2 : (⟨S4x4096x64, .f32⟩ : BufTy).Contents (Elt F)) (h_main_v37 : V (Proc.devRef .tc main_v37) = ReadP.val_main_v37 (F := F) x0 x1) :
    (op_63 (F := F)).result V (Proc.devRef .tc main_v38) = ReadP.val_main_v38 (F := F) x0 x1 := by
  have e : (op_63 (F := F)).result V (Proc.devRef .tc main_v38) = _ := unary_result _ _ _ _ _ V
  rw [h_main_v37] at e
  exact e
theorem op_64_ne (V : Valuation τ sig (Elt F)) (r : Ref sig .tc) (h : r ≠ main_v39) :
    (op_64 (F := F)).result V (Proc.devRef .tc r) = V (Proc.devRef .tc r) :=
  binary_result_ne _ _ _ _ _ _ _ V h
theorem op_64_val (V : Valuation τ sig (Elt F)) (x0 x1 x2 : (⟨S4x4096x64, .f32⟩ : BufTy).Contents (Elt F)) (h_main_v35 : V (Proc.devRef .tc main_v35) = ReadP.val_main_v35 (F := F) x0 x1) (h_main_v38 : V (Proc.devRef .tc main_v38) = ReadP.val_main_v38 (F := F) x0 x1) :
    (op_64 (F := F)).result V (Proc.devRef .tc main_v39) = ReadP.val_main_v39 (F := F) x0 x1 := by
  have e : (op_64 (F := F)).result V (Proc.devRef .tc main_v39) = _ := binary_result _ _ _ _ _ _ _ V
  rw [h_main_v35, h_main_v38] at e
  exact e
theorem op_65_ne (V : Valuation τ sig (Elt F)) (r : Ref sig .tc) (h : r ≠ main_cst_10) :
    (op_65 (F := F)).result V (Proc.devRef .tc r) = V (Proc.devRef .tc r) :=
  nullary_result_ne _ _ _ V h
theorem op_65_val (V : Valuation τ sig (Elt F)) (x0 x1 x2 : (⟨S4x4096x64, .f32⟩ : BufTy).Contents (Elt F)) :
    (op_65 (F := F)).result V (Proc.devRef .tc main_cst_10) = ReadP.val_main_cst_10 (F := F) := by
  have e : (op_65 (F := F)).result V (Proc.devRef .tc main_cst_10) = _ := nullary_result _ _ _ V
  exact e
theorem op_66_ne (V : Valuation τ sig (Elt F)) (r : Ref sig .tc) (h : r ≠ main_v40) :
    (op_66 (F := F)).result V (Proc.devRef .tc r) = V (Proc.devRef .tc r) :=
  binary_result_ne _ _ _ _ _ _ _ V h
theorem op_66_val (V : Valuation τ sig (Elt F)) (x0 x1 x2 : (⟨S4x4096x64, .f32⟩ : BufTy).Contents (Elt F)) (h_main_v39 : V (Proc.devRef .tc main_v39) = ReadP.val_main_v39 (F := F) x0 x1) (h_main_cst_10 : V (Proc.devRef .tc main_cst_10) = ReadP.val_main_cst_10 (F := F)) :
    (op_66 (F := F)).result V (Proc.devRef .tc main_v40) = ReadP.val_main_v40 (F := F) x0 x1 := by
  have e : (op_66 (F := F)).result V (Proc.devRef .tc main_v40) = _ := binary_result _ _ _ _ _ _ _ V
  rw [h_main_v39, h_main_cst_10] at e
  exact e
theorem op_67_ne (V : Valuation τ sig (Elt F)) (r : Ref sig .tc) (h : r ≠ main_v41) :
    (op_67 (F := F)).result V (Proc.devRef .tc r) = V (Proc.devRef .tc r) :=
  unary_result_ne _ _ _ _ _ V h
theorem op_67_val (V : Valuation τ sig (Elt F)) (x0 x1 x2 : (⟨S4x4096x64, .f32⟩ : BufTy).Contents (Elt F)) (h_main_v40 : V (Proc.devRef .tc main_v40) = ReadP.val_main_v40 (F := F) x0 x1) :
    (op_67 (F := F)).result V (Proc.devRef .tc main_v41) = ReadP.val_main_v41 (F := F) x0 x1 := by
  have e : (op_67 (F := F)).result V (Proc.devRef .tc main_v41) = _ := unary_result _ _ _ _ _ V
  rw [h_main_v40] at e
  exact e
theorem op_68_ne (V : Valuation τ sig (Elt F)) (r : Ref sig .tc) (h : r ≠ main_v42) :
    (op_68 (F := F)).result V (Proc.devRef .tc r) = V (Proc.devRef .tc r) :=
  unary_result_ne _ _ _ _ _ V h
theorem op_68_val (V : Valuation τ sig (Elt F)) (x0 x1 x2 : (⟨S4x4096x64, .f32⟩ : BufTy).Contents (Elt F)) (h_main_v41 : V (Proc.devRef .tc main_v41) = ReadP.val_main_v41 (F := F) x0 x1) :
    (op_68 (F := F)).result V (Proc.devRef .tc main_v42) = ReadP.val_main_v42 (F := F) x0 x1 := by
  have e : (op_68 (F := F)).result V (Proc.devRef .tc main_v42) = _ := unary_result _ _ _ _ _ V
  rw [h_main_v41] at e
  exact e
theorem op_69_ne (V : Valuation τ sig (Elt F)) (r : Ref sig .tc) (h : r ≠ main_v43) :
    (op_69 (F := F)).result V (Proc.devRef .tc r) = V (Proc.devRef .tc r) :=
  binary_result_ne _ _ _ _ _ _ _ V h
theorem op_69_val (V : Valuation τ sig (Elt F)) (x0 x1 x2 : (⟨S4x4096x64, .f32⟩ : BufTy).Contents (Elt F)) (h_main_v39 : V (Proc.devRef .tc main_v39) = ReadP.val_main_v39 (F := F) x0 x1) (h_main_v42 : V (Proc.devRef .tc main_v42) = ReadP.val_main_v42 (F := F) x0 x1) :
    (op_69 (F := F)).result V (Proc.devRef .tc main_v43) = ReadP.val_main_v43 (F := F) x0 x1 := by
  have e : (op_69 (F := F)).result V (Proc.devRef .tc main_v43) = _ := binary_result _ _ _ _ _ _ _ V
  rw [h_main_v39, h_main_v42] at e
  exact e
theorem op_70_ne (V : Valuation τ sig (Elt F)) (r : Ref sig .tc) (h : r ≠ main_v44) :
    (op_70 (F := F)).result V (Proc.devRef .tc r) = V (Proc.devRef .tc r) :=
  unary_result_ne _ _ _ _ _ V h
theorem op_70_val (V : Valuation τ sig (Elt F)) (x0 x1 x2 : (⟨S4x4096x64, .f32⟩ : BufTy).Contents (Elt F)) (h_main_v43 : V (Proc.devRef .tc main_v43) = ReadP.val_main_v43 (F := F) x0 x1) :
    (op_70 (F := F)).result V (Proc.devRef .tc main_v44) = ReadP.val_main_v44 (F := F) x0 x1 := by
  have e : (op_70 (F := F)).result V (Proc.devRef .tc main_v44) = _ := unary_result _ _ _ _ _ V
  rw [h_main_v43] at e
  exact e
theorem op_71_ne (V : Valuation τ sig (Elt F)) (r : Ref sig .tc) (h : r ≠ main_v45) :
    (op_71 (F := F)).result V (Proc.devRef .tc r) = V (Proc.devRef .tc r) :=
  binary_result_ne _ _ _ _ _ _ _ V h
theorem op_71_val (V : Valuation τ sig (Elt F)) (x0 x1 x2 : (⟨S4x4096x64, .f32⟩ : BufTy).Contents (Elt F)) (h_main_v44 : V (Proc.devRef .tc main_v44) = ReadP.val_main_v44 (F := F) x0 x1) (h_main_arg2 : V (Proc.devRef .tc main_arg2) = x2) :
    (op_71 (F := F)).result V (Proc.devRef .tc main_v45) = ReadP.val_main_v45 (F := F) x0 x1 x2 := by
  have e : (op_71 (F := F)).result V (Proc.devRef .tc main_v45) = _ := binary_result _ _ _ _ _ _ _ V
  rw [h_main_v44, h_main_arg2] at e
  exact e

end Cert.RefRunH

end
-- ==== Proof.RefRun.lean ====
/- The reference's run: every weakly fair execution of @main terminates with the three results at the stage functions of
   the arguments' launch contents, and the arguments unchanged.

   `chain_k` is the invariant read backwards along the line: if, before operation `k`, the arguments hold `x0 x1 x2` and
   every buffer written earlier that is still read later (or is a result) holds its stage function of them, then after
   the rest of the line the postcondition `Post` holds. Each step passes to the contents after operation `k`: the
   operation's own buffer by `op_k_val`, every other live buffer by `op_k_ne`. A buffer is written once, so at most
   eight buffers are live at any point, and no composed term of the whole program is ever formed. -/
import proofs.«159045_j72310069395864_2_alg».proof.Proof.RefRunOps

set_option maxRecDepth 8192

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- What the run must establish of the final contents `W`: the three results at their stage functions of the
    arguments' launch contents `x0 x1 x2`, and the arguments unchanged. -/
def Post (W : Valuation τ sig (Elt F)) (x0 x1 x2 : (⟨S4x4096x64, .f32⟩ : BufTy).Contents (Elt F)) : Prop :=
  W (Proc.devRef .tc main_v45) = ReadP.val_main_v45 (F := F) x0 x1 x2
  ∧ W (Proc.devRef .tc main_v44) = ReadP.val_main_v44 (F := F) x0 x1
  ∧ W (Proc.devRef .tc main_v3) = ReadP.val_main_v3 (F := F) x0 x1
  ∧ W (Proc.devRef .tc main_arg0) = x0 ∧ W (Proc.devRef .tc main_arg1) = x1 ∧ W (Proc.devRef .tc main_arg2) = x2

theorem chain_72 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v44 : V (Proc.devRef .tc main_v44) = ReadP.val_main_v44 (F := F) x0 x1)
    (h_main_v45 : V (Proc.devRef .tc main_v45) = ReadP.val_main_v45 (F := F) x0 x1 x2) :
    Post (after (tl_72 (F := F)) V) x0 x1 x2 :=
  ⟨h_main_v45, h_main_v44, h_main_v3, h_main_arg0, h_main_arg1, h_main_arg2⟩
theorem chain_71 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v44 : V (Proc.devRef .tc main_v44) = ReadP.val_main_v44 (F := F) x0 x1) :
    Post (after (tl_71 (F := F)) V) x0 x1 x2 :=
  chain_72 ((op_71 (F := F)).result V) x0 x1 x2
    ((op_71_ne V main_arg0 (by decide)).trans h_main_arg0)
    ((op_71_ne V main_arg1 (by decide)).trans h_main_arg1)
    ((op_71_ne V main_arg2 (by decide)).trans h_main_arg2)
    ((op_71_ne V main_v3 (by decide)).trans h_main_v3)
    ((op_71_ne V main_v44 (by decide)).trans h_main_v44)
    (op_71_val V x0 x1 x2 h_main_v44 h_main_arg2)
theorem chain_70 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v43 : V (Proc.devRef .tc main_v43) = ReadP.val_main_v43 (F := F) x0 x1) :
    Post (after (tl_70 (F := F)) V) x0 x1 x2 :=
  chain_71 ((op_70 (F := F)).result V) x0 x1 x2
    ((op_70_ne V main_arg0 (by decide)).trans h_main_arg0)
    ((op_70_ne V main_arg1 (by decide)).trans h_main_arg1)
    ((op_70_ne V main_arg2 (by decide)).trans h_main_arg2)
    ((op_70_ne V main_v3 (by decide)).trans h_main_v3)
    (op_70_val V x0 x1 x2 h_main_v43)
theorem chain_69 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v39 : V (Proc.devRef .tc main_v39) = ReadP.val_main_v39 (F := F) x0 x1)
    (h_main_v42 : V (Proc.devRef .tc main_v42) = ReadP.val_main_v42 (F := F) x0 x1) :
    Post (after (tl_69 (F := F)) V) x0 x1 x2 :=
  chain_70 ((op_69 (F := F)).result V) x0 x1 x2
    ((op_69_ne V main_arg0 (by decide)).trans h_main_arg0)
    ((op_69_ne V main_arg1 (by decide)).trans h_main_arg1)
    ((op_69_ne V main_arg2 (by decide)).trans h_main_arg2)
    ((op_69_ne V main_v3 (by decide)).trans h_main_v3)
    (op_69_val V x0 x1 x2 h_main_v39 h_main_v42)
theorem chain_68 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v39 : V (Proc.devRef .tc main_v39) = ReadP.val_main_v39 (F := F) x0 x1)
    (h_main_v41 : V (Proc.devRef .tc main_v41) = ReadP.val_main_v41 (F := F) x0 x1) :
    Post (after (tl_68 (F := F)) V) x0 x1 x2 :=
  chain_69 ((op_68 (F := F)).result V) x0 x1 x2
    ((op_68_ne V main_arg0 (by decide)).trans h_main_arg0)
    ((op_68_ne V main_arg1 (by decide)).trans h_main_arg1)
    ((op_68_ne V main_arg2 (by decide)).trans h_main_arg2)
    ((op_68_ne V main_v3 (by decide)).trans h_main_v3)
    ((op_68_ne V main_v39 (by decide)).trans h_main_v39)
    (op_68_val V x0 x1 x2 h_main_v41)
theorem chain_67 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v39 : V (Proc.devRef .tc main_v39) = ReadP.val_main_v39 (F := F) x0 x1)
    (h_main_v40 : V (Proc.devRef .tc main_v40) = ReadP.val_main_v40 (F := F) x0 x1) :
    Post (after (tl_67 (F := F)) V) x0 x1 x2 :=
  chain_68 ((op_67 (F := F)).result V) x0 x1 x2
    ((op_67_ne V main_arg0 (by decide)).trans h_main_arg0)
    ((op_67_ne V main_arg1 (by decide)).trans h_main_arg1)
    ((op_67_ne V main_arg2 (by decide)).trans h_main_arg2)
    ((op_67_ne V main_v3 (by decide)).trans h_main_v3)
    ((op_67_ne V main_v39 (by decide)).trans h_main_v39)
    (op_67_val V x0 x1 x2 h_main_v40)
theorem chain_66 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v39 : V (Proc.devRef .tc main_v39) = ReadP.val_main_v39 (F := F) x0 x1)
    (h_main_cst_10 : V (Proc.devRef .tc main_cst_10) = ReadP.val_main_cst_10 (F := F)) :
    Post (after (tl_66 (F := F)) V) x0 x1 x2 :=
  chain_67 ((op_66 (F := F)).result V) x0 x1 x2
    ((op_66_ne V main_arg0 (by decide)).trans h_main_arg0)
    ((op_66_ne V main_arg1 (by decide)).trans h_main_arg1)
    ((op_66_ne V main_arg2 (by decide)).trans h_main_arg2)
    ((op_66_ne V main_v3 (by decide)).trans h_main_v3)
    ((op_66_ne V main_v39 (by decide)).trans h_main_v39)
    (op_66_val V x0 x1 x2 h_main_v39 h_main_cst_10)
theorem chain_65 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v39 : V (Proc.devRef .tc main_v39) = ReadP.val_main_v39 (F := F) x0 x1) :
    Post (after (tl_65 (F := F)) V) x0 x1 x2 :=
  chain_66 ((op_65 (F := F)).result V) x0 x1 x2
    ((op_65_ne V main_arg0 (by decide)).trans h_main_arg0)
    ((op_65_ne V main_arg1 (by decide)).trans h_main_arg1)
    ((op_65_ne V main_arg2 (by decide)).trans h_main_arg2)
    ((op_65_ne V main_v3 (by decide)).trans h_main_v3)
    ((op_65_ne V main_v39 (by decide)).trans h_main_v39)
    (op_65_val V x0 x1 x2 )
theorem chain_64 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v35 : V (Proc.devRef .tc main_v35) = ReadP.val_main_v35 (F := F) x0 x1)
    (h_main_v38 : V (Proc.devRef .tc main_v38) = ReadP.val_main_v38 (F := F) x0 x1) :
    Post (after (tl_64 (F := F)) V) x0 x1 x2 :=
  chain_65 ((op_64 (F := F)).result V) x0 x1 x2
    ((op_64_ne V main_arg0 (by decide)).trans h_main_arg0)
    ((op_64_ne V main_arg1 (by decide)).trans h_main_arg1)
    ((op_64_ne V main_arg2 (by decide)).trans h_main_arg2)
    ((op_64_ne V main_v3 (by decide)).trans h_main_v3)
    (op_64_val V x0 x1 x2 h_main_v35 h_main_v38)
theorem chain_63 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v35 : V (Proc.devRef .tc main_v35) = ReadP.val_main_v35 (F := F) x0 x1)
    (h_main_v37 : V (Proc.devRef .tc main_v37) = ReadP.val_main_v37 (F := F) x0 x1) :
    Post (after (tl_63 (F := F)) V) x0 x1 x2 :=
  chain_64 ((op_63 (F := F)).result V) x0 x1 x2
    ((op_63_ne V main_arg0 (by decide)).trans h_main_arg0)
    ((op_63_ne V main_arg1 (by decide)).trans h_main_arg1)
    ((op_63_ne V main_arg2 (by decide)).trans h_main_arg2)
    ((op_63_ne V main_v3 (by decide)).trans h_main_v3)
    ((op_63_ne V main_v35 (by decide)).trans h_main_v35)
    (op_63_val V x0 x1 x2 h_main_v37)
theorem chain_62 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v35 : V (Proc.devRef .tc main_v35) = ReadP.val_main_v35 (F := F) x0 x1)
    (h_main_v36 : V (Proc.devRef .tc main_v36) = ReadP.val_main_v36 (F := F) x0 x1) :
    Post (after (tl_62 (F := F)) V) x0 x1 x2 :=
  chain_63 ((op_62 (F := F)).result V) x0 x1 x2
    ((op_62_ne V main_arg0 (by decide)).trans h_main_arg0)
    ((op_62_ne V main_arg1 (by decide)).trans h_main_arg1)
    ((op_62_ne V main_arg2 (by decide)).trans h_main_arg2)
    ((op_62_ne V main_v3 (by decide)).trans h_main_v3)
    ((op_62_ne V main_v35 (by decide)).trans h_main_v35)
    (op_62_val V x0 x1 x2 h_main_v36)
theorem chain_61 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v35 : V (Proc.devRef .tc main_v35) = ReadP.val_main_v35 (F := F) x0 x1)
    (h_main_cst_9 : V (Proc.devRef .tc main_cst_9) = ReadP.val_main_cst_9 (F := F)) :
    Post (after (tl_61 (F := F)) V) x0 x1 x2 :=
  chain_62 ((op_61 (F := F)).result V) x0 x1 x2
    ((op_61_ne V main_arg0 (by decide)).trans h_main_arg0)
    ((op_61_ne V main_arg1 (by decide)).trans h_main_arg1)
    ((op_61_ne V main_arg2 (by decide)).trans h_main_arg2)
    ((op_61_ne V main_v3 (by decide)).trans h_main_v3)
    ((op_61_ne V main_v35 (by decide)).trans h_main_v35)
    (op_61_val V x0 x1 x2 h_main_v35 h_main_cst_9)
theorem chain_60 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v35 : V (Proc.devRef .tc main_v35) = ReadP.val_main_v35 (F := F) x0 x1) :
    Post (after (tl_60 (F := F)) V) x0 x1 x2 :=
  chain_61 ((op_60 (F := F)).result V) x0 x1 x2
    ((op_60_ne V main_arg0 (by decide)).trans h_main_arg0)
    ((op_60_ne V main_arg1 (by decide)).trans h_main_arg1)
    ((op_60_ne V main_arg2 (by decide)).trans h_main_arg2)
    ((op_60_ne V main_v3 (by decide)).trans h_main_v3)
    ((op_60_ne V main_v35 (by decide)).trans h_main_v35)
    (op_60_val V x0 x1 x2 )
theorem chain_59 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v34 : V (Proc.devRef .tc main_v34) = ReadP.val_main_v34 (F := F) x0 x1) :
    Post (after (tl_59 (F := F)) V) x0 x1 x2 :=
  chain_60 ((op_59 (F := F)).result V) x0 x1 x2
    ((op_59_ne V main_arg0 (by decide)).trans h_main_arg0)
    ((op_59_ne V main_arg1 (by decide)).trans h_main_arg1)
    ((op_59_ne V main_arg2 (by decide)).trans h_main_arg2)
    ((op_59_ne V main_v3 (by decide)).trans h_main_v3)
    (op_59_val V x0 x1 x2 h_main_v34)
theorem chain_58 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v28 : V (Proc.devRef .tc main_v28) = ReadP.val_main_v28 (F := F) x0 x1)
    (h_main_v33 : V (Proc.devRef .tc main_v33) = ReadP.val_main_v33 (F := F) x0 x1) :
    Post (after (tl_58 (F := F)) V) x0 x1 x2 :=
  chain_59 ((op_58 (F := F)).result V) x0 x1 x2
    ((op_58_ne V main_arg0 (by decide)).trans h_main_arg0)
    ((op_58_ne V main_arg1 (by decide)).trans h_main_arg1)
    ((op_58_ne V main_arg2 (by decide)).trans h_main_arg2)
    ((op_58_ne V main_v3 (by decide)).trans h_main_v3)
    (op_58_val V x0 x1 x2 h_main_v28 h_main_v33)
theorem chain_57 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v28 : V (Proc.devRef .tc main_v28) = ReadP.val_main_v28 (F := F) x0 x1)
    (h_main_v32 : V (Proc.devRef .tc main_v32) = ReadP.val_main_v32 (F := F) x0 x1) :
    Post (after (tl_57 (F := F)) V) x0 x1 x2 :=
  chain_58 ((op_57 (F := F)).result V) x0 x1 x2
    ((op_57_ne V main_arg0 (by decide)).trans h_main_arg0)
    ((op_57_ne V main_arg1 (by decide)).trans h_main_arg1)
    ((op_57_ne V main_arg2 (by decide)).trans h_main_arg2)
    ((op_57_ne V main_v3 (by decide)).trans h_main_v3)
    ((op_57_ne V main_v28 (by decide)).trans h_main_v28)
    (op_57_val V x0 x1 x2 h_main_v32)
theorem chain_56 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v28 : V (Proc.devRef .tc main_v28) = ReadP.val_main_v28 (F := F) x0 x1)
    (h_main_v31 : V (Proc.devRef .tc main_v31) = ReadP.val_main_v31 (F := F) x0 x1) :
    Post (after (tl_56 (F := F)) V) x0 x1 x2 :=
  chain_57 ((op_56 (F := F)).result V) x0 x1 x2
    ((op_56_ne V main_arg0 (by decide)).trans h_main_arg0)
    ((op_56_ne V main_arg1 (by decide)).trans h_main_arg1)
    ((op_56_ne V main_arg2 (by decide)).trans h_main_arg2)
    ((op_56_ne V main_v3 (by decide)).trans h_main_v3)
    ((op_56_ne V main_v28 (by decide)).trans h_main_v28)
    (op_56_val V x0 x1 x2 h_main_v31)
theorem chain_55 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v28 : V (Proc.devRef .tc main_v28) = ReadP.val_main_v28 (F := F) x0 x1)
    (h_main_v29 : V (Proc.devRef .tc main_v29) = ReadP.val_main_v29 (F := F) x0 x1)
    (h_main_v30 : V (Proc.devRef .tc main_v30) = ReadP.val_main_v30 (F := F)) :
    Post (after (tl_55 (F := F)) V) x0 x1 x2 :=
  chain_56 ((op_55 (F := F)).result V) x0 x1 x2
    ((op_55_ne V main_arg0 (by decide)).trans h_main_arg0)
    ((op_55_ne V main_arg1 (by decide)).trans h_main_arg1)
    ((op_55_ne V main_arg2 (by decide)).trans h_main_arg2)
    ((op_55_ne V main_v3 (by decide)).trans h_main_v3)
    ((op_55_ne V main_v28 (by decide)).trans h_main_v28)
    (op_55_val V x0 x1 x2 h_main_v30 h_main_v29)
theorem chain_54 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v28 : V (Proc.devRef .tc main_v28) = ReadP.val_main_v28 (F := F) x0 x1)
    (h_main_v29 : V (Proc.devRef .tc main_v29) = ReadP.val_main_v29 (F := F) x0 x1)
    (h_main_cst_8 : V (Proc.devRef .tc main_cst_8) = ReadP.val_main_cst_8 (F := F)) :
    Post (after (tl_54 (F := F)) V) x0 x1 x2 :=
  chain_55 ((op_54 (F := F)).result V) x0 x1 x2
    ((op_54_ne V main_arg0 (by decide)).trans h_main_arg0)
    ((op_54_ne V main_arg1 (by decide)).trans h_main_arg1)
    ((op_54_ne V main_arg2 (by decide)).trans h_main_arg2)
    ((op_54_ne V main_v3 (by decide)).trans h_main_v3)
    ((op_54_ne V main_v28 (by decide)).trans h_main_v28)
    ((op_54_ne V main_v29 (by decide)).trans h_main_v29)
    (op_54_val V x0 x1 x2 h_main_cst_8)
theorem chain_53 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v28 : V (Proc.devRef .tc main_v28) = ReadP.val_main_v28 (F := F) x0 x1)
    (h_main_v29 : V (Proc.devRef .tc main_v29) = ReadP.val_main_v29 (F := F) x0 x1) :
    Post (after (tl_53 (F := F)) V) x0 x1 x2 :=
  chain_54 ((op_53 (F := F)).result V) x0 x1 x2
    ((op_53_ne V main_arg0 (by decide)).trans h_main_arg0)
    ((op_53_ne V main_arg1 (by decide)).trans h_main_arg1)
    ((op_53_ne V main_arg2 (by decide)).trans h_main_arg2)
    ((op_53_ne V main_v3 (by decide)).trans h_main_v3)
    ((op_53_ne V main_v28 (by decide)).trans h_main_v28)
    ((op_53_ne V main_v29 (by decide)).trans h_main_v29)
    (op_53_val V x0 x1 x2 )
theorem chain_52 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v28 : V (Proc.devRef .tc main_v28) = ReadP.val_main_v28 (F := F) x0 x1)
    (h_main_cst_7 : V (Proc.devRef .tc main_cst_7) = ReadP.val_main_cst_7 (F := F)) :
    Post (after (tl_52 (F := F)) V) x0 x1 x2 :=
  chain_53 ((op_52 (F := F)).result V) x0 x1 x2
    ((op_52_ne V main_arg0 (by decide)).trans h_main_arg0)
    ((op_52_ne V main_arg1 (by decide)).trans h_main_arg1)
    ((op_52_ne V main_arg2 (by decide)).trans h_main_arg2)
    ((op_52_ne V main_v3 (by decide)).trans h_main_v3)
    ((op_52_ne V main_v28 (by decide)).trans h_main_v28)
    (op_52_val V x0 x1 x2 h_main_v28 h_main_cst_7)
theorem chain_51 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v28 : V (Proc.devRef .tc main_v28) = ReadP.val_main_v28 (F := F) x0 x1) :
    Post (after (tl_51 (F := F)) V) x0 x1 x2 :=
  chain_52 ((op_51 (F := F)).result V) x0 x1 x2
    ((op_51_ne V main_arg0 (by decide)).trans h_main_arg0)
    ((op_51_ne V main_arg1 (by decide)).trans h_main_arg1)
    ((op_51_ne V main_arg2 (by decide)).trans h_main_arg2)
    ((op_51_ne V main_v3 (by decide)).trans h_main_v3)
    ((op_51_ne V main_v28 (by decide)).trans h_main_v28)
    (op_51_val V x0 x1 x2 )
theorem chain_50 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v26 : V (Proc.devRef .tc main_v26) = ReadP.val_main_v26 (F := F) x0 x1)
    (h_main_v27 : V (Proc.devRef .tc main_v27) = ReadP.val_main_v27 (F := F)) :
    Post (after (tl_50 (F := F)) V) x0 x1 x2 :=
  chain_51 ((op_50 (F := F)).result V) x0 x1 x2
    ((op_50_ne V main_arg0 (by decide)).trans h_main_arg0)
    ((op_50_ne V main_arg1 (by decide)).trans h_main_arg1)
    ((op_50_ne V main_arg2 (by decide)).trans h_main_arg2)
    ((op_50_ne V main_v3 (by decide)).trans h_main_v3)
    (op_50_val V x0 x1 x2 h_main_v26 h_main_v27)
theorem chain_49 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v26 : V (Proc.devRef .tc main_v26) = ReadP.val_main_v26 (F := F) x0 x1)
    (h_main_cst_6 : V (Proc.devRef .tc main_cst_6) = ReadP.val_main_cst_6 (F := F)) :
    Post (after (tl_49 (F := F)) V) x0 x1 x2 :=
  chain_50 ((op_49 (F := F)).result V) x0 x1 x2
    ((op_49_ne V main_arg0 (by decide)).trans h_main_arg0)
    ((op_49_ne V main_arg1 (by decide)).trans h_main_arg1)
    ((op_49_ne V main_arg2 (by decide)).trans h_main_arg2)
    ((op_49_ne V main_v3 (by decide)).trans h_main_v3)
    ((op_49_ne V main_v26 (by decide)).trans h_main_v26)
    (op_49_val V x0 x1 x2 h_main_cst_6)
theorem chain_48 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v26 : V (Proc.devRef .tc main_v26) = ReadP.val_main_v26 (F := F) x0 x1) :
    Post (after (tl_48 (F := F)) V) x0 x1 x2 :=
  chain_49 ((op_48 (F := F)).result V) x0 x1 x2
    ((op_48_ne V main_arg0 (by decide)).trans h_main_arg0)
    ((op_48_ne V main_arg1 (by decide)).trans h_main_arg1)
    ((op_48_ne V main_arg2 (by decide)).trans h_main_arg2)
    ((op_48_ne V main_v3 (by decide)).trans h_main_v3)
    ((op_48_ne V main_v26 (by decide)).trans h_main_v26)
    (op_48_val V x0 x1 x2 )
theorem chain_47 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v14 : V (Proc.devRef .tc main_v14) = ReadP.val_main_v14 (F := F) x0 x1)
    (h_main_v25 : V (Proc.devRef .tc main_v25) = ReadP.val_main_v25 (F := F) x0 x1) :
    Post (after (tl_47 (F := F)) V) x0 x1 x2 :=
  chain_48 ((op_47 (F := F)).result V) x0 x1 x2
    ((op_47_ne V main_arg0 (by decide)).trans h_main_arg0)
    ((op_47_ne V main_arg1 (by decide)).trans h_main_arg1)
    ((op_47_ne V main_arg2 (by decide)).trans h_main_arg2)
    ((op_47_ne V main_v3 (by decide)).trans h_main_v3)
    (op_47_val V x0 x1 x2 h_main_v14 h_main_v25)
theorem chain_46 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v14 : V (Proc.devRef .tc main_v14) = ReadP.val_main_v14 (F := F) x0 x1)
    (h_main_v21 : V (Proc.devRef .tc main_v21) = ReadP.val_main_v21 (F := F) x0 x1)
    (h_main_v24 : V (Proc.devRef .tc main_v24) = ReadP.val_main_v24 (F := F) x0 x1) :
    Post (after (tl_46 (F := F)) V) x0 x1 x2 :=
  chain_47 ((op_46 (F := F)).result V) x0 x1 x2
    ((op_46_ne V main_arg0 (by decide)).trans h_main_arg0)
    ((op_46_ne V main_arg1 (by decide)).trans h_main_arg1)
    ((op_46_ne V main_arg2 (by decide)).trans h_main_arg2)
    ((op_46_ne V main_v3 (by decide)).trans h_main_v3)
    ((op_46_ne V main_v14 (by decide)).trans h_main_v14)
    (op_46_val V x0 x1 x2 h_main_v21 h_main_v24)
theorem chain_45 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v14 : V (Proc.devRef .tc main_v14) = ReadP.val_main_v14 (F := F) x0 x1)
    (h_main_v21 : V (Proc.devRef .tc main_v21) = ReadP.val_main_v21 (F := F) x0 x1)
    (h_main_v23 : V (Proc.devRef .tc main_v23) = ReadP.val_main_v23 (F := F) x0 x1) :
    Post (after (tl_45 (F := F)) V) x0 x1 x2 :=
  chain_46 ((op_45 (F := F)).result V) x0 x1 x2
    ((op_45_ne V main_arg0 (by decide)).trans h_main_arg0)
    ((op_45_ne V main_arg1 (by decide)).trans h_main_arg1)
    ((op_45_ne V main_arg2 (by decide)).trans h_main_arg2)
    ((op_45_ne V main_v3 (by decide)).trans h_main_v3)
    ((op_45_ne V main_v14 (by decide)).trans h_main_v14)
    ((op_45_ne V main_v21 (by decide)).trans h_main_v21)
    (op_45_val V x0 x1 x2 h_main_v23)
theorem chain_44 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v14 : V (Proc.devRef .tc main_v14) = ReadP.val_main_v14 (F := F) x0 x1)
    (h_main_v21 : V (Proc.devRef .tc main_v21) = ReadP.val_main_v21 (F := F) x0 x1)
    (h_main_v22 : V (Proc.devRef .tc main_v22) = ReadP.val_main_v22 (F := F) x0 x1) :
    Post (after (tl_44 (F := F)) V) x0 x1 x2 :=
  chain_45 ((op_44 (F := F)).result V) x0 x1 x2
    ((op_44_ne V main_arg0 (by decide)).trans h_main_arg0)
    ((op_44_ne V main_arg1 (by decide)).trans h_main_arg1)
    ((op_44_ne V main_arg2 (by decide)).trans h_main_arg2)
    ((op_44_ne V main_v3 (by decide)).trans h_main_v3)
    ((op_44_ne V main_v14 (by decide)).trans h_main_v14)
    ((op_44_ne V main_v21 (by decide)).trans h_main_v21)
    (op_44_val V x0 x1 x2 h_main_v22)
theorem chain_43 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v14 : V (Proc.devRef .tc main_v14) = ReadP.val_main_v14 (F := F) x0 x1)
    (h_main_v21 : V (Proc.devRef .tc main_v21) = ReadP.val_main_v21 (F := F) x0 x1)
    (h_main_cst_5 : V (Proc.devRef .tc main_cst_5) = ReadP.val_main_cst_5 (F := F)) :
    Post (after (tl_43 (F := F)) V) x0 x1 x2 :=
  chain_44 ((op_43 (F := F)).result V) x0 x1 x2
    ((op_43_ne V main_arg0 (by decide)).trans h_main_arg0)
    ((op_43_ne V main_arg1 (by decide)).trans h_main_arg1)
    ((op_43_ne V main_arg2 (by decide)).trans h_main_arg2)
    ((op_43_ne V main_v3 (by decide)).trans h_main_v3)
    ((op_43_ne V main_v14 (by decide)).trans h_main_v14)
    ((op_43_ne V main_v21 (by decide)).trans h_main_v21)
    (op_43_val V x0 x1 x2 h_main_v21 h_main_cst_5)
theorem chain_42 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v14 : V (Proc.devRef .tc main_v14) = ReadP.val_main_v14 (F := F) x0 x1)
    (h_main_v21 : V (Proc.devRef .tc main_v21) = ReadP.val_main_v21 (F := F) x0 x1) :
    Post (after (tl_42 (F := F)) V) x0 x1 x2 :=
  chain_43 ((op_42 (F := F)).result V) x0 x1 x2
    ((op_42_ne V main_arg0 (by decide)).trans h_main_arg0)
    ((op_42_ne V main_arg1 (by decide)).trans h_main_arg1)
    ((op_42_ne V main_arg2 (by decide)).trans h_main_arg2)
    ((op_42_ne V main_v3 (by decide)).trans h_main_v3)
    ((op_42_ne V main_v14 (by decide)).trans h_main_v14)
    ((op_42_ne V main_v21 (by decide)).trans h_main_v21)
    (op_42_val V x0 x1 x2 )
theorem chain_41 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v3 : V (Proc.devRef .tc main_v3) = ReadP.val_main_v3 (F := F) x0 x1)
    (h_main_v14 : V (Proc.devRef .tc main_v14) = ReadP.val_main_v14 (F := F) x0 x1)
    (h_main_v20 : V (Proc.devRef .tc main_v20) = ReadP.val_main_v20 (F := F) x0 x1) :
    Post (after (tl_41 (F := F)) V) x0 x1 x2 :=
  chain_42 ((op_41 (F := F)).result V) x0 x1 x2
    ((op_41_ne V main_arg0 (by decide)).trans h_main_arg0)
    ((op_41_ne V main_arg1 (by decide)).trans h_main_arg1)
    ((op_41_ne V main_arg2 (by decide)).trans h_main_arg2)
    ((op_41_ne V main_v3 (by decide)).trans h_main_v3)
    ((op_41_ne V main_v14 (by decide)).trans h_main_v14)
    (op_41_val V x0 x1 x2 h_main_v20)
theorem chain_40 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v14 : V (Proc.devRef .tc main_v14) = ReadP.val_main_v14 (F := F) x0 x1)
    (h_main_v19 : V (Proc.devRef .tc main_v19) = ReadP.val_main_v19 (F := F) x0 x1) :
    Post (after (tl_40 (F := F)) V) x0 x1 x2 :=
  chain_41 ((op_40 (F := F)).result V) x0 x1 x2
    ((op_40_ne V main_arg0 (by decide)).trans h_main_arg0)
    ((op_40_ne V main_arg1 (by decide)).trans h_main_arg1)
    ((op_40_ne V main_arg2 (by decide)).trans h_main_arg2)
    ((op_40_ne V main_v3 (by decide)).trans h_main_v3)
    ((op_40_ne V main_v14 (by decide)).trans h_main_v14)
    (op_40_val V x0 x1 x2 h_main_v2 h_main_v19)
theorem chain_39 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v14 : V (Proc.devRef .tc main_v14) = ReadP.val_main_v14 (F := F) x0 x1)
    (h_main_v18 : V (Proc.devRef .tc main_v18) = ReadP.val_main_v18 (F := F) x0 x1) :
    Post (after (tl_39 (F := F)) V) x0 x1 x2 :=
  chain_40 ((op_39 (F := F)).result V) x0 x1 x2
    ((op_39_ne V main_arg0 (by decide)).trans h_main_arg0)
    ((op_39_ne V main_arg1 (by decide)).trans h_main_arg1)
    ((op_39_ne V main_arg2 (by decide)).trans h_main_arg2)
    ((op_39_ne V main_v2 (by decide)).trans h_main_v2)
    ((op_39_ne V main_v3 (by decide)).trans h_main_v3)
    ((op_39_ne V main_v14 (by decide)).trans h_main_v14)
    (op_39_val V x0 x1 x2 h_main_v18)
theorem chain_38 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v14 : V (Proc.devRef .tc main_v14) = ReadP.val_main_v14 (F := F) x0 x1)
    (h_main_v17 : V (Proc.devRef .tc main_v17) = ReadP.val_main_v17 (F := F) x0 x1) :
    Post (after (tl_38 (F := F)) V) x0 x1 x2 :=
  chain_39 ((op_38 (F := F)).result V) x0 x1 x2
    ((op_38_ne V main_arg0 (by decide)).trans h_main_arg0)
    ((op_38_ne V main_arg1 (by decide)).trans h_main_arg1)
    ((op_38_ne V main_arg2 (by decide)).trans h_main_arg2)
    ((op_38_ne V main_v2 (by decide)).trans h_main_v2)
    ((op_38_ne V main_v3 (by decide)).trans h_main_v3)
    ((op_38_ne V main_v14 (by decide)).trans h_main_v14)
    (op_38_val V x0 x1 x2 h_main_v17)
theorem chain_37 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v14 : V (Proc.devRef .tc main_v14) = ReadP.val_main_v14 (F := F) x0 x1)
    (h_main_v15 : V (Proc.devRef .tc main_v15) = ReadP.val_main_v15 (F := F) x0 x1)
    (h_main_v16 : V (Proc.devRef .tc main_v16) = ReadP.val_main_v16 (F := F)) :
    Post (after (tl_37 (F := F)) V) x0 x1 x2 :=
  chain_38 ((op_37 (F := F)).result V) x0 x1 x2
    ((op_37_ne V main_arg0 (by decide)).trans h_main_arg0)
    ((op_37_ne V main_arg1 (by decide)).trans h_main_arg1)
    ((op_37_ne V main_arg2 (by decide)).trans h_main_arg2)
    ((op_37_ne V main_v2 (by decide)).trans h_main_v2)
    ((op_37_ne V main_v3 (by decide)).trans h_main_v3)
    ((op_37_ne V main_v14 (by decide)).trans h_main_v14)
    (op_37_val V x0 x1 x2 h_main_v16 h_main_v15)
theorem chain_36 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v14 : V (Proc.devRef .tc main_v14) = ReadP.val_main_v14 (F := F) x0 x1)
    (h_main_v15 : V (Proc.devRef .tc main_v15) = ReadP.val_main_v15 (F := F) x0 x1)
    (h_main_cst_4 : V (Proc.devRef .tc main_cst_4) = ReadP.val_main_cst_4 (F := F)) :
    Post (after (tl_36 (F := F)) V) x0 x1 x2 :=
  chain_37 ((op_36 (F := F)).result V) x0 x1 x2
    ((op_36_ne V main_arg0 (by decide)).trans h_main_arg0)
    ((op_36_ne V main_arg1 (by decide)).trans h_main_arg1)
    ((op_36_ne V main_arg2 (by decide)).trans h_main_arg2)
    ((op_36_ne V main_v2 (by decide)).trans h_main_v2)
    ((op_36_ne V main_v3 (by decide)).trans h_main_v3)
    ((op_36_ne V main_v14 (by decide)).trans h_main_v14)
    ((op_36_ne V main_v15 (by decide)).trans h_main_v15)
    (op_36_val V x0 x1 x2 h_main_cst_4)
theorem chain_35 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v14 : V (Proc.devRef .tc main_v14) = ReadP.val_main_v14 (F := F) x0 x1)
    (h_main_v15 : V (Proc.devRef .tc main_v15) = ReadP.val_main_v15 (F := F) x0 x1) :
    Post (after (tl_35 (F := F)) V) x0 x1 x2 :=
  chain_36 ((op_35 (F := F)).result V) x0 x1 x2
    ((op_35_ne V main_arg0 (by decide)).trans h_main_arg0)
    ((op_35_ne V main_arg1 (by decide)).trans h_main_arg1)
    ((op_35_ne V main_arg2 (by decide)).trans h_main_arg2)
    ((op_35_ne V main_v2 (by decide)).trans h_main_v2)
    ((op_35_ne V main_v3 (by decide)).trans h_main_v3)
    ((op_35_ne V main_v14 (by decide)).trans h_main_v14)
    ((op_35_ne V main_v15 (by decide)).trans h_main_v15)
    (op_35_val V x0 x1 x2 )
theorem chain_34 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v14 : V (Proc.devRef .tc main_v14) = ReadP.val_main_v14 (F := F) x0 x1)
    (h_main_cst_3 : V (Proc.devRef .tc main_cst_3) = ReadP.val_main_cst_3 (F := F)) :
    Post (after (tl_34 (F := F)) V) x0 x1 x2 :=
  chain_35 ((op_34 (F := F)).result V) x0 x1 x2
    ((op_34_ne V main_arg0 (by decide)).trans h_main_arg0)
    ((op_34_ne V main_arg1 (by decide)).trans h_main_arg1)
    ((op_34_ne V main_arg2 (by decide)).trans h_main_arg2)
    ((op_34_ne V main_v2 (by decide)).trans h_main_v2)
    ((op_34_ne V main_v3 (by decide)).trans h_main_v3)
    ((op_34_ne V main_v14 (by decide)).trans h_main_v14)
    (op_34_val V x0 x1 x2 h_main_v2 h_main_cst_3)
theorem chain_33 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v14 : V (Proc.devRef .tc main_v14) = ReadP.val_main_v14 (F := F) x0 x1) :
    Post (after (tl_33 (F := F)) V) x0 x1 x2 :=
  chain_34 ((op_33 (F := F)).result V) x0 x1 x2
    ((op_33_ne V main_arg0 (by decide)).trans h_main_arg0)
    ((op_33_ne V main_arg1 (by decide)).trans h_main_arg1)
    ((op_33_ne V main_arg2 (by decide)).trans h_main_arg2)
    ((op_33_ne V main_v2 (by decide)).trans h_main_v2)
    ((op_33_ne V main_v3 (by decide)).trans h_main_v3)
    ((op_33_ne V main_v14 (by decide)).trans h_main_v14)
    (op_33_val V x0 x1 x2 )
theorem chain_32 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v10 : V (Proc.devRef .tc main_v10) = ReadP.val_main_v10 (F := F) x0 x1)
    (h_main_v13 : V (Proc.devRef .tc main_v13) = ReadP.val_main_v13 (F := F) x0 x1) :
    Post (after (tl_32 (F := F)) V) x0 x1 x2 :=
  chain_33 ((op_32 (F := F)).result V) x0 x1 x2
    ((op_32_ne V main_arg0 (by decide)).trans h_main_arg0)
    ((op_32_ne V main_arg1 (by decide)).trans h_main_arg1)
    ((op_32_ne V main_arg2 (by decide)).trans h_main_arg2)
    ((op_32_ne V main_v2 (by decide)).trans h_main_v2)
    ((op_32_ne V main_v3 (by decide)).trans h_main_v3)
    (op_32_val V x0 x1 x2 h_main_v10 h_main_v13)
theorem chain_31 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v10 : V (Proc.devRef .tc main_v10) = ReadP.val_main_v10 (F := F) x0 x1)
    (h_main_v12 : V (Proc.devRef .tc main_v12) = ReadP.val_main_v12 (F := F) x0 x1) :
    Post (after (tl_31 (F := F)) V) x0 x1 x2 :=
  chain_32 ((op_31 (F := F)).result V) x0 x1 x2
    ((op_31_ne V main_arg0 (by decide)).trans h_main_arg0)
    ((op_31_ne V main_arg1 (by decide)).trans h_main_arg1)
    ((op_31_ne V main_arg2 (by decide)).trans h_main_arg2)
    ((op_31_ne V main_v2 (by decide)).trans h_main_v2)
    ((op_31_ne V main_v3 (by decide)).trans h_main_v3)
    ((op_31_ne V main_v10 (by decide)).trans h_main_v10)
    (op_31_val V x0 x1 x2 h_main_v12)
theorem chain_30 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v10 : V (Proc.devRef .tc main_v10) = ReadP.val_main_v10 (F := F) x0 x1)
    (h_main_v11 : V (Proc.devRef .tc main_v11) = ReadP.val_main_v11 (F := F) x0 x1) :
    Post (after (tl_30 (F := F)) V) x0 x1 x2 :=
  chain_31 ((op_30 (F := F)).result V) x0 x1 x2
    ((op_30_ne V main_arg0 (by decide)).trans h_main_arg0)
    ((op_30_ne V main_arg1 (by decide)).trans h_main_arg1)
    ((op_30_ne V main_arg2 (by decide)).trans h_main_arg2)
    ((op_30_ne V main_v2 (by decide)).trans h_main_v2)
    ((op_30_ne V main_v3 (by decide)).trans h_main_v3)
    ((op_30_ne V main_v10 (by decide)).trans h_main_v10)
    (op_30_val V x0 x1 x2 h_main_v11)
theorem chain_29 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v10 : V (Proc.devRef .tc main_v10) = ReadP.val_main_v10 (F := F) x0 x1)
    (h_main_cst_2 : V (Proc.devRef .tc main_cst_2) = ReadP.val_main_cst_2 (F := F)) :
    Post (after (tl_29 (F := F)) V) x0 x1 x2 :=
  chain_30 ((op_29 (F := F)).result V) x0 x1 x2
    ((op_29_ne V main_arg0 (by decide)).trans h_main_arg0)
    ((op_29_ne V main_arg1 (by decide)).trans h_main_arg1)
    ((op_29_ne V main_arg2 (by decide)).trans h_main_arg2)
    ((op_29_ne V main_v2 (by decide)).trans h_main_v2)
    ((op_29_ne V main_v3 (by decide)).trans h_main_v3)
    ((op_29_ne V main_v10 (by decide)).trans h_main_v10)
    (op_29_val V x0 x1 x2 h_main_v10 h_main_cst_2)
theorem chain_28 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v10 : V (Proc.devRef .tc main_v10) = ReadP.val_main_v10 (F := F) x0 x1) :
    Post (after (tl_28 (F := F)) V) x0 x1 x2 :=
  chain_29 ((op_28 (F := F)).result V) x0 x1 x2
    ((op_28_ne V main_arg0 (by decide)).trans h_main_arg0)
    ((op_28_ne V main_arg1 (by decide)).trans h_main_arg1)
    ((op_28_ne V main_arg2 (by decide)).trans h_main_arg2)
    ((op_28_ne V main_v2 (by decide)).trans h_main_v2)
    ((op_28_ne V main_v3 (by decide)).trans h_main_v3)
    ((op_28_ne V main_v10 (by decide)).trans h_main_v10)
    (op_28_val V x0 x1 x2 )
theorem chain_27 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v9 : V (Proc.devRef .tc main_v9) = ReadP.val_main_v9 (F := F) x0 x1) :
    Post (after (tl_27 (F := F)) V) x0 x1 x2 :=
  chain_28 ((op_27 (F := F)).result V) x0 x1 x2
    ((op_27_ne V main_arg0 (by decide)).trans h_main_arg0)
    ((op_27_ne V main_arg1 (by decide)).trans h_main_arg1)
    ((op_27_ne V main_arg2 (by decide)).trans h_main_arg2)
    ((op_27_ne V main_v2 (by decide)).trans h_main_v2)
    ((op_27_ne V main_v3 (by decide)).trans h_main_v3)
    (op_27_val V x0 x1 x2 h_main_v9)
theorem chain_26 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v8 : V (Proc.devRef .tc main_v8) = ReadP.val_main_v8 (F := F) x0 x1) :
    Post (after (tl_26 (F := F)) V) x0 x1 x2 :=
  chain_27 ((op_26 (F := F)).result V) x0 x1 x2
    ((op_26_ne V main_arg0 (by decide)).trans h_main_arg0)
    ((op_26_ne V main_arg1 (by decide)).trans h_main_arg1)
    ((op_26_ne V main_arg2 (by decide)).trans h_main_arg2)
    ((op_26_ne V main_v2 (by decide)).trans h_main_v2)
    ((op_26_ne V main_v3 (by decide)).trans h_main_v3)
    (op_26_val V x0 x1 x2 h_main_v2 h_main_v8)
theorem chain_25 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v7 : V (Proc.devRef .tc main_v7) = ReadP.val_main_v7 (F := F) x0 x1) :
    Post (after (tl_25 (F := F)) V) x0 x1 x2 :=
  chain_26 ((op_25 (F := F)).result V) x0 x1 x2
    ((op_25_ne V main_arg0 (by decide)).trans h_main_arg0)
    ((op_25_ne V main_arg1 (by decide)).trans h_main_arg1)
    ((op_25_ne V main_arg2 (by decide)).trans h_main_arg2)
    ((op_25_ne V main_v2 (by decide)).trans h_main_v2)
    ((op_25_ne V main_v3 (by decide)).trans h_main_v3)
    (op_25_val V x0 x1 x2 h_main_v7)
theorem chain_24 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v6 : V (Proc.devRef .tc main_v6) = ReadP.val_main_v6 (F := F) x0 x1) :
    Post (after (tl_24 (F := F)) V) x0 x1 x2 :=
  chain_25 ((op_24 (F := F)).result V) x0 x1 x2
    ((op_24_ne V main_arg0 (by decide)).trans h_main_arg0)
    ((op_24_ne V main_arg1 (by decide)).trans h_main_arg1)
    ((op_24_ne V main_arg2 (by decide)).trans h_main_arg2)
    ((op_24_ne V main_v2 (by decide)).trans h_main_v2)
    ((op_24_ne V main_v3 (by decide)).trans h_main_v3)
    (op_24_val V x0 x1 x2 h_main_v6)
theorem chain_23 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v4 : V (Proc.devRef .tc main_v4) = ReadP.val_main_v4 (F := F) x0 x1)
    (h_main_v5 : V (Proc.devRef .tc main_v5) = ReadP.val_main_v5 (F := F)) :
    Post (after (tl_23 (F := F)) V) x0 x1 x2 :=
  chain_24 ((op_23 (F := F)).result V) x0 x1 x2
    ((op_23_ne V main_arg0 (by decide)).trans h_main_arg0)
    ((op_23_ne V main_arg1 (by decide)).trans h_main_arg1)
    ((op_23_ne V main_arg2 (by decide)).trans h_main_arg2)
    ((op_23_ne V main_v2 (by decide)).trans h_main_v2)
    ((op_23_ne V main_v3 (by decide)).trans h_main_v3)
    (op_23_val V x0 x1 x2 h_main_v5 h_main_v4)
theorem chain_22 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v4 : V (Proc.devRef .tc main_v4) = ReadP.val_main_v4 (F := F) x0 x1)
    (h_main_cst_1 : V (Proc.devRef .tc main_cst_1) = ReadP.val_main_cst_1 (F := F)) :
    Post (after (tl_22 (F := F)) V) x0 x1 x2 :=
  chain_23 ((op_22 (F := F)).result V) x0 x1 x2
    ((op_22_ne V main_arg0 (by decide)).trans h_main_arg0)
    ((op_22_ne V main_arg1 (by decide)).trans h_main_arg1)
    ((op_22_ne V main_arg2 (by decide)).trans h_main_arg2)
    ((op_22_ne V main_v2 (by decide)).trans h_main_v2)
    ((op_22_ne V main_v3 (by decide)).trans h_main_v3)
    ((op_22_ne V main_v4 (by decide)).trans h_main_v4)
    (op_22_val V x0 x1 x2 h_main_cst_1)
theorem chain_21 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_v4 : V (Proc.devRef .tc main_v4) = ReadP.val_main_v4 (F := F) x0 x1) :
    Post (after (tl_21 (F := F)) V) x0 x1 x2 :=
  chain_22 ((op_21 (F := F)).result V) x0 x1 x2
    ((op_21_ne V main_arg0 (by decide)).trans h_main_arg0)
    ((op_21_ne V main_arg1 (by decide)).trans h_main_arg1)
    ((op_21_ne V main_arg2 (by decide)).trans h_main_arg2)
    ((op_21_ne V main_v2 (by decide)).trans h_main_v2)
    ((op_21_ne V main_v3 (by decide)).trans h_main_v3)
    ((op_21_ne V main_v4 (by decide)).trans h_main_v4)
    (op_21_val V x0 x1 x2 )
theorem chain_20 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1)
    (h_main_cst_0 : V (Proc.devRef .tc main_cst_0) = ReadP.val_main_cst_0 (F := F)) :
    Post (after (tl_20 (F := F)) V) x0 x1 x2 :=
  chain_21 ((op_20 (F := F)).result V) x0 x1 x2
    ((op_20_ne V main_arg0 (by decide)).trans h_main_arg0)
    ((op_20_ne V main_arg1 (by decide)).trans h_main_arg1)
    ((op_20_ne V main_arg2 (by decide)).trans h_main_arg2)
    ((op_20_ne V main_v2 (by decide)).trans h_main_v2)
    ((op_20_ne V main_v3 (by decide)).trans h_main_v3)
    (op_20_val V x0 x1 x2 h_main_v2 h_main_cst_0)
theorem chain_19 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_v3 : V (Proc.devRef .tc main_v3) = ReadP.val_main_v3 (F := F) x0 x1) :
    Post (after (tl_19 (F := F)) V) x0 x1 x2 :=
  chain_20 ((op_19 (F := F)).result V) x0 x1 x2
    ((op_19_ne V main_arg0 (by decide)).trans h_main_arg0)
    ((op_19_ne V main_arg1 (by decide)).trans h_main_arg1)
    ((op_19_ne V main_arg2 (by decide)).trans h_main_arg2)
    ((op_19_ne V main_v2 (by decide)).trans h_main_v2)
    ((op_19_ne V main_v3 (by decide)).trans h_main_v3)
    (op_19_val V x0 x1 x2 )
theorem chain_18 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v5 : V (Proc.devRef .tc main_call0_v5) = ReadP.val_main_call0_v5 (F := F) x0 x1)
    (h_main_call0_v10 : V (Proc.devRef .tc main_call0_v10) = ReadP.val_main_call0_v10 (F := F) x0 x1) :
    Post (after (tl_18 (F := F)) V) x0 x1 x2 :=
  chain_19 ((op_18 (F := F)).result V) x0 x1 x2
    ((op_18_ne V main_arg0 (by decide)).trans h_main_arg0)
    ((op_18_ne V main_arg1 (by decide)).trans h_main_arg1)
    ((op_18_ne V main_arg2 (by decide)).trans h_main_arg2)
    ((op_18_ne V main_v2 (by decide)).trans h_main_v2)
    (op_18_val V x0 x1 x2 h_main_call0_v5 h_main_call0_v10)
theorem chain_17 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v5 : V (Proc.devRef .tc main_call0_v5) = ReadP.val_main_call0_v5 (F := F) x0 x1)
    (h_main_call0_v9 : V (Proc.devRef .tc main_call0_v9) = ReadP.val_main_call0_v9 (F := F) x0 x1) :
    Post (after (tl_17 (F := F)) V) x0 x1 x2 :=
  chain_18 ((op_17 (F := F)).result V) x0 x1 x2
    ((op_17_ne V main_arg0 (by decide)).trans h_main_arg0)
    ((op_17_ne V main_arg1 (by decide)).trans h_main_arg1)
    ((op_17_ne V main_arg2 (by decide)).trans h_main_arg2)
    ((op_17_ne V main_v2 (by decide)).trans h_main_v2)
    ((op_17_ne V main_call0_v5 (by decide)).trans h_main_call0_v5)
    (op_17_val V x0 x1 x2 h_main_call0_v9)
theorem chain_16 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v5 : V (Proc.devRef .tc main_call0_v5) = ReadP.val_main_call0_v5 (F := F) x0 x1)
    (h_main_call0_v8 : V (Proc.devRef .tc main_call0_v8) = ReadP.val_main_call0_v8 (F := F) x0 x1) :
    Post (after (tl_16 (F := F)) V) x0 x1 x2 :=
  chain_17 ((op_16 (F := F)).result V) x0 x1 x2
    ((op_16_ne V main_arg0 (by decide)).trans h_main_arg0)
    ((op_16_ne V main_arg1 (by decide)).trans h_main_arg1)
    ((op_16_ne V main_arg2 (by decide)).trans h_main_arg2)
    ((op_16_ne V main_v2 (by decide)).trans h_main_v2)
    ((op_16_ne V main_call0_v5 (by decide)).trans h_main_call0_v5)
    (op_16_val V x0 x1 x2 h_main_call0_v8)
theorem chain_15 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v5 : V (Proc.devRef .tc main_call0_v5) = ReadP.val_main_call0_v5 (F := F) x0 x1)
    (h_main_call0_v7 : V (Proc.devRef .tc main_call0_v7) = ReadP.val_main_call0_v7 (F := F) x0 x1) :
    Post (after (tl_15 (F := F)) V) x0 x1 x2 :=
  chain_16 ((op_15 (F := F)).result V) x0 x1 x2
    ((op_15_ne V main_arg0 (by decide)).trans h_main_arg0)
    ((op_15_ne V main_arg1 (by decide)).trans h_main_arg1)
    ((op_15_ne V main_arg2 (by decide)).trans h_main_arg2)
    ((op_15_ne V main_v2 (by decide)).trans h_main_v2)
    ((op_15_ne V main_call0_v5 (by decide)).trans h_main_call0_v5)
    (op_15_val V x0 x1 x2 h_main_call0_v7)
theorem chain_14 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v5 : V (Proc.devRef .tc main_call0_v5) = ReadP.val_main_call0_v5 (F := F) x0 x1)
    (h_main_call0_v6 : V (Proc.devRef .tc main_call0_v6) = ReadP.val_main_call0_v6 (F := F) x0 x1)
    (h_main_call0_cst_1 : V (Proc.devRef .tc main_call0_cst_1) = ReadP.val_main_call0_cst_1 (F := F)) :
    Post (after (tl_14 (F := F)) V) x0 x1 x2 :=
  chain_15 ((op_14 (F := F)).result V) x0 x1 x2
    ((op_14_ne V main_arg0 (by decide)).trans h_main_arg0)
    ((op_14_ne V main_arg1 (by decide)).trans h_main_arg1)
    ((op_14_ne V main_arg2 (by decide)).trans h_main_arg2)
    ((op_14_ne V main_v2 (by decide)).trans h_main_v2)
    ((op_14_ne V main_call0_v5 (by decide)).trans h_main_call0_v5)
    (op_14_val V x0 x1 x2 h_main_call0_v6 h_main_call0_cst_1)
theorem chain_13 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v5 : V (Proc.devRef .tc main_call0_v5) = ReadP.val_main_call0_v5 (F := F) x0 x1)
    (h_main_call0_v6 : V (Proc.devRef .tc main_call0_v6) = ReadP.val_main_call0_v6 (F := F) x0 x1) :
    Post (after (tl_13 (F := F)) V) x0 x1 x2 :=
  chain_14 ((op_13 (F := F)).result V) x0 x1 x2
    ((op_13_ne V main_arg0 (by decide)).trans h_main_arg0)
    ((op_13_ne V main_arg1 (by decide)).trans h_main_arg1)
    ((op_13_ne V main_arg2 (by decide)).trans h_main_arg2)
    ((op_13_ne V main_v2 (by decide)).trans h_main_v2)
    ((op_13_ne V main_call0_v5 (by decide)).trans h_main_call0_v5)
    ((op_13_ne V main_call0_v6 (by decide)).trans h_main_call0_v6)
    (op_13_val V x0 x1 x2 )
theorem chain_12 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v5 : V (Proc.devRef .tc main_call0_v5) = ReadP.val_main_call0_v5 (F := F) x0 x1) :
    Post (after (tl_12 (F := F)) V) x0 x1 x2 :=
  chain_13 ((op_12 (F := F)).result V) x0 x1 x2
    ((op_12_ne V main_arg0 (by decide)).trans h_main_arg0)
    ((op_12_ne V main_arg1 (by decide)).trans h_main_arg1)
    ((op_12_ne V main_arg2 (by decide)).trans h_main_arg2)
    ((op_12_ne V main_v2 (by decide)).trans h_main_v2)
    ((op_12_ne V main_call0_v5 (by decide)).trans h_main_call0_v5)
    (op_12_val V x0 x1 x2 h_main_call0_v5)
theorem chain_11 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v4 : V (Proc.devRef .tc main_call0_v4) = ReadP.val_main_call0_v4 (F := F) x0 x1) :
    Post (after (tl_11 (F := F)) V) x0 x1 x2 :=
  chain_12 ((op_11 (F := F)).result V) x0 x1 x2
    ((op_11_ne V main_arg0 (by decide)).trans h_main_arg0)
    ((op_11_ne V main_arg1 (by decide)).trans h_main_arg1)
    ((op_11_ne V main_arg2 (by decide)).trans h_main_arg2)
    ((op_11_ne V main_v2 (by decide)).trans h_main_v2)
    (op_11_val V x0 x1 x2 h_main_v2 h_main_call0_v4)
theorem chain_10 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v3 : V (Proc.devRef .tc main_call0_v3) = ReadP.val_main_call0_v3 (F := F) x0 x1) :
    Post (after (tl_10 (F := F)) V) x0 x1 x2 :=
  chain_11 ((op_10 (F := F)).result V) x0 x1 x2
    ((op_10_ne V main_arg0 (by decide)).trans h_main_arg0)
    ((op_10_ne V main_arg1 (by decide)).trans h_main_arg1)
    ((op_10_ne V main_arg2 (by decide)).trans h_main_arg2)
    ((op_10_ne V main_v2 (by decide)).trans h_main_v2)
    (op_10_val V x0 x1 x2 h_main_call0_v3)
theorem chain_9 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v2 : V (Proc.devRef .tc main_call0_v2) = ReadP.val_main_call0_v2 (F := F) x0 x1) :
    Post (after (tl_9 (F := F)) V) x0 x1 x2 :=
  chain_10 ((op_9 (F := F)).result V) x0 x1 x2
    ((op_9_ne V main_arg0 (by decide)).trans h_main_arg0)
    ((op_9_ne V main_arg1 (by decide)).trans h_main_arg1)
    ((op_9_ne V main_arg2 (by decide)).trans h_main_arg2)
    ((op_9_ne V main_v2 (by decide)).trans h_main_v2)
    (op_9_val V x0 x1 x2 h_main_call0_v2)
theorem chain_8 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v0 : V (Proc.devRef .tc main_call0_v0) = ReadP.val_main_call0_v0 (F := F) x0 x1)
    (h_main_call0_v1 : V (Proc.devRef .tc main_call0_v1) = ReadP.val_main_call0_v1 (F := F)) :
    Post (after (tl_8 (F := F)) V) x0 x1 x2 :=
  chain_9 ((op_8 (F := F)).result V) x0 x1 x2
    ((op_8_ne V main_arg0 (by decide)).trans h_main_arg0)
    ((op_8_ne V main_arg1 (by decide)).trans h_main_arg1)
    ((op_8_ne V main_arg2 (by decide)).trans h_main_arg2)
    ((op_8_ne V main_v2 (by decide)).trans h_main_v2)
    (op_8_val V x0 x1 x2 h_main_call0_v1 h_main_call0_v0)
theorem chain_7 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v0 : V (Proc.devRef .tc main_call0_v0) = ReadP.val_main_call0_v0 (F := F) x0 x1)
    (h_main_call0_cst_0 : V (Proc.devRef .tc main_call0_cst_0) = ReadP.val_main_call0_cst_0 (F := F)) :
    Post (after (tl_7 (F := F)) V) x0 x1 x2 :=
  chain_8 ((op_7 (F := F)).result V) x0 x1 x2
    ((op_7_ne V main_arg0 (by decide)).trans h_main_arg0)
    ((op_7_ne V main_arg1 (by decide)).trans h_main_arg1)
    ((op_7_ne V main_arg2 (by decide)).trans h_main_arg2)
    ((op_7_ne V main_v2 (by decide)).trans h_main_v2)
    ((op_7_ne V main_call0_v0 (by decide)).trans h_main_call0_v0)
    (op_7_val V x0 x1 x2 h_main_call0_cst_0)
theorem chain_6 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_v0 : V (Proc.devRef .tc main_call0_v0) = ReadP.val_main_call0_v0 (F := F) x0 x1) :
    Post (after (tl_6 (F := F)) V) x0 x1 x2 :=
  chain_7 ((op_6 (F := F)).result V) x0 x1 x2
    ((op_6_ne V main_arg0 (by decide)).trans h_main_arg0)
    ((op_6_ne V main_arg1 (by decide)).trans h_main_arg1)
    ((op_6_ne V main_arg2 (by decide)).trans h_main_arg2)
    ((op_6_ne V main_v2 (by decide)).trans h_main_v2)
    ((op_6_ne V main_call0_v0 (by decide)).trans h_main_call0_v0)
    (op_6_val V x0 x1 x2 )
theorem chain_5 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1)
    (h_main_call0_cst : V (Proc.devRef .tc main_call0_cst) = ReadP.val_main_call0_cst (F := F)) :
    Post (after (tl_5 (F := F)) V) x0 x1 x2 :=
  chain_6 ((op_5 (F := F)).result V) x0 x1 x2
    ((op_5_ne V main_arg0 (by decide)).trans h_main_arg0)
    ((op_5_ne V main_arg1 (by decide)).trans h_main_arg1)
    ((op_5_ne V main_arg2 (by decide)).trans h_main_arg2)
    ((op_5_ne V main_v2 (by decide)).trans h_main_v2)
    (op_5_val V x0 x1 x2 h_main_v2 h_main_call0_cst)
theorem chain_4 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v2 : V (Proc.devRef .tc main_v2) = ReadP.val_main_v2 (F := F) x0 x1) :
    Post (after (tl_4 (F := F)) V) x0 x1 x2 :=
  chain_5 ((op_4 (F := F)).result V) x0 x1 x2
    ((op_4_ne V main_arg0 (by decide)).trans h_main_arg0)
    ((op_4_ne V main_arg1 (by decide)).trans h_main_arg1)
    ((op_4_ne V main_arg2 (by decide)).trans h_main_arg2)
    ((op_4_ne V main_v2 (by decide)).trans h_main_v2)
    (op_4_val V x0 x1 x2 )
theorem chain_3 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v0 : V (Proc.devRef .tc main_v0) = ReadP.val_main_v0 (F := F) x0 x1)
    (h_main_v1 : V (Proc.devRef .tc main_v1) = ReadP.val_main_v1 (F := F)) :
    Post (after (tl_3 (F := F)) V) x0 x1 x2 :=
  chain_4 ((op_3 (F := F)).result V) x0 x1 x2
    ((op_3_ne V main_arg0 (by decide)).trans h_main_arg0)
    ((op_3_ne V main_arg1 (by decide)).trans h_main_arg1)
    ((op_3_ne V main_arg2 (by decide)).trans h_main_arg2)
    (op_3_val V x0 x1 x2 h_main_v0 h_main_v1)
theorem chain_2 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v0 : V (Proc.devRef .tc main_v0) = ReadP.val_main_v0 (F := F) x0 x1)
    (h_main_cst : V (Proc.devRef .tc main_cst) = ReadP.val_main_cst (F := F)) :
    Post (after (tl_2 (F := F)) V) x0 x1 x2 :=
  chain_3 ((op_2 (F := F)).result V) x0 x1 x2
    ((op_2_ne V main_arg0 (by decide)).trans h_main_arg0)
    ((op_2_ne V main_arg1 (by decide)).trans h_main_arg1)
    ((op_2_ne V main_arg2 (by decide)).trans h_main_arg2)
    ((op_2_ne V main_v0 (by decide)).trans h_main_v0)
    (op_2_val V x0 x1 x2 h_main_cst)
theorem chain_1 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2)
    (h_main_v0 : V (Proc.devRef .tc main_v0) = ReadP.val_main_v0 (F := F) x0 x1) :
    Post (after (tl_1 (F := F)) V) x0 x1 x2 :=
  chain_2 ((op_1 (F := F)).result V) x0 x1 x2
    ((op_1_ne V main_arg0 (by decide)).trans h_main_arg0)
    ((op_1_ne V main_arg1 (by decide)).trans h_main_arg1)
    ((op_1_ne V main_arg2 (by decide)).trans h_main_arg2)
    ((op_1_ne V main_v0 (by decide)).trans h_main_v0)
    (op_1_val V x0 x1 x2 )
theorem chain_0 (V : Valuation τ sig (Elt F)) (x0 x1 x2 : (⟨S4x4096x64, .f32⟩ : BufTy).Contents (Elt F))
    (h_main_arg0 : V (Proc.devRef .tc main_arg0) = x0)
    (h_main_arg1 : V (Proc.devRef .tc main_arg1) = x1)
    (h_main_arg2 : V (Proc.devRef .tc main_arg2) = x2) :
    Post (after (tl_0 (F := F)) V) x0 x1 x2 :=
  chain_1 ((op_0 (F := F)).result V) x0 x1 x2
    ((op_0_ne V main_arg0 (by decide)).trans h_main_arg0)
    ((op_0_ne V main_arg1 (by decide)).trans h_main_arg1)
    ((op_0_ne V main_arg2 (by decide)).trans h_main_arg2)
    (op_0_val V x0 x1 x2 h_main_arg0 h_main_arg1)

/-- On every device, for any float values, from any memory with zero counters: every weakly fair execution of
    @main terminates with the three results at the stage functions of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = ReadP.val_main_v45 (F := F) (m ((c.tc : Thread nD τ).loc main_arg0)) (m ((c.tc : Thread nD τ).loc main_arg1)) (m ((c.tc : Thread nD τ).loc main_arg2))
      ∧ r.2.mem ((c.tc : Thread nD τ).loc main_v44) = ReadP.val_main_v44 (F := F) (m ((c.tc : Thread nD τ).loc main_arg0)) (m ((c.tc : Thread nD τ).loc main_arg1))
      ∧ r.2.mem ((c.tc : Thread nD τ).loc main_v3) = ReadP.val_main_v3 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      have hc := chain_0 (F := F) (launchContents m c) (m ((c.tc : Thread nD τ).loc main_arg0)) (m ((c.tc : Thread nD τ).loc main_arg1)) (m ((c.tc : Thread nD τ).loc main_arg2)) rfl rfl rfl
      exact ⟨(h c main_v45).trans hc.1, (h c main_v44).trans hc.2.1, (h c main_v3).trans hc.2.2.1,
        (h c main_arg0).trans hc.2.2.2.1, (h c main_arg1).trans hc.2.2.2.2.1, (h c main_arg2).trans hc.2.2.2.2.2⟩)
    (run_seq scopedRefs_eq scopedSems_eq defs main (fun _ => ops) main_eq (fun _ => ops_sub) m ρ)

end Cert.RefRunH

end
-- ==== Proof.RefValA.lean ====
/-
  Reading the reference at an index, first part: the two maximum-reductions (along a row and along a column) as suprema,
  the scaled scores, and the row-wise log-softmax.
-/
import proofs.«159045_j72310069395864_2_alg».proof.Proof.RefReadP
import proofs.«159045_j72310069395864_2_alg».proof.Proof.RefSpec
import proofs.«159045_j72310069395864_2_alg».proof.Proof.MathBasics

noncomputable section

namespace Cert.RefValH

open Idealize.ShloMosaic Idealize.ShloMosaic.ValueIdx Cert.ReferenceIdeal Cert.ReferenceIdeal.Gen

/-! ## A maximum-reduction from −∞ over one axis is the supremum over that axis -/

/-- Reducing the last axis of the square array drops to the pair of the first two coordinates. -/
theorem red_d2 : S4x4096x4096.Reduces [2] S4x4096 := by decide
/-- Reducing the middle axis drops to the pair of the first and last coordinates. -/
theorem red_d1 : S4x4096x4096.Reduces [1] S4x4096 := by decide

/-- Putting the coordinate `k` back on the last axis. -/
theorem lift_d2 (b : Fin 4) (i : Fin 4096) (k : Fin (S4x4096x4096.size 2)) :
    red_d2.lift (ix2 b i) k = ix3 b i (⟨k.val, k.isLt⟩ : Fin 4096) := by
  funext c; apply Fin.ext
  match c with
  | ⟨0, _⟩ => rfl
  | ⟨1, _⟩ => rfl
  | ⟨2, _⟩ => rfl

/-- Putting the coordinate `k` back on the middle axis. -/
theorem lift_d1 (b : Fin 4) (j : Fin 4096) (k : Fin (S4x4096x4096.size 1)) :
    red_d1.lift (ix2 b j) k = ix3 b (⟨k.val, k.isLt⟩ : Fin 4096) j := by
  funext c; apply Fin.ext
  match c with
  | ⟨0, _⟩ => rfl
  | ⟨1, _⟩ => rfl
  | ⟨2, _⟩ => rfl

/-- The maximum-reduction along a row, started at −∞, is the row's supremum. -/
theorem reduceMax_d2 (x : (⟨S4x4096x4096, .f32⟩ : BufTy).Contents (Elt Ideal))
    (init : (⟨S_, .f32⟩ : BufTy).Contents (Elt Ideal)) (hinit : init (Shape.Idx.first h_S_) = (⊥ : EReal))
    (b : Fin 4) (i : Fin 4096) :
    Host.reduce (FloatOps.maximumf (F := Ideal) (φ := .f32)) x init reducesTo_S4x4096x4096_S4x4096_d2 h_S_ (ix2 b i)
      = Finset.univ.sup fun j : Fin 4096 => x (ix3 b i j) := by
  rw [Host.reduce_eq_fold_single (FloatOps.maximumf (F := Ideal) (φ := .f32)) x init reducesTo_S4x4096x4096_S4x4096_d2 red_d2 h_S_, hinit]
  refine Eq.trans ?_ (MathH.fold_max_eq_sup fun j : Fin 4096 => x (ix3 b i j))
  have hf : (x ∘ red_d2.lift (ix2 b i)) = fun j : Fin 4096 => x (ix3 b i j) :=
    funext fun k => congrArg x (lift_d2 b i k)
  exact congrArg (fun f => Finset.fold max (⊥ : EReal) f (Finset.univ : Finset (Fin 4096))) hf

/-- The maximum-reduction along a column, started at −∞, is the column's supremum. -/
theorem reduceMax_d1 (x : (⟨S4x4096x4096, .f32⟩ : BufTy).Contents (Elt Ideal))
    (init : (⟨S_, .f32⟩ : BufTy).Contents (Elt Ideal)) (hinit : init (Shape.Idx.first h_S_) = (⊥ : EReal))
    (b : Fin 4) (j : Fin 4096) :
    Host.reduce (FloatOps.maximumf (F := Ideal) (φ := .f32)) x init reducesTo_S4x4096x4096_S4x4096_d1 h_S_ (ix2 b j)
      = Finset.univ.sup fun i : Fin 4096 => x (ix3 b i j) := by
  rw [Host.reduce_eq_fold_single (FloatOps.maximumf (F := Ideal) (φ := .f32)) x init reducesTo_S4x4096x4096_S4x4096_d1 red_d1 h_S_, hinit]
  refine Eq.trans ?_ (MathH.fold_max_eq_sup fun i : Fin 4096 => x (ix3 b i j))
  have hf : (x ∘ red_d1.lift (ix2 b j)) = fun i : Fin 4096 => x (ix3 b i j) :=
    funext fun k => congrArg x (lift_d1 b j k)
  exact congrArg (fun f => Finset.fold max (⊥ : EReal) f (Finset.univ : Finset (Fin 4096))) hf

/-! ## The index functions of the layout operations, at coordinates -/

theorem idx_call0_v4_ix (b : Fin 4) (i j : Fin 4096) : ReadP.idx_main_call0_v4 (ix3 b i j) = ix3 b i (0 : Fin 1) :=
  funext fun a => by
    match a with
    | ⟨0, _⟩ => rfl
    | ⟨1, _⟩ => rfl
    | ⟨2, _⟩ => rfl
theorem idx_call0_v10_ix (b : Fin 4) (i j : Fin 4096) : ReadP.idx_main_call0_v10 (ix3 b i j) = ix3 b i (0 : Fin 1) :=
  funext fun a => by
    match a with
    | ⟨0, _⟩ => rfl
    | ⟨1, _⟩ => rfl
    | ⟨2, _⟩ => rfl
theorem idx_v8_ix (b : Fin 4) (i j : Fin 4096) : ReadP.idx_main_v8 (ix3 b i j) = ix3 b i (0 : Fin 1) :=
  funext fun a => by
    match a with
    | ⟨0, _⟩ => rfl
    | ⟨1, _⟩ => rfl
    | ⟨2, _⟩ => rfl
theorem idx_v13_ix (b : Fin 4) (i j : Fin 4096) : ReadP.idx_main_v13 (ix3 b i j) = ix3 b i (0 : Fin 1) :=
  funext fun a => by
    match a with
    | ⟨0, _⟩ => rfl
    | ⟨1, _⟩ => rfl
    | ⟨2, _⟩ => rfl
theorem idx_v33_ix (b : Fin 4) (i j : Fin 4096) : ReadP.idx_main_v33 (ix3 b i j) = ix3 b i (0 : Fin 1) :=
  funext fun a => by
    match a with
    | ⟨0, _⟩ => rfl
    | ⟨1, _⟩ => rfl
    | ⟨2, _⟩ => rfl
theorem idx_v38_ix (b : Fin 4) (i j : Fin 4096) : ReadP.idx_main_v38 (ix3 b i j) = ix3 b i (0 : Fin 1) :=
  funext fun a => by
    match a with
    | ⟨0, _⟩ => rfl
    | ⟨1, _⟩ => rfl
    | ⟨2, _⟩ => rfl
theorem idx_v42_ix (b : Fin 4) (i j : Fin 4096) : ReadP.idx_main_v42 (ix3 b i j) = ix3 b i (0 : Fin 1) :=
  funext fun a => by
    match a with
    | ⟨0, _⟩ => rfl
    | ⟨1, _⟩ => rfl
    | ⟨2, _⟩ => rfl
theorem idx_call0_v3_ix (b : Fin 4) (i : Fin 4096) (c : Fin 1) : ReadP.idx_main_call0_v3 (ix3 b i c) = ix2 b i :=
  funext fun a => by
    match a with
    | ⟨0, _⟩ => rfl
    | ⟨1, _⟩ => rfl
theorem idx_call0_v8_ix (b : Fin 4) (i : Fin 4096) (c : Fin 1) : ReadP.idx_main_call0_v8 (ix3 b i c) = ix2 b i :=
  funext fun a => by
    match a with
    | ⟨0, _⟩ => rfl
    | ⟨1, _⟩ => rfl
theorem idx_v7_ix (b : Fin 4) (i : Fin 4096) (c : Fin 1) : ReadP.idx_main_v7 (ix3 b i c) = ix2 b i :=
  funext fun a => by
    match a with
    | ⟨0, _⟩ => rfl
    | ⟨1, _⟩ => rfl
theorem idx_v12_ix (b : Fin 4) (i : Fin 4096) (c : Fin 1) : ReadP.idx_main_v12 (ix3 b i c) = ix2 b i :=
  funext fun a => by
    match a with
    | ⟨0, _⟩ => rfl
    | ⟨1, _⟩ => rfl
theorem idx_v32_ix (b : Fin 4) (i : Fin 4096) (c : Fin 1) : ReadP.idx_main_v32 (ix3 b i c) = ix2 b i :=
  funext fun a => by
    match a with
    | ⟨0, _⟩ => rfl
    | ⟨1, _⟩ => rfl
theorem idx_v37_ix (b : Fin 4) (i : Fin 4096) (c : Fin 1) : ReadP.idx_main_v37 (ix3 b i c) = ix2 b i :=
  funext fun a => by
    match a with
    | ⟨0, _⟩ => rfl
    | ⟨1, _⟩ => rfl
theorem idx_v41_ix (b : Fin 4) (i : Fin 4096) (c : Fin 1) : ReadP.idx_main_v41 (ix3 b i c) = ix2 b i :=
  funext fun a => by
    match a with
    | ⟨0, _⟩ => rfl
    | ⟨1, _⟩ => rfl
theorem idx_v19_ix (b : Fin 4) (i j : Fin 4096) : ReadP.idx_main_v19 (ix3 b i j) = ix3 b (0 : Fin 1) j :=
  funext fun a => by
    match a with
    | ⟨0, _⟩ => rfl
    | ⟨1, _⟩ => rfl
    | ⟨2, _⟩ => rfl
theorem idx_v24_ix (b : Fin 4) (i j : Fin 4096) : ReadP.idx_main_v24 (ix3 b i j) = ix3 b (0 : Fin 1) j :=
  funext fun a => by
    match a with
    | ⟨0, _⟩ => rfl
    | ⟨1, _⟩ => rfl
    | ⟨2, _⟩ => rfl
theorem idx_v18_ix (b : Fin 4) (c : Fin 1) (j : Fin 4096) : ReadP.idx_main_v18 (ix3 b c j) = ix2 b j :=
  funext fun a => by
    match a with
    | ⟨0, _⟩ => rfl
    | ⟨1, _⟩ => rfl
theorem idx_v23_ix (b : Fin 4) (c : Fin 1) (j : Fin 4096) : ReadP.idx_main_v23 (ix3 b c j) = ix2 b j :=
  funext fun a => by
    match a with
    | ⟨0, _⟩ => rfl
    | ⟨1, _⟩ => rfl
theorem idx_call0_v7_ix (b : Fin 4) (i k : Fin 4096) : ReadP.idx_main_call0_v7 (ix2 b i) k = ix3 b i k :=
  funext fun a => by
    match a with
    | ⟨0, _⟩ => rfl
    | ⟨1, _⟩ => rfl
    | ⟨2, _⟩ => rfl
theorem idx_v11_ix (b : Fin 4) (i k : Fin 4096) : ReadP.idx_main_v11 (ix2 b i) k = ix3 b i k :=
  funext fun a => by
    match a with
    | ⟨0, _⟩ => rfl
    | ⟨1, _⟩ => rfl
    | ⟨2, _⟩ => rfl
theorem idx_v36_ix (b : Fin 4) (i k : Fin 4096) : ReadP.idx_main_v36 (ix2 b i) k = ix3 b i k :=
  funext fun a => by
    match a with
    | ⟨0, _⟩ => rfl
    | ⟨1, _⟩ => rfl
    | ⟨2, _⟩ => rfl
theorem idx_v22_ix (b : Fin 4) (j k : Fin 4096) : ReadP.idx_main_v22 (ix2 b j) k = ix3 b k j :=
  funext fun a => by
    match a with
    | ⟨0, _⟩ => rfl
    | ⟨1, _⟩ => rfl
    | ⟨2, _⟩ => rfl
theorem lidx_v0_ix (b : Fin 4) (i j : Fin 4096) (d : Fin 64) : ReadP.lidx_main_v0 (ix3 b i j) d = ix3 b i d :=
  funext fun a => by
    match a with
    | ⟨0, _⟩ => rfl
    | ⟨1, _⟩ => rfl
    | ⟨2, _⟩ => rfl
theorem ridx_v0_ix (b : Fin 4) (i j : Fin 4096) (d : Fin 64) : ReadP.ridx_main_v0 (ix3 b i j) d = ix3 b j d :=
  funext fun a => by
    match a with
    | ⟨0, _⟩ => rfl
    | ⟨1, _⟩ => rfl
    | ⟨2, _⟩ => rfl
theorem lidx_v45_ix (b : Fin 4) (i : Fin 4096) (d : Fin 64) (j : Fin 4096) : ReadP.lidx_main_v45 (ix3 b i d) j = ix3 b i j :=
  funext fun a => by
    match a with
    | ⟨0, _⟩ => rfl
    | ⟨1, _⟩ => rfl
    | ⟨2, _⟩ => rfl
theorem ridx_v45_ix (b : Fin 4) (i : Fin 4096) (d : Fin 64) (j : Fin 4096) : ReadP.ridx_main_v45 (ix3 b i d) j = ix3 b j d :=
  funext fun a => by
    match a with
    | ⟨0, _⟩ => rfl
    | ⟨1, _⟩ => rfl
    | ⟨2, _⟩ => rfl

/-! ## The scaled scores -/

/-- The reference's scores, as a function of coordinates. -/
abbrev sR (q k : (⟨S4x4096x64, .f32⟩ : BufTy).Contents (Elt Ideal)) : RefSpec.Sc :=
  RefSpec.scoR (Spec.cur3 q) (Spec.cur3 k)

/-- The quotient of the contraction by eight, at coordinates. -/
theorem v2_apply (q k : (⟨S4x4096x64, .f32⟩ : BufTy).Contents (Elt Ideal)) (b : Fin 4) (i j : Fin 4096) :
    ReadP.val_main_v2 (F := Ideal) q k (ix3 b i j) = RefSpec.scoR (Spec.cur3 q) (Spec.cur3 k) b i j := by
  rw [ReadP.val_main_v2_apply, ReadP.val_main_v0_apply, ReadP.val_main_v1_apply, ReadP.val_main_cst_apply]
  simp only [Ideal.hostDivf_def, Ideal.ofBits_def, lidx_v0_ix, ridx_v0_ix]
  rfl

/-! ## The row-wise log-softmax -/

/-- The row maximum inside the log-softmax. -/
theorem call0_v2_at (q k : (⟨S4x4096x64, .f32⟩ : BufTy).Contents (Elt Ideal)) (b : Fin 4) (i : Fin 4096) :
    ReadP.val_main_call0_v2 (F := Ideal) q k (ix2 b i) = RefSpec.rowMax (sR q k) b i := by
  rw [ReadP.val_main_call0_v2_apply, ReadP.val_main_call0_v1_apply, ReadP.val_main_call0_cst_0_apply]
  unfold ReadP.val_main_call0_v0
  rw [reduceMax_d2 _ _ (by rw [ReadP.val_main_call0_cst_apply]; exact MathH.ofBits_neg_inf)]
  simp only [Ideal.maximumf_def, Ideal.ofBits_def, MathH.ofBits_neg_inf, v2_apply]
  rfl

/-- The shifted scores inside the log-softmax. -/
theorem call0_v5_at (q k : (⟨S4x4096x64, .f32⟩ : BufTy).Contents (Elt Ideal)) (b : Fin 4) (i j : Fin 4096) :
    ReadP.val_main_call0_v5 (F := Ideal) q k (ix3 b i j) = sR q k b i j - RefSpec.rowMax (sR q k) b i := by
  rw [ReadP.val_main_call0_v5_apply, ReadP.val_main_call0_v4_apply, ReadP.val_main_call0_v3_apply,
    idx_call0_v4_ix, idx_call0_v3_ix, call0_v2_at, v2_apply]
  rfl

/-- The row sum of the shifted exponentials inside the log-softmax. -/
theorem call0_v7_at (q k : (⟨S4x4096x64, .f32⟩ : BufTy).Contents (Elt Ideal)) (b : Fin 4) (i : Fin 4096) :
    ReadP.val_main_call0_v7 (F := Ideal) q k (ix2 b i)
      = 0 + ∑ j' : Fin 4096, Ideal.exp (sR q k b i j' - RefSpec.rowMax (sR q k) b i) := by
  rw [ReadP.val_main_call0_v7_apply, ReadP.val_main_call0_cst_1_apply]
  simp only [Ideal.ofBits_def, MathH.ofBits_zero, idx_call0_v7_ix, ReadP.val_main_call0_v6_apply, call0_v5_at,
    Ideal.hostUnary_exp_def]

/-- The first result read at coordinates: the row-wise log-softmax of the scores. -/
theorem v3_at (q k : (⟨S4x4096x64, .f32⟩ : BufTy).Contents (Elt Ideal)) (b : Fin 4) (i j : Fin 4096) :
    ReadP.val_main_v3 (F := Ideal) q k (ix3 b i j) = RefSpec.logattnR (sR q k) b i j := by
  rw [ReadP.val_main_v3_apply, ReadP.val_main_call0_v10_apply, ReadP.val_main_call0_v9_apply,
    ReadP.val_main_call0_v8_apply, idx_call0_v10_ix, idx_call0_v8_ix, call0_v7_at, call0_v5_at]
  rfl

/-- The first result is the row-wise log-softmax of the scores. -/
theorem v3_eq (q k : (⟨S4x4096x64, .f32⟩ : BufTy).Contents (Elt Ideal)) :
    ReadP.val_main_v3 (F := Ideal) q k = Spec.unc3 (RefSpec.logattnR (RefSpec.scoR (Spec.cur3 q) (Spec.cur3 k))) := by
  funext idx
  obtain ⟨b, i, j, rfl⟩ : ∃ (b : Fin 4) (i j : Fin 4096), idx = ix3 b i j := ⟨idx 0, idx 1, idx 2, eq_ix3 idx⟩
  exact v3_at q k b i j

end Cert.RefValH

end
-- ==== Proof.RefValB.lean ====
/-
  Reading the reference at an index, second part: the row-wise and the column-wise softmax of the scores, and their
  product divided by the temperature.
-/
import proofs.«159045_j72310069395864_2_alg».proof.Proof.RefValA

noncomputable section

namespace Cert.RefValH

open Idealize.ShloMosaic Idealize.ShloMosaic.ValueIdx Cert.ReferenceIdeal Cert.ReferenceIdeal.Gen

/-! ## The row-wise softmax -/

/-- The row maximum. -/
theorem v6_at (q k : (⟨S4x4096x64, .f32⟩ : BufTy).Contents (Elt Ideal)) (b : Fin 4) (i : Fin 4096) :
    ReadP.val_main_v6 (F := Ideal) q k (ix2 b i) = RefSpec.rowMax (sR q k) b i := by
  rw [ReadP.val_main_v6_apply, ReadP.val_main_v5_apply, ReadP.val_main_cst_1_apply]
  unfold ReadP.val_main_v4
  rw [reduceMax_d2 _ _ (by rw [ReadP.val_main_cst_0_apply]; exact MathH.ofBits_neg_inf)]
  simp only [Ideal.maximumf_def, Ideal.ofBits_def, MathH.ofBits_neg_inf, v2_apply]
  rfl

/-- The scores shifted by their row maximum. -/
theorem v9_at (q k : (⟨S4x4096x64, .f32⟩ : BufTy).Contents (Elt Ideal)) (b : Fin 4) (i j : Fin 4096) :
    ReadP.val_main_v9 (F := Ideal) q k (ix3 b i j) = sR q k b i j - RefSpec.rowMax (sR q k) b i := by
  rw [ReadP.val_main_v9_apply, ReadP.val_main_v8_apply, ReadP.val_main_v7_apply,
    idx_v8_ix, idx_v7_ix, v6_at, v2_apply]
  rfl

/-- Their exponentials. -/
theorem v10_at (q k : (⟨S4x4096x64, .f32⟩ : BufTy).Contents (Elt Ideal)) (b : Fin 4) (i j : Fin 4096) :
    ReadP.val_main_v10 (F := Ideal) q k (ix3 b i j) = Ideal.exp (sR q k b i j - RefSpec.rowMax (sR q k) b i) := by
  rw [ReadP.val_main_v10_apply, v9_at]
  rfl

/-- The row sum of the exponentials. -/
theorem v11_at (q k : (⟨S4x4096x64, .f32⟩ : BufTy).Contents (Elt Ideal)) (b : Fin 4) (i : Fin 4096) :
    ReadP.val_main_v11 (F := Ideal) q k (ix2 b i)
      = 0 + ∑ j' : Fin 4096, Ideal.exp (sR q k b i j' - RefSpec.rowMax (sR q k) b i) := by
  rw [ReadP.val_main_v11_apply, ReadP.val_main_cst_2_apply]
  simp only [Ideal.ofBits_def, MathH.ofBits_zero, idx_v11_ix, v10_at]

/-- The row-wise softmax. -/
theorem v14_at (q k : (⟨S4x4096x64, .f32⟩ : BufTy).Contents (Elt Ideal)) (b : Fin 4) (i j : Fin 4096) :
    ReadP.val_main_v14 (F := Ideal) q k (ix3 b i j) = RefSpec.smR (sR q k) b i j := by
  rw [ReadP.val_main_v14_apply, ReadP.val_main_v13_apply, ReadP.val_main_v12_apply,
    idx_v13_ix, idx_v12_ix, v11_at, v10_at]
  rfl

/-! ## The column-wise softmax -/

/-- The column maximum. -/
theorem v17_at (q k : (⟨S4x4096x64, .f32⟩ : BufTy).Contents (Elt Ideal)) (b : Fin 4) (j : Fin 4096) :
    ReadP.val_main_v17 (F := Ideal) q k (ix2 b j) = RefSpec.colMax (sR q k) b j := by
  rw [ReadP.val_main_v17_apply, ReadP.val_main_v16_apply, ReadP.val_main_cst_4_apply]
  unfold ReadP.val_main_v15
  rw [reduceMax_d1 _ _ (by rw [ReadP.val_main_cst_3_apply]; exact MathH.ofBits_neg_inf)]
  simp only [Ideal.maximumf_def, Ideal.ofBits_def, MathH.ofBits_neg_inf, v2_apply]
  rfl

/-- The scores shifted by their column maximum. -/
theorem v20_at (q k : (⟨S4x4096x64, .f32⟩ : BufTy).Contents (Elt Ideal)) (b : Fin 4) (i j : Fin 4096) :
    ReadP.val_main_v20 (F := Ideal) q k (ix3 b i j) = sR q k b i j - RefSpec.colMax (sR q k) b j := by
  rw [ReadP.val_main_v20_apply, ReadP.val_main_v19_apply, ReadP.val_main_v18_apply,
    idx_v19_ix, idx_v18_ix, v17_at, v2_apply]
  rfl

/-- Their exponentials. -/
theorem v21_at (q k : (⟨S4x4096x64, .f32⟩ : BufTy).Contents (Elt Ideal)) (b : Fin 4) (i j : Fin 4096) :
    ReadP.val_main_v21 (F := Ideal) q k (ix3 b i j) = Ideal.exp (sR q k b i j - RefSpec.colMax (sR q k) b j) := by
  rw [ReadP.val_main_v21_apply, v20_at]
  rfl

/-- The column sum of the exponentials. -/
theorem v22_at (q k : (⟨S4x4096x64, .f32⟩ : BufTy).Contents (Elt Ideal)) (b : Fin 4) (j : Fin 4096) :
    ReadP.val_main_v22 (F := Ideal) q k (ix2 b j)
      = 0 + ∑ i' : Fin 4096, Ideal.exp (sR q k b i' j - RefSpec.colMax (sR q k) b j) := by
  rw [ReadP.val_main_v22_apply, ReadP.val_main_cst_5_apply]
  simp only [Ideal.ofBits_def, MathH.ofBits_zero, idx_v22_ix, v21_at]

/-- The column-wise softmax. -/
theorem v25_at (q k : (⟨S4x4096x64, .f32⟩ : BufTy).Contents (Elt Ideal)) (b : Fin 4) (i j : Fin 4096) :
    ReadP.val_main_v25 (F := Ideal) q k (ix3 b i j) = RefSpec.smC (sR q k) b i j := by
  rw [ReadP.val_main_v25_apply, ReadP.val_main_v24_apply, ReadP.val_main_v23_apply,
    idx_v24_ix, idx_v23_ix, v22_at, v21_at]
  rfl

/-! ## Their product, divided by the temperature -/

/-- The sharpened product of the two softmaxes. -/
theorem v28_at (q k : (⟨S4x4096x64, .f32⟩ : BufTy).Contents (Elt Ideal)) (b : Fin 4) (i j : Fin 4096) :
    ReadP.val_main_v28 (F := Ideal) q k (ix3 b i j) = RefSpec.sharp RefSpec.Tw (sR q k) b i j := by
  rw [ReadP.val_main_v28_apply, ReadP.val_main_v27_apply, ReadP.val_main_cst_6_apply, ReadP.val_main_v26_apply,
    v14_at, v25_at]
  rfl

end Cert.RefValH

end
-- ==== Proof.RefValC.lean ====
/-
  Reading the reference at an index, third part: the row-wise softmax of the sharpened product, the mask of the places
  where it attains its row maximum, and the mask applied to the values.
-/
import proofs.«159045_j72310069395864_2_alg».proof.Proof.RefValB

noncomputable section

namespace Cert.RefValH

open Idealize.ShloMosaic Idealize.ShloMosaic.ValueIdx Cert.ReferenceIdeal Cert.ReferenceIdeal.Gen

/-- The sharpened product, as a function of coordinates. -/
abbrev shR (q k : (⟨S4x4096x64, .f32⟩ : BufTy).Contents (Elt Ideal)) : RefSpec.Sc := RefSpec.sharp RefSpec.Tw (sR q k)

/-! ## The row-wise softmax of the sharpened product -/

/-- Its row maximum. -/
theorem v31_at (q k : (⟨S4x4096x64, .f32⟩ : BufTy).Contents (Elt Ideal)) (b : Fin 4) (i : Fin 4096) :
    ReadP.val_main_v31 (F := Ideal) q k (ix2 b i) = RefSpec.rowMax (shR q k) b i := by
  rw [ReadP.val_main_v31_apply, ReadP.val_main_v30_apply, ReadP.val_main_cst_8_apply]
  unfold ReadP.val_main_v29
  rw [reduceMax_d2 _ _ (by rw [ReadP.val_main_cst_7_apply]; exact MathH.ofBits_neg_inf)]
  simp only [Ideal.maximumf_def, Ideal.ofBits_def, MathH.ofBits_neg_inf, v28_at]
  rfl

/-- The sharpened product shifted by its row maximum. -/
theorem v34_at (q k : (⟨S4x4096x64, .f32⟩ : BufTy).Contents (Elt Ideal)) (b : Fin 4) (i j : Fin 4096) :
    ReadP.val_main_v34 (F := Ideal) q k (ix3 b i j) = shR q k b i j - RefSpec.rowMax (shR q k) b i := by
  rw [ReadP.val_main_v34_apply, ReadP.val_main_v33_apply, ReadP.val_main_v32_apply,
    idx_v33_ix, idx_v32_ix, v31_at, v28_at]
  rfl

/-- Its exponentials. -/
theorem v35_at (q k : (⟨S4x4096x64, .f32⟩ : BufTy).Contents (Elt Ideal)) (b : Fin 4) (i j : Fin 4096) :
    ReadP.val_main_v35 (F := Ideal) q k (ix3 b i j) = Ideal.exp (shR q k b i j - RefSpec.rowMax (shR q k) b i) := by
  rw [ReadP.val_main_v35_apply, v34_at]
  rfl

/-- The row sum of the exponentials. -/
theorem v36_at (q k : (⟨S4x4096x64, .f32⟩ : BufTy).Contents (Elt Ideal)) (b : Fin 4) (i : Fin 4096) :
    ReadP.val_main_v36 (F := Ideal) q k (ix2 b i)
      = 0 + ∑ j' : Fin 4096, Ideal.exp (shR q k b i j' - RefSpec.rowMax (shR q k) b i) := by
  rw [ReadP.val_main_v36_apply, ReadP.val_main_cst_9_apply]
  simp only [Ideal.ofBits_def, MathH.ofBits_zero, idx_v36_ix, v35_at]

/-- The sharpened row-wise softmax. -/
theorem v39_at (q k : (⟨S4x4096x64, .f32⟩ : BufTy).Contents (Elt Ideal)) (b : Fin 4) (i j : Fin 4096) :
    ReadP.val_main_v39 (F := Ideal) q k (ix3 b i j) = RefSpec.aR RefSpec.Tw (sR q k) b i j := by
  rw [ReadP.val_main_v39_apply, ReadP.val_main_v38_apply, ReadP.val_main_v37_apply,
    idx_v38_ix, idx_v37_ix, v36_at, v35_at]
  rfl

/-! ## The mask of the row maxima -/

/-- The row maximum of the sharpened softmax: a plain supremum. -/
theorem v40_at (q k : (⟨S4x4096x64, .f32⟩ : BufTy).Contents (Elt Ideal)) (b : Fin 4) (i : Fin 4096) :
    ReadP.val_main_v40 (F := Ideal) q k (ix2 b i)
      = Finset.univ.sup fun j' : Fin 4096 => RefSpec.aR RefSpec.Tw (sR q k) b i j' := by
  unfold ReadP.val_main_v40
  rw [reduceMax_d2 _ _ (by rw [ReadP.val_main_cst_10_apply]; exact MathH.ofBits_neg_inf)]
  simp only [v39_at]

/-- An equality test converted to a number is 1 where the equality holds and 0 elsewhere. -/
theorem uitofp_cmp_oeq (x y : EReal) :
    FloatOps.uitofp (F := Ideal) .f32 (FloatOps.cmpf (F := Ideal) (φ := .f32) .oeq x y) = if x = y then (1 : EReal) else 0 := by
  show (((Ideal.cmp .oeq x y).toNat : ℝ) : EReal) = _
  unfold Ideal.cmp
  by_cases h : x = y
  · simp [h]
  · simp [h]

/-- The second result read at coordinates: the mask of the row maxima of the sharpened softmax. -/
theorem v44_at (q k : (⟨S4x4096x64, .f32⟩ : BufTy).Contents (Elt Ideal)) (b : Fin 4) (i j : Fin 4096) :
    ReadP.val_main_v44 (F := Ideal) q k (ix3 b i j) = RefSpec.maskR RefSpec.Tw (sR q k) b i j := by
  rw [ReadP.val_main_v44_apply, ReadP.val_main_v43_apply, ReadP.val_main_v42_apply, ReadP.val_main_v41_apply,
    idx_v42_ix, idx_v41_ix, v40_at, v39_at]
  exact uitofp_cmp_oeq _ _

/-- The second result is the mask of the row maxima of the sharpened softmax. -/
theorem v44_eq (q k : (⟨S4x4096x64, .f32⟩ : BufTy).Contents (Elt Ideal)) :
    ReadP.val_main_v44 (F := Ideal) q k
      = Spec.unc3 (RefSpec.maskR RefSpec.Tw (RefSpec.scoR (Spec.cur3 q) (Spec.cur3 k))) := by
  funext idx
  obtain ⟨b, i, j, rfl⟩ : ∃ (b : Fin 4) (i j : Fin 4096), idx = ix3 b i j := ⟨idx 0, idx 1, idx 2, eq_ix3 idx⟩
  exact v44_at q k b i j

/-! ## The mask applied to the values -/

/-- The third result read at coordinates. -/
theorem v45_at (q k v : (⟨S4x4096x64, .f32⟩ : BufTy).Contents (Elt Ideal)) (b : Fin 4) (i : Fin 4096) (d : Fin 64) :
    ReadP.val_main_v45 (F := Ideal) q k v (ix3 b i d) = RefSpec.outR RefSpec.Tw (sR q k) (Spec.cur3 v) b i d := by
  rw [ReadP.val_main_v45_apply]
  simp only [lidx_v45_ix, ridx_v45_ix, v44_at]
  rfl

/-- The third result is the mask applied to the values. -/
theorem v45_eq (q k v : (⟨S4x4096x64, .f32⟩ : BufTy).Contents (Elt Ideal)) :
    ReadP.val_main_v45 (F := Ideal) q k v
      = Spec.unc3 (RefSpec.outR RefSpec.Tw (RefSpec.scoR (Spec.cur3 q) (Spec.cur3 k)) (Spec.cur3 v)) := by
  funext idx
  obtain ⟨b, i, d, rfl⟩ : ∃ (b : Fin 4) (i : Fin 4096) (d : Fin 64), idx = ix3 b i d := ⟨idx 0, idx 1, idx 2, eq_ix3 idx⟩
  exact v45_at q k v b i d

end Cert.RefValH

end
-- ==== Proof.RefValD.lean ====
/-
  The reference's three results are the specification's: the reading of the reference at an index, joined with the
  arithmetic that identifies the reference's softmax chain with the specification's closed forms.
-/
import proofs.«159045_j72310069395864_2_alg».proof.Proof.RefValC
import proofs.«159045_j72310069395864_2_alg».proof.Proof.MathMask

noncomputable section

namespace Cert.RefValH

open Idealize.ShloMosaic Idealize.ShloMosaic.ValueIdx Cert.ReferenceIdeal Cert.ReferenceIdeal.Gen

/-- Real arguments, read at coordinates. -/
theorem cur3_real {x : Spec.Sqkv.Idx → EReal} (hx : Spec.Finite x) : ∀ b i d, ∃ r : ℝ, Spec.cur3 x b i d = (r : EReal) :=
  fun b i d => hx (ix3 b i d)

/-- The first result is the specification's log-softmax. -/
theorem ref_logattn (q k : (⟨S4x4096x64, .f32⟩ : BufTy).Contents (Elt Ideal)) :
    ReadP.val_main_v3 (F := Ideal) q k = Spec.Glogattn q k := by
  rw [v3_eq, MathH.scoR_eq, MathH.logattnR_eq]
  rfl

/-- For real queries and keys the second result is the specification's mask. -/
theorem ref_mask (q k : (⟨S4x4096x64, .f32⟩ : BufTy).Contents (Elt Ideal)) (hq : Spec.Finite q) (hk : Spec.Finite k) :
    ReadP.val_main_v44 (F := Ideal) q k = Spec.Gmask q k := by
  rw [v44_eq, MathH.scoR_eq,
    MathH.maskR_eq _ (MathH.sco_real _ _ (cur3_real hq) (cur3_real hk)) _ MathH.ofBits_temp]
  rfl

/-- For real queries and keys the third result is the specification's masked values. -/
theorem ref_out (q k v : (⟨S4x4096x64, .f32⟩ : BufTy).Contents (Elt Ideal)) (hq : Spec.Finite q) (hk : Spec.Finite k) :
    ReadP.val_main_v45 (F := Ideal) q k v = Spec.Gout q k v := by
  rw [v45_eq, MathH.scoR_eq,
    MathH.outR_eq _ (MathH.sco_real _ _ (cur3_real hq) (cur3_real hk)) _ MathH.ofBits_temp]
  rfl

end Cert.RefValH

end
-- ==== Proof.FinitePre.lean ====
/-
  The precondition "every input is finite", decoded: each argument array holds real numbers.
  The printed predicate is the conjunction of three `all (|x| < +∞)`; an extended real whose absolute value lies below
  +∞ is neither −∞ nor +∞, so it is a real number.
-/
import proofs.«159045_j72310069395864_2_alg».proof.Pre_finite_inputs
import proofs.«159045_j72310069395864_2_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.FinH

open Idealize.ShloMosaic Cert.Pre_finite_inputs

instance : Subsingleton S_.Idx := ⟨fun a b => funext fun d => d.elim0⟩

/-- An extended real whose absolute value is strictly below +∞ is a real number. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  have htop : Ideal.ofBits .f32 0x7F800000#32 = (⊤ : EReal) := by
    simp [Ideal.ofBits, Ideal.ieee]
  rw [htop] at h
  induction x using EReal.rec with
  | bot => exfalso; revert h; simp [Ideal.cmpf_def, Ideal.cmp, Ideal.absf_def]
  | coe r => exact ⟨r, rfl⟩
  | top => exfalso; revert h; simp [Ideal.cmpf_def, Ideal.cmp, Ideal.absf_def]

variable [Facts]

/-- The printed precondition at the ideal values gives the three arrays' finiteness. -/
theorem finite_of_fn (q k v : FVec Ideal S4x4096x64 .f32) (h : fn (F := Ideal) q k v = fun _ => 1#1) :
    Spec.Finite q ∧ Spec.Finite k ∧ Spec.Finite v := by
  have h0 := congrFun h ValueIdx.ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt (q i) (Host.reduce_andi_all _ _ _ _ _ h1 i)
  · exact real_of_abs_lt (k i) (Host.reduce_andi_all _ _ _ _ _ h2 i)
  · exact real_of_abs_lt (v i) (Host.reduce_andi_all _ _ _ _ _ h3 i)

end Cert.FinH

end
-- ==== Proof.lean ====
/-
  Sparse "mutual nearest" attention: the two-pass kernel against the reference, over the extended reals.

  From queries q, keys k and values v (four batches of 4096 positions with 64 features) both programs form the scaled
  scores  s b i j = (∑ d, q b i d · k b j d) · (1/8)  — the reference divides the product by 8, which on every extended
  real is the product with 1/8 — and return three arrays:

  * log_attn, the row-wise log-softmax  s b i j − max_j s b i j − log ∑_j exp (s b i j − max_j s b i j): the same
    expression in both programs, once a maximum taken over the whole row from −∞ is read as a supremum;
  * mask, 1 where a row attains its maximum and 0 elsewhere — in the reference the maximum of
    a = softmax_rows ((softmax_rows s · softmax_columns s) / T) with T > 0 the sharpening temperature, in the kernel the
    maximum of the score 2·s b i j − cmax b j − log csum b j, where cmax and csum are the column maximum and the column's
    sum of shifted exponentials. For real scores the product of the two softmaxes at (i, j) is
    C_i · exp (2·s b i j − cmax b j − log csum b j) with C_i > 0 depending on the row only, division by T > 0 and the
    row-wise softmax are strictly increasing along a row, so both masks mark the same places. The scores are real
    because the inputs are finite: this is where the precondition is used;
  * out = mask · v, a sum over the key positions of equal terms.

  The kernel computes cmax and log csum in a first launch that walks each batch's queries in 16 tiles of 256 rows, keeping
  a running maximum M and a running sum L with  M' = max M (tile maximum),  L' = exp (M − M')·L + ∑_tile exp (s − M');
  for real scores M ends at the column maximum and L at ∑_i exp (s b i j − cmax b j) (multiply the old sum through: this
  is the one distributive step, and it needs real numbers). A second launch walks the queries in 32 tiles of 128 rows
  and writes each tile's block of the three results; the blocks tile the arrays.

  Each program's frame (it terminates, faults nowhere, leaves its arguments unchanged) comes with its run: for the kernel
  the run of the two launches one after the other, at the word level and at the extended reals alike; for the reference
  the run of its host operations one at a time. The idealization rewrote no operation, so that conjunct is trivial.
-/
import proofs.«159045_j72310069395864_2_alg».proof.Defs
import proofs.«159045_j72310069395864_2_alg».proof.Proof.Gen.Kernel
import proofs.«159045_j72310069395864_2_alg».proof.Proof.Gen.KernelIdeal
import proofs.«159045_j72310069395864_2_alg».proof.Proof.Gen.ReferenceIdeal
import proofs.«159045_j72310069395864_2_alg».proof.Proof.Gen.Pre_finite_inputs
import proofs.«159045_j72310069395864_2_alg».proof.Proof.KFrame
import proofs.«159045_j72310069395864_2_alg».proof.Proof.KIFrame
import proofs.«159045_j72310069395864_2_alg».proof.Proof.KIValue
import proofs.«159045_j72310069395864_2_alg».proof.Proof.RefRun
import proofs.«159045_j72310069395864_2_alg».proof.Proof.RefValD
import proofs.«159045_j72310069395864_2_alg».proof.Proof.FinitePre
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m ρ _ => Cert.Kernel.H.Frame.frame m ρ

/-- So does the kernel read over the extended reals. -/
theorem frame_ki : Cert.frame_KernelIdeal := fun m ρ _ => Cert.KernelIdeal.H.Frame.frame m ρ

/-- The reference's run, with its three results dropped. -/
theorem frame_ri : Cert.frame_ReferenceIdeal := fun m ρ _ =>
  (θ_run Cert.ReferenceIdeal.defs _ _).mono (fun _ h c => ⟨(h c).2.2.2.1, (h c).2.2.2.2.1, (h c).2.2.2.2.2⟩)
    (Cert.RefRunH.run (F := Ideal) m ρ)

/-- The idealization rewrote nothing. -/
theorem preserves : Cert.preserves_Kernel_KernelIdeal := trivial

/-- Both programs end with the specification's three arrays of the (finite) arguments. -/
theorem algebraic : Cert.algebraic_KernelIdeal_ReferenceIdeal := by
  intro m ρ m' ρ' hpre hagree
  have hfin := fun c => Cert.FinH.finite_of_fn _ _ _ (hpre c)
  refine ⟨_, _, _, Cert.KernelIdeal.H.Value.values m ρ (fun c => (hfin c).1) (fun c => (hfin c).2.1), ?_⟩
  refine (θ_run Cert.ReferenceIdeal.defs _ _).mono (fun _ h c => ?_) (Cert.RefRunH.run (F := Ideal) m' ρ')
  obtain ⟨h45, h44, h3, ha0, ha1, ha2⟩ := h c
  obtain ⟨e0, e1, e2⟩ := hagree c
  refine ⟨?_, ?_, ?_, ha0, ha1, ha2⟩
  · rw [h45, e0, e1, e2]; exact Cert.RefValH.ref_out _ _ _ (hfin c).1 (hfin c).2.1
  · rw [h44, e0, e1]; exact Cert.RefValH.ref_mask _ _ (hfin c).1 (hfin c).2.1
  · rw [h3, e0, e1]; exact Cert.RefValH.ref_logattn _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
